-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x128 : Shape := ⟨2, ![32, 128]⟩
abbrev S64x2 : Shape := ⟨2, ![64, 2]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg23 : FVec F S2 .f32) (main_v98 : IVec S_ 1) (main_v101 : IVec S64x2 1) (main_c_39 : IVec S_ 1) : IVec S_ 1 :=
  let main_v102 : IVec S_ 1 := (fun x v => Host.reduce IntOp.andi x v reducesTo_S64x2_S_d0_1 h_S_) main_v101 main_c_39
  let main_v103 : IVec S_ 1 := andi main_v98 main_v102
  let main_v104 : FVec F S2 .f32 := Host.absf main_arg23
  let main_cst_40 : FVec F S_ .f32 := constant S_ .f32 0x7F800000#32
  let main_v105 : FVec F S2 .f32 := broadcastInDim S2 ![] bcast_S_S2 main_cst_40
  let main_v106 : IVec S2 1 := cmpf .olt main_v104 main_v105
  let main_c_41 : IVec S_ 1 := constantI S_ 1 1#1
  let main_v107 : IVec S_ 1 := (fun x v => Host.reduce IntOp.andi x v reducesTo_S2_S_d0 h_S_) main_v106 main_c_41
  let main_v108 : IVec S_ 1 := andi main_v103 main_v107
  main_v108

def fn_part5 {F : FTy → Type} [FloatOps F] (main_arg20 : FVec F S128x64 .f32) (main_arg21 : FVec F S64 .f32) (main_arg22 : FVec F S64x2 .f32) (main_arg23 : FVec F S2 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x64 .f32 := Host.absf main_arg20
  let main_cst_34 : FVec F S_ .f32 := constant S_ .f32 0x7F800000#32
  let main_v90 : FVec F S128x64 .f32 := broadcastInDim S128x64 ![] bcast_S_S128x64 main_cst_34
  let main_v91 : IVec S128x64 1 := cmpf .olt main_v89 main_v90
  let main_c_35 : IVec S_ 1 := constantI S_ 1 1#1
  let main_v92 : IVec S_ 1 := (fun x v => Host.reduce IntOp.andi x v reducesTo_S128x64_S_d0_1 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x2 .f32 := Host.absf main_arg22
  let main_cst_38 : FVec F S_ .f32 := constant S_ .f32 0x7F800000#32
  let main_v100 : FVec F S64x2 .f32 := broadcastInDim S64x2 ![] bcast_S_S64x2 main_cst_38
  let main_v101 : IVec S64x2 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S32 .f32) (main_arg17 : FVec F S32 .f32) (main_arg18 : FVec F S32x128 .f32) (main_arg19 : FVec F S128 .f32) (main_arg20 : FVec F S128x64 .f32) (main_arg21 : FVec F S64 .f32) (main_arg22 : FVec F S64x2 .f32) (main_arg23 : FVec F S2 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg17
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x128 .f32 := Host.absf main_arg18
  let main_cst_30 : FVec F S_ .f32 := constant S_ .f32 0x7F800000#32
  let main_v80 : FVec F S32x128 .f32 := broadcastInDim S32x128 ![] bcast_S_S32x128 main_cst_30
  let main_v81 : IVec S32x128 1 := cmpf .olt main_v79 main_v80
  let main_c_31 : IVec S_ 1 := constantI S_ 1 1#1
  let main_v82 : IVec S_ 1 := (fun x v => Host.reduce IntOp.andi x v reducesTo_S32x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S64x32 .f32) (main_arg14 : FVec F S32 .f32) (main_arg15 : FVec F S64x32 .f32) (main_arg16 : FVec F S32 .f32) (main_arg17 : FVec F S32 .f32) (main_arg18 : FVec F S32x128 .f32) (main_arg19 : FVec F S128 .f32) (main_arg20 : FVec F S128x64 .f32) (main_arg21 : FVec F S64 .f32) (main_arg22 : FVec F S64x2 .f32) (main_arg23 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x32 .f32 := Host.absf main_arg13
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S64x32 .f32 := Host.absf main_arg15
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S64 .f32) (main_arg10 : FVec F S128x64 .f32) (main_arg11 : FVec F S64 .f32) (main_arg12 : FVec F S64 .f32) (main_arg13 : FVec F S64x32 .f32) (main_arg14 : FVec F S32 .f32) (main_arg15 : FVec F S64x32 .f32) (main_arg16 : FVec F S32 .f32) (main_arg17 : FVec F S32 .f32) (main_arg18 : FVec F S32x128 .f32) (main_arg19 : FVec F S128 .f32) (main_arg20 : FVec F S128x64 .f32) (main_arg21 : FVec F S64 .f32) (main_arg22 : FVec F S64x2 .f32) (main_arg23 : FVec F S2 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S128 .f32) (main_arg7 : FVec F S128 .f32) (main_arg8 : FVec F S128x64 .f32) (main_arg9 : FVec F S64 .f32) (main_arg10 : FVec F S128x64 .f32) (main_arg11 : FVec F S64 .f32) (main_arg12 : FVec F S64 .f32) (main_arg13 : FVec F S64x32 .f32) (main_arg14 : FVec F S32 .f32) (main_arg15 : FVec F S64x32 .f32) (main_arg16 : FVec F S32 .f32) (main_arg17 : FVec F S32 .f32) (main_arg18 : FVec F S32x128 .f32) (main_arg19 : FVec F S128 .f32) (main_arg20 : FVec F S128x64 .f32) (main_arg21 : FVec F S64 .f32) (main_arg22 : FVec F S64x2 .f32) (main_arg23 : FVec F S2 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x64 .f32) (main_arg1 : IVec S2x800000 32) (main_arg2 : IVec S50000 32) (main_arg3 : FVec F S64x128 .f32) (main_arg4 : FVec F S128 .f32) (main_arg5 : FVec F S64x128 .f32) (main_arg6 : FVec F S128 .f32) (main_arg7 : FVec F S128 .f32) (main_arg8 : FVec F S128x64 .f32) (main_arg9 : FVec F S64 .f32) (main_arg10 : FVec F S128x64 .f32) (main_arg11 : FVec F S64 .f32) (main_arg12 : FVec F S64 .f32) (main_arg13 : FVec F S64x32 .f32) (main_arg14 : FVec F S32 .f32) (main_arg15 : FVec F S64x32 .f32) (main_arg16 : FVec F S32 .f32) (main_arg17 : FVec F S32 .f32) (main_arg18 : FVec F S32x128 .f32) (main_arg19 : FVec F S128 .f32) (main_arg20 : FVec F S128x64 .f32) (main_arg21 : FVec F S64 .f32) (main_arg22 : FVec F S64x2 .f32) (main_arg23 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x128 : Shape := ⟨2, ![32, 128]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x64 : Shape := ⟨2, ![800000, 64]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S1x64 : Shape := ⟨2, ![1, 64]⟩
abbrev S50000x32 : Shape := ⟨2, ![50000, 32]⟩
abbrev S5000x32 : Shape := ⟨2, ![5000, 32]⟩
abbrev S800000x32 : Shape := ⟨2, ![800000, 32]⟩
abbrev S1x32 : Shape := ⟨2, ![1, 32]⟩
abbrev S512x32 : Shape := ⟨2, ![512, 32]⟩
abbrev S512x128 : Shape := ⟨2, ![512, 128]⟩
abbrev S512x64 : Shape := ⟨2, ![512, 64]⟩
abbrev S512x2 : Shape := ⟨2, ![512, 2]⟩
abbrev S1x2 : Shape := ⟨2, ![1, 2]⟩

abbrev nBuf : Space → Nat
  | .hbm => 173
  | .vmem => 61
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x128, .f32⟩
  | 4 => ⟨S128, .f32⟩
  | 5 => ⟨S64x128, .f32⟩
  | 6 => ⟨S128, .f32⟩
  | 7 => ⟨S128, .f32⟩
  | 8 => ⟨S128x64, .f32⟩
  | 9 => ⟨S64, .f32⟩
  | 10 => ⟨S128x64, .f32⟩
  | 11 => ⟨S64, .f32⟩
  | 12 => ⟨S64, .f32⟩
  | 13 => ⟨S64x32, .f32⟩
  | 14 => ⟨S32, .f32⟩
  | 15 => ⟨S64x32, .f32⟩
  | 16 => ⟨S32, .f32⟩
  | 17 => ⟨S32, .f32⟩
  | 18 => ⟨S32x128, .f32⟩
  | 19 => ⟨S128, .f32⟩
  | 20 => ⟨S128x64, .f32⟩
  | 21 => ⟨S64, .f32⟩
  | 22 => ⟨S64x2, .f32⟩
  | 23 => ⟨S2, .f32⟩
  | 24 => ⟨S1x800000, .i32⟩
  | 25 => ⟨S800000, .i32⟩
  | 26 => ⟨S1x800000, .i32⟩
  | 27 => ⟨S800000, .i32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S50000x1, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x64, .f32⟩
  | 47 => ⟨S_, .f32⟩
  | 48 => ⟨S50000x64, .f32⟩
  | 49 => ⟨S800000x1, .i32⟩
  | 50 => ⟨S50000x64, .f32⟩
  | 51 => ⟨S50000x64, .f32⟩
  | 52 => ⟨S50000x64, .f32⟩
  | 53 => ⟨S1x128, .f32⟩
  | 54 => ⟨S50000x128, .f32⟩
  | 55 => ⟨S1x128, .f32⟩
  | 56 => ⟨S1x128, .f32⟩
  | 57 => ⟨S_, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S1x128, .f32⟩
  | 64 => ⟨S1x128, .f32⟩
  | 65 => ⟨S_, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S1x128, .f32⟩
  | 72 => ⟨S1x128, .f32⟩
  | 73 => ⟨S1x128, .f32⟩
  | 74 => ⟨S50000x128, .f32⟩
  | 75 => ⟨S50000x64, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x64, .f32⟩
  | 85 => ⟨S_, .f32⟩
  | 86 => ⟨S50000x64, .f32⟩
  | 87 => ⟨S800000x1, .i32⟩
  | 88 => ⟨S50000x64, .f32⟩
  | 89 => ⟨S50000x64, .f32⟩
  | 90 => ⟨S50000x64, .f32⟩
  | 91 => ⟨S1x64, .f32⟩
  | 92 => ⟨S50000x64, .f32⟩
  | 93 => ⟨S1x64, .f32⟩
  | 94 => ⟨S1x64, .f32⟩
  | 95 => ⟨S_, .f32⟩
  | 96 => ⟨S1x64, .f32⟩
  | 97 => ⟨S1x64, .f32⟩
  | 98 => ⟨S_, .f32⟩
  | 99 => ⟨S1x64, .f32⟩
  | 100 => ⟨S1x64, .f32⟩
  | 101 => ⟨S1x64, .f32⟩
  | 102 => ⟨S1x64, .f32⟩
  | 103 => ⟨S_, .f32⟩
  | 104 => ⟨S1x64, .f32⟩
  | 105 => ⟨S1x64, .f32⟩
  | 106 => ⟨S_, .f32⟩
  | 107 => ⟨S1x64, .f32⟩
  | 108 => ⟨S1x64, .f32⟩
  | 109 => ⟨S1x64, .f32⟩
  | 110 => ⟨S1x64, .f32⟩
  | 111 => ⟨S1x64, .f32⟩
  | 112 => ⟨S50000x64, .f32⟩
  | 113 => ⟨S50000x32, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x32, .f32⟩
  | 123 => ⟨S_, .f32⟩
  | 124 => ⟨S50000x32, .f32⟩
  | 125 => ⟨S800000x1, .i32⟩
  | 126 => ⟨S50000x32, .f32⟩
  | 127 => ⟨S50000x32, .f32⟩
  | _ => ⟨S50000x64, .f32⟩

abbrev hbmTy0_1 (i : Nat) : BufTy := match i % 128 with
  | 0 => ⟨S50000x32, .f32⟩
  | 1 => ⟨S1x32, .f32⟩
  | 2 => ⟨S50000x32, .f32⟩
  | 3 => ⟨S1x32, .f32⟩
  | 4 => ⟨S1x32, .f32⟩
  | 5 => ⟨S_, .f32⟩
  | 6 => ⟨S1x32, .f32⟩
  | 7 => ⟨S1x32, .f32⟩
  | 8 => ⟨S_, .f32⟩
  | 9 => ⟨S1x32, .f32⟩
  | 10 => ⟨S1x32, .f32⟩
  | 11 => ⟨S1x32, .f32⟩
  | 12 => ⟨S1x32, .f32⟩
  | 13 => ⟨S_, .f32⟩
  | 14 => ⟨S1x32, .f32⟩
  | 15 => ⟨S1x32, .f32⟩
  | 16 => ⟨S_, .f32⟩
  | 17 => ⟨S1x32, .f32⟩
  | 18 => ⟨S1x32, .f32⟩
  | 19 => ⟨S1x32, .f32⟩
  | 20 => ⟨S1x32, .f32⟩
  | 21 => ⟨S1x32, .f32⟩
  | 22 => ⟨S50000x32, .f32⟩
  | 23 => ⟨S_, .f32⟩
  | 24 => ⟨S512x32, .f32⟩
  | 25 => ⟨S50000x1, .i32⟩
  | 26 => ⟨S512x32, .f32⟩
  | 27 => ⟨S512x128, .f32⟩
  | 28 => ⟨S1x128, .f32⟩
  | 29 => ⟨S512x128, .f32⟩
  | 30 => ⟨S512x128, .f32⟩
  | 31 => ⟨S_, .f32⟩
  | 32 => ⟨S512x128, .f32⟩
  | 33 => ⟨S512x128, .f32⟩
  | 34 => ⟨S512x64, .f32⟩
  | 35 => ⟨S1x64, .f32⟩
  | 36 => ⟨S512x64, .f32⟩
  | 37 => ⟨S512x64, .f32⟩
  | 38 => ⟨S_, .f32⟩
  | 39 => ⟨S512x64, .f32⟩
  | 40 => ⟨S512x64, .f32⟩
  | 41 => ⟨S512x2, .f32⟩
  | 42 => ⟨S1x2, .f32⟩
  | 43 => ⟨S512x2, .f32⟩
  | 44 => ⟨S512x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S128x64, .f32⟩
  | .local _ .vmem, ⟨18, _⟩ => ⟨S5000x128, .f32⟩
  | .local _ .vmem, ⟨19, _⟩ => ⟨S5000x128, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x128, .f32⟩
  | .local _ .vmem, ⟨25, _⟩ => ⟨S5000x128, .f32⟩
  | .local _ .vmem, ⟨26, _⟩ => ⟨S1x64, .f32⟩
  | .local _ .vmem, ⟨27, _⟩ => ⟨S128x64, .f32⟩
  | .local _ .vmem, ⟨28, _⟩ => ⟨S5000x64, .f32⟩
  | .local _ .vmem, ⟨29, _⟩ => ⟨S5000x64, .f32⟩
  | .local _ .vmem, ⟨30, _⟩ => ⟨S1x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S64x32, .f32⟩
  | .local _ .vmem, ⟨39, _⟩ => ⟨S5000x64, .f32⟩
  | .local _ .vmem, ⟨40, _⟩ => ⟨S5000x64, .f32⟩
  | .local _ .vmem, ⟨41, _⟩ => ⟨S5000x32, .f32⟩
  | .local _ .vmem, ⟨42, _⟩ => ⟨S5000x32, .f32⟩
  | .local _ .vmem, ⟨43, _⟩ => ⟨S5000x32, .f32⟩
  | .local _ .vmem, ⟨44, _⟩ => ⟨S5000x32, .f32⟩
  | .local _ .vmem, ⟨45, _⟩ => ⟨S5000x64, .f32⟩
  | .local _ .vmem, ⟨46, _⟩ => ⟨S5000x64, .f32⟩
  | .local _ .vmem, ⟨47, _⟩ => ⟨S1x32, .f32⟩
  | .local _ .vmem, ⟨48, _⟩ => ⟨S64x32, .f32⟩
  | .local _ .vmem, ⟨49, _⟩ => ⟨S5000x32, .f32⟩
  | .local _ .vmem, ⟨50, _⟩ => ⟨S5000x32, .f32⟩
  | .local _ .vmem, ⟨51, _⟩ => ⟨S1x32, .f32⟩
  | .local _ .vmem, ⟨52, _⟩ => ⟨S1x32, .f32⟩
  | .local _ .vmem, ⟨53, _⟩ => ⟨S5000x32, .f32⟩
  | .local _ .vmem, ⟨54, _⟩ => ⟨S5000x32, .f32⟩
  | .local _ .vmem, ⟨55, _⟩ => ⟨S1x32, .f32⟩
  | .local _ .vmem, ⟨56, _⟩ => ⟨S1x32, .f32⟩
  | .local _ .vmem, ⟨57, _⟩ => ⟨S1x32, .f32⟩
  | .local _ .vmem, ⟨58, _⟩ => ⟨S1x32, .f32⟩
  | .local _ .vmem, ⟨59, _⟩ => ⟨S5000x32, .f32⟩
  | .local _ .vmem, ⟨60, _⟩ => ⟨S5000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c : Ref sig .tc := ⟨.hbm, 38, rfl⟩
abbrev main_v11 : Ref sig .tc := ⟨.hbm, 39, rfl⟩
abbrev main_v12 : Ref sig .tc := ⟨.hbm, 40, rfl⟩
abbrev main_c_2 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24_0 : Ref sig .tc := ⟨.hbm, 54, rfl⟩
abbrev main_v24_1 : Ref sig .tc := ⟨.hbm, 55, rfl⟩
abbrev main_v24_2 : Ref sig .tc := ⟨.hbm, 56, rfl⟩
abbrev main_cst_4 : Ref sig .tc := ⟨.hbm, 57, rfl⟩
abbrev main_v25 : Ref sig .tc := ⟨.hbm, 58, rfl⟩
abbrev main_v26 : Ref sig .tc := ⟨.hbm, 59, rfl⟩
abbrev main_cst_5 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_6 : Ref sig .tc := ⟨.hbm, 65, rfl⟩
abbrev main_v31 : Ref sig .tc := ⟨.hbm, 66, rfl⟩
abbrev main_v32 : Ref sig .tc := ⟨.hbm, 67, rfl⟩
abbrev main_cst_7 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38_0 : Ref sig .tc := ⟨.hbm, 74, rfl⟩
abbrev main_v38_1 : Ref sig .tc := ⟨.hbm, 75, rfl⟩
abbrev main_c_8 : Ref sig .tc := ⟨.hbm, 76, rfl⟩
abbrev main_v39 : Ref sig .tc := ⟨.hbm, 77, rfl⟩
abbrev main_v40 : Ref sig .tc := ⟨.hbm, 78, rfl⟩
abbrev main_c_9 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_10 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52_0 : Ref sig .tc := ⟨.hbm, 92, rfl⟩
abbrev main_v52_1 : Ref sig .tc := ⟨.hbm, 93, rfl⟩
abbrev main_v52_2 : Ref sig .tc := ⟨.hbm, 94, rfl⟩
abbrev main_cst_11 : Ref sig .tc := ⟨.hbm, 95, rfl⟩
abbrev main_v53 : Ref sig .tc := ⟨.hbm, 96, rfl⟩
abbrev main_v54 : Ref sig .tc := ⟨.hbm, 97, rfl⟩
abbrev main_cst_12 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_13 : Ref sig .tc := ⟨.hbm, 103, rfl⟩
abbrev main_v59 : Ref sig .tc := ⟨.hbm, 104, rfl⟩
abbrev main_v60 : Ref sig .tc := ⟨.hbm, 105, rfl⟩
abbrev main_cst_14 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66_0 : Ref sig .tc := ⟨.hbm, 112, rfl⟩
abbrev main_v66_1 : Ref sig .tc := ⟨.hbm, 113, rfl⟩
abbrev main_c_15 : Ref sig .tc := ⟨.hbm, 114, rfl⟩
abbrev main_v67 : Ref sig .tc := ⟨.hbm, 115, rfl⟩
abbrev main_v68 : Ref sig .tc := ⟨.hbm, 116, rfl⟩
abbrev main_c_16 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_cst_17 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80_0 : Ref sig .tc := ⟨.hbm, 130, rfl⟩
abbrev main_v80_1 : Ref sig .tc := ⟨.hbm, 131, rfl⟩
abbrev main_v80_2 : Ref sig .tc := ⟨.hbm, 132, rfl⟩
abbrev main_cst_18 : Ref sig .tc := ⟨.hbm, 133, rfl⟩
abbrev main_v81 : Ref sig .tc := ⟨.hbm, 134, rfl⟩
abbrev main_v82 : Ref sig .tc := ⟨.hbm, 135, rfl⟩
abbrev main_cst_19 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_20 : Ref sig .tc := ⟨.hbm, 141, rfl⟩
abbrev main_v87 : Ref sig .tc := ⟨.hbm, 142, rfl⟩
abbrev main_v88 : Ref sig .tc := ⟨.hbm, 143, rfl⟩
abbrev main_cst_21 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_22 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_call0_cst : Ref sig .tc := ⟨.hbm, 159, rfl⟩
abbrev main_call0_v0 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_call1_cst : Ref sig .tc := ⟨.hbm, 166, rfl⟩
abbrev main_call1_v0 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg6_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg6_1 : Ref sig .tc := ⟨.vmem, 40, rfl⟩
abbrev cc3_stg7_0 : Ref sig .tc := ⟨.vmem, 41, rfl⟩
abbrev cc3_stg7_1 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg1_1 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg4_1 : Ref sig .tc := ⟨.vmem, 50, rfl⟩
abbrev cc4_stg5_0 : Ref sig .tc := ⟨.vmem, 51, rfl⟩
abbrev cc4_stg6_0 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg5_1 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29
abbrev cc2_sem5_0 : DmaSem sig := 30
abbrev cc2_sem6_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem6_1 : DmaSem sig := 40
abbrev cc3_sem7_0 : DmaSem sig := 41
abbrev cc3_sem7_1 : DmaSem sig := 42
abbrev cc4_sem0_0 : DmaSem sig := 43
abbrev cc4_sem0_1 : DmaSem sig := 44
abbrev cc4_sem1_0 : DmaSem sig := 45
abbrev cc4_sem1_1 : DmaSem sig := 46
abbrev cc4_sem2_0 : DmaSem sig := 47
abbrev cc4_sem3_0 : DmaSem sig := 48
abbrev cc4_sem4_0 : DmaSem sig := 49
abbrev cc4_sem4_1 : DmaSem sig := 50
abbrev cc4_sem5_0 : DmaSem sig := 51
abbrev cc4_sem6_0 : DmaSem sig := 52
abbrev cc5_sem0_0 : DmaSem sig := 53
abbrev cc5_sem0_1 : DmaSem sig := 54
abbrev cc5_sem1_0 : DmaSem sig := 55
abbrev cc5_sem2_0 : DmaSem sig := 56
abbrev cc5_sem3_0 : DmaSem sig := 57
abbrev cc5_sem4_0 : DmaSem sig := 58
abbrev cc5_sem5_0 : DmaSem sig := 59
abbrev cc5_sem5_1 : DmaSem sig := 60

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x32 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  bcast_S_S1x128 : S_.BroadcastsInDim S1x128 (![] : Fin 0 → Fin S1x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S64 : S5000x64.Reduces [0] S64
  bcast_S_S1x64 : S_.BroadcastsInDim S1x64 (![] : Fin 0 → Fin S1x64.rank)
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S5000x32_S5000x32 : S5000x32.ShapeCasts S5000x32
  shapeCasts_S1x32_S1x32 : S1x32.ShapeCasts S1x32
  broadcasts_S1x32_S5000x32 : S1x32.Broadcasts S5000x32
  reduces_S5000x32_S32 : S5000x32.Reduces [0] S32
  bcast_S_S1x32 : S_.BroadcastsInDim S1x32 (![] : Fin 0 → Fin S1x32.rank)
  bcast_S_S512x32 : S_.BroadcastsInDim S512x32 (![] : Fin 0 → Fin S512x32.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  dot_S5000x64_S64x32_S5000x32_1_0_0_1_n_n_wf : DotDims.WF S5000x64 S64x32 S5000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  scatter_S512x32_S50000x1_S50000x32_1_0_0_1_wf : ScatterDims.WF S512x32 S50000x1 S50000x32 [1] [0] [0] 1
  dot_S512x32_S32x128_S512x128_1_0_0_1_n_n_wf : DotDims.WF S512x32 S32x128 S512x128 [1] [0] [0] [1] [] []
  dot_S512x128_S128x64_S512x64_1_0_0_1_n_n_wf : DotDims.WF S512x128 S128x64 S512x64 [1] [0] [0] [1] [] []
  dot_S512x64_S64x2_S512x2_1_0_0_1_n_n_wf : DotDims.WF S512x64 S64x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x32.size a ≤ S64x32.size a
  hwx3_5 : ∀ i : grid3.Coords, EltTy.bits .f32 = 32 ∨ (Rect.block (s := S64x32) S64x32.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x32.size a ≤ S50000x32.size a
  hwx3_7 : ∀ i : grid3.Coords, EltTy.bits .f32 = 32 ∨ (Rect.block (s := S50000x32) S5000x32.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S50000x32.size a
  hwx4_0 : ∀ i : grid4.Coords, EltTy.bits .f32 = 32 ∨ (Rect.block (s := S50000x32) S5000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x32.size a ≤ S64x32.size a
  hwx4_3 : ∀ i : grid4.Coords, EltTy.bits .f32 = 32 ∨ (Rect.block (s := S64x32) S64x32.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x32.size a ≤ S50000x32.size a
  hwx4_4 : ∀ i : grid4.Coords, EltTy.bits .f32 = 32 ∨ (Rect.block (s := S50000x32) S5000x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x32.size a ≤ S1x32.size a
  hwx4_5 : ∀ i : grid4.Coords, EltTy.bits .f32 = 32 ∨ (Rect.block (s := S1x32) S1x32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x32.size a ≤ S1x32.size a
  hwx4_6 : ∀ i : grid4.Coords, EltTy.bits .f32 = 32 ∨ (Rect.block (s := S1x32) S1x32.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S50000x32.size a
  hwx5_0 : ∀ i : grid5.Coords, EltTy.bits .f32 = 32 ∨ (Rect.block (s := S50000x32) S5000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x32.size a ≤ S50000x32.size a
  hwx5_5 : ∀ i : grid5.Coords, EltTy.bits .f32 = 32 ∨ (Rect.block (s := S50000x32) S5000x32.size (cc5_transform_5 i) (hinb5_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def scatter_S512x32_S50000x1_S50000x32_1_0_0_1 : ScatterDims S512x32 S50000x1 S50000x32 where
  updateWindowDims := [1]
  insertedWindowDims := [0]
  scatterDimsToOperandDims := [0]
  indexVectorDim := 1
  wf := scatter_S512x32_S50000x1_S50000x32_1_0_0_1_wf
def dot_S512x32_S32x128_S512x128_1_0_0_1_n_n : DotDims S512x32 S32x128 S512x128 where
  lhsContracting := [1]
  rhsContracting := [0]
  lhsNonContracting := [0]
  rhsNonContracting := [1]
  lhsBatch := []
  rhsBatch := []
  wf := dot_S512x32_S32x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v24_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v24_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v38_1) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38_0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v52_1) S1x64.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52_2) S1x64.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v52_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S64x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66_0) S5000x64.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v66_1) S5000x32.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v78) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66_0) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v79) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S64x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v80_0) S5000x32.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v80_1) S1x32.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v80_2) S1x32.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v80_0) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v91) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v92) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v93) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v94) S5000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x128 : Shape := ⟨2, ![32, 128]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S1x64 : Shape := ⟨2, ![1, 64]⟩
abbrev S50000x32 : Shape := ⟨2, ![50000, 32]⟩
abbrev S1x32 : Shape := ⟨2, ![1, 32]⟩
abbrev S512x32 : Shape := ⟨2, ![512, 32]⟩
abbrev S512x128 : Shape := ⟨2, ![512, 128]⟩
abbrev S512x64 : Shape := ⟨2, ![512, 64]⟩
abbrev S512x2 : Shape := ⟨2, ![512, 2]⟩
abbrev S1x2 : Shape := ⟨2, ![1, 2]⟩

abbrev nBuf : Space → Nat
  | .hbm => 242
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x128, .f32⟩
  | 4 => ⟨S128, .f32⟩
  | 5 => ⟨S64x128, .f32⟩
  | 6 => ⟨S128, .f32⟩
  | 7 => ⟨S128, .f32⟩
  | 8 => ⟨S128x64, .f32⟩
  | 9 => ⟨S64, .f32⟩
  | 10 => ⟨S128x64, .f32⟩
  | 11 => ⟨S64, .f32⟩
  | 12 => ⟨S64, .f32⟩
  | 13 => ⟨S64x32, .f32⟩
  | 14 => ⟨S32, .f32⟩
  | 15 => ⟨S64x32, .f32⟩
  | 16 => ⟨S32, .f32⟩
  | 17 => ⟨S32, .f32⟩
  | 18 => ⟨S32x128, .f32⟩
  | 19 => ⟨S128, .f32⟩
  | 20 => ⟨S128x64, .f32⟩
  | 21 => ⟨S64, .f32⟩
  | 22 => ⟨S64x2, .f32⟩
  | 23 => ⟨S2, .f32⟩
  | 24 => ⟨S1x800000, .i32⟩
  | 25 => ⟨S800000, .i32⟩
  | 26 => ⟨S1x800000, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x64, .f32⟩
  | 37 => ⟨S_, .f32⟩
  | 38 => ⟨S50000x64, .f32⟩
  | 39 => ⟨S800000x1, .i32⟩
  | 40 => ⟨S50000x64, .f32⟩
  | 41 => ⟨S_, .f32⟩
  | 42 => ⟨S800000, .f32⟩
  | 43 => ⟨S_, .f32⟩
  | 44 => ⟨S50000, .f32⟩
  | 45 => ⟨S800000x1, .i32⟩
  | 46 => ⟨S50000, .f32⟩
  | 47 => ⟨S_, .f32⟩
  | 48 => ⟨S50000, .f32⟩
  | 49 => ⟨S50000, .f32⟩
  | 50 => ⟨S50000x1, .f32⟩
  | 51 => ⟨S50000x64, .f32⟩
  | 52 => ⟨S50000x64, .f32⟩
  | 53 => ⟨S50000x128, .f32⟩
  | 54 => ⟨S1x128, .f32⟩
  | 55 => ⟨S50000x128, .f32⟩
  | 56 => ⟨S50000x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S_, .f32⟩
  | 63 => ⟨S128, .f32⟩
  | 64 => ⟨S_, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S50000x128, .f32⟩
  | 71 => ⟨S_, .f32⟩
  | 72 => ⟨S128, .f32⟩
  | 73 => ⟨S_, .f32⟩
  | 74 => ⟨S128, .f32⟩
  | 75 => ⟨S128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S128, .f32⟩
  | 82 => ⟨S128, .f32⟩
  | 83 => ⟨S1x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x128, .f32⟩
  | 101 => ⟨S_, .f32⟩
  | 102 => ⟨S50000x128, .f32⟩
  | 103 => ⟨S800000x1, .i32⟩
  | 104 => ⟨S50000x128, .f32⟩
  | 105 => ⟨S_, .f32⟩
  | 106 => ⟨S800000, .f32⟩
  | 107 => ⟨S_, .f32⟩
  | 108 => ⟨S50000, .f32⟩
  | 109 => ⟨S800000x1, .i32⟩
  | 110 => ⟨S50000, .f32⟩
  | 111 => ⟨S_, .f32⟩
  | 112 => ⟨S50000, .f32⟩
  | 113 => ⟨S50000, .f32⟩
  | 114 => ⟨S50000x1, .f32⟩
  | 115 => ⟨S50000x128, .f32⟩
  | 116 => ⟨S50000x128, .f32⟩
  | 117 => ⟨S50000x64, .f32⟩
  | 118 => ⟨S1x64, .f32⟩
  | 119 => ⟨S50000x64, .f32⟩
  | 120 => ⟨S50000x64, .f32⟩
  | 121 => ⟨S50000x64, .f32⟩
  | 122 => ⟨S50000x64, .f32⟩
  | 123 => ⟨S_, .f32⟩
  | 124 => ⟨S50000x64, .f32⟩
  | 125 => ⟨S50000x64, .f32⟩
  | 126 => ⟨S_, .f32⟩
  | 127 => ⟨S64, .f32⟩
  | _ => ⟨S50000x64, .f32⟩

abbrev hbmTy0_1 (i : Nat) : BufTy := match i % 128 with
  | 0 => ⟨S_, .f32⟩
  | 1 => ⟨S64, .f32⟩
  | 2 => ⟨S64, .f32⟩
  | 3 => ⟨S1x64, .f32⟩
  | 4 => ⟨S50000x64, .f32⟩
  | 5 => ⟨S50000x64, .f32⟩
  | 6 => ⟨S50000x64, .f32⟩
  | 7 => ⟨S_, .f32⟩
  | 8 => ⟨S64, .f32⟩
  | 9 => ⟨S_, .f32⟩
  | 10 => ⟨S64, .f32⟩
  | 11 => ⟨S64, .f32⟩
  | 12 => ⟨S1x64, .f32⟩
  | 13 => ⟨S50000x64, .f32⟩
  | 14 => ⟨S50000x64, .f32⟩
  | 15 => ⟨S_, .f32⟩
  | 16 => ⟨S64, .f32⟩
  | 17 => ⟨S64, .f32⟩
  | 18 => ⟨S64, .f32⟩
  | 19 => ⟨S1x64, .f32⟩
  | 20 => ⟨S50000x64, .f32⟩
  | 21 => ⟨S50000x64, .f32⟩
  | 22 => ⟨S1x64, .f32⟩
  | 23 => ⟨S50000x64, .f32⟩
  | 24 => ⟨S50000x64, .f32⟩
  | 25 => ⟨S1x64, .f32⟩
  | 26 => ⟨S50000x64, .f32⟩
  | 27 => ⟨S50000x64, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x64, .f32⟩
  | 37 => ⟨S_, .f32⟩
  | 38 => ⟨S50000x64, .f32⟩
  | 39 => ⟨S800000x1, .i32⟩
  | 40 => ⟨S50000x64, .f32⟩
  | 41 => ⟨S_, .f32⟩
  | 42 => ⟨S800000, .f32⟩
  | 43 => ⟨S_, .f32⟩
  | 44 => ⟨S50000, .f32⟩
  | 45 => ⟨S800000x1, .i32⟩
  | 46 => ⟨S50000, .f32⟩
  | 47 => ⟨S_, .f32⟩
  | 48 => ⟨S50000, .f32⟩
  | 49 => ⟨S50000, .f32⟩
  | 50 => ⟨S50000x1, .f32⟩
  | 51 => ⟨S50000x64, .f32⟩
  | 52 => ⟨S50000x64, .f32⟩
  | 53 => ⟨S50000x32, .f32⟩
  | 54 => ⟨S1x32, .f32⟩
  | 55 => ⟨S50000x32, .f32⟩
  | 56 => ⟨S50000x32, .f32⟩
  | 57 => ⟨S50000x32, .f32⟩
  | 58 => ⟨S50000x32, .f32⟩
  | 59 => ⟨S_, .f32⟩
  | 60 => ⟨S50000x32, .f32⟩
  | 61 => ⟨S50000x32, .f32⟩
  | 62 => ⟨S_, .f32⟩
  | 63 => ⟨S32, .f32⟩
  | 64 => ⟨S_, .f32⟩
  | 65 => ⟨S32, .f32⟩
  | 66 => ⟨S32, .f32⟩
  | 67 => ⟨S1x32, .f32⟩
  | 68 => ⟨S50000x32, .f32⟩
  | 69 => ⟨S50000x32, .f32⟩
  | 70 => ⟨S50000x32, .f32⟩
  | 71 => ⟨S_, .f32⟩
  | 72 => ⟨S32, .f32⟩
  | 73 => ⟨S_, .f32⟩
  | 74 => ⟨S32, .f32⟩
  | 75 => ⟨S32, .f32⟩
  | 76 => ⟨S1x32, .f32⟩
  | 77 => ⟨S50000x32, .f32⟩
  | 78 => ⟨S50000x32, .f32⟩
  | 79 => ⟨S_, .f32⟩
  | 80 => ⟨S32, .f32⟩
  | 81 => ⟨S32, .f32⟩
  | 82 => ⟨S32, .f32⟩
  | 83 => ⟨S1x32, .f32⟩
  | 84 => ⟨S50000x32, .f32⟩
  | 85 => ⟨S50000x32, .f32⟩
  | 86 => ⟨S1x32, .f32⟩
  | 87 => ⟨S50000x32, .f32⟩
  | 88 => ⟨S50000x32, .f32⟩
  | 89 => ⟨S1x32, .f32⟩
  | 90 => ⟨S50000x32, .f32⟩
  | 91 => ⟨S50000x32, .f32⟩
  | 92 => ⟨S_, .f32⟩
  | 93 => ⟨S512x32, .f32⟩
  | 94 => ⟨S50000x1, .i32⟩
  | 95 => ⟨S512x32, .f32⟩
  | 96 => ⟨S512x128, .f32⟩
  | 97 => ⟨S1x128, .f32⟩
  | 98 => ⟨S512x128, .f32⟩
  | 99 => ⟨S512x128, .f32⟩
  | 100 => ⟨S_, .f32⟩
  | 101 => ⟨S512x128, .f32⟩
  | 102 => ⟨S512x128, .f32⟩
  | 103 => ⟨S512x64, .f32⟩
  | 104 => ⟨S1x64, .f32⟩
  | 105 => ⟨S512x64, .f32⟩
  | 106 => ⟨S512x64, .f32⟩
  | 107 => ⟨S_, .f32⟩
  | 108 => ⟨S512x64, .f32⟩
  | 109 => ⟨S512x64, .f32⟩
  | 110 => ⟨S512x2, .f32⟩
  | 111 => ⟨S1x2, .f32⟩
  | 112 => ⟨S512x2, .f32⟩
  | 113 => ⟨S512x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_call0_cst : Ref sig .tc := ⟨.hbm, 59, rfl⟩
abbrev main_call0_v0 : Ref sig .tc := ⟨.hbm, 60, rfl⟩
abbrev main_v29 : Ref sig .tc := ⟨.hbm, 61, rfl⟩
abbrev main_cst_4 : Ref sig .tc := ⟨.hbm, 62, rfl⟩
abbrev main_v30 : Ref sig .tc := ⟨.hbm, 63, rfl⟩
abbrev main_cst_5 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_6 : Ref sig .tc := ⟨.hbm, 71, rfl⟩
abbrev main_v37 : Ref sig .tc := ⟨.hbm, 72, rfl⟩
abbrev main_cst_7 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_8 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_c_9 : Ref sig .tc := ⟨.hbm, 92, rfl⟩
abbrev main_v55 : Ref sig .tc := ⟨.hbm, 93, rfl⟩
abbrev main_v56 : Ref sig .tc := ⟨.hbm, 94, rfl⟩
abbrev main_c_10 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_11 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_12 : Ref sig .tc := ⟨.hbm, 105, rfl⟩
abbrev main_v65 : Ref sig .tc := ⟨.hbm, 106, rfl⟩
abbrev main_cst_13 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_14 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_call1_cst : Ref sig .tc := ⟨.hbm, 123, rfl⟩
abbrev main_call1_v0 : Ref sig .tc := ⟨.hbm, 124, rfl⟩
abbrev main_v80 : Ref sig .tc := ⟨.hbm, 125, rfl⟩
abbrev main_cst_15 : Ref sig .tc := ⟨.hbm, 126, rfl⟩
abbrev main_v81 : Ref sig .tc := ⟨.hbm, 127, rfl⟩
abbrev main_cst_16 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_17 : Ref sig .tc := ⟨.hbm, 135, rfl⟩
abbrev main_v88 : Ref sig .tc := ⟨.hbm, 136, rfl⟩
abbrev main_cst_18 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_cst_19 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_c_20 : Ref sig .tc := ⟨.hbm, 156, rfl⟩
abbrev main_v106 : Ref sig .tc := ⟨.hbm, 157, rfl⟩
abbrev main_v107 : Ref sig .tc := ⟨.hbm, 158, rfl⟩
abbrev main_c_21 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_cst_22 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_23 : Ref sig .tc := ⟨.hbm, 169, rfl⟩
abbrev main_v116 : Ref sig .tc := ⟨.hbm, 170, rfl⟩
abbrev main_cst_24 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_cst_25 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_call2_cst : Ref sig .tc := ⟨.hbm, 187, rfl⟩
abbrev main_call2_v0 : Ref sig .tc := ⟨.hbm, 188, rfl⟩
abbrev main_v131 : Ref sig .tc := ⟨.hbm, 189, rfl⟩
abbrev main_cst_26 : Ref sig .tc := ⟨.hbm, 190, rfl⟩
abbrev main_v132 : Ref sig .tc := ⟨.hbm, 191, rfl⟩
abbrev main_cst_27 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_cst_28 : Ref sig .tc := ⟨.hbm, 199, rfl⟩
abbrev main_v139 : Ref sig .tc := ⟨.hbm, 200, rfl⟩
abbrev main_cst_29 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_cst_30 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_cst_31 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_call3_cst : Ref sig .tc := ⟨.hbm, 228, rfl⟩
abbrev main_call3_v0 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_call4_cst : Ref sig .tc := ⟨.hbm, 235, rfl⟩
abbrev main_call4_v0 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  bcast_S_S64 : S_.BroadcastsInDim S64 (![] : Fin 0 → Fin S64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  reducesTo_S50000x32_S32_d0 : S50000x32.ReducesTo [0] S32
  bcast_S_S32 : S_.BroadcastsInDim S32 (![] : Fin 0 → Fin S32.rank)
  bcast_S_S512x32 : S_.BroadcastsInDim S512x32 (![] : Fin 0 → Fin S512x32.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x32_S50000x32_1_0_0_1_n_n_wf : DotDims.WF S50000x64 S64x32 S50000x32 [1] [0] [0] [1] [] []
  scatter_S512x32_S50000x1_S50000x32_1_0_0_1_wf : ScatterDims.WF S512x32 S50000x1 S50000x32 [1] [0] [0] 1
  dot_S512x32_S32x128_S512x128_1_0_0_1_n_n_wf : DotDims.WF S512x32 S32x128 S512x128 [1] [0] [0] [1] [] []
  dot_S512x128_S128x64_S512x64_1_0_0_1_n_n_wf : DotDims.WF S512x128 S128x64 S512x64 [1] [0] [0] [1] [] []
  dot_S512x64_S64x2_S512x2_1_0_0_1_n_n_wf : DotDims.WF S512x64 S64x2 S512x2 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def scatter_S512x32_S50000x1_S50000x32_1_0_0_1 : ScatterDims S512x32 S50000x1 S50000x32 where
  updateWindowDims := [1]
  insertedWindowDims := [0]
  scatterDimsToOperandDims := [0]
  indexVectorDim := 1
  wf := scatter_S512x32_S50000x1_S50000x32_1_0_0_1_wf
def dot_S512x32_S32x128_S512x128_1_0_0_1_n_n : DotDims S512x32 S32x128 S512x128 where
  lhsContracting := [1]
  rhsContracting := [0]
  lhsNonContracting := [0]
  rhsNonContracting := [1]
  lhsBatch := []
  rhsBatch := []
  wf := dot_S512x32_S32x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

class Facts : Prop extends Facts₀ where

variable [Facts]
-- ==== Proof.KernelRun.lean ====
/-
  The idealized kernel program's run with its RESULT named.  @main is seventeen segments — six kernel
  launches among stretches of host operations —, and the buffer contents at every segment boundary are a
  fold from the launch memory (`Gen.W0` … `Gen.W17`).  Every weakly fair execution terminates without a
  fault; in its final state every unscoped buffer holds the last boundary's contents, so the result array is
  `Gen.W17` at the result's buffer, and every argument array is as launched.
-/
import proofs.«151943_j8564164788539_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments from the launch memory: the result array ends at the last boundary's contents,
    the arguments as launched. -/
theorem run_result : θ_run defs (onTc (τ := τ) (main (F := F))) ⟨m, fun _ => 0, ρ⟩ (fun r => ∀ c : Dev nD,
      r.2.mem ((c.tc : Thread nD τ).loc main_v111) = W17 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v111 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c),
       (h c _ (mem_uc main_arg19 (by decide))).trans (W17_main_arg19 m ρ c),
       (h c _ (mem_uc main_arg20 (by decide))).trans (W17_main_arg20 m ρ c),
       (h c _ (mem_uc main_arg21 (by decide))).trans (W17_main_arg21 m ρ c),
       (h c _ (mem_uc main_arg22 (by decide))).trans (W17_main_arg22 m ρ c),
       (h c _ (mem_uc main_arg23 (by decide))).trans (W17_main_arg23 m ρ c)⟩)

end Cert.KernelIdeal.KRun

end
-- ==== Proof.KStats0PiecesA.lean ====
/-
  Region 0, the first grid point (the accumulators are reset there): what the body leaves in each output's
  buffer, as the body's pure terms of the input blocks.  The row block of pre-activations is one store of
  `k0_pay4`; each accumulator is first stored with the zero row `k0_pay2` / `k0_pay3`, read back, and stored again
  with the zero row plus the block's column sums (`k0_pay5`) or plus the column sums of squares (`k0_pay1`).
-/
import proofs.«151943_j8564164788539_2_alg».proof.Proof.Gen.KernelIdeal.Frame
import Idealize.ShloMosaic.Lib.Pipeline.Value
import Idealize.ShloMosaic.Lib.Tactic

noncomputable section

namespace Cert.KernelIdeal.KV

open Cert.KernelIdeal Cert.KernelIdeal.Gen Idealize.ShloMosaic
open Idealize.ShloMosaic.TcCoe Idealize.SL.Sem
open Idealize.ShloMosaic.Pipeline (Dat)

variable {F : FTy → Type} [FloatOps F]

theorem hz0 : (![0, 0] : Fin 2 → Nat) = fun _ => 0 := funext fun a => by fin_cases a <;> rfl

/-- First point, the row block of pre-activations. -/
theorem out0_A_5_eq (c : Dev nD) (i : grid0.Coords) (a1 : Memref sig .tc .vmem S5000x64 .f32) (h1 : a1.IsWhole) (a2 : Memref sig .tc .vmem S5000x64 .f32) (h2 : a2.IsWhole) (a3 : Memref sig .tc .vmem S64x128 .f32) (h3 : a3.IsWhole) (a4 : Memref sig .tc .vmem S1x128 .f32) (h4 : a4.IsWhole) (a5 : Memref sig .tc .vmem S64x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i)
    (x0 : Vec F S5000x64 .f32) (x1 : Vec F S5000x64 .f32) (x2 : Vec F S64x128 .f32) (x3 : Vec F S1x128 .f32) (x4 : Vec F S64x128 .f32) :
    out0_A_5 c i a1 h1 a2 h2 a3 h3 a4 h4 a5 h5 a6 h6 a7 h7 a8 h8 hc x0 x1 x2 x3 x4 = k0_pay4 x0 x2 x3 x1 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  rw [View.canon_unit_zero hz0]
  simp only [View.readAt_eq_ld, h1.read_unread, h2.read_unread, h3.read_unread, h4.read_unread, h5.read_unread, View.ld_unit_zero (S := S5000x64) hz0, View.ld_unit_zero (S := S64x128) hz0, View.ld_unit_zero (S := S1x128) hz0]

/-- First point, the column sums: the zero row plus the block's column sums. -/
theorem out0_A_6_eq (c : Dev nD) (i : grid0.Coords) (a1 : Memref sig .tc .vmem S5000x64 .f32) (h1 : a1.IsWhole) (a2 : Memref sig .tc .vmem S5000x64 .f32) (h2 : a2.IsWhole) (a3 : Memref sig .tc .vmem S64x128 .f32) (h3 : a3.IsWhole) (a4 : Memref sig .tc .vmem S1x128 .f32) (h4 : a4.IsWhole) (a5 : Memref sig .tc .vmem S64x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i)
    (x0 : Vec F S5000x64 .f32) (x1 : Vec F S5000x64 .f32) (x2 : Vec F S64x128 .f32) (x3 : Vec F S1x128 .f32) (x4 : Vec F S64x128 .f32) :
    out0_A_6 c i a1 h1 a2 h2 a3 h3 a4 h4 a5 h5 a6 h6 a7 h7 a8 h8 hc x0 x1 x2 x3 x4 = k0_pay5 x0 x2 x3 x1 x4 k0_pay2 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz0, View.readCov_unit_zero (S := S1x128) _ hz0]
  simp only [View.readAt_eq_ld, h1.read_unread, h2.read_unread, h3.read_unread, h4.read_unread, h5.read_unread, View.ld_unit_zero (S := S5000x64) hz0, View.ld_unit_zero (S := S64x128) hz0, View.ld_unit_zero (S := S1x128) hz0]

/-- First point, the column sums of squares: the zero row plus the block's column sums of squares. -/
theorem out0_A_7_eq (c : Dev nD) (i : grid0.Coords) (a1 : Memref sig .tc .vmem S5000x64 .f32) (h1 : a1.IsWhole) (a2 : Memref sig .tc .vmem S5000x64 .f32) (h2 : a2.IsWhole) (a3 : Memref sig .tc .vmem S64x128 .f32) (h3 : a3.IsWhole) (a4 : Memref sig .tc .vmem S1x128 .f32) (h4 : a4.IsWhole) (a5 : Memref sig .tc .vmem S64x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i)
    (x0 : Vec F S5000x64 .f32) (x1 : Vec F S5000x64 .f32) (x2 : Vec F S64x128 .f32) (x3 : Vec F S1x128 .f32) (x4 : Vec F S64x128 .f32) :
    out0_A_7 c i a1 h1 a2 h2 a3 h3 a4 h4 a5 h5 a6 h6 a7 h7 a8 h8 hc x0 x1 x2 x3 x4 = k0_pay1 (k0_pay6 k0_pay3) (k0_pay7 x0 x2 x3 x1 x4) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz0, View.readCov_unit_zero (S := S1x128) _ hz0]
  simp only [View.readAt_eq_ld, h1.read_unread, h2.read_unread, h3.read_unread, h4.read_unread, h5.read_unread, View.ld_unit_zero (S := S5000x64) hz0, View.ld_unit_zero (S := S64x128) hz0, View.ld_unit_zero (S := S1x128) hz0]

end Cert.KernelIdeal.KV

end
-- ==== Proof.KStats0PiecesB.lean ====
/-
  Region 0, a later grid point (the accumulators carry over): what the body leaves in each output's buffer, as
  the body's pure terms of the input blocks and of the accumulators' contents `xo6`, `xo7` left by the point before.
-/
import proofs.«151943_j8564164788539_2_alg».proof.Proof.Gen.KernelIdeal.Frame
import Idealize.ShloMosaic.Lib.Pipeline.Value
import Idealize.ShloMosaic.Lib.Tactic

noncomputable section

namespace Cert.KernelIdeal.KV

open Cert.KernelIdeal Cert.KernelIdeal.Gen Idealize.ShloMosaic
open Idealize.ShloMosaic.TcCoe Idealize.SL.Sem
open Idealize.ShloMosaic.Pipeline (Dat)

variable {F : FTy → Type} [FloatOps F]

theorem hz0' : (![0, 0] : Fin 2 → Nat) = fun _ => 0 := funext fun a => by fin_cases a <;> rfl

/-- Later point, the row block of pre-activations. -/
theorem out0_B_5_eq (c : Dev nD) (i : grid0.Coords) (a1 : Memref sig .tc .vmem S5000x64 .f32) (h1 : a1.IsWhole) (a2 : Memref sig .tc .vmem S5000x64 .f32) (h2 : a2.IsWhole) (a3 : Memref sig .tc .vmem S64x128 .f32) (h3 : a3.IsWhole) (a4 : Memref sig .tc .vmem S1x128 .f32) (h4 : a4.IsWhole) (a5 : Memref sig .tc .vmem S64x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i)
    (x0 : Vec F S5000x64 .f32) (x1 : Vec F S5000x64 .f32) (x2 : Vec F S64x128 .f32) (x3 : Vec F S1x128 .f32) (x4 : Vec F S64x128 .f32) (xo6 xo7 : Vec F S1x128 .f32) :
    out0_B_5 c i a1 h1 a2 h2 a3 h3 a4 h4 a5 h5 a6 h6 a7 h7 a8 h8 hc x0 x1 x2 x3 x4 xo6 xo7 = k0_pay4 x0 x2 x3 x1 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  rw [View.canon_unit_zero hz0']
  simp only [View.readAt_eq_ld, h1.read_unread, h2.read_unread, h3.read_unread, h4.read_unread, h5.read_unread, h7.read_unread, h8.read_unread, View.ld_unit_zero (S := S5000x64) hz0', View.ld_unit_zero (S := S64x128) hz0', View.ld_unit_zero (S := S1x128) hz0']

/-- Later point, the column sums: the carried row plus the block's column sums. -/
theorem out0_B_6_eq (c : Dev nD) (i : grid0.Coords) (a1 : Memref sig .tc .vmem S5000x64 .f32) (h1 : a1.IsWhole) (a2 : Memref sig .tc .vmem S5000x64 .f32) (h2 : a2.IsWhole) (a3 : Memref sig .tc .vmem S64x128 .f32) (h3 : a3.IsWhole) (a4 : Memref sig .tc .vmem S1x128 .f32) (h4 : a4.IsWhole) (a5 : Memref sig .tc .vmem S64x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i)
    (x0 : Vec F S5000x64 .f32) (x1 : Vec F S5000x64 .f32) (x2 : Vec F S64x128 .f32) (x3 : Vec F S1x128 .f32) (x4 : Vec F S64x128 .f32) (xo6 xo7 : Vec F S1x128 .f32) :
    out0_B_6 c i a1 h1 a2 h2 a3 h3 a4 h4 a5 h5 a6 h6 a7 h7 a8 h8 hc x0 x1 x2 x3 x4 xo6 xo7 = k0_pay5 x0 x2 x3 x1 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  rw [View.canon_unit_zero hz0']
  simp only [View.readAt_eq_ld, h1.read_unread, h2.read_unread, h3.read_unread, h4.read_unread, h5.read_unread, h7.read_unread, h8.read_unread, View.ld_unit_zero (S := S5000x64) hz0', View.ld_unit_zero (S := S64x128) hz0', View.ld_unit_zero (S := S1x128) hz0']

/-- Later point, the column sums of squares: the carried row plus the block's column sums of squares. -/
theorem out0_B_7_eq (c : Dev nD) (i : grid0.Coords) (a1 : Memref sig .tc .vmem S5000x64 .f32) (h1 : a1.IsWhole) (a2 : Memref sig .tc .vmem S5000x64 .f32) (h2 : a2.IsWhole) (a3 : Memref sig .tc .vmem S64x128 .f32) (h3 : a3.IsWhole) (a4 : Memref sig .tc .vmem S1x128 .f32) (h4 : a4.IsWhole) (a5 : Memref sig .tc .vmem S64x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i)
    (x0 : Vec F S5000x64 .f32) (x1 : Vec F S5000x64 .f32) (x2 : Vec F S64x128 .f32) (x3 : Vec F S1x128 .f32) (x4 : Vec F S64x128 .f32) (xo6 xo7 : Vec F S1x128 .f32) :
    out0_B_7 c i a1 h1 a2 h2 a3 h3 a4 h4 a5 h5 a6 h6 a7 h7 a8 h8 hc x0 x1 x2 x3 x4 xo6 xo7 = k0_pay1 (k0_pay6 xo7) (k0_pay7 x0 x2 x3 x1 x4) := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz0']
  simp only [View.readAt_eq_ld, h1.read_unread, h2.read_unread, h3.read_unread, h4.read_unread, h5.read_unread, h7.read_unread, h8.read_unread, View.ld_unit_zero (S := S5000x64) hz0', View.ld_unit_zero (S := S64x128) hz0', View.ld_unit_zero (S := S1x128) hz0']

end Cert.KernelIdeal.KV

end
-- ==== Proof.KStats0Outs.lean ====
/-
  Region 0: what the three outputs' buffers hold after the body at a grid point, as the body's pure terms of the
  point's input blocks — at the first point over the zero rows, at a later point over what the point before left
  in the two accumulators.
-/
import proofs.«151943_j8564164788539_2_alg».proof.Proof.KStats0PiecesA
import proofs.«151943_j8564164788539_2_alg».proof.Proof.KStats0PiecesB

noncomputable section

namespace Cert.KernelIdeal.KV

open Cert.KernelIdeal Cert.KernelIdeal.Gen Idealize.ShloMosaic
open Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b)) (c : Dev nD)

/-- After the first point. -/
theorem outs0_first (t : Fin cfg0.N) (h0 : t.val % 10 = 0) :
    outsAt0 V c t.val t.isLt
      = (k0_pay4 (iblk0 V c 0 t) (iblk0 V c 2 t) (iblk0 V c 3 t) (iblk0 V c 1 t) (iblk0 V c 4 t),
         k0_pay5 (iblk0 V c 0 t) (iblk0 V c 2 t) (iblk0 V c 3 t) (iblk0 V c 1 t) (iblk0 V c 4 t) k0_pay2,
         k0_pay1 (k0_pay6 k0_pay3) (k0_pay7 (iblk0 V c 0 t) (iblk0 V c 2 t) (iblk0 V c 3 t) (iblk0 V c 1 t) (iblk0 V c 4 t))) :=
  (outsAt0_A V c t h0).trans (congrArg₂ Prod.mk
    (out0_A_5_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))
    (congrArg₂ Prod.mk
      (out0_A_6_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))
      (out0_A_7_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))))

/-- After a later point. -/
theorem outs0_later (t : Fin cfg0.N) (h0 : ¬t.val % 10 = 0) :
    outsAt0 V c t.val t.isLt
      = (k0_pay4 (iblk0 V c 0 t) (iblk0 V c 2 t) (iblk0 V c 3 t) (iblk0 V c 1 t) (iblk0 V c 4 t),
         k0_pay5 (iblk0 V c 0 t) (iblk0 V c 2 t) (iblk0 V c 3 t) (iblk0 V c 1 t) (iblk0 V c 4 t) (outsAt0 V c (t.val - 1) (Nat.lt_of_le_of_lt (Nat.sub_le _ _) t.isLt)).2.1,
         k0_pay1 (k0_pay6 (outsAt0 V c (t.val - 1) (Nat.lt_of_le_of_lt (Nat.sub_le _ _) t.isLt)).2.2) (k0_pay7 (iblk0 V c 0 t) (iblk0 V c 2 t) (iblk0 V c 3 t) (iblk0 V c 1 t) (iblk0 V c 4 t))) :=
  (outsAt0_B V c t h0).trans (congrArg₂ Prod.mk
    (out0_B_5_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)
    (congrArg₂ Prod.mk
      (out0_B_6_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)
      (out0_B_7_eq (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)))

/-- The row block of pre-activations after any point. -/
theorem outs0_blk (t : Fin cfg0.N) :
    (outsAt0 V c t.val t.isLt).1 = k0_pay4 (iblk0 V c 0 t) (iblk0 V c 2 t) (iblk0 V c 3 t) (iblk0 V c 1 t) (iblk0 V c 4 t) := by
  by_cases h0 : t.val % 10 = 0
  · rw [outs0_first V c t h0]
  · rw [outs0_later V c t h0]

end Cert.KernelIdeal.KV

end
-- ==== Proof.SageSpec.lean ====
/-
  The network both programs compute, entry by entry, over the extended reals.

  A graph-convolution layer takes node features `X : N × K`, aggregates for every node the mean of the
  features of its in-neighbours, applies two dense maps and a bias, clips at zero, and normalises every
  column to zero mean and unit variance (with a small `eps` under the root) before an affine map
  `g · _ + be`.  The edge list enters only through two functions: `src e`, the row an edge reads, and
  `land e`, the row its contribution is added to (`none` when it falls outside the array and is dropped).

  Two spellings of one layer appear.  In the first the left weight is applied AFTER the aggregation
  (`preA`), the column variance is the mean of squared deviations (`bnR`).  In the second the product with
  the left weight has been taken BEFORE the aggregation (`preB` receives the aggregated product), and the
  variance is the mean of squares minus the squared mean, clipped at zero (`bnK`).  On finite inputs the two
  agree; that is the content of the mathematics modules that import this one.
-/
import Idealize.ShloMosaic.PureOps.Ideal

noncomputable section

namespace Cert.SageSpec

open Idealize.ShloMosaic

variable {N E K D : ℕ}

/-- Entry `(n, j)` of the matrix product `A · W`. -/
def mm (A : Fin N → Fin K → EReal) (W : Fin K → Fin D → EReal) (n : Fin N) (j : Fin D) : EReal :=
  ∑ k : Fin K, A n k * W k j

/-- Column sums. -/
def colsum (P : Fin N → Fin D → EReal) (j : Fin D) : EReal := ∑ n : Fin N, P n j

/-- The number of contributions landing on a row, at least one. -/
def cnt (land : Fin E → Option (Fin N)) (n : Fin N) : EReal :=
  max (∑ _e ∈ Finset.univ.filter (fun e => land e = some n), (1 : EReal)) 1

/-- Mean aggregation: the sum over the edges landing on row `n` of the source rows, over the divisor `d n`. -/
def agg (land : Fin E → Option (Fin N)) (src : Fin E → Fin N) (d : Fin N → EReal)
    (X : Fin N → Fin D → EReal) (n : Fin N) (j : Fin D) : EReal :=
  Ideal.div (∑ e ∈ Finset.univ.filter (fun e => land e = some n), X (src e) j) (d n)

/-- Pre-activation, left weight applied after the aggregation: `max ((M · Wl + b) + X · Wr) 0`. -/
def preA (M X : Fin N → Fin K → EReal) (Wl Wr : Fin K → Fin D → EReal) (b : Fin D → EReal)
    (n : Fin N) (j : Fin D) : EReal :=
  max ((mm M Wl n j + b j) + mm X Wr n j) 0

/-- Pre-activation, the aggregate already multiplied by the left weight: `max ((MY + b) + X · Wr) 0`. -/
def preB (MY : Fin N → Fin D → EReal) (X : Fin N → Fin K → EReal) (Wr : Fin K → Fin D → EReal) (b : Fin D → EReal)
    (n : Fin N) (j : Fin D) : EReal :=
  max ((MY n j + b j) + mm X Wr n j) 0

/-- Column mean `(Σ_n P n j) / cN`. -/
def mean (cN : EReal) (P : Fin N → Fin D → EReal) (j : Fin D) : EReal := Ideal.div (colsum P j) cN

/-- Column variance as mean of squares minus squared mean, clipped at zero. -/
def varK (cN : EReal) (P : Fin N → Fin D → EReal) (j : Fin D) : EReal :=
  max (Ideal.div (colsum (fun n j => P n j * P n j) j) cN - mean cN P j * mean cN P j) 0

/-- Column variance as mean of squared deviations. -/
def varR (cN : EReal) (P : Fin N → Fin D → EReal) (j : Fin D) : EReal :=
  Ideal.div (colsum (fun n j => (P n j - mean cN P j) * (P n j - mean cN P j)) j) cN

/-- The reciprocal standard deviation of the first spelling of the variance. -/
def invK (cN eps : EReal) (P : Fin N → Fin D → EReal) (j : Fin D) : EReal := Ideal.rsqrt (varK cN P j + eps)

/-- Normalisation given a column mean `mu` and a column scale `inv`: `((P − mu) · inv) · g + be`. -/
def affine (P : Fin N → Fin D → EReal) (mu inv g be : Fin D → EReal) (n : Fin N) (j : Fin D) : EReal :=
  ((P n j - mu j) * inv j) * g j + be j

/-- Normalisation with the clipped mean-of-squares variance. -/
def bnK (cN eps : EReal) (P : Fin N → Fin D → EReal) (g be : Fin D → EReal) : Fin N → Fin D → EReal :=
  affine P (mean cN P) (invK cN eps P) g be

/-- Normalisation with the mean-of-squared-deviations variance. -/
def bnR (cN eps : EReal) (P : Fin N → Fin D → EReal) (g be : Fin D → EReal) : Fin N → Fin D → EReal :=
  affine P (mean cN P) (fun j => Ideal.rsqrt (varR cN P j + eps)) g be

section Network

variable {D0 D1 D2 D3 : ℕ}
variable (land : Fin E → Option (Fin N)) (src : Fin E → Fin N) (cN eps : EReal)
variable (X : Fin N → Fin D0 → EReal)
variable (W1l W1r : Fin D0 → Fin D1 → EReal) (b1 g1 be1 : Fin D1 → EReal)
variable (W2l W2r : Fin D1 → Fin D2 → EReal) (b2 g2 be2 : Fin D2 → EReal)
variable (W3l W3r : Fin D2 → Fin D3 → EReal) (b3 g3 be3 : Fin D3 → EReal)

/-- First spelling, layer 1 (the left weight after the aggregation, as in the second spelling). -/
def k1 : Fin N → Fin D1 → EReal :=
  bnK cN eps (preA (agg land src (cnt land) X) X W1l W1r b1) g1 be1
/-- First spelling, layer 2: the product with `W2l` is aggregated. -/
def k2 : Fin N → Fin D2 → EReal :=
  bnK cN eps (preB (agg land src (cnt land) (mm (k1 land src cN eps X W1l W1r b1 g1 be1) W2l))
    (k1 land src cN eps X W1l W1r b1 g1 be1) W2r b2) g2 be2
/-- First spelling, layer 3. -/
def k3 : Fin N → Fin D3 → EReal :=
  bnK cN eps (preB (agg land src (cnt land) (mm (k2 land src cN eps X W1l W1r b1 g1 be1 W2l W2r b2 g2 be2) W3l))
    (k2 land src cN eps X W1l W1r b1 g1 be1 W2l W2r b2 g2 be2) W3r b3) g3 be3

/-- Second spelling, layer 1. -/
def r1 : Fin N → Fin D1 → EReal :=
  bnR cN eps (preA (agg land src (cnt land) X) X W1l W1r b1) g1 be1
/-- Second spelling, layer 2. -/
def r2 : Fin N → Fin D2 → EReal :=
  bnR cN eps (preA (agg land src (cnt land) (r1 land src cN eps X W1l W1r b1 g1 be1))
    (r1 land src cN eps X W1l W1r b1 g1 be1) W2l W2r b2) g2 be2
/-- Second spelling, layer 3. -/
def r3 : Fin N → Fin D3 → EReal :=
  bnR cN eps (preA (agg land src (cnt land) (r2 land src cN eps X W1l W1r b1 g1 be1 W2l W2r b2 g2 be2))
    (r2 land src cN eps X W1l W1r b1 g1 be1 W2l W2r b2 g2 be2) W3l W3r b3) g3 be3

end Network

/-- An array of extended reals all of whose entries are real numbers. -/
def Fin2 {A B : ℕ} (f : Fin A → Fin B → EReal) : Prop := ∃ r : Fin A → Fin B → ℝ, ∀ a b, f a b = (r a b : EReal)
/-- A vector of extended reals all of whose entries are real numbers. -/
def Fin1 {A : ℕ} (f : Fin A → EReal) : Prop := ∃ r : Fin A → ℝ, ∀ a, f a = (r a : EReal)

end Cert.SageSpec

end
-- ==== Proof.KStats0Pay.lean ====
/-
  Region 0, the body's arithmetic over the extended reals, entry by entry.

  The row block of pre-activations `k0_pay4` at row `p`, column `q` is
  `max ((Σ_k M p k · Wl k q + b q) + Σ_k X p k · Wr k q) 0`; the accumulator updates add to the carried row the
  block's column sums (`k0_pay5`) and the column sums of the squared entries (`k0_pay1` of `k0_pay7`).  The
  narrowing of the matrix operands is the identity on the extended reals, a product into the zero accumulator is the
  sum of products over the contracted axis, and a reduction over the rows is the finite sum over the row coordinate.
-/
import proofs.«151943_j8564164788539_2_alg».proof.Proof.Gen.KernelIdeal.Skeleton
import proofs.«151943_j8564164788539_2_alg».proof.Proof.SageSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KV

open Cert.KernelIdeal Cert.KernelIdeal.Gen Cert.SageSpec Idealize.ShloMosaic Idealize.ShloMosaic.ValueIdx
open Idealize.ShloMosaic.TcCoe Idealize.SL.Sem
open Idealize.ShloMosaic.Pipeline (Dat)

/-! ## The matrix product of a row block with a weight -/

theorem lhs0_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs0_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs0_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs0_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- Entry `(p, q)` of a row block times a weight, accumulated into zero: `Σ_k A p k · W k q`. -/
theorem mm0_apply (A : Vec Ideal S5000x64 .f32) (W : Vec Ideal S64x128 .f32) (p : Fin 5000) (q : Fin 128) :
    matmul dot_S5000x64_S64x128_S5000x128_1_0_0_1_n_n none (truncf .bf16 A bitsLt_bf16_f32) (truncf .bf16 W bitsLt_bf16_f32)
        (constant (F := Ideal) S5000x128 .f32 0x00000000#32) (ix2 p q)
      = ∑ k : Fin 64, A (ix2 p k) * W (ix2 k q) := by
  refine (Ideal.matmul_constant_zero_apply dot_S5000x64_S64x128_S5000x128_1_0_0_1_n_n none _ _ (ix2 p q)).trans ?_
  rw [← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact lhs0_0 _ _
    | ⟨1, _⟩ => exact (lhs0_1 _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (rhs0_0 _ _).trans hk
    | ⟨1, _⟩ => exact rhs0_1 _ _)
  rw [el, er]
  rfl

/-! ## The bias row spread over the block's rows -/

/-- The bias row broadcast over the rows, at `(p, q)`: entry `q` of the row. -/
theorem bias0_apply (b : Vec Ideal S1x128 .f32) (p : Fin 5000) (q : Fin 128) :
    broadcastTo S5000x128 (shapeCast S1x128 b shapeCasts_S1x128_S1x128) broadcasts_S1x128_S5000x128 (ix2 p q) = b (ix2 0 q) := by
  rw [shapeCast_self]
  exact broadcastTo_apply b broadcasts_S1x128_S5000x128 (ix2 p q) (ix2 0 q) (fun a => by
    match a with
    | ⟨0, _⟩ => rfl
    | ⟨1, _⟩ => rfl)

/-! ## The pre-activations of a row block -/

/-- The block's pre-activation at `(p, q)`. -/
def pre0 (M X : Vec Ideal S5000x64 .f32) (Wl Wr : Vec Ideal S64x128 .f32) (b : Vec Ideal S1x128 .f32) (p : Fin 5000) (q : Fin 128) : EReal :=
  max ((∑ k : Fin 64, M (ix2 p k) * Wl (ix2 k q) + b (ix2 0 q)) + ∑ k : Fin 64, X (ix2 p k) * Wr (ix2 k q)) 0

theorem pay4_apply (M : Vec Ideal S5000x64 .f32) (Wl : Vec Ideal S64x128 .f32) (b : Vec Ideal S1x128 .f32) (X : Vec Ideal S5000x64 .f32) (Wr : Vec Ideal S64x128 .f32)
    (p : Fin 5000) (q : Fin 128) :
    k0_pay4 (F := Ideal) M Wl b X Wr (ix2 p q) = pre0 M X Wl Wr b p q := by
  unfold k0_pay4 pre0
  show max ((_ + _) + _) (Ideal.ofBits .f32 0x00000000#32) = _
  rw [Ideal.ofBits_zero_f32]
  refine congrArg (fun z => max z (0 : EReal)) ?_
  refine congrArg₂ (· + ·) (congrArg₂ (· + ·) ?_ ?_) ?_
  · rw [shapeCast_self]; exact mm0_apply M Wl p q
  · exact bias0_apply b p q
  · exact mm0_apply X Wr p q

/-! ## The accumulator updates -/

/-- A row vector over one row, re-read as a `1 × 128` block, at `(0, q)`. -/
theorem row0_apply (v : FVec Ideal S128 .f32) (q : Fin 128) :
    shapeCast S1x128 v shapeCasts_S128_S1x128 (ix2 0 q) = v (ix1 q) := by
  refine (shapeCast_addUnit_apply ![128] v shapeCasts_S128_S1x128 (ix2 0 q)).trans ?_
  exact congrArg v (funext fun a => by match a with | ⟨0, _⟩ => rfl)

/-- The column sums of a `5000 × 128` block, at column `q`. -/
theorem colsum0_apply (src : FVec Ideal S5000x128 .f32) (hacc : (0x00000000#32 : BitVec 32) = 0x00000000#32) (q : Fin 128) :
    multiReduction (F := Ideal) .add [0] S128 src 0x00000000#32 reduces_S5000x128_S128 (.inl rfl) hacc (ix1 q)
      = ∑ r : Fin 5000, src (ix2 r q) := by
  refine (Ideal.multiReduction_add_single src 0x00000000#32 reduces_S5000x128_S128 (.inl rfl) hacc (ix1 q)).trans ?_
  refine Finset.sum_congr rfl fun r _ => ?_
  exact congrArg src (funext fun a => Fin.ext (by match a with | ⟨0, _⟩ => rfl | ⟨1, _⟩ => rfl))

/-- The column-sum accumulator after a point: the carried row plus the block's column sums. -/
theorem pay5_apply (M : Vec Ideal S5000x64 .f32) (Wl : Vec Ideal S64x128 .f32) (b : Vec Ideal S1x128 .f32) (X : Vec Ideal S5000x64 .f32) (Wr : Vec Ideal S64x128 .f32)
    (acc : Vec Ideal S1x128 .f32) (q : Fin 128) :
    k0_pay5 (F := Ideal) M Wl b X Wr acc (ix2 0 q) = acc (ix2 0 q) + ∑ r : Fin 5000, pre0 M X Wl Wr b r q := by
  unfold k0_pay5
  show _ + _ = _
  refine congrArg₂ (· + ·) ?_ ?_
  · rw [shapeCast_self]
  · refine (row0_apply _ q).trans ?_
    refine (colsum0_apply _ rfl q).trans ?_
    exact Finset.sum_congr rfl fun r _ => pay4_apply M Wl b X Wr r q

/-- The sum-of-squares accumulator after a point: the carried row plus the block's column sums of squares. -/
theorem pay1_apply (M : Vec Ideal S5000x64 .f32) (Wl : Vec Ideal S64x128 .f32) (b : Vec Ideal S1x128 .f32) (X : Vec Ideal S5000x64 .f32) (Wr : Vec Ideal S64x128 .f32)
    (acc : Vec Ideal S1x128 .f32) (q : Fin 128) :
    k0_pay1 (F := Ideal) (k0_pay6 acc) (k0_pay7 M Wl b X Wr) (ix2 0 q)
      = acc (ix2 0 q) + ∑ r : Fin 5000, pre0 M X Wl Wr b r q * pre0 M X Wl Wr b r q := by
  unfold k0_pay1 k0_pay6 k0_pay7
  show _ + _ = _
  refine congrArg₂ (· + ·) ?_ ?_
  · rw [shapeCast_self]
  · refine (row0_apply _ q).trans ?_
    refine (colsum0_apply _ rfl q).trans ?_
    refine Finset.sum_congr rfl fun r _ => ?_
    show _ * _ = _
    rw [pay4_apply M Wl b X Wr r q]

/-- The zero rows the first point stores. -/
theorem pay2_apply (q : Fin 128) : k0_pay2 (F := Ideal) (ix2 0 q) = 0 := Ideal.ofBits_zero_f32
theorem pay3_apply (q : Fin 128) : k0_pay3 (F := Ideal) (ix2 0 q) = 0 := Ideal.ofBits_zero_f32

end Cert.KernelIdeal.KV

end
-- ==== Proof.KStats0Arr.lean ====
/-
  Region 0: the five operand arrays as the region finds them, curried over literal coordinates, and each window's
  block at a grid point read out of its array.  Point `t` sees rows `5000 t … 5000 t + 4999` of the two row operands;
  the two weights and the bias row are the same whole arrays at every point.  Hence the block's pre-activation at
  local row `r` is the layer's pre-activation `preA` at row `5000 t + r`.
-/
import proofs.«151943_j8564164788539_2_alg».proof.Proof.Gen.KernelIdeal.Frame
import proofs.«151943_j8564164788539_2_alg».proof.Proof.KStats0Pay
import Idealize.ShloMosaic.Lib.ValueIdx
import Idealize.ShloMosaic.Lib.Pipeline.Value

noncomputable section

namespace Cert.KernelIdeal.KV

open Cert.KernelIdeal Cert.KernelIdeal.Gen Cert.SageSpec Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The aggregated features `M`. -/
def r0M (n : Fin 50000) (k : Fin 64) : EReal := (V c (Pipeline.arrRef spec0 0) : S50000x64.Idx → EReal) (ix2 n k)
/-- The node features `X`. -/
def r0X (n : Fin 50000) (k : Fin 64) : EReal := (V c (Pipeline.arrRef spec0 1) : S50000x64.Idx → EReal) (ix2 n k)
/-- The left weight. -/
def r0Wl (k : Fin 64) (j : Fin 128) : EReal := (V c (Pipeline.arrRef spec0 2) : S64x128.Idx → EReal) (ix2 k j)
/-- The bias row. -/
def r0b (j : Fin 128) : EReal := (V c (Pipeline.arrRef spec0 3) : S1x128.Idx → EReal) (ix2 0 j)
/-- The right weight. -/
def r0Wr (k : Fin 64) (j : Fin 128) : EReal := (V c (Pipeline.arrRef spec0 4) : S64x128.Idx → EReal) (ix2 k j)

/-- The block indices of the eight windows at a grid point: the row operands and the row output move with the
    point, everything else stays at block `(0, 0)`. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem iblk0_0_apply (t : Fin cfg0.N) (r : Fin 5000) (k : Fin 64) (n : Fin 50000) (hn : n.val = t.val * 5000 + r.val) :
    (iblk0 V c 0 t : Vec Ideal S5000x64 .f32) (ix2 r k) = r0M V c n k := by
  obtain ⟨e0, e1, -⟩ := idx0 t
  unfold iblk0 r0M
  rw [View.read_apply]
  refine congrArg (V c (Pipeline.arrRef spec0 0) : S50000x64.Idx → EReal) (funext fun a => Fin.ext ?_)
  match a with
  | ⟨0, _⟩ => show win0_0.index t (0 : Fin 2) * 5000 + 1 * r.val = n.val; omega
  | ⟨1, _⟩ => show win0_0.index t (1 : Fin 2) * 64 + 1 * k.val = k.val; omega

theorem iblk0_1_apply (t : Fin cfg0.N) (r : Fin 5000) (k : Fin 64) (n : Fin 50000) (hn : n.val = t.val * 5000 + r.val) :
    (iblk0 V c 1 t : Vec Ideal S5000x64 .f32) (ix2 r k) = r0X V c n k := by
  obtain ⟨-, -, e0, e1, -⟩ := idx0 t
  unfold iblk0 r0X
  rw [View.read_apply]
  refine congrArg (V c (Pipeline.arrRef spec0 1) : S50000x64.Idx → EReal) (funext fun a => Fin.ext ?_)
  match a with
  | ⟨0, _⟩ => show win0_1.index t (0 : Fin 2) * 5000 + 1 * r.val = n.val; omega
  | ⟨1, _⟩ => show win0_1.index t (1 : Fin 2) * 64 + 1 * k.val = k.val; omega

theorem iblk0_2_apply (t : Fin cfg0.N) (k : Fin 64) (j : Fin 128) :
    (iblk0 V c 2 t : Vec Ideal S64x128 .f32) (ix2 k j) = r0Wl V c k j := by
  obtain ⟨-, -, -, -, e0, e1, -⟩ := idx0 t
  unfold iblk0 r0Wl
  rw [View.read_apply]
  refine congrArg (V c (Pipeline.arrRef spec0 2) : S64x128.Idx → EReal) (funext fun a => Fin.ext ?_)
  match a with
  | ⟨0, _⟩ => show win0_2.index t (0 : Fin 2) * 64 + 1 * k.val = k.val; omega
  | ⟨1, _⟩ => show win0_2.index t (1 : Fin 2) * 128 + 1 * j.val = j.val; omega

theorem iblk0_3_apply (t : Fin cfg0.N) (j : Fin 128) :
    (iblk0 V c 3 t : Vec Ideal S1x128 .f32) (ix2 0 j) = r0b V c j := by
  obtain ⟨-, -, -, -, -, -, e0, e1, -⟩ := idx0 t
  unfold iblk0 r0b
  rw [View.read_apply]
  refine congrArg (V c (Pipeline.arrRef spec0 3) : S1x128.Idx → EReal) (funext fun a => Fin.ext ?_)
  match a with
  | ⟨0, _⟩ => show win0_3.index t (0 : Fin 2) * 1 + 1 * 0 = 0; omega
  | ⟨1, _⟩ => show win0_3.index t (1 : Fin 2) * 128 + 1 * j.val = j.val; omega

theorem iblk0_4_apply (t : Fin cfg0.N) (k : Fin 64) (j : Fin 128) :
    (iblk0 V c 4 t : Vec Ideal S64x128 .f32) (ix2 k j) = r0Wr V c k j := by
  obtain ⟨-, -, -, -, -, -, -, -, e0, e1, -⟩ := idx0 t
  unfold iblk0 r0Wr
  rw [View.read_apply]
  refine congrArg (V c (Pipeline.arrRef spec0 4) : S64x128.Idx → EReal) (funext fun a => Fin.ext ?_)
  match a with
  | ⟨0, _⟩ => show win0_4.index t (0 : Fin 2) * 64 + 1 * k.val = k.val; omega
  | ⟨1, _⟩ => show win0_4.index t (1 : Fin 2) * 128 + 1 * j.val = j.val; omega

/-- The block's pre-activation at local row `r` is the layer's at row `n = 5000 t + r`. -/
theorem pre0_blk (t : Fin cfg0.N) (r : Fin 5000) (q : Fin 128) (n : Fin 50000) (hn : n.val = t.val * 5000 + r.val) :
    pre0 (iblk0 V c 0 t) (iblk0 V c 1 t) (iblk0 V c 2 t) (iblk0 V c 4 t) (iblk0 V c 3 t) r q
      = preA (r0M V c) (r0X V c) (r0Wl V c) (r0Wr V c) (r0b V c) n q := by
  unfold pre0 preA mm
  refine congrArg (fun z => max z (0 : EReal)) ?_
  refine congrArg₂ (· + ·) (congrArg₂ (· + ·) ?_ ?_) ?_
  · exact Finset.sum_congr rfl fun k _ => congrArg₂ (· * ·) (iblk0_0_apply V c t r k n hn) (iblk0_2_apply V c t k q)
  · exact iblk0_3_apply V c t q
  · exact Finset.sum_congr rfl fun k _ => congrArg₂ (· * ·) (iblk0_1_apply V c t r k n hn) (iblk0_4_apply V c t k q)

end Cert.KernelIdeal.KV

end
-- ==== Proof.LibFlatSum.lean ====
/-
  A sum over `Fin (a * b)` read through quotient and remainder is the double sum over `Fin a` and `Fin b`
  (rows outside, lanes inside), in any additive commutative monoid: the step between a reduction over a
  flattened axis and the nested reductions over the two axes it was flattened from.
-/
import Mathlib

open scoped BigOperators

namespace Cert.LibFlatSum

/-- `∑ k : Fin (a * b), g (k / b) (k % b) = ∑ i : Fin a, ∑ j : Fin b, g i j`. -/
theorem sum_div_mod {M : Type*} [AddCommMonoid M] (a b : Nat) (hb : 0 < b) (g : Fin a → Fin b → M) :
    ∑ k : Fin (a * b), g ⟨k.val / b, (Nat.div_lt_iff_lt_mul hb).mpr k.isLt⟩ ⟨k.val % b, Nat.mod_lt _ hb⟩
      = ∑ i : Fin a, ∑ j : Fin b, g i j := by
  rw [← Finset.sum_product']
  refine (Fintype.sum_equiv finProdFinEquiv.symm _ _ fun k => ?_)
  rfl

/-- The same at the literal sizes 256 × 256 = 65536, the summand a function of the flat index's value. -/
theorem sum_65536 {M : Type*} [AddCommMonoid M] (g : Fin 256 → Fin 256 → M) (f : Fin 65536 → M)
    (hf : ∀ k : Fin 65536, f k = g ⟨k.val / 256, by omega⟩ ⟨k.val % 256, by omega⟩) :
    ∑ k : Fin 65536, f k = ∑ h : Fin 256, ∑ w : Fin 256, g h w := by
  rw [← sum_div_mod 256 256 (by norm_num) g]
  exact Finset.sum_congr rfl fun k _ => hf k

end Cert.LibFlatSum
-- ==== Proof.KStatsSum.lean ====
/-
  Sums over 50000 rows taken in ten blocks of 5000: block `t` holds the rows `5000 t … 5000 t + 4999`, and the ten
  blocks' partial sums add up to the sum over all rows (a sum over `Fin (10 · 5000)` regrouped by quotient and
  remainder).
-/
import proofs.«151943_j8564164788539_2_alg».proof.Proof.LibFlatSum

open scoped BigOperators

namespace Cert.KernelIdeal.KV

/-- Block `t`'s share of a sum over the 50000 rows: the rows `5000 t … 5000 t + 4999`. -/
noncomputable def blkSum (f : Fin 50000 → EReal) (t : ℕ) : EReal :=
  ∑ r : Fin 5000, if h : t * 5000 + r.val < 50000 then f ⟨t * 5000 + r.val, h⟩ else 0

/-- The ten blocks' shares add up to the sum over all rows. -/
theorem sum_blocks (f : Fin 50000 → EReal) : ∑ t ∈ Finset.range 10, blkSum f t = ∑ n : Fin 50000, f n := by
  rw [Finset.sum_range]
  have h50 : 10 * 5000 = 50000 := by norm_num
  have h := Cert.LibFlatSum.sum_div_mod 10 5000 (by norm_num) (fun (i : Fin 10) (j : Fin 5000) => f ⟨i.val * 5000 + j.val, by omega⟩)
  have e : ∑ k : Fin (10 * 5000), f (Fin.cast h50 k) = ∑ n : Fin 50000, f n :=
    Fintype.sum_equiv (finCongr h50) (fun k => f (Fin.cast h50 k)) f (fun k => rfl)
  refine Eq.trans ?_ (h.symm.trans (Eq.trans ?_ e))
  · refine Finset.sum_congr rfl fun i _ => ?_
    unfold blkSum
    refine Finset.sum_congr rfl fun j _ => ?_
    rw [dif_pos (by omega)]
  · refine Finset.sum_congr rfl fun k _ => ?_
    refine congrArg f (Fin.ext ?_)
    show k.val / 5000 * 5000 + k.val % 5000 = k.val
    omega

end Cert.KernelIdeal.KV
-- ==== Proof.KStats0Acc.lean ====
/-
  Region 0: the two accumulators across the grid.  After point `n` the column-sum accumulator holds the sum, over
  the points `0 … n`, of the column sums of each point's 5000 rows of pre-activations, and the sum-of-squares
  accumulator the same of the squared pre-activations: the first point starts from the zero row, every later point
  adds its block's sums to what the point before left.  After the last of the ten points that is the sum over all
  50000 rows, a sum over `Fin (10 · 5000)` regrouped by quotient and remainder.
-/
import proofs.«151943_j8564164788539_2_alg».proof.Proof.KStats0Outs
import proofs.«151943_j8564164788539_2_alg».proof.Proof.KStats0Arr
import proofs.«151943_j8564164788539_2_alg».proof.Proof.KStatsSum

noncomputable section

namespace Cert.KernelIdeal.KV

open Cert.KernelIdeal Cert.KernelIdeal.Gen Cert.SageSpec Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b)) (c : Dev nD)

/-! ## The accumulators after each point -/

/-- The column-sum accumulator after point `n`. -/
theorem acc6_eq (q : Fin 128) : ∀ (n : ℕ) (h : n < cfg0.N),
    (outsAt0 V c n h).2.1 (ix2 0 q) = ∑ t ∈ Finset.range (n + 1), blkSum (fun m => (preA (r0M V c) (r0X V c) (r0Wl V c) (r0Wr V c) (r0b V c)) m q) t
  | 0, h => by
    have e6 : (outsAt0 V c 0 h).2.1 = k0_pay5 (iblk0 V c 0 ⟨0, h⟩) (iblk0 V c 2 ⟨0, h⟩) (iblk0 V c 3 ⟨0, h⟩) (iblk0 V c 1 ⟨0, h⟩) (iblk0 V c 4 ⟨0, h⟩) (k0_pay2 (F := Ideal)) :=
      congrArg (fun p => p.2.1) (outs0_first V c ⟨0, h⟩ rfl)
    refine (congrFun e6 (ix2 0 q)).trans ?_
    refine (pay5_apply (iblk0 V c 0 ⟨0, h⟩) (iblk0 V c 2 ⟨0, h⟩) (iblk0 V c 3 ⟨0, h⟩) (iblk0 V c 1 ⟨0, h⟩) (iblk0 V c 4 ⟨0, h⟩) (k0_pay2 (F := Ideal)) q).trans ?_
    rw [pay2_apply, zero_add, Finset.sum_range_one]
    unfold blkSum
    refine Finset.sum_congr rfl fun r _ => ?_
    rw [dif_pos (by omega)]
    exact pre0_blk V c ⟨0, h⟩ r q ⟨0 * 5000 + r.val, by omega⟩ rfl
  | n + 1, h => by
    have hN : cfg0.N = 10 := N_0
    have hB : ¬(⟨n + 1, h⟩ : Fin cfg0.N).val % 10 = 0 := by dsimp only; omega
    have e6 : (outsAt0 V c (n + 1) h).2.1
        = k0_pay5 (iblk0 V c 0 ⟨n + 1, h⟩) (iblk0 V c 2 ⟨n + 1, h⟩) (iblk0 V c 3 ⟨n + 1, h⟩) (iblk0 V c 1 ⟨n + 1, h⟩) (iblk0 V c 4 ⟨n + 1, h⟩) (outsAt0 V c n (Nat.lt_of_succ_lt h)).2.1 :=
      congrArg (fun p => p.2.1) (outs0_later V c ⟨n + 1, h⟩ hB)
    refine (congrFun e6 (ix2 0 q)).trans ?_
    refine (pay5_apply (iblk0 V c 0 ⟨n + 1, h⟩) (iblk0 V c 2 ⟨n + 1, h⟩) (iblk0 V c 3 ⟨n + 1, h⟩) (iblk0 V c 1 ⟨n + 1, h⟩) (iblk0 V c 4 ⟨n + 1, h⟩) (outsAt0 V c n (Nat.lt_of_succ_lt h)).2.1 q).trans ?_
    rw [acc6_eq q n (Nat.lt_of_succ_lt h), Finset.sum_range_succ _ (n + 1)]
    refine congrArg (_ + ·) ?_
    unfold blkSum
    refine Finset.sum_congr rfl fun r _ => ?_
    rw [dif_pos (by omega)]
    exact pre0_blk V c ⟨n + 1, h⟩ r q ⟨(n + 1) * 5000 + r.val, by omega⟩ rfl

/-- The sum-of-squares accumulator after point `n`. -/
theorem acc7_eq (q : Fin 128) : ∀ (n : ℕ) (h : n < cfg0.N),
    (outsAt0 V c n h).2.2 (ix2 0 q)
      = ∑ t ∈ Finset.range (n + 1), blkSum (fun m => (preA (r0M V c) (r0X V c) (r0Wl V c) (r0Wr V c) (r0b V c)) m q * (preA (r0M V c) (r0X V c) (r0Wl V c) (r0Wr V c) (r0b V c)) m q) t
  | 0, h => by
    have e7 : (outsAt0 V c 0 h).2.2 = k0_pay1 (k0_pay6 (k0_pay3 (F := Ideal))) (k0_pay7 (iblk0 V c 0 ⟨0, h⟩) (iblk0 V c 2 ⟨0, h⟩) (iblk0 V c 3 ⟨0, h⟩) (iblk0 V c 1 ⟨0, h⟩) (iblk0 V c 4 ⟨0, h⟩)) :=
      congrArg (fun p => p.2.2) (outs0_first V c ⟨0, h⟩ rfl)
    refine (congrFun e7 (ix2 0 q)).trans ?_
    refine (pay1_apply (iblk0 V c 0 ⟨0, h⟩) (iblk0 V c 2 ⟨0, h⟩) (iblk0 V c 3 ⟨0, h⟩) (iblk0 V c 1 ⟨0, h⟩) (iblk0 V c 4 ⟨0, h⟩) (k0_pay3 (F := Ideal)) q).trans ?_
    rw [pay3_apply, zero_add, Finset.sum_range_one]
    unfold blkSum
    refine Finset.sum_congr rfl fun r _ => ?_
    rw [dif_pos (by omega)]
    exact congrArg₂ (· * ·) (pre0_blk V c ⟨0, h⟩ r q ⟨0 * 5000 + r.val, by omega⟩ rfl)
      (pre0_blk V c ⟨0, h⟩ r q ⟨0 * 5000 + r.val, by omega⟩ rfl)
  | n + 1, h => by
    have hN : cfg0.N = 10 := N_0
    have hB : ¬(⟨n + 1, h⟩ : Fin cfg0.N).val % 10 = 0 := by dsimp only; omega
    have e7 : (outsAt0 V c (n + 1) h).2.2
        = k0_pay1 (k0_pay6 (outsAt0 V c n (Nat.lt_of_succ_lt h)).2.2) (k0_pay7 (iblk0 V c 0 ⟨n + 1, h⟩) (iblk0 V c 2 ⟨n + 1, h⟩) (iblk0 V c 3 ⟨n + 1, h⟩) (iblk0 V c 1 ⟨n + 1, h⟩) (iblk0 V c 4 ⟨n + 1, h⟩)) :=
      congrArg (fun p => p.2.2) (outs0_later V c ⟨n + 1, h⟩ hB)
    refine (congrFun e7 (ix2 0 q)).trans ?_
    refine (pay1_apply (iblk0 V c 0 ⟨n + 1, h⟩) (iblk0 V c 2 ⟨n + 1, h⟩) (iblk0 V c 3 ⟨n + 1, h⟩) (iblk0 V c 1 ⟨n + 1, h⟩) (iblk0 V c 4 ⟨n + 1, h⟩) (outsAt0 V c n (Nat.lt_of_succ_lt h)).2.2 q).trans ?_
    rw [acc7_eq q n (Nat.lt_of_succ_lt h), Finset.sum_range_succ _ (n + 1)]
    refine congrArg (_ + ·) ?_
    unfold blkSum
    refine Finset.sum_congr rfl fun r _ => ?_
    rw [dif_pos (by omega)]
    exact congrArg₂ (· * ·) (pre0_blk V c ⟨n + 1, h⟩ r q ⟨(n + 1) * 5000 + r.val, by omega⟩ rfl)
      (pre0_blk V c ⟨n + 1, h⟩ r q ⟨(n + 1) * 5000 + r.val, by omega⟩ rfl)

/-- After the last point: the column sums over all 50000 rows. -/
theorem acc6_last (q : Fin 128) (h : 9 < cfg0.N) :
    (outsAt0 V c 9 h).2.1 (ix2 0 q) = colsum (preA (r0M V c) (r0X V c) (r0Wl V c) (r0Wr V c) (r0b V c)) q :=
  (acc6_eq V c q 9 h).trans (sum_blocks (fun m => (preA (r0M V c) (r0X V c) (r0Wl V c) (r0Wr V c) (r0b V c)) m q))

/-- After the last point: the column sums of squares over all 50000 rows. -/
theorem acc7_last (q : Fin 128) (h : 9 < cfg0.N) :
    (outsAt0 V c 9 h).2.2 (ix2 0 q)
      = colsum (fun n j => (preA (r0M V c) (r0X V c) (r0Wl V c) (r0Wr V c) (r0b V c)) n j * (preA (r0M V c) (r0X V c) (r0Wl V c) (r0Wr V c) (r0b V c)) n j) q :=
  (acc7_eq V c q 9 h).trans (sum_blocks (fun m => (preA (r0M V c) (r0X V c) (r0Wl V c) (r0Wr V c) (r0b V c)) m q * (preA (r0M V c) (r0X V c) (r0Wl V c) (r0Wr V c) (r0b V c)) m q))

end Cert.KernelIdeal.KV

end
-- ==== Proof.KStats0.lean ====
/-
  Region 0: the three output arrays after the region.

  The row output is written back block by block, point `t` writing rows `5000 t … 5000 t + 4999`: every row is in
  the block of the point `row / 5000`, and each block holds the layer's pre-activations `preA` of its rows.  The two
  accumulators are written back once, after the last point, when they hold the column sums of the pre-activations
  and of their squares over all 50000 rows.
-/
import proofs.«151943_j8564164788539_2_alg».proof.Proof.KStats0Acc

noncomputable section

namespace Cert.KernelIdeal.KV

open Cert.KernelIdeal Cert.KernelIdeal.Gen Cert.SageSpec Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b)) (c : Dev nD)

/-! ## The row output -/

/-- What the row output ends holding, index by index. -/
def G5 : S50000x128.Idx → EReal := fun i =>
  (preA (r0M V c) (r0X V c) (r0Wl V c) (r0Wr V c) (r0b V c)) ⟨(i 0).val, (i 0).isLt⟩ ⟨(i 1).val, (i 1).isLt⟩

/-- What point `t` writes back is block `t` of `G5`. -/
theorem flushed5_eq (t : Fin cfg0.N) :
    (dat0 V c).flushed 5 t = ((cfg0.win 5).blk t).view.read (Elt Ideal) (G5 V c) := by
  show (cfg0.win 5).cut (grid0.coords t) ((dat0 V c).after 5 t) = _
  rw [after0_5, outs0_blk V c t]
  have hN : cfg0.N = 10 := N_0
  have ht : t.val < 10 := lt_of_lt_of_eq t.isLt hN
  obtain ⟨-, -, -, -, -, -, -, -, -, -, e0, e1, -, -, -, -⟩ := idx0 t
  funext y
  obtain ⟨r, q, rfl⟩ : ∃ (r : Fin 5000) (q : Fin 128), y = ix2 r q := ⟨y 0, y 1, eq_ix2 y⟩
  show k0_pay4 (F := Ideal) (iblk0 V c 0 t) (iblk0 V c 2 t) (iblk0 V c 3 t) (iblk0 V c 1 t) (iblk0 V c 4 t) (ix2 r q) = G5 V c (((cfg0.win 5).blk t).view.emb (ix2 r q))
  refine (pay4_apply (iblk0 V c 0 t) (iblk0 V c 2 t) (iblk0 V c 3 t) (iblk0 V c 1 t) (iblk0 V c 4 t) r q).trans ?_
  refine (pre0_blk V c t r q ⟨t.val * 5000 + r.val, by omega⟩ rfl).trans ?_
  unfold G5
  refine congrArg₂ (preA (r0M V c) (r0X V c) (r0Wl V c) (r0Wr V c) (r0b V c)) (Fin.ext ?_) (Fin.ext ?_)
  · show t.val * 5000 + r.val = win0_5.index t (0 : Fin 2) * 5000 + 1 * r.val; omega
  · show q.val = win0_5.index t (1 : Fin 2) * 128 + 1 * q.val; omega

/-- An index of the row output is in point `t`'s block iff each coordinate is in the block's range on its axis. -/
theorem mem_blk5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24_0).slice (win0_5.rect t)).set ↔ _
  rw [View.set_slice_whole, Rect.mem_set_unit]
  exact Iff.rfl

/-- Every row is in the block of the point `row / 5000`. -/
theorem cover5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, -, -, -, -, e0, e1, -, -, -, -⟩ := idx0 ⟨(i 0).val / 5000, hlt⟩
  refine ⟨⟨(i 0).val / 5000, hlt⟩, flush0_5 _, ?_⟩
  rw [mem_blk5]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]; dsimp only; omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    rw [e1]; omega

theorem region0_P (n : Fin 50000) (j : Fin 128) :
    (dat0 V c).arrAt 5 cfg0.N (ix2 n j) = preA (r0M V c) (r0X V c) (r0Wl V c) (r0Wr V c) (r0b V c) n j :=
  congrFun ((dat0 V c).arrAt_eq_of_cover 5 (G5 V c) (fun t _ => flushed5_eq V c t) (cover5)) (ix2 n j)

/-! ## The two accumulators -/

/-- What the column-sum output ends holding. -/
def G6 : S1x128.Idx → EReal := fun i => colsum (preA (r0M V c) (r0X V c) (r0Wl V c) (r0Wr V c) (r0b V c)) ⟨(i 1).val, (i 1).isLt⟩
/-- What the sum-of-squares output ends holding. -/
def G7 : S1x128.Idx → EReal := fun i =>
  colsum (fun n j => (preA (r0M V c) (r0X V c) (r0Wl V c) (r0Wr V c) (r0b V c)) n j * (preA (r0M V c) (r0X V c) (r0Wl V c) (r0Wr V c) (r0b V c)) n j) ⟨(i 1).val, (i 1).isLt⟩

/-- The one write-back of the column sums, after the last point. -/
theorem flushed6_eq (t : Fin cfg0.N) (hf : (cfg0.win 6).flush t = true) :
    (dat0 V c).flushed 6 t = ((cfg0.win 6).blk t).view.read (Elt Ideal) (G6 V c) := by
  have hN : cfg0.N = 10 := N_0
  have h9 : t.val = 9 := by have := (flush0_6 t).mp hf; have := t.isLt; omega
  show (cfg0.win 6).cut (grid0.coords t) ((dat0 V c).after 6 t) = _
  rw [after0_6]
  obtain ⟨-, -, -, -, -, -, -, -, -, -, -, -, e0, e1, -, -⟩ := idx0 t
  have hz' : (fun a => win0_6.index t a * main_v24_1.ty.shape.size a) = fun _ => 0 := funext fun a => by
    match a with
    | ⟨0, _⟩ => show win0_6.index t (0 : Fin 2) * 1 = 0; omega
    | ⟨1, _⟩ => show win0_6.index t (1 : Fin 2) * 128 = 0; omega
  refine Eq.trans ?_ (Memref.read_access_unit_zero (Elt Ideal) main_v24_1 hz' (fun a => by rw [congrFun hz' a]; simp) (G6 V c)).symm
  funext y
  obtain ⟨z, q, rfl⟩ : ∃ (z : Fin 1) (q : Fin 128), y = ix2 z q := ⟨y 0, y 1, eq_ix2 y⟩
  obtain rfl : z = 0 := Subsingleton.elim _ _
  show (outsAt0 V c t.val t.isLt).2.1 (ix2 0 q) = colsum (preA (r0M V c) (r0X V c) (r0Wl V c) (r0Wr V c) (r0b V c)) q
  refine (acc6_eq V c q t.val t.isLt).trans ?_
  rw [h9]
  exact sum_blocks (fun m => (preA (r0M V c) (r0X V c) (r0Wl V c) (r0Wr V c) (r0b V c)) m q)

/-- The one write-back of the sums of squares, after the last point. -/
theorem flushed7_eq (t : Fin cfg0.N) (hf : (cfg0.win 7).flush t = true) :
    (dat0 V c).flushed 7 t = ((cfg0.win 7).blk t).view.read (Elt Ideal) (G7 V c) := by
  have hN : cfg0.N = 10 := N_0
  have h9 : t.val = 9 := by have := (flush0_7 t).mp hf; have := t.isLt; omega
  show (cfg0.win 7).cut (grid0.coords t) ((dat0 V c).after 7 t) = _
  rw [after0_7]
  obtain ⟨-, -, -, -, -, -, -, -, -, -, -, -, -, -, e0, e1⟩ := idx0 t
  have hz' : (fun a => win0_7.index t a * main_v24_2.ty.shape.size a) = fun _ => 0 := funext fun a => by
    match a with
    | ⟨0, _⟩ => show win0_7.index t (0 : Fin 2) * 1 = 0; omega
    | ⟨1, _⟩ => show win0_7.index t (1 : Fin 2) * 128 = 0; omega
  refine Eq.trans ?_ (Memref.read_access_unit_zero (Elt Ideal) main_v24_2 hz' (fun a => by rw [congrFun hz' a]; simp) (G7 V c)).symm
  funext y
  obtain ⟨z, q, rfl⟩ : ∃ (z : Fin 1) (q : Fin 128), y = ix2 z q := ⟨y 0, y 1, eq_ix2 y⟩
  obtain rfl : z = 0 := Subsingleton.elim _ _
  show (outsAt0 V c t.val t.isLt).2.2 (ix2 0 q) = colsum (fun n j => (preA (r0M V c) (r0X V c) (r0Wl V c) (r0Wr V c) (r0b V c)) n j * (preA (r0M V c) (r0X V c) (r0Wl V c) (r0Wr V c) (r0b V c)) n j) q
  refine (acc7_eq V c q t.val t.isLt).trans ?_
  rw [h9]
  exact sum_blocks (fun m => (preA (r0M V c) (r0X V c) (r0Wl V c) (r0Wr V c) (r0b V c)) m q * (preA (r0M V c) (r0X V c) (r0Wl V c) (r0Wr V c) (r0b V c)) m q)

theorem mem_blk6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v24_1).slice (win0_6.rect t)).set ↔ _
  rw [View.set_slice_whole, Rect.mem_set_unit]
  exact Iff.rfl

theorem mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v24_2).slice (win0_7.rect t)).set ↔ _
  rw [View.set_slice_whole, Rect.mem_set_unit]
  exact Iff.rfl

/-- The last point's block is the whole `1 × 128` array. -/
theorem cover6 (i : S1x128.Idx) : ∃ t : Fin cfg0.N, (cfg0.win 6).flush t = true ∧ i ∈ ((cfg0.win 6).blk t).view.set := by
  have hi0 : (i 0).val < 1 := (i 0).isLt
  have hi1 : (i 1).val < 128 := (i 1).isLt
  have hN : cfg0.N = 10 := N_0
  have hlt : 9 < cfg0.N := by rw [hN]; omega
  obtain ⟨-, -, -, -, -, -, -, -, -, -, -, -, e0, e1, -, -⟩ := idx0 ⟨9, hlt⟩
  refine ⟨⟨9, hlt⟩, (flush0_6 _).mpr rfl, ?_⟩
  rw [mem_blk6]
  intro a
  match a with
  | ⟨0, _⟩ =>
    show win0_6.index ⟨9, hlt⟩ (0 : Fin 2) * 1 ≤ (i 0).val ∧ (i 0).val < win0_6.index ⟨9, hlt⟩ (0 : Fin 2) * 1 + 1
    rw [e0]; omega
  | ⟨1, _⟩ =>
    show win0_6.index ⟨9, hlt⟩ (1 : Fin 2) * 128 ≤ (i 1).val ∧ (i 1).val < win0_6.index ⟨9, hlt⟩ (1 : Fin 2) * 128 + 128
    rw [e1]; omega

theorem cover7 (i : S1x128.Idx) : ∃ t : Fin cfg0.N, (cfg0.win 7).flush t = true ∧ i ∈ ((cfg0.win 7).blk t).view.set := by
  have hi0 : (i 0).val < 1 := (i 0).isLt
  have hi1 : (i 1).val < 128 := (i 1).isLt
  have hN : cfg0.N = 10 := N_0
  have hlt : 9 < cfg0.N := by rw [hN]; omega
  obtain ⟨-, -, -, -, -, -, -, -, -, -, -, -, -, -, e0, e1⟩ := idx0 ⟨9, hlt⟩
  refine ⟨⟨9, hlt⟩, (flush0_7 _).mpr rfl, ?_⟩
  rw [mem_blk7]
  intro a
  match a with
  | ⟨0, _⟩ =>
    show win0_7.index ⟨9, hlt⟩ (0 : Fin 2) * 1 ≤ (i 0).val ∧ (i 0).val < win0_7.index ⟨9, hlt⟩ (0 : Fin 2) * 1 + 1
    rw [e0]; omega
  | ⟨1, _⟩ =>
    show win0_7.index ⟨9, hlt⟩ (1 : Fin 2) * 128 ≤ (i 1).val ∧ (i 1).val < win0_7.index ⟨9, hlt⟩ (1 : Fin 2) * 128 + 128
    rw [e1]; omega

theorem region0_S (j : Fin 128) :
    (dat0 V c).arrAt 6 cfg0.N (ix2 0 j) = colsum (preA (r0M V c) (r0X V c) (r0Wl V c) (r0Wr V c) (r0b V c)) j :=
  congrFun ((dat0 V c).arrAt_eq_of_cover 6 (G6 V c) (flushed6_eq V c) (cover6)) (ix2 0 j)

theorem region0_SS (j : Fin 128) :
    (dat0 V c).arrAt 7 cfg0.N (ix2 0 j)
      = colsum (fun n j => preA (r0M V c) (r0X V c) (r0Wl V c) (r0Wr V c) (r0b V c) n j * preA (r0M V c) (r0X V c) (r0Wl V c) (r0Wr V c) (r0b V c) n j) j :=
  congrFun ((dat0 V c).arrAt_eq_of_cover 7 (G7 V c) (flushed7_eq V c) (cover7)) (ix2 0 j)

end Cert.KernelIdeal.KV

end
-- ==== Proof.KApply1Pay.lean ====
/-
  The normalisation kernel of the first layer, one block at a time: what its two stores hold at an entry,
  as functions of the six blocks it loads.

  The first store is the affine normalisation of the feature block: at row `p`, lane `q`,
  `((x0 p q − mu q) · inv q) · g q + be q`, the four row vectors broadcast down the rows.  The second store
  is the product of that normalised block with the weight block `x5`: a contraction over the 128 lanes, into
  an accumulator of zeros; the changes of format on the way are the identity on the extended reals.
-/
import proofs.«151943_j8564164788539_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.KV

open Cert.KernelIdeal Cert.KernelIdeal.Gen Idealize.ShloMosaic Idealize.ShloMosaic.ValueIdx

/-- A row vector broadcast down 5000 rows reads, at row `p` and lane `q`, its lane `q`. -/
theorem bcast_row128 (x : FVec Ideal S1x128 .f32) (h : S1x128.Broadcasts S5000x128) (p : Fin 5000) (q : Fin 128) :
    broadcastTo S5000x128 x h (ix2 p q) = x (ix2 0 q) :=
  broadcastTo_apply x h (ix2 p q) (ix2 0 q) (fun a => match a with | ⟨0, _⟩ => rfl | ⟨1, _⟩ => rfl)

/-- The first store at an entry: the affine normalisation of the feature block. -/
theorem k1_pay1_apply (x0 : Vec Ideal S5000x128 .f32) (x1 x2 x3 x4 : Vec Ideal S1x128 .f32) (p : Fin 5000) (q : Fin 128) :
    k1_pay1 x0 x1 x2 x3 x4 (ix2 p q)
      = ((x0 (ix2 p q) - x1 (ix2 0 q)) * x2 (ix2 0 q)) * x3 (ix2 0 q) + x4 (ix2 0 q) := by
  unfold k1_pay1
  simp only [shapeCast_self, addf_apply, mulf_apply, subf_apply, bcast_row128]

/-- The contraction's operand indices at an output entry `j` and a contraction index `κ`, coordinate by coordinate:
    the left operand is read at `j`'s row and `κ`'s lane, the right one at `κ`'s row and `j`'s lane. -/
theorem dot1_lhs0 (j : S5000x64.Idx) (κ : dot_S5000x128_S128x64_S5000x64_1_0_0_1_n_n.contr.Idx) :
    (dot_S5000x128_S128x64_S5000x64_1_0_0_1_n_n.lhsIdx j κ 0).val = (j 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem dot1_lhs1 (j : S5000x64.Idx) (κ : dot_S5000x128_S128x64_S5000x64_1_0_0_1_n_n.contr.Idx) :
    (dot_S5000x128_S128x64_S5000x64_1_0_0_1_n_n.lhsIdx j κ 1).val = (κ ⟨0, by decide⟩).val :=
  dot_S5000x128_S128x64_S5000x64_1_0_0_1_n_n.lhsIdx_val_of_single rfl j κ
theorem dot1_rhs0 (j : S5000x64.Idx) (κ : dot_S5000x128_S128x64_S5000x64_1_0_0_1_n_n.contr.Idx) :
    (dot_S5000x128_S128x64_S5000x64_1_0_0_1_n_n.rhsIdx j κ 0).val = (κ ⟨0, by decide⟩).val :=
  dot_S5000x128_S128x64_S5000x64_1_0_0_1_n_n.rhsIdx_val_of_single rfl j κ
theorem dot1_rhs1 (j : S5000x64.Idx) (κ : dot_S5000x128_S128x64_S5000x64_1_0_0_1_n_n.contr.Idx) :
    (dot_S5000x128_S128x64_S5000x64_1_0_0_1_n_n.rhsIdx j κ 1).val = (j 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- At output entry `(p, q)` and lane `k`: row `p`, lane `k` of the left operand, -/
theorem dot1_lhs (p : Fin 5000) (q : Fin 64) (k : Fin 128) :
    dot_S5000x128_S128x64_S5000x64_1_0_0_1_n_n.lhsIdx (ix2 p q)
        ((contrEquiv1 dot_S5000x128_S128x64_S5000x64_1_0_0_1_n_n 128 rfl rfl).symm k) = ix2 p k := by
  have hk := contrEquiv1_symm_val dot_S5000x128_S128x64_S5000x64_1_0_0_1_n_n 128 rfl rfl k
  exact funext fun a => Fin.ext (by
    match a with
    | ⟨0, _⟩ => exact dot1_lhs0 _ _
    | ⟨1, _⟩ => exact (dot1_lhs1 _ _).trans hk)

/-- and row `k`, lane `q` of the right one. -/
theorem dot1_rhs (p : Fin 5000) (q : Fin 64) (k : Fin 128) :
    dot_S5000x128_S128x64_S5000x64_1_0_0_1_n_n.rhsIdx (ix2 p q)
        ((contrEquiv1 dot_S5000x128_S128x64_S5000x64_1_0_0_1_n_n 128 rfl rfl).symm k) = ix2 k q := by
  have hk := contrEquiv1_symm_val dot_S5000x128_S128x64_S5000x64_1_0_0_1_n_n 128 rfl rfl k
  exact funext fun a => Fin.ext (by
    match a with
    | ⟨0, _⟩ => exact (dot1_rhs0 _ _).trans hk
    | ⟨1, _⟩ => exact dot1_rhs1 _ _)

/-- The second store at an entry: the first store's row `p` against column `q` of the weight block, summed over
    the 128 lanes (the accumulator is the zero splat; the narrowing of both operands is the identity). -/
theorem k1_pay2_apply (x0 : Vec Ideal S5000x128 .f32) (x1 x2 x3 x4 : Vec Ideal S1x128 .f32) (x5 : Vec Ideal S128x64 .f32)
    (p : Fin 5000) (q : Fin 64) :
    k1_pay2 x0 x1 x2 x3 x4 x5 (ix2 p q) = ∑ k : Fin 128, k1_pay1 x0 x1 x2 x3 x4 (ix2 p k) * x5 (ix2 k q) := by
  unfold k1_pay2
  generalize k1_pay1 x0 x1 x2 x3 x4 = y
  simp only [matmul]
  rw [Ideal.matmul_constant_zero_apply,
    ← Equiv.sum_comp (contrEquiv1 dot_S5000x128_S128x64_S5000x64_1_0_0_1_n_n 128 rfl rfl).symm]
  refine Finset.sum_congr rfl fun k _ => ?_
  rw [dot1_lhs, dot1_rhs]
  rfl

end Cert.KernelIdeal.KV

end
-- ==== Proof.KApply1.lean ====
/-
  The first layer's normalisation kernel over its whole grid: what the two output arrays hold once every
  point has written its block back, entry by entry, as functions of the six arrays the kernel finds.

  The grid has 10 points; point `t` reads rows `5000 t … 5000 t + 4999` of the feature array and the whole of the
  four row vectors and of the weight, and writes the same rows of the two outputs.  So row `n` of an output is
  written by point `n / 5000` alone, and holds the block formula at row `n mod 5000`: the affine normalisation
  `((P n j − mu j) · inv j) · g j + be j`, and its product with the weight.
-/
import proofs.«151943_j8564164788539_2_alg».proof.Proof.Gen.KernelIdeal.Frame
import proofs.«151943_j8564164788539_2_alg».proof.Proof.SageSpec
import proofs.«151943_j8564164788539_2_alg».proof.Proof.KApply1Pay
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KV

open Cert.KernelIdeal Cert.KernelIdeal.Gen Cert.SageSpec Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b)) (c : Dev nD)

/-! ## The arrays the kernel finds, curried -/

/-- The feature array. -/
def r1P (n : Fin 50000) (j : Fin 128) : EReal := (V c (Pipeline.arrRef spec1 0) : S50000x128.Idx → EReal) (ix2 n j)
/-- The column means. -/
def r1mu (j : Fin 128) : EReal := (V c (Pipeline.arrRef spec1 1) : S1x128.Idx → EReal) (ix2 0 j)
/-- The column scales. -/
def r1inv (j : Fin 128) : EReal := (V c (Pipeline.arrRef spec1 2) : S1x128.Idx → EReal) (ix2 0 j)
/-- The gains. -/
def r1g (j : Fin 128) : EReal := (V c (Pipeline.arrRef spec1 3) : S1x128.Idx → EReal) (ix2 0 j)
/-- The offsets. -/
def r1be (j : Fin 128) : EReal := (V c (Pipeline.arrRef spec1 4) : S1x128.Idx → EReal) (ix2 0 j)
/-- The next layer's left weight. -/
def r1Wn (k : Fin 128) (j : Fin 64) : EReal := (V c (Pipeline.arrRef spec1 5) : S128x64.Idx → EReal) (ix2 k j)

/-! ## The windows' index maps over the grid -/

theorem hz1 : (![0, 0] : Fin 2 → Nat) = fun _ => 0 := funext fun a => by fin_cases a <;> rfl

/-- The row-block windows (the features and the two outputs) sit at block `t` of the rows at point `t`; the
    row vectors and the weight at their one block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem lt_N1 (t : Fin cfg1.N) : t.val < 10 := lt_of_lt_of_eq t.isLt N_1

/-! ## The input blocks, entry by entry -/

/-- Row `p` of the feature block at point `t` is row `5000 t + p` of the array. -/
theorem blk1_0_apply (t : Fin cfg1.N) (p : Fin 5000) (q : Fin 128) (n : Fin 50000) (hn : n.val = t.val * 5000 + p.val) :
    (iblk1 V c 0 t : Vec Ideal S5000x128 .f32) (ix2 p q) = r1P V c n q := by
  obtain ⟨e0, e1, -⟩ := idx_facts1 t
  show (V c (Pipeline.arrRef spec1 0) : S50000x128.Idx → EReal) (((cfg1.win 0).blk t).view.emb (ix2 p q))
    = (V c (Pipeline.arrRef spec1 0) : S50000x128.Idx → EReal) (ix2 n q)
  refine congrArg _ (funext fun a => Fin.ext ?_)
  match a with
  | ⟨0, _⟩ => show win1_0.index t (0 : Fin 2) * 5000 + 1 * p.val = n.val; omega
  | ⟨1, _⟩ => show win1_0.index t (1 : Fin 2) * 128 + 1 * q.val = q.val; omega

/-- The means' one block is the whole row vector. -/
theorem blk1_1_apply (t : Fin cfg1.N) (q : Fin 128) :
    (iblk1 V c 1 t : Vec Ideal S1x128 .f32) (ix2 0 q) = r1mu V c q := by
  obtain ⟨-, -, e0, e1, -⟩ := idx_facts1 t
  show (V c (Pipeline.arrRef spec1 1) : S1x128.Idx → EReal) (((cfg1.win 1).blk t).view.emb (ix2 0 q))
    = (V c (Pipeline.arrRef spec1 1) : S1x128.Idx → EReal) (ix2 0 q)
  refine congrArg _ (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- The scales' one block is the whole row vector. -/
theorem blk1_2_apply (t : Fin cfg1.N) (q : Fin 128) :
    (iblk1 V c 2 t : Vec Ideal S1x128 .f32) (ix2 0 q) = r1inv V c q := by
  obtain ⟨-, -, -, -, e0, e1, -⟩ := idx_facts1 t
  show (V c (Pipeline.arrRef spec1 2) : S1x128.Idx → EReal) (((cfg1.win 2).blk t).view.emb (ix2 0 q))
    = (V c (Pipeline.arrRef spec1 2) : S1x128.Idx → EReal) (ix2 0 q)
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- The gains' one block is the whole row vector. -/
theorem blk1_3_apply (t : Fin cfg1.N) (q : Fin 128) :
    (iblk1 V c 3 t : Vec Ideal S1x128 .f32) (ix2 0 q) = r1g V c q := by
  obtain ⟨-, -, -, -, -, -, e0, e1, -⟩ := idx_facts1 t
  show (V c (Pipeline.arrRef spec1 3) : S1x128.Idx → EReal) (((cfg1.win 3).blk t).view.emb (ix2 0 q))
    = (V c (Pipeline.arrRef spec1 3) : S1x128.Idx → EReal) (ix2 0 q)
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- The offsets' one block is the whole row vector. -/
theorem blk1_4_apply (t : Fin cfg1.N) (q : Fin 128) :
    (iblk1 V c 4 t : Vec Ideal S1x128 .f32) (ix2 0 q) = r1be V c q := by
  obtain ⟨-, -, -, -, -, -, -, -, e0, e1, -⟩ := idx_facts1 t
  show (V c (Pipeline.arrRef spec1 4) : S1x128.Idx → EReal) (((cfg1.win 4).blk t).view.emb (ix2 0 q))
    = (V c (Pipeline.arrRef spec1 4) : S1x128.Idx → EReal) (ix2 0 q)
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- The weight's one block is the whole weight. -/
theorem blk1_5_apply (t : Fin cfg1.N) (k : Fin 128) (q : Fin 64) :
    (iblk1 V c 5 t : Vec Ideal S128x64 .f32) (ix2 k q) = r1Wn V c k q := by
  obtain ⟨-, -, -, -, -, -, -, -, -, -, e0, e1, -⟩ := idx_facts1 t
  show (V c (Pipeline.arrRef spec1 5) : S128x64.Idx → EReal) (((cfg1.win 5).blk t).view.emb (ix2 k q))
    = (V c (Pipeline.arrRef spec1 5) : S128x64.Idx → EReal) (ix2 k q)
  refine congrArg _ (funext fun a => Fin.ext ?_)
  match a with
  | ⟨0, _⟩ => show win1_5.index t (0 : Fin 2) * 128 + 1 * k.val = k.val; omega
  | ⟨1, _⟩ => show win1_5.index t (1 : Fin 2) * 64 + 1 * q.val = q.val; omega

/-! ## The output blocks in their arrays -/

/-- Row `p` of the first output's block at point `t` is row `5000 t + p` of its array. -/
theorem emb1_6 (t : Fin cfg1.N) (p : Fin 5000) (q : Fin 128) (n : Fin 50000) (hn : n.val = t.val * 5000 + p.val) :
    (((cfg1.win 6).blk t).view.emb (ix2 p q) : S50000x128.Idx) = ix2 n q := by
  obtain ⟨-, -, -, -, -, -, -, -, -, -, -, -, e0, e1, -⟩ := idx_facts1 t
  refine funext fun a => Fin.ext ?_
  match a with
  | ⟨0, _⟩ => show win1_6.index t (0 : Fin 2) * 5000 + 1 * p.val = n.val; omega
  | ⟨1, _⟩ => show win1_6.index t (1 : Fin 2) * 128 + 1 * q.val = q.val; omega

/-- Row `p` of the second output's block at point `t` is row `5000 t + p` of its array. -/
theorem emb1_7 (t : Fin cfg1.N) (p : Fin 5000) (q : Fin 64) (n : Fin 50000) (hn : n.val = t.val * 5000 + p.val) :
    (((cfg1.win 7).blk t).view.emb (ix2 p q) : S50000x64.Idx) = ix2 n q := by
  obtain ⟨-, -, -, -, -, -, -, -, -, -, -, -, -, -, e0, e1⟩ := idx_facts1 t
  refine funext fun a => Fin.ext ?_
  match a with
  | ⟨0, _⟩ => show win1_7.index t (0 : Fin 2) * 5000 + 1 * p.val = n.val; omega
  | ⟨1, _⟩ => show win1_7.index t (1 : Fin 2) * 64 + 1 * q.val = q.val; omega

/-! ## The two output arrays as whole-array functions -/

/-- The normalised features. -/
def H1 : S50000x128.Idx → EReal := fun i =>
  affine (r1P V c) (r1mu V c) (r1inv V c) (r1g V c) (r1be V c) (i 0) (i 1)
/-- The normalised features times the next layer's left weight. -/
def Y1 : S50000x64.Idx → EReal := fun i =>
  mm (affine (r1P V c) (r1mu V c) (r1inv V c) (r1g V c) (r1be V c)) (r1Wn V c) (i 0) (i 1)

/-- What point `t` writes back to the first output is block `t` of `H1`. -/
theorem flushed1_6_eq (t : Fin cfg1.N) :
    (dat1 V c).flushed 6 t = ((cfg1.win 6).blk t).view.read (Elt Ideal) (H1 V c) := by
  show (cfg1.win 6).cut (grid1.coords t) ((dat1 V c).after 6 t) = _
  rw [after1_6]
  unfold out1_6
  rw [View.canon_unit_zero hz1]
  simp only [View.ld_unit_zero (S := S5000x128) hz1, View.ld_unit_zero (S := S1x128) hz1]
  funext y
  obtain ⟨p, q, rfl⟩ : ∃ (p : Fin 5000) (q : Fin 128), y = ix2 p q := ⟨y 0, y 1, eq_ix2 y⟩
  have ht := lt_N1 t
  have hn : (⟨t.val * 5000 + p.val, by omega⟩ : Fin 50000).val = t.val * 5000 + p.val := rfl
  show k1_pay1 (iblk1 V c 0 t) (iblk1 V c 1 t) (iblk1 V c 2 t) (iblk1 V c 3 t) (iblk1 V c 4 t) (ix2 p q)
    = H1 V c (((cfg1.win 6).blk t).view.emb (ix2 p q))
  rw [emb1_6 t p q _ hn]
  refine (k1_pay1_apply (iblk1 V c 0 t) (iblk1 V c 1 t) (iblk1 V c 2 t) (iblk1 V c 3 t) (iblk1 V c 4 t) p q).trans ?_
  rw [blk1_0_apply V c t p q _ hn, blk1_1_apply V c t q, blk1_2_apply V c t q, blk1_3_apply V c t q, blk1_4_apply V c t q]
  rfl

/-- An index of the first output's array is in point `t`'s block iff each coordinate is in the block's range. -/
theorem mem_blk1_6 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v38_0).slice (win1_6.rect t)).set ↔ _
  rw [View.set_slice_whole, Rect.mem_set_unit]
  exact Iff.rfl

/-- Row `n` of the first output is in the block of point `n / 5000`, which writes back. -/
theorem covered1_6 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, lt_of_lt_of_eq (show (i 0).val / 5000 < 10 by omega) N_1.symm⟩, rfl⟩
  obtain ⟨-, -, -, -, -, -, -, -, -, -, -, -, e0, e1, -⟩ := idx_facts1 t
  refine ⟨t, flush1_6 t, ?_⟩
  rw [mem_blk1_6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The first output array after the region. -/
theorem final1_H : (dat1 V c).arrAt 6 cfg1.N = H1 V c :=
  (dat1 V c).arrAt_eq_of_cover 6 (H1 V c) (fun t _ => flushed1_6_eq V c t) covered1_6

/-- THE FIRST OUTPUT, entry by entry: the affine normalisation of the features the kernel finds. -/
theorem region1_H (n : Fin 50000) (j : Fin 128) :
    (dat1 V c).arrAt 6 cfg1.N (ix2 n j) = affine (r1P V c) (r1mu V c) (r1inv V c) (r1g V c) (r1be V c) n j :=
  congrFun (final1_H V c) (ix2 n j)

end Cert.KernelIdeal.KV

end
-- ==== Proof.KApply1Y.lean ====
/-
  The first layer's normalisation kernel, its second output: the normalised features times the next layer's left
  weight.  Point `t` writes rows `5000 t … 5000 t + 4999`; row `n`, lane `j` holds the sum over the 128 lanes `k` of
  the normalised entry `(n, k)` times the weight's entry `(k, j)`.
-/
import proofs.«151943_j8564164788539_2_alg».proof.Proof.KApply1

noncomputable section

namespace Cert.KernelIdeal.KV

open Cert.KernelIdeal Cert.KernelIdeal.Gen Cert.SageSpec Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b)) (c : Dev nD)

/-- What point `t` writes back to the second output is block `t` of `Y1`. -/
theorem flushed1_7_eq (t : Fin cfg1.N) :
    (dat1 V c).flushed 7 t = ((cfg1.win 7).blk t).view.read (Elt Ideal) (Y1 V c) := by
  show (cfg1.win 7).cut (grid1.coords t) ((dat1 V c).after 7 t) = _
  rw [after1_7]
  unfold out1_7
  rw [View.canon_unit_zero hz1]
  simp only [View.ld_unit_zero (S := S5000x128) hz1, View.ld_unit_zero (S := S1x128) hz1, View.ld_unit_zero (S := S128x64) hz1]
  funext y
  obtain ⟨p, q, rfl⟩ : ∃ (p : Fin 5000) (q : Fin 64), y = ix2 p q := ⟨y 0, y 1, eq_ix2 y⟩
  have ht := lt_N1 t
  have hn : (⟨t.val * 5000 + p.val, by omega⟩ : Fin 50000).val = t.val * 5000 + p.val := rfl
  show k1_pay2 (iblk1 V c 0 t) (iblk1 V c 1 t) (iblk1 V c 2 t) (iblk1 V c 3 t) (iblk1 V c 4 t) (iblk1 V c 5 t) (ix2 p q)
    = Y1 V c (((cfg1.win 7).blk t).view.emb (ix2 p q))
  rw [emb1_7 t p q _ hn]
  refine (k1_pay2_apply (iblk1 V c 0 t) (iblk1 V c 1 t) (iblk1 V c 2 t) (iblk1 V c 3 t) (iblk1 V c 4 t) (iblk1 V c 5 t) p q).trans ?_
  show _ = ∑ k : Fin 128, affine (r1P V c) (r1mu V c) (r1inv V c) (r1g V c) (r1be V c) ⟨t.val * 5000 + p.val, by omega⟩ k * r1Wn V c k q
  refine Finset.sum_congr rfl fun k _ => ?_
  refine congrArg₂ (· * ·) ((k1_pay1_apply (iblk1 V c 0 t) (iblk1 V c 1 t) (iblk1 V c 2 t) (iblk1 V c 3 t) (iblk1 V c 4 t) p k).trans ?_) (blk1_5_apply V c t k q)
  rw [blk1_0_apply V c t p k _ hn, blk1_1_apply V c t k, blk1_2_apply V c t k, blk1_3_apply V c t k, blk1_4_apply V c t k]
  rfl

/-- An index of the second output's array is in point `t`'s block iff each coordinate is in the block's range. -/
theorem mem_blk1_7 (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v38_1).slice (win1_7.rect t)).set ↔ _
  rw [View.set_slice_whole, Rect.mem_set_unit]
  exact Iff.rfl

/-- Row `n` of the second output is in the block of point `n / 5000`, which writes back. -/
theorem covered1_7 (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, lt_of_lt_of_eq (show (i 0).val / 5000 < 10 by omega) N_1.symm⟩, rfl⟩
  obtain ⟨-, -, -, -, -, -, -, -, -, -, -, -, -, -, e0, e1⟩ := idx_facts1 t
  refine ⟨t, flush1_7 t, ?_⟩
  rw [mem_blk1_7]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

/-- The second output array after the region. -/
theorem final1_Y : (dat1 V c).arrAt 7 cfg1.N = Y1 V c :=
  (dat1 V c).arrAt_eq_of_cover 7 (Y1 V c) (fun t _ => flushed1_7_eq V c t) covered1_7

/-- THE SECOND OUTPUT, entry by entry: the normalised features times the weight the kernel finds. -/
theorem region1_Y (n : Fin 50000) (j : Fin 64) :
    (dat1 V c).arrAt 7 cfg1.N (ix2 n j)
      = mm (affine (r1P V c) (r1mu V c) (r1inv V c) (r1g V c) (r1be V c)) (r1Wn V c) n j :=
  congrFun (final1_Y V c) (ix2 n j)

end Cert.KernelIdeal.KV

end
-- ==== Proof.SageIdx.lean ====
/-
  Where an edge reads and where it lands.  The edge list reaches the host's gather and scatter as a column
  of 32-bit words, one per edge.  A gather reads the word signed and clamps it into the table's rows; an
  accumulating scatter reads it signed and DROPS the contribution when it names no row.
-/
import Idealize.ShloMosaic.Lib.ValueIdx

noncomputable section

namespace Cert.SageIdx

open Idealize.ShloMosaic Idealize.ShloMosaic.ValueIdx

/-- The row of an `N`-row array on which edge `e`'s contribution lands: its word read signed, when that
    is a row; otherwise the contribution is dropped. -/
def landOf {E : ℕ} (N : ℕ) (col : IVec (⟨2, ![E, 1]⟩ : Shape) 32) (e : Fin E) : Option (Fin N) :=
  if h : 0 ≤ (col (ix2 e 0)).toInt ∧ (col (ix2 e 0)).toInt < (N : Int) then
    some ⟨(col (ix2 e 0)).toInt.toNat, by omega⟩
  else none

/-- The row of an `N`-row table that edge `e` reads: its word read signed and clamped into `[0, N-1]`. -/
def srcOf {E : ℕ} (N : ℕ) (hN : 0 < N) (col : IVec (⟨2, ![E, 1]⟩ : Shape) 32) (e : Fin E) : Fin N :=
  ⟨min (col (ix2 e 0)).toInt.toNat (N - 1), by omega⟩

end Cert.SageIdx

end
-- ==== Proof.KWalkCols.lean ====
/-
  The two edge columns, named once.  The host stretch before the first kernel region slices the edge list
  into its source row and its destination row, wraps a negative source word by the number of nodes, and
  lays each out as a column with one word per edge.  Every aggregation stage reads these two columns.

  Also here: the two facts about the host's gather and accumulating scatter that the aggregation stages
  rest on, as propositions over the dimension records this program uses.
-/
import proofs.«151943_j8564164788539_2_alg».proof.Proof.Gen.KernelIdeal.Frame
import Idealize.ShloMosaic.Lib.StableHlo.Run
import Idealize.ShloMosaic.Lib.Pipeline.Value
import Idealize.ShloMosaic.Lib.ValueIdx
import proofs.«151943_j8564164788539_2_alg».proof.Proof.SageSpec
import proofs.«151943_j8564164788539_2_alg».proof.Proof.SageIdx

noncomputable section

namespace Cert.KernelIdeal.KW

open Cert.KernelIdeal Cert.KernelIdeal.Gen Cert.SageSpec Cert.SageIdx Idealize.ShloMosaic Idealize.ShloMosaic.StableHlo
open Idealize.ShloMosaic.ValueIdx Idealize.SL.Sem

variable (m : (ℓ : Loc nD τ sig) → Buf (Elt Ideal) ℓ) (ρ : Dev nD → PrngReg) (c : Dev nD)

/-- The source words, negative ones wrapped by the node count, as a column with one word per edge. -/
def srcCol : IVec S800000x1 32 := W1 m ρ c (Proc.devRef .tc main_v16)

/-- The destination words as a column with one word per edge. -/
def dstCol : IVec S800000x1 32 := W1 m ρ c (Proc.devRef .tc main_v19)

/-- The column the node counts are scattered along is the destination column: both are the same layout
    of the destination row. -/
theorem W1_v6 : (W1 m ρ c (Proc.devRef .tc main_v6) : IVec S800000x1 32) = dstCol m ρ c := by
  unfold dstCol
  dsimp only [W1]
  after_results_simp

/-- Ones scattered along a column of destination words into zeros, clipped below at one, count the edges
    landing on each node, at least one. -/
def CntRead : Prop :=
  ∀ (Z : FVec Ideal S50000 .f32) (dcol : IVec S800000x1 32) (Ones : FVec Ideal S800000 .f32) (Ones' : FVec Ideal S50000 .f32),
    (∀ i, Z i = 0) → (∀ i, Ones i = 1) → (∀ i, Ones' i = 1) → ∀ n : Fin 50000,
      maximumf (F := Ideal) (Host.scatterAdd (F := Ideal) scatter_S50000_S800000x1_S800000_n_0_0_1 Z dcol Ones) Ones' (ix1 n)
        = cnt (landOf 50000 dcol) n

/-- Rows of a 64-column table gathered along a column of source words, scattered with addition along a column
    of destination words into zeros, and divided entrywise by an array constant along each row, are the mean
    aggregation of the table. -/
def AggRead64 : Prop :=
  ∀ (Z X Dv : FVec Ideal S50000x64 .f32) (dcol scol : IVec S800000x1 32) (dn : Fin 50000 → EReal),
    (∀ i, Z i = 0) → (∀ n j, Dv (ix2 n j) = dn n) → ∀ (n : Fin 50000) (j : Fin 64),
      Host.divf (F := Ideal) (Host.scatterAdd (F := Ideal) scatter_S50000x64_S800000x1_S800000x64_1_0_0_1 Z dcol
          (Host.gather gather_S50000x64_S800000x1_S800000x64_1_0_n_n_0_1_164 X scol)) Dv (ix2 n j)
        = agg (landOf 50000 dcol) (srcOf 50000 (by norm_num) scol) dn (fun n k => X (ix2 n k)) n j

/-- The same for a 32-column table. -/
def AggRead32 : Prop :=
  ∀ (Z X Dv : FVec Ideal S50000x32 .f32) (dcol scol : IVec S800000x1 32) (dn : Fin 50000 → EReal),
    (∀ i, Z i = 0) → (∀ n j, Dv (ix2 n j) = dn n) → ∀ (n : Fin 50000) (j : Fin 32),
      Host.divf (F := Ideal) (Host.scatterAdd (F := Ideal) scatter_S50000x32_S800000x1_S800000x32_1_0_0_1 Z dcol
          (Host.gather gather_S50000x32_S800000x1_S800000x32_1_0_n_n_0_1_132 X scol)) Dv (ix2 n j)
        = agg (landOf 50000 dcol) (srcOf 50000 (by norm_num) scol) dn (fun n k => X (ix2 n k)) n j

end Cert.KernelIdeal.KW

end
-- ==== Proof.SageIdxScatter.lean ====
/-
  An accumulating scatter read at an index.

  An accumulating scatter adds to every element of its operand the updates that land on it.  Each update
  carries one start index, a word read SIGNED off a column of scatter indices and not clamped; an update whose
  start index names no row of the operand is dropped.

  Two layouts are read here, general in the extents.  ROWS: the operand is N × C, the updates E × C, update
  (e, j) lands on row "word e" and column j.  SCALARS: the operand has N elements, the updates E, update e
  lands on element "word e".  In both the sum landing on row n runs over the updates e whose word, read
  signed, is n.
-/
import proofs.«151943_j8564164788539_2_alg».proof.Proof.SageSpec
import proofs.«151943_j8564164788539_2_alg».proof.Proof.SageIdx
import Idealize.ShloMosaic.Lib.ValueIdx
import Idealize.ShloMosaic.PureOps.Ideal
import Idealize.ShloMosaic.PureOps.Ideal.Laws
import Idealize.ShloMosaic.PureOps.Dims

noncomputable section

open scoped BigOperators

namespace Cert.SageIdx

open Cert.SageSpec Idealize.ShloMosaic Idealize.ShloMosaic.ValueIdx

variable {N E C : ℕ}

/-- A contribution lands on row n exactly when its word, read signed, is n. -/
theorem landOf_eq_some_iff (col : IVec (⟨2, ![E, 1]⟩ : Shape) 32) (e : Fin E) (n : Fin N) :
    landOf N col e = some n ↔ (col (ix2 e 0)).toInt = (n.val : Int) := by
  unfold landOf
  split
  · next h =>
    rw [Option.some_inj]
    constructor
    · intro hf
      have hv : (col (ix2 e 0)).toInt.toNat = n.val := congrArg Fin.val hf
      omega
    · intro hv
      apply Fin.ext
      show (col (ix2 e 0)).toInt.toNat = n.val
      omega
  · next h =>
    constructor
    · intro hf; exact absurd hf (by simp)
    · intro hv
      exfalso; apply h
      have := n.isLt
      omega

/-! ## Rows: operand N × C, index words a column E × 1, updates E × C -/

section Rows

/-- The dimension numbers of a row scatter: the updates' axis 1 is the window, the operand's axis 0 is
    inserted and is the axis the start index names, the index vector lies on the scatter indices' axis 1. -/
abbrev rowScatDims (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

variable (wf : ScatterDims.WF ⟨2, ![N, C]⟩ ⟨2, ![E, 1]⟩ ⟨2, ![E, C]⟩ [1] [0] [0] 1) {w : ℕ}

/-- On the operand's axis 0 the start of update (e, j) is the word of e read signed. -/
theorem start_rows0 (idx : IVec (⟨2, ![E, 1]⟩ : Shape) w) (e : Fin E) (j : Fin C) :
    (rowScatDims N E C wf).start (ix2 e j) idx (0 : Fin 2) = (idx (ix2 e 0)).toInt := by
  unfold ScatterDims.start
  rw [dif_pos (show (0 : Fin 2) ∈ (rowScatDims N E C wf).scatterDimsToOperandDims from List.mem_singleton.mpr rfl)]
  have hsi : (rowScatDims N E C wf).siIdx (ix2 e j) ⟨List.idxOf (0 : Fin 2) (rowScatDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1 the start is zero: the start index names axis 0 only. -/
theorem start_rows1 (idx : IVec (⟨2, ![E, 1]⟩ : Shape) w) (u : (⟨2, ![E, C]⟩ : Shape).Idx) :
    (rowScatDims N E C wf).start u idx (1 : Fin 2) = 0 := by
  unfold ScatterDims.start
  rw [dif_neg (show (1 : Fin 2) ∉ ([0] : List (Fin 2)) by decide)]

/-- The inserted axis 0 has no window coordinate. -/
theorem window_rows0 (u : (⟨2, ![E, C]⟩ : Shape).Idx) : (rowScatDims N E C wf).window u (0 : Fin 2) = 0 := by
  unfold ScatterDims.window
  rw [dif_neg (by simp [ScatterDims.sKept, Shape.kept])]

/-- On axis 1 the window coordinate of update (e, j) is j. -/
theorem window_rows1 (e : Fin E) (j : Fin C) : (rowScatDims N E C wf).window (ix2 e j) (1 : Fin 2) = j.val := by
  unfold ScatterDims.window
  rw [dif_pos (by simp [ScatterDims.sKept, Shape.kept])]
  rfl

/-- WHERE A ROW UPDATE LANDS: update (e, j) lands on (n, j') exactly when the word of e, read signed, is n
    and j = j'. -/
theorem resultIdx?_rows_eq_some_iff (idx : IVec (⟨2, ![E, 1]⟩ : Shape) w) (e : Fin E) (j : Fin C) (n : Fin N) (j' : Fin C) :
    (rowScatDims N E C wf).resultIdx? (ix2 e j) idx = some (ix2 n j') ↔ ((idx (ix2 e 0)).toInt = (n.val : Int) ∧ j' = j) := by
  unfold ScatterDims.resultIdx?
  split
  · next h =>
    rw [Option.some_inj]
    constructor
    · intro hf
      have h0 : ((rowScatDims N E C wf).start (ix2 e j) idx (0 : Fin 2)
          + ((rowScatDims N E C wf).window (ix2 e j) (0 : Fin 2) : ℕ)).toNat = n.val :=
        congrArg (fun f : (⟨2, ![N, C]⟩ : Shape).Idx => (f (0 : Fin 2)).val) hf
      have h1 : ((rowScatDims N E C wf).start (ix2 e j) idx (1 : Fin 2)
          + ((rowScatDims N E C wf).window (ix2 e j) (1 : Fin 2) : ℕ)).toNat = j'.val :=
        congrArg (fun f : (⟨2, ![N, C]⟩ : Shape).Idx => (f (1 : Fin 2)).val) hf
      rw [start_rows0, window_rows0] at h0
      rw [start_rows1, window_rows1] at h1
      have hh := (h (0 : Fin 2)).1
      rw [start_rows0, window_rows0] at hh
      refine ⟨by omega, Fin.ext (by omega)⟩
    · rintro ⟨hv, rfl⟩
      funext ax
      apply Fin.ext
      match ax with
      | ⟨0, _⟩ =>
        show ((rowScatDims N E C wf).start (ix2 e j') idx (0 : Fin 2)
          + ((rowScatDims N E C wf).window (ix2 e j') (0 : Fin 2) : ℕ)).toNat = n.val
        rw [start_rows0, window_rows0, hv]
        omega
      | ⟨1, _⟩ =>
        show ((rowScatDims N E C wf).start (ix2 e j') idx (1 : Fin 2)
          + ((rowScatDims N E C wf).window (ix2 e j') (1 : Fin 2) : ℕ)).toNat = j'.val
        rw [start_rows1, window_rows1]
        omega
  · next h =>
    constructor
    · intro hf; exact absurd hf (by simp)
    · rintro ⟨hv, rfl⟩
      exfalso; apply h
      intro ax
      match ax with
      | ⟨0, _⟩ =>
        show 0 ≤ (rowScatDims N E C wf).start (ix2 e j') idx (0 : Fin 2)
            + ((rowScatDims N E C wf).window (ix2 e j') (0 : Fin 2) : ℕ)
          ∧ (rowScatDims N E C wf).start (ix2 e j') idx (0 : Fin 2)
            + ((rowScatDims N E C wf).window (ix2 e j') (0 : Fin 2) : ℕ) < ((N : ℕ) : Int)
        rw [start_rows0, window_rows0, hv]
        have := n.isLt
        omega
      | ⟨1, _⟩ =>
        show 0 ≤ (rowScatDims N E C wf).start (ix2 e j') idx (1 : Fin 2)
            + ((rowScatDims N E C wf).window (ix2 e j') (1 : Fin 2) : ℕ)
          ∧ (rowScatDims N E C wf).start (ix2 e j') idx (1 : Fin 2)
            + ((rowScatDims N E C wf).window (ix2 e j') (1 : Fin 2) : ℕ) < ((C : ℕ) : Int)
        rw [start_rows1, window_rows1]
        have := j'.isLt
        omega

/-- THE ROW SCATTER READ AT (n, j), over the dimension numbers built from their conditions: the operand there
    plus the updates (e, j) of the e whose word, read signed, is n. -/
theorem scatterAdd_rows_built (x : (⟨2, ![N, C]⟩ : Shape).Idx → EReal) (idx : IVec (⟨2, ![E, 1]⟩ : Shape) w)
    (upd : (⟨2, ![E, C]⟩ : Shape).Idx → EReal) (n : Fin N) (j : Fin C) :
    Ideal.hostScatterAdd (rowScatDims N E C wf) x idx upd (ix2 n j)
      = x (ix2 n j) + ∑ e ∈ Finset.univ.filter (fun e : Fin E => (idx (ix2 e 0)).toInt = (n.val : Int)), upd (ix2 e j) := by
  unfold Ideal.hostScatterAdd
  refine congrArg (fun t => x (ix2 n j) + t) ?_
  rw [Finset.sum_filter, Finset.sum_filter, sum_idx2]
  refine Finset.sum_congr rfl fun e _ => ?_
  simp only [resultIdx?_rows_eq_some_iff]
  by_cases hP : (idx (ix2 e 0)).toInt = (n.val : Int)
  · simp [hP]
  · simp [hP]

end Rows

/-- THE ROW SCATTER READ AT (n, j): the operand there plus the updates (e, j) of the edges e landing on row n.
    The dimension numbers are a variable; the four hypotheses say which they are. -/
theorem scatterAdd_rows_apply (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec (⟨2, ![E, 1]⟩ : Shape) 32)
    (upd : (⟨2, ![E, C]⟩ : Shape).Idx → EReal) (n : Fin N) (j : Fin C) :
    Ideal.hostScatterAdd d x idx upd (ix2 n j)
      = x (ix2 n j) + ∑ e ∈ Finset.univ.filter (fun e => landOf N idx e = some n), upd (ix2 e j) := by
  obtain ⟨uw, iw, sd, iv, wf⟩ := d
  simp only at hu hi hs hv
  subst hu hi hs hv
  refine (scatterAdd_rows_built wf x idx upd n j).trans ?_
  refine congrArg (fun t => x (ix2 n j) + t) ?_
  refine Finset.sum_congr ?_ fun _ _ => rfl
  ext e
  simp only [Finset.mem_filter, Finset.mem_univ, true_and]
  exact (landOf_eq_some_iff idx e n).symm

/-! ## Scalars: operand of N elements, index words a column E × 1, updates E scalars -/

/-- A rank-1 index set is its one coordinate range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Scalars

/-- The dimension numbers of a scalar scatter: the updates have no window axis, the operand's one axis is
    inserted and is the axis the start index names, the index vector lies on the scatter indices' axis 1. -/
abbrev scalarScatDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

variable (wf : ScatterDims.WF ⟨1, ![N]⟩ ⟨2, ![E, 1]⟩ ⟨1, ![E]⟩ [] [0] [0] 1) {w : ℕ}

/-- The start of update e is the word of e read signed. -/
theorem start_scalars (idx : IVec (⟨2, ![E, 1]⟩ : Shape) w) (e : Fin E) (ax : Fin 1) :
    (scalarScatDims N E wf).start (ix1 e) idx ax = (idx (ix2 e 0)).toInt := by
  obtain rfl : ax = 0 := Subsingleton.elim _ _
  unfold ScatterDims.start
  rw [dif_pos (show (0 : Fin 1) ∈ (scalarScatDims N E wf).scatterDimsToOperandDims from List.mem_singleton.mpr rfl)]
  have hsi : (scalarScatDims N E wf).siIdx (ix1 e) ⟨List.idxOf (0 : Fin 1) (scalarScatDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- A scalar update has no window coordinate: the operand's one axis is inserted, none is kept. -/
theorem window_scalars (u : (⟨1, ![E]⟩ : Shape).Idx) (ax : Fin 1) : (scalarScatDims N E wf).window u ax = 0 := by
  obtain rfl : ax = 0 := Subsingleton.elim _ _
  unfold ScatterDims.window
  rw [dif_neg (by simp [ScatterDims.sKept, Shape.kept])]

/-- WHERE A SCALAR UPDATE LANDS: update e lands on element n exactly when the word of e, read signed, is n. -/
theorem resultIdx?_scalars_eq_some_iff (idx : IVec (⟨2, ![E, 1]⟩ : Shape) w) (e : Fin E) (n : Fin N) :
    (scalarScatDims N E wf).resultIdx? (ix1 e) idx = some (ix1 n) ↔ (idx (ix2 e 0)).toInt = (n.val : Int) := by
  unfold ScatterDims.resultIdx?
  split
  · next h =>
    rw [Option.some_inj]
    constructor
    · intro hf
      have h0 : ((scalarScatDims N E wf).start (ix1 e) idx (0 : Fin 1)
          + ((scalarScatDims N E wf).window (ix1 e) (0 : Fin 1) : ℕ)).toNat = n.val :=
        congrArg (fun f : (⟨1, ![N]⟩ : Shape).Idx => (f (0 : Fin 1)).val) hf
      rw [start_scalars, window_scalars] at h0
      have hh := (h (0 : Fin 1)).1
      rw [start_scalars, window_scalars] at hh
      omega
    · intro hv
      funext ax
      obtain rfl : ax = 0 := Subsingleton.elim _ _
      apply Fin.ext
      show ((scalarScatDims N E wf).start (ix1 e) idx (0 : Fin 1)
          + ((scalarScatDims N E wf).window (ix1 e) (0 : Fin 1) : ℕ)).toNat = n.val
      rw [start_scalars, window_scalars, hv]
      omega
  · next h =>
    constructor
    · intro hf; exact absurd hf (by simp)
    · intro hv
      exfalso; apply h
      intro ax
      obtain rfl : ax = 0 := Subsingleton.elim _ _
      show 0 ≤ (scalarScatDims N E wf).start (ix1 e) idx (0 : Fin 1)
            + ((scalarScatDims N E wf).window (ix1 e) (0 : Fin 1) : ℕ)
          ∧ (scalarScatDims N E wf).start (ix1 e) idx (0 : Fin 1)
            + ((scalarScatDims N E wf).window (ix1 e) (0 : Fin 1) : ℕ) < ((N : ℕ) : Int)
      rw [start_scalars, window_scalars, hv]
      have := n.isLt
      omega

/-- THE SCALAR SCATTER READ AT n, over the dimension numbers built from their conditions: the operand there
    plus the updates e whose word, read signed, is n. -/
theorem scatterAdd_scalars_built (x : (⟨1, ![N]⟩ : Shape).Idx → EReal) (idx : IVec (⟨2, ![E, 1]⟩ : Shape) w)
    (upd : (⟨1, ![E]⟩ : Shape).Idx → EReal) (n : Fin N) :
    Ideal.hostScatterAdd (scalarScatDims N E wf) x idx upd (ix1 n)
      = x (ix1 n) + ∑ e ∈ Finset.univ.filter (fun e : Fin E => (idx (ix2 e 0)).toInt = (n.val : Int)), upd (ix1 e) := by
  unfold Ideal.hostScatterAdd
  refine congrArg (fun t => x (ix1 n) + t) ?_
  rw [Finset.sum_filter, Finset.sum_filter, sum_idx1]
  refine Finset.sum_congr rfl fun e _ => ?_
  simp only [resultIdx?_scalars_eq_some_iff]

end Scalars

/-- THE SCALAR SCATTER READ AT n: the operand there plus the updates of the edges landing on element n.
    The dimension numbers are a variable; the four hypotheses say which they are. -/
theorem scatterAdd_scalars_apply (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (idx : IVec (⟨2, ![E, 1]⟩ : Shape) 32)
    (upd : (⟨1, ![E]⟩ : Shape).Idx → EReal) (n : Fin N) :
    Ideal.hostScatterAdd d x idx upd (ix1 n)
      = x (ix1 n) + ∑ e ∈ Finset.univ.filter (fun e => landOf N idx e = some n), upd (ix1 e) := by
  obtain ⟨uw, iw, sd, iv, wf⟩ := d
  simp only at hu hi hs hv
  subst hu hi hs hv
  refine (scatterAdd_scalars_built wf x idx upd n).trans ?_
  refine congrArg (fun t => x (ix1 n) + t) ?_
  refine Finset.sum_congr ?_ fun _ _ => rfl
  ext e
  simp only [Finset.mem_filter, Finset.mem_univ, true_and]
  exact (landOf_eq_some_iff idx e n).symm

end Cert.SageIdx

end
-- ==== Proof.LibRowGather.lean ====
/-
  A row gather read at an index.

  What `x[idx]` of a table `x : [N, C]` at a column of start indices `idx : [R, 1]` lowers to: a gather whose offset axis is
  the result's axis 1, whose collapsed axis is the table's axis 0, whose start-index map names the table's axis 0, with the
  index vector on the start indices' axis 1 and slices of one whole row (sizes 1 × C). The result element (t, j) is the table
  at row `idx (t, 0)` — read as a signed integer and clamped into [0, N − 1], as every start index of a gather is clamped so
  that its slice fits — and column j.
-/
import Idealize.ShloMosaic.Lib.ValueIdx

noncomputable section

namespace Cert.Lib.RowGather

open Idealize.ShloMosaic Idealize.ShloMosaic.ValueIdx

variable {α : Type}

/-- The dimension numbers of a row gather from `[N, C]` at start indices `[R, 1]` into `[R, C]`; their conditions `wf` are
    decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start-index word selects in a table of `N` rows: the word read signed, clamped into [0, N − 1]. -/
def rowAt (N : Nat) (hN : 0 < N) {w : Nat} (v : BitVec w) : Fin N := ⟨min v.toInt.toNat (N - 1), by omega⟩

/-- THE ROW GATHER READ AT (t, j): the table at the row the start index `idx (t, 0)` selects, column j. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (t : Fin R) (j : Fin C) :
    Host.gather (rowDims N R C wf) x idx (ix2 t j) = x (ix2 (rowAt N hN (idx (ix2 t (0 : Fin 1)))) j) := by
  unfold Host.gather
  congr 1
  funext a
  refine Fin.ext ?_
  show (rowDims N R C wf).start (ix2 t j) idx a + (rowDims N R C wf).batchCoord (ix2 t j) a
    + (rowDims N R C wf).offCoord (ix2 t j) a = _
  rw [GatherDims.batchCoord_eq_zero _ _ _ List.not_mem_nil]
  have ha : a = (0 : Fin 2) ∨ a = (1 : Fin 2) := by
    rcases a with ⟨v, hv⟩
    have hv' : v < 2 := hv
    rcases v with _ | _ | v
    · exact Or.inl rfl
    · exact Or.inr rfl
    · omega
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 t j) ⟨List.idxOf (0 : Fin 2) (rowDims N R C wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  · have hst : (rowDims N R C wf).start (ix2 t j) idx (1 : Fin 2) = 0 := by
      unfold GatherDims.start
      rw [dif_neg (show (1 : Fin 2) ∉ ([0] : List (Fin 2)) by decide)]
    have hoff : (rowDims N R C wf).offCoord (ix2 t j) (1 : Fin 2) = j.val := by
      unfold GatherDims.offCoord
      rw [dif_pos ((GatherDims.mem_sKept _ _).mpr ⟨(show (1 : Fin 2) ∉ ([0] : List (Fin 2)) by decide), List.not_mem_nil⟩)]
      rfl
    rw [hst, hoff]
    show 0 + 0 + j.val = j.val
    omega

end Cert.Lib.RowGather

end
-- ==== Proof.SageIdxGather.lean ====
/-
  A row gather read at an index.

  A row gather from a table N × C at a column of start-index words E × 1 reads, at (e, j), the table at the
  row the word of e names — read signed and clamped into [0, N − 1], as a gather clamps every start index so
  that its slice fits — and column j.  The reading over dimension numbers built from their conditions is the
  general row-gather lemma imported below; here it is restated for dimension numbers given as a variable
  (seven hypotheses say which they are) and with the row written as the edge's source row.
-/
import proofs.«151943_j8564164788539_2_alg».proof.Proof.SageIdx
import proofs.«151943_j8564164788539_2_alg».proof.Proof.LibRowGather
import Idealize.ShloMosaic.Lib.ValueIdx
import Idealize.ShloMosaic.PureOps.ShapeOps
import Idealize.ShloMosaic.PureOps.Dims

noncomputable section

namespace Cert.SageIdx

open Idealize.ShloMosaic Idealize.ShloMosaic.ValueIdx

variable {N E C : ℕ} {α : Type}

/-- THE ROW GATHER READ AT (e, j): the table at the source row of edge e, column j. -/
theorem gather_rows_apply (hN : 0 < N) (gd : GatherDims ⟨2, ![N, C]⟩ ⟨2, ![E, 1]⟩ ⟨2, ![E, C]⟩)
    (ho : gd.offsetDims = [1]) (hc : gd.collapsedSliceDims = [0]) (hob : gd.operandBatchingDims = [])
    (hsb : gd.startIndicesBatchingDims = []) (hm : gd.startIndexMap = [0]) (hv : gd.indexVectorDim = 1)
    (hsl : gd.sliceSizes = ![1, C])
    (X : (⟨2, ![N, C]⟩ : Shape).Idx → α) (idx : IVec (⟨2, ![E, 1]⟩ : Shape) 32) (e : Fin E) (j : Fin C) :
    Host.gather gd X idx (ix2 e j) = X (ix2 (srcOf N hN idx e) j) := by
  obtain ⟨od, cs, ob, sb, sm, iv, ss, wf⟩ := gd
  simp only at ho hc hob hsb hm hv hsl
  subst ho hc hob hsb hm hv hsl
  exact Cert.Lib.RowGather.gather_rows_apply hN wf X idx e j

end Cert.SageIdx

end
-- ==== Proof.SageIdxRead.lean ====
/-
  The gather and the accumulating scatter composed: the mean aggregation and the in-degree.

  Scattering, onto rows of zeros, the table rows gathered at the edges' source words and dividing entrywise by
  an array constant along every row is the mean aggregation "agg": at (n, j) the sum over the edges landing on
  row n of the table at the edge's source row, over the row's divisor.  Scattering ones onto a vector of zeros
  and taking the entrywise maximum with one is "cnt": the number of edges landing on a row, at least one.
-/
import proofs.«151943_j8564164788539_2_alg».proof.Proof.SageSpec
import proofs.«151943_j8564164788539_2_alg».proof.Proof.SageIdx
import proofs.«151943_j8564164788539_2_alg».proof.Proof.SageIdxScatter
import proofs.«151943_j8564164788539_2_alg».proof.Proof.SageIdxGather
import Idealize.ShloMosaic.Lib.ValueIdx
import Idealize.ShloMosaic.PureOps.Ideal
import Idealize.ShloMosaic.PureOps.Ideal.Laws
import Idealize.ShloMosaic.PureOps.Dims
import Idealize.ShloMosaic.PureOps.ShapeOps

noncomputable section

open scoped BigOperators

namespace Cert.SageIdx

open Cert.SageSpec Idealize.ShloMosaic Idealize.ShloMosaic.ValueIdx

variable {N E C : ℕ}

/-- THE MEAN AGGREGATION READ AT (n, j).  The scatter's and the gather's dimension numbers are variables, the
    hypotheses say which they are; the operand of the scatter is zero everywhere and the divisor array is
    constant along every row. -/
theorem agg_read (hN : 0 < N)
    (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1)
    (gd : GatherDims ⟨2, ![N, C]⟩ ⟨2, ![E, 1]⟩ ⟨2, ![E, C]⟩)
    (ho : gd.offsetDims = [1]) (hc : gd.collapsedSliceDims = [0]) (hob : gd.operandBatchingDims = [])
    (hsb : gd.startIndicesBatchingDims = []) (hm : gd.startIndexMap = [0]) (hgv : gd.indexVectorDim = 1)
    (hsl : gd.sliceSizes = ![1, C])
    (Z Dv X : FVec Ideal (⟨2, ![N, C]⟩ : Shape) .f32) (dcol scol : IVec (⟨2, ![E, 1]⟩ : Shape) 32)
    (dn : Fin N → EReal) (hZ : ∀ i, Z i = 0) (hD : ∀ n j, Dv (ix2 n j) = dn n) (n : Fin N) (j : Fin C) :
    Host.divf (F := Ideal) (Host.scatterAdd (F := Ideal) d Z dcol (Host.gather gd X scol)) Dv (ix2 n j)
      = agg (landOf N dcol) (srcOf N hN scol) dn (fun n k => X (ix2 n k)) n j := by
  show Ideal.div (Ideal.hostScatterAdd d Z dcol (Host.gather gd X scol) (ix2 n j)) (Dv (ix2 n j)) = _
  rw [scatterAdd_rows_apply d hu hi hs hv, hZ, zero_add, hD]
  unfold agg
  refine congrArg (fun t => Ideal.div t (dn n)) ?_
  refine Finset.sum_congr rfl fun e _ => ?_
  exact gather_rows_apply hN gd ho hc hob hsb hm hgv hsl X scol e j

/-- THE IN-DEGREE READ AT n: the entrywise maximum, with a vector of ones, of the scalar scatter of ones onto a
    vector of zeros is the number of edges landing on element n, at least one. -/
theorem cnt_read
    (d1 : ScatterDims ⟨1, ![N]⟩ ⟨2, ![E, 1]⟩ ⟨1, ![E]⟩)
    (hu : d1.updateWindowDims = []) (hi : d1.insertedWindowDims = [0]) (hs : d1.scatterDimsToOperandDims = [0])
    (hv : d1.indexVectorDim = 1)
    (Z Ones' : FVec Ideal (⟨1, ![N]⟩ : Shape) .f32) (Ones : FVec Ideal (⟨1, ![E]⟩ : Shape) .f32)
    (dcol : IVec (⟨2, ![E, 1]⟩ : Shape) 32)
    (hZ : ∀ i, Z i = 0) (hO : ∀ i, Ones i = 1) (hO' : ∀ i, Ones' i = 1) (n : Fin N) :
    maximumf (F := Ideal) (Host.scatterAdd (F := Ideal) d1 Z dcol Ones) Ones' (ix1 n) = cnt (landOf N dcol) n := by
  show max (Ideal.hostScatterAdd d1 Z dcol Ones (ix1 n)) (Ones' (ix1 n)) = _
  rw [scatterAdd_scalars_apply d1 hu hi hs hv, hZ, zero_add, hO']
  unfold cnt
  refine congrArg (fun t => max t (1 : EReal)) ?_
  exact Finset.sum_congr rfl fun e _ => hO (ix1 e)

end Cert.SageIdx

end
-- ==== Proof.KWalk0.lean ====
/-
  The first aggregation stage: what the first kernel region's input arrays hold when it is entered.  The host
  stretch before it counts, for every node, the edges landing on it (at least one), gathers the source rows of
  the node features along the edges, adds them up per destination node, and divides by the count; it also
  lays the bias out as a one-row matrix.  The weights and the node features are read as launched.
-/
import proofs.«151943_j8564164788539_2_alg».proof.Proof.Gen.KernelIdeal.Frame
import Idealize.ShloMosaic.Lib.StableHlo.Run
import Idealize.ShloMosaic.Lib.Pipeline.Value
import Idealize.ShloMosaic.Lib.ValueIdx
import proofs.«151943_j8564164788539_2_alg».proof.Proof.SageSpec
import proofs.«151943_j8564164788539_2_alg».proof.Proof.SageIdx
import proofs.«151943_j8564164788539_2_alg».proof.Proof.KWalkCols
import proofs.«151943_j8564164788539_2_alg».proof.Proof.SageIdxRead
import Idealize.ShloMosaic.Lib.IdealHost
import Idealize.ShloMosaic.PureOps.Ideal.Laws

noncomputable section

namespace Cert.KernelIdeal.KW

open Cert.KernelIdeal Cert.KernelIdeal.Gen Cert.SageSpec Cert.SageIdx Idealize.ShloMosaic Idealize.ShloMosaic.StableHlo
open Idealize.ShloMosaic.ValueIdx Idealize.ShloMosaic.TcCoe Idealize.SL.Sem

variable (m : (ℓ : Loc nD τ sig) → Buf (Elt Ideal) ℓ) (ρ : Dev nD → PrngReg) (c : Dev nD)

/-! ## The two facts about the host's gather and accumulating scatter, at this program's dimension records -/

theorem cntRead : CntRead := fun Z dcol Ones Ones' hZ hO hO' n =>
  cnt_read _ rfl rfl rfl rfl Z Ones' Ones dcol hZ hO hO' n

theorem aggRead64 : AggRead64 := fun Z X Dv dcol scol dn hZ hD n j =>
  agg_read (by norm_num) _ rfl rfl rfl rfl _ rfl rfl rfl rfl rfl rfl rfl Z Dv X dcol scol dn hZ hD n j

theorem aggRead32 : AggRead32 := fun Z X Dv dcol scol dn hZ hD n j =>
  agg_read (by norm_num) _ rfl rfl rfl rfl _ rfl rfl rfl rfl rfl rfl rfl Z Dv X dcol scol dn hZ hD n j

/-! ## Buffers the stretch does not write -/

theorem V1_arg0 : V1 m ρ c main_arg0 = m ((c : Thread nD τ).loc main_arg0) := by
  dsimp only [V1, W1]
  after_results_simp
  all_goals rfl

theorem V1_arg3 : V1 m ρ c main_arg3 = m ((c : Thread nD τ).loc main_arg3) := by
  dsimp only [V1, W1]
  after_results_simp
  all_goals rfl

theorem V1_arg5 : V1 m ρ c main_arg5 = m ((c : Thread nD τ).loc main_arg5) := by
  dsimp only [V1, W1]
  after_results_simp
  all_goals rfl

/-! ## The bias as a one-row matrix -/

theorem V1_v23_eq : (V1 m ρ c main_v23 : (⟨S1x128, .f32⟩ : BufTy).Contents (Elt Ideal)) =
    shapeCast S1x128 (m ((c : Thread nD τ).loc main_arg4) : (⟨S128, .f32⟩ : BufTy).Contents (Elt Ideal)) shapeCasts_S128_S1x128 := by
  dsimp only [V1, W1]
  after_results_simp
  all_goals rfl

theorem V1_b (j : Fin 128) :
    V1 m ρ c main_v23 (ix2 (0 : Fin 1) j) = m ((c : Thread nD τ).loc main_arg4) (ix1 j) := by
  refine (congrFun (V1_v23_eq m ρ c) (ix2 (0 : Fin 1) j)).trans ?_
  exact shapeCast_apply _ shapeCasts_S128_S1x128 (ix2 (0 : Fin 1) j) (ix1 j)
    (by rewrite [Shape.rowMajor_val_two, Shape.rowMajor_val_one]; show j.val = 0 * 128 + j.val; omega)

/-! ## The two columns in terms of the two rows of the edge list

Later stretches lay the same two rows out again; these are the layouts, named, so that a later stretch's
columns can be recognised as the first stretch's. -/

/-- A row of words laid out as a column. -/
def asCol (x : IVec S800000 32) : IVec S800000x1 32 := broadcastInDim S800000x1 ![0] bcast_S800000_S800000x1_0 x

/-- A row of words, the negative ones wrapped by the node count, laid out as a column. -/
def wrapCol (x : IVec S800000 32) : IVec S800000x1 32 :=
  asCol (select (cmpi .slt x (broadcastInDim S800000 ![] bcast_S_S800000 (constantI S_ 32 0#32)))
    (addi x (broadcastInDim S800000 ![] bcast_S_S800000 (constantI S_ 32 50000#32))) x)

theorem srcCol_eq : srcCol m ρ c = wrapCol (W1 m ρ c (Proc.devRef .tc main_v1)) := by
  unfold srcCol wrapCol asCol
  dsimp only [W1]
  after_results_simp
  all_goals rfl

theorem dstCol_eq : dstCol m ρ c = asCol (W1 m ρ c (Proc.devRef .tc main_v3)) := by
  unfold dstCol asCol
  dsimp only [W1]
  after_results_simp
  all_goals rfl

/-! ## Two layout reads used by every aggregation stage -/

/-- A zero scalar spread over a 64-column array is zero everywhere. -/
theorem zero64 (i : S50000x64.Idx) :
    broadcastInDim S50000x64 ![] bcast_S_S50000x64 (constant (F := Ideal) S_ .f32 0x00000000#32) i = 0 :=
  (broadcastInDim_apply _ bcast_S_S50000x64 _ i ix0 (fun a => a.elim0)).trans Ideal.ofBits_zero_f32

/-- A zero scalar spread over a 32-column array is zero everywhere. -/
theorem zero32 (i : S50000x32.Idx) :
    broadcastInDim S50000x32 ![] bcast_S_S50000x32 (constant (F := Ideal) S_ .f32 0x00000000#32) i = 0 :=
  (broadcastInDim_apply _ bcast_S_S50000x32 _ i ix0 (fun a => a.elim0)).trans Ideal.ofBits_zero_f32

/-- A one-column array spread along 64 columns reads its row's entry. -/
theorem spread64 {α : Type} (x : S50000x1.Idx → α) (n : Fin 50000) (j : Fin 64) :
    broadcastInDim S50000x64 ![0, 1] bcast_S50000x1_S50000x64_0_1 x (ix2 n j) = x (ix2 n (0 : Fin 1)) :=
  broadcastInDim_apply _ bcast_S50000x1_S50000x64_0_1 x (ix2 n j) (ix2 n (0 : Fin 1)) (fun a => match a with
    | ⟨0, _⟩ => by show n.val = if (50000 : Nat) = 1 then 0 else n.val; rw [if_neg (by decide)]
    | ⟨1, _⟩ => by show 0 = if (1 : Nat) = 1 then 0 else j.val; rw [if_pos rfl])

/-- A one-column array spread along 32 columns reads its row's entry. -/
theorem spread32 {α : Type} (x : S50000x1.Idx → α) (n : Fin 50000) (j : Fin 32) :
    broadcastInDim S50000x32 ![0, 1] bcast_S50000x1_S50000x32_0_1 x (ix2 n j) = x (ix2 n (0 : Fin 1)) :=
  broadcastInDim_apply _ bcast_S50000x1_S50000x32_0_1 x (ix2 n j) (ix2 n (0 : Fin 1)) (fun a => match a with
    | ⟨0, _⟩ => by show n.val = if (50000 : Nat) = 1 then 0 else n.val; rw [if_neg (by decide)]
    | ⟨1, _⟩ => by show 0 = if (1 : Nat) = 1 then 0 else j.val; rw [if_pos rfl])

/-! ## The divisor: the number of edges landing on each node, at least one -/

theorem V1_v10_eq : (V1 m ρ c main_v10 : (⟨S50000x1, .f32⟩ : BufTy).Contents (Elt Ideal)) =
    shapeCast S50000x1 (maximumf (F := Ideal)
      (Host.scatterAdd (F := Ideal) scatter_S50000_S800000x1_S800000_n_0_0_1
        (broadcastInDim S50000 ![] bcast_S_S50000 (constant (F := Ideal) S_ .f32 0x00000000#32))
        (W1 m ρ c (Proc.devRef .tc main_v6))
        (broadcastInDim S800000 ![] bcast_S_S800000 (constant (F := Ideal) S_ .f32 0x3F800000#32)))
      (broadcastInDim S50000 ![] bcast_S_S50000 (constant (F := Ideal) S_ .f32 0x3F800000#32))) shapeCasts_S50000_S50000x1 := by
  dsimp only [V1, W1]
  after_results_simp
  all_goals rfl

/-- The count as a one-column array. -/
theorem V1_cnt (n : Fin 50000) :
    V1 m ρ c main_v10 (ix2 n (0 : Fin 1)) = cnt (landOf 50000 (dstCol m ρ c)) n := by
  refine (congrFun (V1_v10_eq m ρ c) (ix2 n (0 : Fin 1))).trans ?_
  refine (shapeCast_apply _ shapeCasts_S50000_S50000x1 (ix2 n (0 : Fin 1)) (ix1 n)
    (by rewrite [Shape.rowMajor_val_two, Shape.rowMajor_val_one]; show n.val = n.val * 1 + 0; omega)).trans ?_
  rw [W1_v6]
  refine cntRead _ _ _ _ (fun i => ?_) (fun i => ?_) (fun i => ?_) n
  · exact (broadcastInDim_apply _ bcast_S_S50000 _ i ix0 (fun a => a.elim0)).trans Ideal.ofBits_zero_f32
  · exact (broadcastInDim_apply _ bcast_S_S800000 _ i ix0 (fun a => a.elim0)).trans Ideal.ofBits_one_f32
  · exact (broadcastInDim_apply _ bcast_S_S50000 _ i ix0 (fun a => a.elim0)).trans Ideal.ofBits_one_f32

theorem V1_v21_eq : (V1 m ρ c main_v21 : (⟨S50000x64, .f32⟩ : BufTy).Contents (Elt Ideal)) =
    broadcastInDim S50000x64 ![0, 1] bcast_S50000x1_S50000x64_0_1 (V1 m ρ c main_v10) := by
  dsimp only [V1, W1]
  after_results_simp
  all_goals rfl

/-- The count spread along the 64 columns. -/
theorem V1_div (n : Fin 50000) (j : Fin 64) :
    V1 m ρ c main_v21 (ix2 n j) = cnt (landOf 50000 (dstCol m ρ c)) n :=
  (congrFun (V1_v21_eq m ρ c) (ix2 n j)).trans ((spread64 _ n j).trans (V1_cnt m ρ c n))

/-! ## The aggregate of the node features -/

theorem V1_v22_eq : (V1 m ρ c main_v22 : (⟨S50000x64, .f32⟩ : BufTy).Contents (Elt Ideal)) =
    Host.divf (F := Ideal)
      (Host.scatterAdd (F := Ideal) scatter_S50000x64_S800000x1_S800000x64_1_0_0_1
        (broadcastInDim S50000x64 ![] bcast_S_S50000x64 (constant (F := Ideal) S_ .f32 0x00000000#32))
        (dstCol m ρ c)
        (Host.gather gather_S50000x64_S800000x1_S800000x64_1_0_n_n_0_1_164 (V1 m ρ c main_arg0) (srcCol m ρ c)))
      (V1 m ρ c main_v21) := by
  unfold dstCol srcCol
  dsimp only [V1, W1]
  after_results_simp
  all_goals rfl

theorem V1_agg (n : Fin 50000) (k : Fin 64) :
    V1 m ρ c main_v22 (ix2 n k)
      = agg (landOf 50000 (dstCol m ρ c)) (srcOf 50000 (by norm_num) (srcCol m ρ c)) (cnt (landOf 50000 (dstCol m ρ c)))
          (fun n k => m ((c : Thread nD τ).loc main_arg0) (ix2 n k)) n k := by
  refine (congrFun (V1_v22_eq m ρ c) (ix2 n k)).trans ?_
  rw [V1_arg0]
  exact aggRead64 _ _ _ _ _ _ zero64 (fun n j => V1_div m ρ c n j) n k

end Cert.KernelIdeal.KW

end
-- ==== Proof.KWalk1.lean ====
/-
  What region 1 finds in its input arrays when it is entered, in terms of what region 0 left.

  Between the two regions the host turns region 0's column sums `S` and column sums of squares `SS`
  (both `[1,128]`) into the normalisation parameters: the mean `S / n`, the reciprocal deviation
  `rsqrt (max (SS / n − (S / n)²) 0 + eps)`, and lays the scale and shift vectors out as `[1,128]` rows.
  Region 0's pre-activation array and the right weight pass through untouched.
-/
import proofs.«151943_j8564164788539_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«151943_j8564164788539_2_alg».proof.Proof.SageSpec
import proofs.«151943_j8564164788539_2_alg».proof.Proof.SageIdx

noncomputable section

namespace Cert.KernelIdeal.KW

open Cert.KernelIdeal Cert.KernelIdeal.Gen Cert.SageSpec Cert.SageIdx Idealize.ShloMosaic Idealize.ShloMosaic.StableHlo
  Idealize.ShloMosaic.ValueIdx Idealize.SL.Sem Idealize.ShloMosaic.TcCoe

variable (m : (ℓ : Loc nD τ sig) → Buf (Elt Ideal) ℓ) (ρ : Dev nD → PrngReg) (c : Dev nD)

/-! ## Arguments that no host stretch and no region has written so far hold their launch contents -/

theorem W2_arg6 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W2_arg7 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W2_arg8 : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-! ## Region 1's input arrays -/

/-- The pre-activation array: the stretch does not write it. -/
theorem V3_P : V3 m ρ c main_v24_0 = W2 m ρ c (Proc.devRef .tc main_v24_0) := by
  show StableHlo.after hostOps1 _ (Proc.devRef .tc main_v24_0) = _
  after_results

/-- The column mean: the column sum over the row count. -/
theorem V3_mu (j : Fin 128) : V3 m ρ c main_v26 (ix2 0 j)
    = Ideal.div (W2 m ρ c (Proc.devRef .tc main_v24_1) (ix2 0 j)) (Ideal.ofBits .f32 0x47435000#32) := by
  show StableHlo.after hostOps1 _ (Proc.devRef .tc main_v26) (ix2 0 j) = _
  after_results
  rfl

/-- The reciprocal deviation: mean of squares minus squared mean, clipped at zero, plus `eps`, under the root. -/
theorem V3_inv (j : Fin 128) : V3 m ρ c main_v35 (ix2 0 j)
    = Ideal.rsqrt (max (Ideal.div (W2 m ρ c (Proc.devRef .tc main_v24_2) (ix2 0 j)) (Ideal.ofBits .f32 0x47435000#32)
        - Ideal.div (W2 m ρ c (Proc.devRef .tc main_v24_1) (ix2 0 j)) (Ideal.ofBits .f32 0x47435000#32)
          * Ideal.div (W2 m ρ c (Proc.devRef .tc main_v24_1) (ix2 0 j)) (Ideal.ofBits .f32 0x47435000#32)) 0
        + (Ideal.ofBits .f32 0x3727C5AC#32)) := by
  show StableHlo.after hostOps1 _ (Proc.devRef .tc main_v35) (ix2 0 j) = _
  after_results
  show Ideal.rsqrt (max (Ideal.div (W2 m ρ c (Proc.devRef .tc main_v24_2) (ix2 0 j)) (Ideal.ofBits .f32 0x47435000#32)
        - Ideal.div (W2 m ρ c (Proc.devRef .tc main_v24_1) (ix2 0 j)) (Ideal.ofBits .f32 0x47435000#32)
          * Ideal.div (W2 m ρ c (Proc.devRef .tc main_v24_1) (ix2 0 j)) (Ideal.ofBits .f32 0x47435000#32)) (Ideal.ofBits .f32 0x00000000#32)
        + (Ideal.ofBits .f32 0x3727C5AC#32)) = _
  rw [Ideal.ofBits_zero_f32]

/-- The scale vector laid out as a row. -/
theorem V3_g (j : Fin 128) : V3 m ρ c main_v36 (ix2 0 j) = m ((c : Thread nD τ).loc main_arg6) (ix1 j) := by
  show StableHlo.after hostOps1 _ (Proc.devRef .tc main_v36) (ix2 0 j) = _
  after_results
  rw [W2_arg6]
  exact shapeCast_a_1a_apply _ shapeCasts_S128_S1x128 0 j

/-- The shift vector laid out as a row. -/
theorem V3_be (j : Fin 128) : V3 m ρ c main_v37 (ix2 0 j) = m ((c : Thread nD τ).loc main_arg7) (ix1 j) := by
  show StableHlo.after hostOps1 _ (Proc.devRef .tc main_v37) (ix2 0 j) = _
  after_results
  rw [W2_arg7]
  exact shapeCast_a_1a_apply _ shapeCasts_S128_S1x128 0 j

/-- The right weight: as launched. -/
theorem V3_Wn : V3 m ρ c main_arg8 = m ((c : Thread nD τ).loc main_arg8) := by
  show StableHlo.after hostOps1 _ (Proc.devRef .tc main_arg8) = _
  after_results
  exact W2_arg8 m ρ c

end Cert.KernelIdeal.KW
end
-- ==== Proof.KChain1.lean ====
/-
  The kernel program's first layer, entry by entry.  Region 0 receives the aggregated mean of the input
  features, the features, two weights and a bias and leaves the clipped pre-activation with its column sums and
  column sums of squares; the host turns the sums into the column mean and the reciprocal deviation; region 1
  normalises and also multiplies the normalised array by the next layer's left weight.
-/
import proofs.«151943_j8564164788539_2_alg».proof.Proof.KStats0
import proofs.«151943_j8564164788539_2_alg».proof.Proof.KApply1Y
import proofs.«151943_j8564164788539_2_alg».proof.Proof.KWalk0
import proofs.«151943_j8564164788539_2_alg».proof.Proof.KWalk1

noncomputable section

namespace Cert.KernelIdeal.KC

open Cert.KernelIdeal Cert.KernelIdeal.Gen Cert.SageSpec Cert.SageIdx Idealize.ShloMosaic Idealize.ShloMosaic.ValueIdx
open Idealize.ShloMosaic.TcCoe Idealize.SL.Sem
open Cert.KernelIdeal.KV Cert.KernelIdeal.KW

variable (m : (ℓ : Loc nD τ sig) → Buf (Elt Ideal) ℓ) (ρ : Dev nD → PrngReg) (c : Dev nD)

/-- Where an edge's contribution lands. -/
noncomputable abbrev L : Fin 800000 → Option (Fin 50000) := landOf 50000 (dstCol m ρ c)
/-- The row an edge reads. -/
noncomputable abbrev Sr : Fin 800000 → Fin 50000 := srcOf 50000 (by norm_num) (srcCol m ρ c)

/-- The word of 5.0e4. -/
noncomputable def cN : EReal := Ideal.ofBits .f32 0x47435000#32
/-- The word of the variance offset. -/
noncomputable def eps : EReal := Ideal.ofBits .f32 0x3727C5AC#32

noncomputable def aX : Fin 50000 → Fin 64 → EReal := fun n k => (m ((c : Thread nD τ).loc main_arg0) : S50000x64.Idx → EReal) (ix2 n k)
noncomputable def aW1l : Fin 64 → Fin 128 → EReal := fun k j => (m ((c : Thread nD τ).loc main_arg3) : S64x128.Idx → EReal) (ix2 k j)
noncomputable def ab1 : Fin 128 → EReal := fun j => (m ((c : Thread nD τ).loc main_arg4) : S128.Idx → EReal) (ix1 j)
noncomputable def aW1r : Fin 64 → Fin 128 → EReal := fun k j => (m ((c : Thread nD τ).loc main_arg5) : S64x128.Idx → EReal) (ix2 k j)
noncomputable def ag1 : Fin 128 → EReal := fun j => (m ((c : Thread nD τ).loc main_arg6) : S128.Idx → EReal) (ix1 j)
noncomputable def abe1 : Fin 128 → EReal := fun j => (m ((c : Thread nD τ).loc main_arg7) : S128.Idx → EReal) (ix1 j)
noncomputable def aW2l : Fin 128 → Fin 64 → EReal := fun k j => (m ((c : Thread nD τ).loc main_arg8) : S128x64.Idx → EReal) (ix2 k j)

/-- The first layer's clipped pre-activation. -/
noncomputable def P1 : Fin 50000 → Fin 128 → EReal :=
  preA (agg (L m ρ c) (Sr m ρ c) (cnt (L m ρ c)) (aX m c)) (aX m c) (aW1l m c) (aW1r m c) (ab1 m c)

/-- The first hidden array. -/
noncomputable def K1 : Fin 50000 → Fin 128 → EReal := bnK cN eps (P1 m ρ c) (ag1 m c) (abe1 m c)

theorem in0_M : r0M (V1 m ρ) c = agg (L m ρ c) (Sr m ρ c) (cnt (L m ρ c)) (aX m c) :=
  funext fun n => funext fun k => V1_agg m ρ c n k
theorem in0_X : r0X (V1 m ρ) c = aX m c :=
  funext fun n => funext fun k => congrFun (V1_arg0 m ρ c) (ix2 n k)
theorem in0_Wl : r0Wl (V1 m ρ) c = aW1l m c :=
  funext fun k => funext fun j => congrFun (V1_arg3 m ρ c) (ix2 k j)
theorem in0_Wr : r0Wr (V1 m ρ) c = aW1r m c :=
  funext fun k => funext fun j => congrFun (V1_arg5 m ρ c) (ix2 k j)
theorem in0_b : r0b (V1 m ρ) c = ab1 m c :=
  funext fun j => V1_b m ρ c j

theorem out0_P (n : Fin 50000) (j : Fin 128) :
    (W2 m ρ c (Proc.devRef .tc main_v24_0) : S50000x128.Idx → EReal) (ix2 n j) = P1 m ρ c n j := by
  have h : (W2 m ρ c (Proc.devRef .tc main_v24_0) : S50000x128.Idx → EReal) = (dat0 (V1 m ρ) c).arrAt 5 cfg0.N :=
    W2_arr m ρ c 5
  rw [h, region0_P, in0_M, in0_X, in0_Wl, in0_Wr, in0_b]; rfl

theorem out0_S (j : Fin 128) :
    (W2 m ρ c (Proc.devRef .tc main_v24_1) : S1x128.Idx → EReal) (ix2 0 j) = colsum (P1 m ρ c) j := by
  have h : (W2 m ρ c (Proc.devRef .tc main_v24_1) : S1x128.Idx → EReal) = (dat0 (V1 m ρ) c).arrAt 6 cfg0.N :=
    W2_arr m ρ c 6
  rw [h, region0_S, in0_M, in0_X, in0_Wl, in0_Wr, in0_b]; rfl

theorem out0_SS (j : Fin 128) :
    (W2 m ρ c (Proc.devRef .tc main_v24_2) : S1x128.Idx → EReal) (ix2 0 j)
      = colsum (fun n j => P1 m ρ c n j * P1 m ρ c n j) j := by
  have h : (W2 m ρ c (Proc.devRef .tc main_v24_2) : S1x128.Idx → EReal) = (dat0 (V1 m ρ) c).arrAt 7 cfg0.N :=
    W2_arr m ρ c 7
  rw [h, region0_SS, in0_M, in0_X, in0_Wl, in0_Wr, in0_b]; rfl

theorem in1_P : r1P (V3 m ρ) c = P1 m ρ c :=
  funext fun n => funext fun j => (congrFun (V3_P m ρ c) (ix2 n j)).trans (out0_P m ρ c n j)
theorem in1_mu : r1mu (V3 m ρ) c = mean cN (P1 m ρ c) :=
  funext fun j => (V3_mu m ρ c j).trans (by rw [out0_S]; rfl)
theorem in1_inv : r1inv (V3 m ρ) c = invK cN eps (P1 m ρ c) :=
  funext fun j => (V3_inv m ρ c j).trans (by rw [out0_SS, out0_S]; rfl)
theorem in1_g : r1g (V3 m ρ) c = ag1 m c := funext fun j => V3_g m ρ c j
theorem in1_be : r1be (V3 m ρ) c = abe1 m c := funext fun j => V3_be m ρ c j
theorem in1_Wn : r1Wn (V3 m ρ) c = aW2l m c :=
  funext fun k => funext fun j => congrFun (V3_Wn m ρ c) (ix2 k j)

theorem out1_H (n : Fin 50000) (j : Fin 128) :
    (W4 m ρ c (Proc.devRef .tc main_v38_0) : S50000x128.Idx → EReal) (ix2 n j) = K1 m ρ c n j := by
  have h : (W4 m ρ c (Proc.devRef .tc main_v38_0) : S50000x128.Idx → EReal) = (dat1 (V3 m ρ) c).arrAt 6 cfg1.N :=
    W4_arr m ρ c 6
  rw [h, region1_H, in1_P, in1_mu, in1_inv, in1_g, in1_be]; rfl

theorem out1_Y (n : Fin 50000) (j : Fin 64) :
    (W4 m ρ c (Proc.devRef .tc main_v38_1) : S50000x64.Idx → EReal) (ix2 n j) = mm (K1 m ρ c) (aW2l m c) n j := by
  have h : (W4 m ρ c (Proc.devRef .tc main_v38_1) : S50000x64.Idx → EReal) = (dat1 (V3 m ρ) c).arrAt 7 cfg1.N :=
    W4_arr m ρ c 7
  rw [h, region1_Y, in1_P, in1_mu, in1_inv, in1_g, in1_be, in1_Wn]; rfl

end Cert.KernelIdeal.KC

end
-- ==== Proof.KStats2PiecesA.lean ====
/-
  Region 2, the first grid point (the accumulators are reset there): what the body leaves in each output's
  buffer, as the body's pure terms of the input blocks.  The row block of pre-activations is one store of
  "k2_pay3"; each accumulator is first stored with the zero row "k2_pay1" / "k2_pay2", read back, and stored again
  with the zero row plus the block's column sums ("k2_pay4") or plus the column sums of squares ("k2_pay5").
-/
import proofs.«151943_j8564164788539_2_alg».proof.Proof.Gen.KernelIdeal.Frame
import Idealize.ShloMosaic.Lib.Pipeline.Value
import Idealize.ShloMosaic.Lib.Tactic

noncomputable section

namespace Cert.KernelIdeal.KV

open Cert.KernelIdeal Cert.KernelIdeal.Gen Idealize.ShloMosaic
open Idealize.ShloMosaic.TcCoe Idealize.SL.Sem
open Idealize.ShloMosaic.Pipeline (Dat)

variable {F : FTy → Type} [FloatOps F]

theorem r2_hzA : (![0, 0] : Fin 2 → Nat) = fun _ => 0 := funext fun a => by fin_cases a <;> rfl

/-- First point, the row block of pre-activations. -/
theorem out2_A_4_eq (c : Dev nD) (i : grid2.Coords) (a1 : Memref sig .tc .vmem S5000x64 .f32) (h1 : a1.IsWhole) (a2 : Memref sig .tc .vmem S5000x128 .f32) (h2 : a2.IsWhole) (a3 : Memref sig .tc .vmem S1x64 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond2_0 i)
    (x0 : Vec F S5000x64 .f32) (x1 : Vec F S5000x128 .f32) (x2 : Vec F S1x64 .f32) (x3 : Vec F S128x64 .f32) :
    out2_A_4 c i a1 h1 a2 h2 a3 h3 a4 h4 a5 h5 a6 h6 a7 h7 hc x0 x1 x2 x3 = k2_pay3 x0 x2 x1 x3 := by
  unfold out2_A_4
  rw [View.read_writes_eq_canon _ _ _ (cover2_A_4 c i a1 h1 a2 h2 a3 h3 a4 h4 a5 h5 a6 h6 a7 h7 hc x0 x1 x2 x3)]
  unfold kernelRun2_A
  dsimp only
  rw [View.canon_unit_zero r2_hzA]
  simp only [View.readAt_eq_ld, h1.read_unread, h2.read_unread, h3.read_unread, h4.read_unread, View.ld_unit_zero (S := S5000x64) r2_hzA, View.ld_unit_zero (S := S5000x128) r2_hzA, View.ld_unit_zero (S := S1x64) r2_hzA, View.ld_unit_zero (S := S128x64) r2_hzA]

/-- First point, the column sums: the zero row plus the block's column sums. -/
theorem out2_A_5_eq (c : Dev nD) (i : grid2.Coords) (a1 : Memref sig .tc .vmem S5000x64 .f32) (h1 : a1.IsWhole) (a2 : Memref sig .tc .vmem S5000x128 .f32) (h2 : a2.IsWhole) (a3 : Memref sig .tc .vmem S1x64 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond2_0 i)
    (x0 : Vec F S5000x64 .f32) (x1 : Vec F S5000x128 .f32) (x2 : Vec F S1x64 .f32) (x3 : Vec F S128x64 .f32) :
    out2_A_5 c i a1 h1 a2 h2 a3 h3 a4 h4 a5 h5 a6 h6 a7 h7 hc x0 x1 x2 x3 = k2_pay4 x0 x2 x1 x3 k2_pay1 := by
  unfold out2_A_5
  rw [View.read_writes_eq_canon _ _ _ (cover2_A_5 c i a1 h1 a2 h2 a3 h3 a4 h4 a5 h5 a6 h6 a7 h7 hc x0 x1 x2 x3)]
  unfold kernelRun2_A
  dsimp only
  sl_unfold_words
  rw [View.canon_cons_unit_zero (S := S1x64) r2_hzA, View.readCov_unit_zero (S := S1x64) _ r2_hzA]
  simp only [View.readAt_eq_ld, h1.read_unread, h2.read_unread, h3.read_unread, h4.read_unread, View.ld_unit_zero (S := S5000x64) r2_hzA, View.ld_unit_zero (S := S5000x128) r2_hzA, View.ld_unit_zero (S := S1x64) r2_hzA, View.ld_unit_zero (S := S128x64) r2_hzA]

/-- First point, the column sums of squares: the zero row plus the block's column sums of squares. -/
theorem out2_A_6_eq (c : Dev nD) (i : grid2.Coords) (a1 : Memref sig .tc .vmem S5000x64 .f32) (h1 : a1.IsWhole) (a2 : Memref sig .tc .vmem S5000x128 .f32) (h2 : a2.IsWhole) (a3 : Memref sig .tc .vmem S1x64 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : cond2_0 i)
    (x0 : Vec F S5000x64 .f32) (x1 : Vec F S5000x128 .f32) (x2 : Vec F S1x64 .f32) (x3 : Vec F S128x64 .f32) :
    out2_A_6 c i a1 h1 a2 h2 a3 h3 a4 h4 a5 h5 a6 h6 a7 h7 hc x0 x1 x2 x3 = k2_pay5 x0 x2 x1 x3 k2_pay2 := by
  unfold out2_A_6
  rw [View.read_writes_eq_canon _ _ _ (cover2_A_6 c i a1 h1 a2 h2 a3 h3 a4 h4 a5 h5 a6 h6 a7 h7 hc x0 x1 x2 x3)]
  unfold kernelRun2_A
  dsimp only
  sl_unfold_words
  rw [View.canon_cons_unit_zero (S := S1x64) r2_hzA, View.readCov_unit_zero (S := S1x64) _ r2_hzA]
  simp only [View.readAt_eq_ld, h1.read_unread, h2.read_unread, h3.read_unread, h4.read_unread, View.ld_unit_zero (S := S5000x64) r2_hzA, View.ld_unit_zero (S := S5000x128) r2_hzA, View.ld_unit_zero (S := S1x64) r2_hzA, View.ld_unit_zero (S := S128x64) r2_hzA]

end Cert.KernelIdeal.KV

end
-- ==== Proof.KStats2PiecesB.lean ====
/-
  Region 2, a later grid point (the accumulators carry over): what the body leaves in each output's buffer, as
  the body's pure terms of the input blocks and of the accumulators' contents "xo5", "xo6" left by the point before.
-/
import proofs.«151943_j8564164788539_2_alg».proof.Proof.Gen.KernelIdeal.Frame
import Idealize.ShloMosaic.Lib.Pipeline.Value
import Idealize.ShloMosaic.Lib.Tactic

noncomputable section

namespace Cert.KernelIdeal.KV

open Cert.KernelIdeal Cert.KernelIdeal.Gen Idealize.ShloMosaic
open Idealize.ShloMosaic.TcCoe Idealize.SL.Sem
open Idealize.ShloMosaic.Pipeline (Dat)

variable {F : FTy → Type} [FloatOps F]

theorem r2_hzB : (![0, 0] : Fin 2 → Nat) = fun _ => 0 := funext fun a => by fin_cases a <;> rfl

/-- Later point, the row block of pre-activations. -/
theorem out2_B_4_eq (c : Dev nD) (i : grid2.Coords) (a1 : Memref sig .tc .vmem S5000x64 .f32) (h1 : a1.IsWhole) (a2 : Memref sig .tc .vmem S5000x128 .f32) (h2 : a2.IsWhole) (a3 : Memref sig .tc .vmem S1x64 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond2_0 i)
    (x0 : Vec F S5000x64 .f32) (x1 : Vec F S5000x128 .f32) (x2 : Vec F S1x64 .f32) (x3 : Vec F S128x64 .f32) (xo5 xo6 : Vec F S1x64 .f32) :
    out2_B_4 c i a1 h1 a2 h2 a3 h3 a4 h4 a5 h5 a6 h6 a7 h7 hc x0 x1 x2 x3 xo5 xo6 = k2_pay3 x0 x2 x1 x3 := by
  unfold out2_B_4
  rw [View.read_writes_eq_canon _ _ _ (cover2_B_4 c i a1 h1 a2 h2 a3 h3 a4 h4 a5 h5 a6 h6 a7 h7 hc x0 x1 x2 x3 xo5 xo6)]
  unfold kernelRun2_B
  dsimp only
  rw [View.canon_unit_zero r2_hzB]
  simp only [View.readAt_eq_ld, h1.read_unread, h2.read_unread, h3.read_unread, h4.read_unread, h6.read_unread, h7.read_unread, View.ld_unit_zero (S := S5000x64) r2_hzB, View.ld_unit_zero (S := S5000x128) r2_hzB, View.ld_unit_zero (S := S1x64) r2_hzB, View.ld_unit_zero (S := S128x64) r2_hzB]

/-- Later point, the column sums: the carried row plus the block's column sums. -/
theorem out2_B_5_eq (c : Dev nD) (i : grid2.Coords) (a1 : Memref sig .tc .vmem S5000x64 .f32) (h1 : a1.IsWhole) (a2 : Memref sig .tc .vmem S5000x128 .f32) (h2 : a2.IsWhole) (a3 : Memref sig .tc .vmem S1x64 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond2_0 i)
    (x0 : Vec F S5000x64 .f32) (x1 : Vec F S5000x128 .f32) (x2 : Vec F S1x64 .f32) (x3 : Vec F S128x64 .f32) (xo5 xo6 : Vec F S1x64 .f32) :
    out2_B_5 c i a1 h1 a2 h2 a3 h3 a4 h4 a5 h5 a6 h6 a7 h7 hc x0 x1 x2 x3 xo5 xo6 = k2_pay4 x0 x2 x1 x3 xo5 := by
  unfold out2_B_5
  rw [View.read_writes_eq_canon _ _ _ (cover2_B_5 c i a1 h1 a2 h2 a3 h3 a4 h4 a5 h5 a6 h6 a7 h7 hc x0 x1 x2 x3 xo5 xo6)]
  unfold kernelRun2_B
  dsimp only
  rw [View.canon_unit_zero r2_hzB]
  simp only [View.readAt_eq_ld, h1.read_unread, h2.read_unread, h3.read_unread, h4.read_unread, h6.read_unread, h7.read_unread, View.ld_unit_zero (S := S5000x64) r2_hzB, View.ld_unit_zero (S := S5000x128) r2_hzB, View.ld_unit_zero (S := S1x64) r2_hzB, View.ld_unit_zero (S := S128x64) r2_hzB]

/-- Later point, the column sums of squares: the carried row plus the block's column sums of squares. -/
theorem out2_B_6_eq (c : Dev nD) (i : grid2.Coords) (a1 : Memref sig .tc .vmem S5000x64 .f32) (h1 : a1.IsWhole) (a2 : Memref sig .tc .vmem S5000x128 .f32) (h2 : a2.IsWhole) (a3 : Memref sig .tc .vmem S1x64 .f32) (h3 : a3.IsWhole) (a4 : Memref sig .tc .vmem S128x64 .f32) (h4 : a4.IsWhole) (a5 : Memref sig .tc .vmem S5000x64 .f32) (h5 : a5.IsWhole) (a6 : Memref sig .tc .vmem S1x64 .f32) (h6 : a6.IsWhole) (a7 : Memref sig .tc .vmem S1x64 .f32) (h7 : a7.IsWhole) (hc : ¬cond2_0 i)
    (x0 : Vec F S5000x64 .f32) (x1 : Vec F S5000x128 .f32) (x2 : Vec F S1x64 .f32) (x3 : Vec F S128x64 .f32) (xo5 xo6 : Vec F S1x64 .f32) :
    out2_B_6 c i a1 h1 a2 h2 a3 h3 a4 h4 a5 h5 a6 h6 a7 h7 hc x0 x1 x2 x3 xo5 xo6 = k2_pay5 x0 x2 x1 x3 xo6 := by
  unfold out2_B_6
  rw [View.read_writes_eq_canon _ _ _ (cover2_B_6 c i a1 h1 a2 h2 a3 h3 a4 h4 a5 h5 a6 h6 a7 h7 hc x0 x1 x2 x3 xo5 xo6)]
  unfold kernelRun2_B
  dsimp only
  sl_unfold_words
  rw [View.canon_unit_zero r2_hzB]
  simp only [View.readAt_eq_ld, h1.read_unread, h2.read_unread, h3.read_unread, h4.read_unread, h6.read_unread, h7.read_unread, View.ld_unit_zero (S := S5000x64) r2_hzB, View.ld_unit_zero (S := S5000x128) r2_hzB, View.ld_unit_zero (S := S1x64) r2_hzB, View.ld_unit_zero (S := S128x64) r2_hzB]

end Cert.KernelIdeal.KV

end
-- ==== Proof.KStats2Outs.lean ====
/-
  Region 2: what the three outputs' buffers hold after the body at a grid point, as the body's pure terms of the
  point's input blocks — at the first point over the zero rows, at a later point over what the point before left
  in the two accumulators.
-/
import proofs.«151943_j8564164788539_2_alg».proof.Proof.KStats2PiecesA
import proofs.«151943_j8564164788539_2_alg».proof.Proof.KStats2PiecesB

noncomputable section

namespace Cert.KernelIdeal.KV

open Cert.KernelIdeal Cert.KernelIdeal.Gen Idealize.ShloMosaic
open Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b)) (c : Dev nD)

/-- After the first point. -/
theorem outs2_first (t : Fin cfg2.N) (h0 : t.val % 10 = 0) :
    outsAt2 V c t.val t.isLt
      = (k2_pay3 (iblk2 V c 0 t) (iblk2 V c 2 t) (iblk2 V c 1 t) (iblk2 V c 3 t),
         k2_pay4 (iblk2 V c 0 t) (iblk2 V c 2 t) (iblk2 V c 1 t) (iblk2 V c 3 t) k2_pay1,
         k2_pay5 (iblk2 V c 0 t) (iblk2 V c 2 t) (iblk2 V c 1 t) (iblk2 V c 3 t) k2_pay2) :=
  (outsAt2_A V c t h0).trans (congrArg₂ Prod.mk
    (out2_A_4_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t))
    (congrArg₂ Prod.mk
      (out2_A_5_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t))
      (out2_A_6_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t))))

/-- After a later point. -/
theorem outs2_later (t : Fin cfg2.N) (h0 : ¬t.val % 10 = 0) :
    outsAt2 V c t.val t.isLt
      = (k2_pay3 (iblk2 V c 0 t) (iblk2 V c 2 t) (iblk2 V c 1 t) (iblk2 V c 3 t),
         k2_pay4 (iblk2 V c 0 t) (iblk2 V c 2 t) (iblk2 V c 1 t) (iblk2 V c 3 t) (outsAt2 V c (t.val - 1) (Nat.lt_of_le_of_lt (Nat.sub_le _ _) t.isLt)).2.1,
         k2_pay5 (iblk2 V c 0 t) (iblk2 V c 2 t) (iblk2 V c 1 t) (iblk2 V c 3 t) (outsAt2 V c (t.val - 1) (Nat.lt_of_le_of_lt (Nat.sub_le _ _) t.isLt)).2.2) :=
  (outsAt2_B V c t h0).trans (congrArg₂ Prod.mk
    (out2_B_4_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2)
    (congrArg₂ Prod.mk
      (out2_B_5_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2)
      (out2_B_6_eq (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2.1 (outsAt2 V c (t.val - 1) (Nat.lt_of_le_of_lt (Nat.sub_le _ _) t.isLt)).2.2)))

/-- The row block of pre-activations after any point. -/
theorem outs2_blk (t : Fin cfg2.N) :
    (outsAt2 V c t.val t.isLt).1 = k2_pay3 (iblk2 V c 0 t) (iblk2 V c 2 t) (iblk2 V c 1 t) (iblk2 V c 3 t) := by
  by_cases h0 : t.val % 10 = 0
  · rw [outs2_first V c t h0]
  · rw [outs2_later V c t h0]

end Cert.KernelIdeal.KV

end
-- ==== Proof.KStats2Pay.lean ====
/-
  Region 2, the body's arithmetic over the extended reals, entry by entry.

  Here the product with the left weight was taken before the aggregation, so the body has one matrix product only.
  The row block of pre-activations "k2_pay3" at row p, column q is
  max ((MY p q + b q) + Σ_k X p k · Wr k q) 0; the accumulator updates add to the carried row the block's column
  sums ("k2_pay4") and the column sums of the squared entries ("k2_pay5").  The narrowing of the matrix operands is
  the identity on the extended reals, a product into the zero accumulator is the sum of products over the contracted
  axis, and a reduction over the rows is the finite sum over the row coordinate.
-/
import proofs.«151943_j8564164788539_2_alg».proof.Proof.Gen.KernelIdeal.Skeleton
import proofs.«151943_j8564164788539_2_alg».proof.Proof.SageSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KV

open Cert.KernelIdeal Cert.KernelIdeal.Gen Cert.SageSpec Idealize.ShloMosaic Idealize.ShloMosaic.ValueIdx
open Idealize.ShloMosaic.TcCoe Idealize.SL.Sem
open Idealize.ShloMosaic.Pipeline (Dat)

/-! ## The matrix product of a row block with the right weight -/

theorem r2_lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem r2_lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem r2_rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem r2_rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (p, q) of a row block times a weight, accumulated into zero: Σ_k A p k · W k q. -/
theorem r2_mm_apply (A : Vec Ideal S5000x128 .f32) (W : Vec Ideal S128x64 .f32) (p : Fin 5000) (q : Fin 64) :
    matmul dot_S5000x128_S128x64_S5000x64_1_0_0_1_n_n none (truncf .bf16 A bitsLt_bf16_f32) (truncf .bf16 W bitsLt_bf16_f32)
        (constant (F := Ideal) S5000x64 .f32 0x00000000#32) (ix2 p q)
      = ∑ k : Fin 128, A (ix2 p k) * W (ix2 k q) := by
  refine (Ideal.matmul_constant_zero_apply dot_S5000x128_S128x64_S5000x64_1_0_0_1_n_n none _ _ (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact r2_lhs_0 _ _
    | ⟨1, _⟩ => exact (r2_lhs_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (r2_rhs_0 _ _).trans hk
    | ⟨1, _⟩ => exact r2_rhs_1 _ _)
  rw [el, er]
  rfl

/-! ## The bias row spread over the block's rows -/

/-- The bias row broadcast over the rows, at (p, q): entry q of the row. -/
theorem r2_bias_apply (b : Vec Ideal S1x64 .f32) (p : Fin 5000) (q : Fin 64) :
    broadcastTo S5000x64 (shapeCast S1x64 b shapeCasts_S1x64_S1x64) broadcasts_S1x64_S5000x64 (ix2 p q) = b (ix2 0 q) := by
  rw [shapeCast_self]
  exact broadcastTo_apply b broadcasts_S1x64_S5000x64 (ix2 p q) (ix2 0 q) (fun a => by
    match a with
    | ⟨0, _⟩ => rfl
    | ⟨1, _⟩ => rfl)

/-! ## The pre-activations of a row block -/

/-- The block's pre-activation at (p, q). -/
def pre2 (MY : Vec Ideal S5000x64 .f32) (X : Vec Ideal S5000x128 .f32) (Wr : Vec Ideal S128x64 .f32) (b : Vec Ideal S1x64 .f32)
    (p : Fin 5000) (q : Fin 64) : EReal :=
  max ((MY (ix2 p q) + b (ix2 0 q)) + ∑ k : Fin 128, X (ix2 p k) * Wr (ix2 k q)) 0

theorem k2pay3_apply (MY : Vec Ideal S5000x64 .f32) (b : Vec Ideal S1x64 .f32) (X : Vec Ideal S5000x128 .f32) (Wr : Vec Ideal S128x64 .f32)
    (p : Fin 5000) (q : Fin 64) :
    k2_pay3 (F := Ideal) MY b X Wr (ix2 p q) = pre2 MY X Wr b p q := by
  unfold k2_pay3 pre2
  show max ((_ + _) + _) (Ideal.ofBits .f32 0x00000000#32) = _
  rw [Ideal.ofBits_zero_f32]
  refine congrArg (fun z => max z (0 : EReal)) ?_
  refine congrArg₂ (· + ·) (congrArg₂ (· + ·) ?_ ?_) ?_
  · rw [shapeCast_self]
  · exact r2_bias_apply b p q
  · rw [shapeCast_self]; exact r2_mm_apply X Wr p q

/-! ## The accumulator updates -/

/-- A row vector over one row, re-read as a 1 × 64 block, at (0, q). -/
theorem r2_row_apply (v : FVec Ideal S64 .f32) (q : Fin 64) :
    shapeCast S1x64 v shapeCasts_S64_S1x64 (ix2 0 q) = v (ix1 q) := by
  refine (shapeCast_addUnit_apply ![64] v shapeCasts_S64_S1x64 (ix2 0 q)).trans ?_
  exact congrArg v (funext fun a => by match a with | ⟨0, _⟩ => rfl)

/-- The column sums of a 5000 × 64 block, at column q. -/
theorem r2_colsum_apply (src : FVec Ideal S5000x64 .f32) (hacc : (0x00000000#32 : BitVec 32) = 0x00000000#32) (q : Fin 64) :
    multiReduction (F := Ideal) .add [0] S64 src 0x00000000#32 reduces_S5000x64_S64 (.inl rfl) hacc (ix1 q)
      = ∑ r : Fin 5000, src (ix2 r q) := by
  refine (Ideal.multiReduction_add_single src 0x00000000#32 reduces_S5000x64_S64 (.inl rfl) hacc (ix1 q)).trans ?_
  refine Finset.sum_congr rfl fun r _ => ?_
  exact congrArg src (funext fun a => Fin.ext (by match a with | ⟨0, _⟩ => rfl | ⟨1, _⟩ => rfl))

/-- The column-sum accumulator after a point: the carried row plus the block's column sums. -/
theorem k2pay4_apply (MY : Vec Ideal S5000x64 .f32) (b : Vec Ideal S1x64 .f32) (X : Vec Ideal S5000x128 .f32) (Wr : Vec Ideal S128x64 .f32)
    (acc : Vec Ideal S1x64 .f32) (q : Fin 64) :
    k2_pay4 (F := Ideal) MY b X Wr acc (ix2 0 q) = acc (ix2 0 q) + ∑ r : Fin 5000, pre2 MY X Wr b r q := by
  unfold k2_pay4
  show _ + _ = _
  refine congrArg₂ (· + ·) ?_ ?_
  · rw [shapeCast_self]
  · refine (r2_row_apply _ q).trans ?_
    refine (r2_colsum_apply _ rfl q).trans ?_
    exact Finset.sum_congr rfl fun r _ => k2pay3_apply MY b X Wr r q

/-- The sum-of-squares accumulator after a point: the carried row plus the block's column sums of squares. -/
theorem k2pay5_apply (MY : Vec Ideal S5000x64 .f32) (b : Vec Ideal S1x64 .f32) (X : Vec Ideal S5000x128 .f32) (Wr : Vec Ideal S128x64 .f32)
    (acc : Vec Ideal S1x64 .f32) (q : Fin 64) :
    k2_pay5 (F := Ideal) MY b X Wr acc (ix2 0 q)
      = acc (ix2 0 q) + ∑ r : Fin 5000, pre2 MY X Wr b r q * pre2 MY X Wr b r q := by
  unfold k2_pay5
  show _ + _ = _
  refine congrArg₂ (· + ·) ?_ ?_
  · rw [shapeCast_self]
  · refine (r2_row_apply _ q).trans ?_
    refine (r2_colsum_apply _ rfl q).trans ?_
    refine Finset.sum_congr rfl fun r _ => ?_
    show _ * _ = _
    rw [k2pay3_apply MY b X Wr r q]

/-- The zero rows the first point stores. -/
theorem k2pay1_apply (q : Fin 64) : k2_pay1 (F := Ideal) (ix2 0 q) = 0 := Ideal.ofBits_zero_f32
theorem k2pay2_apply (q : Fin 64) : k2_pay2 (F := Ideal) (ix2 0 q) = 0 := Ideal.ofBits_zero_f32

end Cert.KernelIdeal.KV

end
-- ==== Proof.KStats2Arr.lean ====
/-
  Region 2: the four operand arrays as the region finds them, curried over literal coordinates, and each window's
  block at a grid point read out of its array.  Point t sees rows 5000 t … 5000 t + 4999 of the two row operands;
  the weight and the bias row are the same whole arrays at every point.  Hence the block's pre-activation at
  local row r is the layer's pre-activation "preB" at row 5000 t + r.
-/
import proofs.«151943_j8564164788539_2_alg».proof.Proof.Gen.KernelIdeal.Frame
import proofs.«151943_j8564164788539_2_alg».proof.Proof.KStats2Pay
import Idealize.ShloMosaic.Lib.ValueIdx
import Idealize.ShloMosaic.Lib.Pipeline.Value

noncomputable section

namespace Cert.KernelIdeal.KV

open Cert.KernelIdeal Cert.KernelIdeal.Gen Cert.SageSpec Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The aggregated product with the left weight, "MY". -/
def r2MY (n : Fin 50000) (k : Fin 64) : EReal := (V c (Pipeline.arrRef spec2 0) : S50000x64.Idx → EReal) (ix2 n k)
/-- The layer's input features "X". -/
def r2X (n : Fin 50000) (k : Fin 128) : EReal := (V c (Pipeline.arrRef spec2 1) : S50000x128.Idx → EReal) (ix2 n k)
/-- The bias row. -/
def r2b (j : Fin 64) : EReal := (V c (Pipeline.arrRef spec2 2) : S1x64.Idx → EReal) (ix2 0 j)
/-- The right weight. -/
def r2Wr (k : Fin 128) (j : Fin 64) : EReal := (V c (Pipeline.arrRef spec2 3) : S128x64.Idx → EReal) (ix2 k j)

/-- The block indices of the seven windows at a grid point: the row operands and the row output move with the
    point, everything else stays at block (0, 0). -/
theorem r2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

theorem iblk2_0_apply (t : Fin cfg2.N) (r : Fin 5000) (k : Fin 64) (n : Fin 50000) (hn : n.val = t.val * 5000 + r.val) :
    (iblk2 V c 0 t : Vec Ideal S5000x64 .f32) (ix2 r k) = r2MY V c n k := by
  obtain ⟨e0, e1, -⟩ := r2_idx t
  unfold iblk2 r2MY
  rw [View.read_apply]
  refine congrArg (V c (Pipeline.arrRef spec2 0) : S50000x64.Idx → EReal) (funext fun a => Fin.ext ?_)
  match a with
  | ⟨0, _⟩ => show win2_0.index t (0 : Fin 2) * 5000 + 1 * r.val = n.val; omega
  | ⟨1, _⟩ => show win2_0.index t (1 : Fin 2) * 64 + 1 * k.val = k.val; omega

theorem iblk2_1_apply (t : Fin cfg2.N) (r : Fin 5000) (k : Fin 128) (n : Fin 50000) (hn : n.val = t.val * 5000 + r.val) :
    (iblk2 V c 1 t : Vec Ideal S5000x128 .f32) (ix2 r k) = r2X V c n k := by
  obtain ⟨-, -, e0, e1, -⟩ := r2_idx t
  unfold iblk2 r2X
  rw [View.read_apply]
  refine congrArg (V c (Pipeline.arrRef spec2 1) : S50000x128.Idx → EReal) (funext fun a => Fin.ext ?_)
  match a with
  | ⟨0, _⟩ => show win2_1.index t (0 : Fin 2) * 5000 + 1 * r.val = n.val; omega
  | ⟨1, _⟩ => show win2_1.index t (1 : Fin 2) * 128 + 1 * k.val = k.val; omega

theorem iblk2_2_apply (t : Fin cfg2.N) (j : Fin 64) :
    (iblk2 V c 2 t : Vec Ideal S1x64 .f32) (ix2 0 j) = r2b V c j := by
  obtain ⟨-, -, -, -, e0, e1, -⟩ := r2_idx t
  unfold iblk2 r2b
  rw [View.read_apply]
  refine congrArg (V c (Pipeline.arrRef spec2 2) : S1x64.Idx → EReal) (funext fun a => Fin.ext ?_)
  match a with
  | ⟨0, _⟩ => show win2_2.index t (0 : Fin 2) * 1 + 1 * 0 = 0; omega
  | ⟨1, _⟩ => show win2_2.index t (1 : Fin 2) * 64 + 1 * j.val = j.val; omega

theorem iblk2_3_apply (t : Fin cfg2.N) (k : Fin 128) (j : Fin 64) :
    (iblk2 V c 3 t : Vec Ideal S128x64 .f32) (ix2 k j) = r2Wr V c k j := by
  obtain ⟨-, -, -, -, -, -, e0, e1, -⟩ := r2_idx t
  unfold iblk2 r2Wr
  rw [View.read_apply]
  refine congrArg (V c (Pipeline.arrRef spec2 3) : S128x64.Idx → EReal) (funext fun a => Fin.ext ?_)
  match a with
  | ⟨0, _⟩ => show win2_3.index t (0 : Fin 2) * 128 + 1 * k.val = k.val; omega
  | ⟨1, _⟩ => show win2_3.index t (1 : Fin 2) * 64 + 1 * j.val = j.val; omega

/-- The block's pre-activation at local row r is the layer's at row n = 5000 t + r. -/
theorem pre2_blk (t : Fin cfg2.N) (r : Fin 5000) (q : Fin 64) (n : Fin 50000) (hn : n.val = t.val * 5000 + r.val) :
    pre2 (iblk2 V c 0 t) (iblk2 V c 1 t) (iblk2 V c 3 t) (iblk2 V c 2 t) r q
      = preB (r2MY V c) (r2X V c) (r2Wr V c) (r2b V c) n q := by
  unfold pre2 preB mm
  refine congrArg (fun z => max z (0 : EReal)) ?_
  refine congrArg₂ (· + ·) (congrArg₂ (· + ·) ?_ ?_) ?_
  · exact iblk2_0_apply V c t r q n hn
  · exact iblk2_2_apply V c t q
  · exact Finset.sum_congr rfl fun k _ => congrArg₂ (· * ·) (iblk2_1_apply V c t r k n hn) (iblk2_3_apply V c t k q)

end Cert.KernelIdeal.KV

end
-- ==== Proof.KStats2Acc.lean ====
/-
  Region 2: the two accumulators across the grid.  After point n the column-sum accumulator holds the sum, over
  the points 0 … n, of the column sums of each point's 5000 rows of pre-activations, and the sum-of-squares
  accumulator the same of the squared pre-activations: the first point starts from the zero row, every later point
  adds its block's sums to what the point before left.  After the last of the ten points that is the sum over all
  50000 rows, a sum over Fin (10 · 5000) regrouped by quotient and remainder.
-/
import proofs.«151943_j8564164788539_2_alg».proof.Proof.KStats2Outs
import proofs.«151943_j8564164788539_2_alg».proof.Proof.KStats2Arr
import proofs.«151943_j8564164788539_2_alg».proof.Proof.KStatsSum

noncomputable section

namespace Cert.KernelIdeal.KV

open Cert.KernelIdeal Cert.KernelIdeal.Gen Cert.SageSpec Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b)) (c : Dev nD)

/-! ## The accumulators after each point -/

/-- The column-sum accumulator after point n. -/
theorem r2_acc5_eq (q : Fin 64) : ∀ (n : ℕ) (h : n < cfg2.N),
    (outsAt2 V c n h).2.1 (ix2 0 q) = ∑ t ∈ Finset.range (n + 1), blkSum (fun m => (preB (r2MY V c) (r2X V c) (r2Wr V c) (r2b V c)) m q) t
  | 0, h => by
    have e : (outsAt2 V c 0 h).2.1 = k2_pay4 (iblk2 V c 0 ⟨0, h⟩) (iblk2 V c 2 ⟨0, h⟩) (iblk2 V c 1 ⟨0, h⟩) (iblk2 V c 3 ⟨0, h⟩) (k2_pay1 (F := Ideal)) :=
      congrArg (fun p => p.2.1) (outs2_first V c ⟨0, h⟩ rfl)
    refine (congrFun e (ix2 0 q)).trans ?_
    refine (k2pay4_apply (iblk2 V c 0 ⟨0, h⟩) (iblk2 V c 2 ⟨0, h⟩) (iblk2 V c 1 ⟨0, h⟩) (iblk2 V c 3 ⟨0, h⟩) (k2_pay1 (F := Ideal)) q).trans ?_
    rw [k2pay1_apply, zero_add, Finset.sum_range_one]
    unfold blkSum
    refine Finset.sum_congr rfl fun r _ => ?_
    rw [dif_pos (by omega)]
    exact pre2_blk V c ⟨0, h⟩ r q ⟨0 * 5000 + r.val, by omega⟩ rfl
  | n + 1, h => by
    have hN : cfg2.N = 10 := N_2
    have hB : ¬(⟨n + 1, h⟩ : Fin cfg2.N).val % 10 = 0 := by dsimp only; omega
    have e : (outsAt2 V c (n + 1) h).2.1 = k2_pay4 (iblk2 V c 0 ⟨n + 1, h⟩) (iblk2 V c 2 ⟨n + 1, h⟩) (iblk2 V c 1 ⟨n + 1, h⟩) (iblk2 V c 3 ⟨n + 1, h⟩) (outsAt2 V c n (Nat.lt_of_succ_lt h)).2.1 :=
      congrArg (fun p => p.2.1) (outs2_later V c ⟨n + 1, h⟩ hB)
    refine (congrFun e (ix2 0 q)).trans ?_
    refine (k2pay4_apply (iblk2 V c 0 ⟨n + 1, h⟩) (iblk2 V c 2 ⟨n + 1, h⟩) (iblk2 V c 1 ⟨n + 1, h⟩) (iblk2 V c 3 ⟨n + 1, h⟩) (outsAt2 V c n (Nat.lt_of_succ_lt h)).2.1 q).trans ?_
    rw [r2_acc5_eq q n (Nat.lt_of_succ_lt h), Finset.sum_range_succ _ (n + 1)]
    refine congrArg (_ + ·) ?_
    unfold blkSum
    refine Finset.sum_congr rfl fun r _ => ?_
    rw [dif_pos (by omega)]
    exact pre2_blk V c ⟨n + 1, h⟩ r q ⟨(n + 1) * 5000 + r.val, by omega⟩ rfl

/-- The sum-of-squares accumulator after point n. -/
theorem r2_acc6_eq (q : Fin 64) : ∀ (n : ℕ) (h : n < cfg2.N),
    (outsAt2 V c n h).2.2 (ix2 0 q) = ∑ t ∈ Finset.range (n + 1), blkSum (fun m => (preB (r2MY V c) (r2X V c) (r2Wr V c) (r2b V c)) m q * (preB (r2MY V c) (r2X V c) (r2Wr V c) (r2b V c)) m q) t
  | 0, h => by
    have e : (outsAt2 V c 0 h).2.2 = k2_pay5 (iblk2 V c 0 ⟨0, h⟩) (iblk2 V c 2 ⟨0, h⟩) (iblk2 V c 1 ⟨0, h⟩) (iblk2 V c 3 ⟨0, h⟩) (k2_pay2 (F := Ideal)) :=
      congrArg (fun p => p.2.2) (outs2_first V c ⟨0, h⟩ rfl)
    refine (congrFun e (ix2 0 q)).trans ?_
    refine (k2pay5_apply (iblk2 V c 0 ⟨0, h⟩) (iblk2 V c 2 ⟨0, h⟩) (iblk2 V c 1 ⟨0, h⟩) (iblk2 V c 3 ⟨0, h⟩) (k2_pay2 (F := Ideal)) q).trans ?_
    rw [k2pay2_apply, zero_add, Finset.sum_range_one]
    unfold blkSum
    refine Finset.sum_congr rfl fun r _ => ?_
    rw [dif_pos (by omega)]
    exact congrArg₂ (· * ·) (pre2_blk V c ⟨0, h⟩ r q ⟨0 * 5000 + r.val, by omega⟩ rfl) (pre2_blk V c ⟨0, h⟩ r q ⟨0 * 5000 + r.val, by omega⟩ rfl)
  | n + 1, h => by
    have hN : cfg2.N = 10 := N_2
    have hB : ¬(⟨n + 1, h⟩ : Fin cfg2.N).val % 10 = 0 := by dsimp only; omega
    have e : (outsAt2 V c (n + 1) h).2.2 = k2_pay5 (iblk2 V c 0 ⟨n + 1, h⟩) (iblk2 V c 2 ⟨n + 1, h⟩) (iblk2 V c 1 ⟨n + 1, h⟩) (iblk2 V c 3 ⟨n + 1, h⟩) (outsAt2 V c n (Nat.lt_of_succ_lt h)).2.2 :=
      congrArg (fun p => p.2.2) (outs2_later V c ⟨n + 1, h⟩ hB)
    refine (congrFun e (ix2 0 q)).trans ?_
    refine (k2pay5_apply (iblk2 V c 0 ⟨n + 1, h⟩) (iblk2 V c 2 ⟨n + 1, h⟩) (iblk2 V c 1 ⟨n + 1, h⟩) (iblk2 V c 3 ⟨n + 1, h⟩) (outsAt2 V c n (Nat.lt_of_succ_lt h)).2.2 q).trans ?_
    rw [r2_acc6_eq q n (Nat.lt_of_succ_lt h), Finset.sum_range_succ _ (n + 1)]
    refine congrArg (_ + ·) ?_
    unfold blkSum
    refine Finset.sum_congr rfl fun r _ => ?_
    rw [dif_pos (by omega)]
    exact congrArg₂ (· * ·) (pre2_blk V c ⟨n + 1, h⟩ r q ⟨(n + 1) * 5000 + r.val, by omega⟩ rfl) (pre2_blk V c ⟨n + 1, h⟩ r q ⟨(n + 1) * 5000 + r.val, by omega⟩ rfl)

/-- After the last point: the column sums over all 50000 rows. -/
theorem r2_acc5_last (q : Fin 64) (h : 9 < cfg2.N) :
    (outsAt2 V c 9 h).2.1 (ix2 0 q) = colsum (preB (r2MY V c) (r2X V c) (r2Wr V c) (r2b V c)) q :=
  (r2_acc5_eq V c q 9 h).trans (sum_blocks (fun m => (preB (r2MY V c) (r2X V c) (r2Wr V c) (r2b V c)) m q))

/-- After the last point: the column sums of squares over all 50000 rows. -/
theorem r2_acc6_last (q : Fin 64) (h : 9 < cfg2.N) :
    (outsAt2 V c 9 h).2.2 (ix2 0 q) = colsum (fun n j => (preB (r2MY V c) (r2X V c) (r2Wr V c) (r2b V c)) n j * (preB (r2MY V c) (r2X V c) (r2Wr V c) (r2b V c)) n j) q :=
  (r2_acc6_eq V c q 9 h).trans (sum_blocks (fun m => (preB (r2MY V c) (r2X V c) (r2Wr V c) (r2b V c)) m q * (preB (r2MY V c) (r2X V c) (r2Wr V c) (r2b V c)) m q))

end Cert.KernelIdeal.KV

end
-- ==== Proof.KStats2.lean ====
/-
  Region 2: the three output arrays after the region.

  The row output is written back block by block, point t writing rows 5000 t … 5000 t + 4999: every row is in
  the block of the point row / 5000, and each block holds the layer's pre-activations "preB" of its rows.  The two
  accumulators are written back once, after the last point, when they hold the column sums of the pre-activations
  and of their squares over all 50000 rows.
-/
import proofs.«151943_j8564164788539_2_alg».proof.Proof.KStats2Acc

noncomputable section

namespace Cert.KernelIdeal.KV

open Cert.KernelIdeal Cert.KernelIdeal.Gen Cert.SageSpec Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b)) (c : Dev nD)

/-! ## The row output -/

/-- What the row output ends holding, index by index. -/
def r2_GP : S50000x64.Idx → EReal := fun i =>
  (preB (r2MY V c) (r2X V c) (r2Wr V c) (r2b V c)) ⟨(i 0).val, (i 0).isLt⟩ ⟨(i 1).val, (i 1).isLt⟩

/-- What point t writes back is block t of the row output's final contents. -/
theorem r2_flushed4_eq (t : Fin cfg2.N) :
    (dat2 V c).flushed 4 t = ((cfg2.win 4).blk t).view.read (Elt Ideal) (r2_GP V c) := by
  show (cfg2.win 4).cut (grid2.coords t) ((dat2 V c).after 4 t) = _
  rw [after2_4, outs2_blk V c t]
  have hN : cfg2.N = 10 := N_2
  have ht : t.val < 10 := lt_of_lt_of_eq t.isLt hN
  obtain ⟨-, -, -, -, -, -, -, -, e0, e1, -, -, -, -⟩ := r2_idx t
  funext y
  obtain ⟨r, q, rfl⟩ : ∃ (r : Fin 5000) (q : Fin 64), y = ix2 r q := ⟨y 0, y 1, eq_ix2 y⟩
  show k2_pay3 (F := Ideal) (iblk2 V c 0 t) (iblk2 V c 2 t) (iblk2 V c 1 t) (iblk2 V c 3 t) (ix2 r q) = r2_GP V c (((cfg2.win 4).blk t).view.emb (ix2 r q))
  refine (k2pay3_apply (iblk2 V c 0 t) (iblk2 V c 2 t) (iblk2 V c 1 t) (iblk2 V c 3 t) r q).trans ?_
  refine (pre2_blk V c t r q ⟨t.val * 5000 + r.val, by omega⟩ rfl).trans ?_
  unfold r2_GP
  refine congrArg₂ (fun a b => (preB (r2MY V c) (r2X V c) (r2Wr V c) (r2b V c)) a b) (Fin.ext ?_) (Fin.ext ?_)
  · show t.val * 5000 + r.val = win2_4.index t (0 : Fin 2) * 5000 + 1 * r.val; omega
  · show q.val = win2_4.index t (1 : Fin 2) * 64 + 1 * q.val; omega

/-- An index of the row output is in point t's block iff each coordinate is in the block's range on its axis. -/
theorem r2_mem_blk4 (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v52_0).slice (win2_4.rect t)).set ↔ _
  rw [View.set_slice_whole, Rect.mem_set_unit]
  exact Iff.rfl

/-- Every row is in the block of the point row / 5000. -/
theorem r2_cover4 (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  have hN : cfg2.N = 10 := N_2
  have hlt : (i 0).val / 5000 < cfg2.N := by rw [hN]; omega
  obtain ⟨-, -, -, -, -, -, -, -, e0, e1, -, -, -, -⟩ := r2_idx ⟨(i 0).val / 5000, hlt⟩
  refine ⟨⟨(i 0).val / 5000, hlt⟩, flush2_4 _, ?_⟩
  rw [r2_mem_blk4]
  intro a
  match a with
  | ⟨0, _⟩ =>
    show win2_4.index ⟨(i 0).val / 5000, hlt⟩ (0 : Fin 2) * 5000 ≤ (i 0).val ∧ (i 0).val < win2_4.index ⟨(i 0).val / 5000, hlt⟩ (0 : Fin 2) * 5000 + 5000
    rw [e0]; dsimp only; omega
  | ⟨1, _⟩ =>
    show win2_4.index ⟨(i 0).val / 5000, hlt⟩ (1 : Fin 2) * 64 ≤ (i 1).val ∧ (i 1).val < win2_4.index ⟨(i 0).val / 5000, hlt⟩ (1 : Fin 2) * 64 + 64
    rw [e1]; omega

theorem region2_P (n : Fin 50000) (j : Fin 64) :
    (dat2 V c).arrAt 4 cfg2.N (ix2 n j) = preB (r2MY V c) (r2X V c) (r2Wr V c) (r2b V c) n j :=
  congrFun ((dat2 V c).arrAt_eq_of_cover 4 (r2_GP V c) (fun t _ => r2_flushed4_eq V c t) (r2_cover4)) (ix2 n j)

/-! ## The two accumulators -/

/-- What the column-sum output ends holding. -/
def r2_GS : S1x64.Idx → EReal := fun i => colsum (preB (r2MY V c) (r2X V c) (r2Wr V c) (r2b V c)) ⟨(i 1).val, (i 1).isLt⟩
/-- What the sum-of-squares output ends holding. -/
def r2_GSS : S1x64.Idx → EReal := fun i =>
  colsum (fun n j => (preB (r2MY V c) (r2X V c) (r2Wr V c) (r2b V c)) n j * (preB (r2MY V c) (r2X V c) (r2Wr V c) (r2b V c)) n j) ⟨(i 1).val, (i 1).isLt⟩

/-- The column-sum accumulator after a point known to be the last one. -/
theorem r2_acc5_at (q : Fin 64) (t : Fin cfg2.N) (h9 : t.val = 9) :
    (outsAt2 V c t.val t.isLt).2.1 (ix2 0 q) = colsum (preB (r2MY V c) (r2X V c) (r2Wr V c) (r2b V c)) q := by
  refine (r2_acc5_eq V c q t.val t.isLt).trans ?_
  rw [h9]
  exact sum_blocks (fun m => (preB (r2MY V c) (r2X V c) (r2Wr V c) (r2b V c)) m q)

/-- The sum-of-squares accumulator after a point known to be the last one. -/
theorem r2_acc6_at (q : Fin 64) (t : Fin cfg2.N) (h9 : t.val = 9) :
    (outsAt2 V c t.val t.isLt).2.2 (ix2 0 q)
      = colsum (fun n j => (preB (r2MY V c) (r2X V c) (r2Wr V c) (r2b V c)) n j * (preB (r2MY V c) (r2X V c) (r2Wr V c) (r2b V c)) n j) q := by
  refine (r2_acc6_eq V c q t.val t.isLt).trans ?_
  rw [h9]
  exact sum_blocks (fun m => (preB (r2MY V c) (r2X V c) (r2Wr V c) (r2b V c)) m q * (preB (r2MY V c) (r2X V c) (r2Wr V c) (r2b V c)) m q)

/-- The one write-back of window 5, after the last point. -/
theorem r2_flushed5_eq (t : Fin cfg2.N) (hf : (cfg2.win 5).flush t = true) :
    (dat2 V c).flushed 5 t = ((cfg2.win 5).blk t).view.read (Elt Ideal) (r2_GS V c) := by
  have hN : cfg2.N = 10 := N_2
  have h9 : t.val = 9 := by have := (flush2_5 t).mp hf; have := t.isLt; omega
  show (cfg2.win 5).cut (grid2.coords t) ((dat2 V c).after 5 t) = _
  rw [after2_5]
  have hXq : ∀ q : Fin 64, (outsAt2 V c t.val t.isLt).2.1 (ix2 0 q) = colsum (preB (r2MY V c) (r2X V c) (r2Wr V c) (r2b V c)) q := fun q => r2_acc5_at V c q t h9
  generalize (outsAt2 V c t.val t.isLt).2.1 = X at hXq ⊢
  obtain ⟨-, -, -, -, -, -, -, -, -, -, e0, e1, -, -⟩ := r2_idx t
  funext y
  obtain ⟨z, q, rfl⟩ : ∃ (z : Fin 1) (q : Fin 64), y = ix2 z q := ⟨y 0, y 1, eq_ix2 y⟩
  obtain rfl : z = 0 := Subsingleton.elim _ _
  rw [View.read_apply]
  show X (ix2 0 q) = _
  refine (hXq q).trans ?_
  refine Eq.trans ?_ (cast_eq _ _).symm
  unfold r2_GS
  refine congrArg (colsum (preB (r2MY V c) (r2X V c) (r2Wr V c) (r2b V c))) (Fin.ext ?_)
  show q.val = win2_5.index t (1 : Fin 2) * 64 + 1 * q.val
  rw [e1]; omega

theorem r2_mem_blk5 (t : Fin cfg2.N) (i : S1x64.Idx) :
    i ∈ ((cfg2.win 5).blk t).view.set ↔ ∀ a : Fin 2, win2_5.index t a * S1x64.size a ≤ (i a).val ∧ (i a).val < win2_5.index t a * S1x64.size a + S1x64.size a := by
  show i ∈ ((View.whole main_v52_1).slice (win2_5.rect t)).set ↔ _
  rw [View.set_slice_whole, Rect.mem_set_unit]
  exact Iff.rfl

/-- The last point's block is the whole 1 × 64 array. -/
theorem r2_cover5 (i : S1x64.Idx) : ∃ t : Fin cfg2.N, (cfg2.win 5).flush t = true ∧ i ∈ ((cfg2.win 5).blk t).view.set := by
  have hi0 : (i 0).val < 1 := (i 0).isLt
  have hi1 : (i 1).val < 64 := (i 1).isLt
  have hN : cfg2.N = 10 := N_2
  obtain ⟨-, -, -, -, -, -, -, -, -, -, e0, e1, -, -⟩ := r2_idx t2_9
  refine ⟨t2_9, (flush2_5 _).mpr rfl, ?_⟩
  rw [r2_mem_blk5]
  intro a
  match a with
  | ⟨0, _⟩ =>
    show win2_5.index t2_9 (0 : Fin 2) * 1 ≤ (i 0).val ∧ (i 0).val < win2_5.index t2_9 (0 : Fin 2) * 1 + 1
    rw [e0]; omega
  | ⟨1, _⟩ =>
    show win2_5.index t2_9 (1 : Fin 2) * 64 ≤ (i 1).val ∧ (i 1).val < win2_5.index t2_9 (1 : Fin 2) * 64 + 64
    rw [e1]; omega

/-- The one write-back of window 6, after the last point. -/
theorem r2_flushed6_eq (t : Fin cfg2.N) (hf : (cfg2.win 6).flush t = true) :
    (dat2 V c).flushed 6 t = ((cfg2.win 6).blk t).view.read (Elt Ideal) (r2_GSS V c) := by
  have hN : cfg2.N = 10 := N_2
  have h9 : t.val = 9 := by have := (flush2_6 t).mp hf; have := t.isLt; omega
  show (cfg2.win 6).cut (grid2.coords t) ((dat2 V c).after 6 t) = _
  rw [after2_6]
  have hXq : ∀ q : Fin 64, (outsAt2 V c t.val t.isLt).2.2 (ix2 0 q) = colsum (fun n j => (preB (r2MY V c) (r2X V c) (r2Wr V c) (r2b V c)) n j * (preB (r2MY V c) (r2X V c) (r2Wr V c) (r2b V c)) n j) q := fun q => r2_acc6_at V c q t h9
  generalize (outsAt2 V c t.val t.isLt).2.2 = X at hXq ⊢
  obtain ⟨-, -, -, -, -, -, -, -, -, -, -, -, e0, e1⟩ := r2_idx t
  funext y
  obtain ⟨z, q, rfl⟩ : ∃ (z : Fin 1) (q : Fin 64), y = ix2 z q := ⟨y 0, y 1, eq_ix2 y⟩
  obtain rfl : z = 0 := Subsingleton.elim _ _
  rw [View.read_apply]
  show X (ix2 0 q) = _
  refine (hXq q).trans ?_
  refine Eq.trans ?_ (cast_eq _ _).symm
  unfold r2_GSS
  refine congrArg (colsum (fun n j => (preB (r2MY V c) (r2X V c) (r2Wr V c) (r2b V c)) n j * (preB (r2MY V c) (r2X V c) (r2Wr V c) (r2b V c)) n j)) (Fin.ext ?_)
  show q.val = win2_6.index t (1 : Fin 2) * 64 + 1 * q.val
  rw [e1]; omega

theorem r2_mem_blk6 (t : Fin cfg2.N) (i : S1x64.Idx) :
    i ∈ ((cfg2.win 6).blk t).view.set ↔ ∀ a : Fin 2, win2_6.index t a * S1x64.size a ≤ (i a).val ∧ (i a).val < win2_6.index t a * S1x64.size a + S1x64.size a := by
  show i ∈ ((View.whole main_v52_2).slice (win2_6.rect t)).set ↔ _
  rw [View.set_slice_whole, Rect.mem_set_unit]
  exact Iff.rfl

/-- The last point's block is the whole 1 × 64 array. -/
theorem r2_cover6 (i : S1x64.Idx) : ∃ t : Fin cfg2.N, (cfg2.win 6).flush t = true ∧ i ∈ ((cfg2.win 6).blk t).view.set := by
  have hi0 : (i 0).val < 1 := (i 0).isLt
  have hi1 : (i 1).val < 64 := (i 1).isLt
  have hN : cfg2.N = 10 := N_2
  obtain ⟨-, -, -, -, -, -, -, -, -, -, -, -, e0, e1⟩ := r2_idx t2_9
  refine ⟨t2_9, (flush2_6 _).mpr rfl, ?_⟩
  rw [r2_mem_blk6]
  intro a
  match a with
  | ⟨0, _⟩ =>
    show win2_6.index t2_9 (0 : Fin 2) * 1 ≤ (i 0).val ∧ (i 0).val < win2_6.index t2_9 (0 : Fin 2) * 1 + 1
    rw [e0]; omega
  | ⟨1, _⟩ =>
    show win2_6.index t2_9 (1 : Fin 2) * 64 ≤ (i 1).val ∧ (i 1).val < win2_6.index t2_9 (1 : Fin 2) * 64 + 64
    rw [e1]; omega

theorem region2_S (j : Fin 64) :
    (dat2 V c).arrAt 5 cfg2.N (ix2 0 j) = colsum (preB (r2MY V c) (r2X V c) (r2Wr V c) (r2b V c)) j :=
  congrFun ((dat2 V c).arrAt_eq_of_cover 5 (r2_GS V c) (r2_flushed5_eq V c) (r2_cover5)) (ix2 0 j)

theorem region2_SS (j : Fin 64) :
    (dat2 V c).arrAt 6 cfg2.N (ix2 0 j)
      = colsum (fun n j => preB (r2MY V c) (r2X V c) (r2Wr V c) (r2b V c) n j * preB (r2MY V c) (r2X V c) (r2Wr V c) (r2b V c) n j) j :=
  congrFun ((dat2 V c).arrAt_eq_of_cover 6 (r2_GSS V c) (r2_flushed6_eq V c) (r2_cover6)) (ix2 0 j)

end Cert.KernelIdeal.KV

end
-- ==== Proof.KApply3Pay.lean ====
/-
  The normalisation kernel of the second layer, one block at a time: what its two stores hold at an entry,
  as functions of the six blocks it loads.

  The first store is the affine normalisation of the feature block: at row `p`, lane `q`,
  `((x0 p q − mu q) · inv q) · g q + be q`, the four row vectors broadcast down the rows.  The second store
  is the product of that normalised block with the weight block `x5`: a contraction over the 64 lanes, into
  an accumulator of zeros; the changes of format on the way are the identity on the extended reals.
-/
import proofs.«151943_j8564164788539_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.KV

open Cert.KernelIdeal Cert.KernelIdeal.Gen Idealize.ShloMosaic Idealize.ShloMosaic.ValueIdx

/-- A row vector broadcast down 5000 rows reads, at row `p` and lane `q`, its lane `q`. -/
theorem bcast_row64 (x : FVec Ideal S1x64 .f32) (h : S1x64.Broadcasts S5000x64) (p : Fin 5000) (q : Fin 64) :
    broadcastTo S5000x64 x h (ix2 p q) = x (ix2 0 q) :=
  broadcastTo_apply x h (ix2 p q) (ix2 0 q) (fun a => match a with | ⟨0, _⟩ => rfl | ⟨1, _⟩ => rfl)

/-- The first store at an entry: the affine normalisation of the feature block. -/
theorem k3_pay1_apply (x0 : Vec Ideal S5000x64 .f32) (x1 x2 x3 x4 : Vec Ideal S1x64 .f32) (p : Fin 5000) (q : Fin 64) :
    k3_pay1 x0 x1 x2 x3 x4 (ix2 p q)
      = ((x0 (ix2 p q) - x1 (ix2 0 q)) * x2 (ix2 0 q)) * x3 (ix2 0 q) + x4 (ix2 0 q) := by
  unfold k3_pay1
  simp only [shapeCast_self, addf_apply, mulf_apply, subf_apply, bcast_row64]

/-- The contraction's operand indices at an output entry `j` and a contraction index `κ`, coordinate by coordinate:
    the left operand is read at `j`'s row and `κ`'s lane, the right one at `κ`'s row and `j`'s lane. -/
theorem dot3_lhs0 (j : S5000x32.Idx) (κ : dot_S5000x64_S64x32_S5000x32_1_0_0_1_n_n.contr.Idx) :
    (dot_S5000x64_S64x32_S5000x32_1_0_0_1_n_n.lhsIdx j κ 0).val = (j 0).val := by
  unfold DotDims.lhsIdx
  rw [dif_neg (show ¬(0 : Fin S5000x64.rank) ∈ dot_S5000x64_S64x32_S5000x32_1_0_0_1_n_n.lhsBatch by decide),
    dif_pos (show (0 : Fin S5000x64.rank) ∈ dot_S5000x64_S64x32_S5000x32_1_0_0_1_n_n.lhsNonContracting by decide)]
  rfl
theorem dot3_lhs1 (j : S5000x32.Idx) (κ : dot_S5000x64_S64x32_S5000x32_1_0_0_1_n_n.contr.Idx) :
    (dot_S5000x64_S64x32_S5000x32_1_0_0_1_n_n.lhsIdx j κ 1).val = (κ ⟨0, by decide⟩).val :=
  dot_S5000x64_S64x32_S5000x32_1_0_0_1_n_n.lhsIdx_val_of_single rfl j κ
theorem dot3_rhs0 (j : S5000x32.Idx) (κ : dot_S5000x64_S64x32_S5000x32_1_0_0_1_n_n.contr.Idx) :
    (dot_S5000x64_S64x32_S5000x32_1_0_0_1_n_n.rhsIdx j κ 0).val = (κ ⟨0, by decide⟩).val :=
  dot_S5000x64_S64x32_S5000x32_1_0_0_1_n_n.rhsIdx_val_of_single rfl j κ
theorem dot3_rhs1 (j : S5000x32.Idx) (κ : dot_S5000x64_S64x32_S5000x32_1_0_0_1_n_n.contr.Idx) :
    (dot_S5000x64_S64x32_S5000x32_1_0_0_1_n_n.rhsIdx j κ 1).val = (j 1).val := by
  unfold DotDims.rhsIdx
  rw [dif_neg (show ¬(1 : Fin S64x32.rank) ∈ dot_S5000x64_S64x32_S5000x32_1_0_0_1_n_n.rhsBatch by decide),
    dif_pos (show (1 : Fin S64x32.rank) ∈ dot_S5000x64_S64x32_S5000x32_1_0_0_1_n_n.rhsNonContracting by decide)]
  rfl

/-- At output entry `(p, q)` and lane `k`: row `p`, lane `k` of the left operand, -/
theorem dot3_lhs (p : Fin 5000) (q : Fin 32) (k : Fin 64) :
    dot_S5000x64_S64x32_S5000x32_1_0_0_1_n_n.lhsIdx (ix2 p q)
        ((contrEquiv1 dot_S5000x64_S64x32_S5000x32_1_0_0_1_n_n 64 rfl rfl).symm k) = ix2 p k := by
  have hk := contrEquiv1_symm_val dot_S5000x64_S64x32_S5000x32_1_0_0_1_n_n 64 rfl rfl k
  exact funext fun a => Fin.ext (by
    match a with
    | ⟨0, _⟩ => exact dot3_lhs0 _ _
    | ⟨1, _⟩ => exact (dot3_lhs1 _ _).trans hk)

/-- and row `k`, lane `q` of the right one. -/
theorem dot3_rhs (p : Fin 5000) (q : Fin 32) (k : Fin 64) :
    dot_S5000x64_S64x32_S5000x32_1_0_0_1_n_n.rhsIdx (ix2 p q)
        ((contrEquiv1 dot_S5000x64_S64x32_S5000x32_1_0_0_1_n_n 64 rfl rfl).symm k) = ix2 k q := by
  have hk := contrEquiv1_symm_val dot_S5000x64_S64x32_S5000x32_1_0_0_1_n_n 64 rfl rfl k
  exact funext fun a => Fin.ext (by
    match a with
    | ⟨0, _⟩ => exact (dot3_rhs0 _ _).trans hk
    | ⟨1, _⟩ => exact dot3_rhs1 _ _)

/-- The second store at an entry: the first store's row `p` against column `q` of the weight block, summed over
    the 64 lanes (the accumulator is the zero splat; the narrowing of both operands is the identity). -/
theorem k3_pay2_apply (x0 : Vec Ideal S5000x64 .f32) (x1 x2 x3 x4 : Vec Ideal S1x64 .f32) (x5 : Vec Ideal S64x32 .f32)
    (p : Fin 5000) (q : Fin 32) :
    k3_pay2 x0 x1 x2 x3 x4 x5 (ix2 p q) = ∑ k : Fin 64, k3_pay1 x0 x1 x2 x3 x4 (ix2 p k) * x5 (ix2 k q) := by
  unfold k3_pay2
  generalize k3_pay1 x0 x1 x2 x3 x4 = y
  simp only [matmul]
  rw [Ideal.matmul_constant_zero_apply,
    ← Equiv.sum_comp (contrEquiv1 dot_S5000x64_S64x32_S5000x32_1_0_0_1_n_n 64 rfl rfl).symm]
  refine Finset.sum_congr rfl fun k _ => ?_
  rw [dot3_lhs, dot3_rhs]
  rfl

end Cert.KernelIdeal.KV

end
-- ==== Proof.KApply3.lean ====
/-
  The second layer's normalisation kernel over its whole grid: what the two output arrays hold once every
  point has written its block back, entry by entry, as functions of the six arrays the kernel finds.

  The grid has 10 points; point `t` reads rows `5000 t … 5000 t + 4999` of the feature array and the whole of the
  four row vectors and of the weight, and writes the same rows of the two outputs.  So row `n` of an output is
  written by point `n / 5000` alone, and holds the block formula at row `n mod 5000`: the affine normalisation
  `((P n j − mu j) · inv j) · g j + be j`, and its product with the weight.
-/
import proofs.«151943_j8564164788539_2_alg».proof.Proof.Gen.KernelIdeal.Frame
import proofs.«151943_j8564164788539_2_alg».proof.Proof.SageSpec
import proofs.«151943_j8564164788539_2_alg».proof.Proof.KApply3Pay
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KV

open Cert.KernelIdeal Cert.KernelIdeal.Gen Cert.SageSpec Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b)) (c : Dev nD)

/-! ## The arrays the kernel finds, curried -/

/-- The feature array. -/
def r3P (n : Fin 50000) (j : Fin 64) : EReal := (V c (Pipeline.arrRef spec3 0) : S50000x64.Idx → EReal) (ix2 n j)
/-- The column means. -/
def r3mu (j : Fin 64) : EReal := (V c (Pipeline.arrRef spec3 1) : S1x64.Idx → EReal) (ix2 0 j)
/-- The column scales. -/
def r3inv (j : Fin 64) : EReal := (V c (Pipeline.arrRef spec3 2) : S1x64.Idx → EReal) (ix2 0 j)
/-- The gains. -/
def r3g (j : Fin 64) : EReal := (V c (Pipeline.arrRef spec3 3) : S1x64.Idx → EReal) (ix2 0 j)
/-- The offsets. -/
def r3be (j : Fin 64) : EReal := (V c (Pipeline.arrRef spec3 4) : S1x64.Idx → EReal) (ix2 0 j)
/-- The next layer's left weight. -/
def r3Wn (k : Fin 64) (j : Fin 32) : EReal := (V c (Pipeline.arrRef spec3 5) : S64x32.Idx → EReal) (ix2 k j)

/-! ## The windows' index maps over the grid -/

theorem hz3 : (![0, 0] : Fin 2 → Nat) = fun _ => 0 := funext fun a => by fin_cases a <;> rfl

/-- The row-block windows (the features and the two outputs) sit at block `t` of the rows at point `t`; the
    row vectors and the weight at their one block. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

theorem lt_N3 (t : Fin cfg3.N) : t.val < 10 := lt_of_lt_of_eq t.isLt N_3

/-! ## The input blocks, entry by entry -/

/-- Row `p` of the feature block at point `t` is row `5000 t + p` of the array. -/
theorem blk3_0_apply (t : Fin cfg3.N) (p : Fin 5000) (q : Fin 64) (n : Fin 50000) (hn : n.val = t.val * 5000 + p.val) :
    (iblk3 V c 0 t : Vec Ideal S5000x64 .f32) (ix2 p q) = r3P V c n q := by
  obtain ⟨e0, e1, -⟩ := idx_facts3 t
  show (V c (Pipeline.arrRef spec3 0) : S50000x64.Idx → EReal) (((cfg3.win 0).blk t).view.emb (ix2 p q))
    = (V c (Pipeline.arrRef spec3 0) : S50000x64.Idx → EReal) (ix2 n q)
  refine congrArg _ (funext fun a => Fin.ext ?_)
  match a with
  | ⟨0, _⟩ => show win3_0.index t (0 : Fin 2) * 5000 + 1 * p.val = n.val; omega
  | ⟨1, _⟩ => show win3_0.index t (1 : Fin 2) * 64 + 1 * q.val = q.val; omega

/-- The means' one block is the whole row vector. -/
theorem blk3_1_apply (t : Fin cfg3.N) (q : Fin 64) :
    (iblk3 V c 1 t : Vec Ideal S1x64 .f32) (ix2 0 q) = r3mu V c q := by
  obtain ⟨-, -, e0, e1, -⟩ := idx_facts3 t
  show (V c (Pipeline.arrRef spec3 1) : S1x64.Idx → EReal) (((cfg3.win 1).blk t).view.emb (ix2 0 q))
    = (V c (Pipeline.arrRef spec3 1) : S1x64.Idx → EReal) (ix2 0 q)
  refine congrArg _ (funext fun a => Fin.ext ?_)
  match a with
  | ⟨0, _⟩ => show win3_1.index t (0 : Fin 2) * 1 + 1 * 0 = 0; omega
  | ⟨1, _⟩ => show win3_1.index t (1 : Fin 2) * 64 + 1 * q.val = q.val; omega

/-- The scales' one block is the whole row vector. -/
theorem blk3_2_apply (t : Fin cfg3.N) (q : Fin 64) :
    (iblk3 V c 2 t : Vec Ideal S1x64 .f32) (ix2 0 q) = r3inv V c q := by
  obtain ⟨-, -, -, -, e0, e1, -⟩ := idx_facts3 t
  show (V c (Pipeline.arrRef spec3 2) : S1x64.Idx → EReal) (((cfg3.win 2).blk t).view.emb (ix2 0 q))
    = (V c (Pipeline.arrRef spec3 2) : S1x64.Idx → EReal) (ix2 0 q)
  refine congrArg _ (funext fun a => Fin.ext ?_)
  match a with
  | ⟨0, _⟩ => show win3_2.index t (0 : Fin 2) * 1 + 1 * 0 = 0; omega
  | ⟨1, _⟩ => show win3_2.index t (1 : Fin 2) * 64 + 1 * q.val = q.val; omega

/-- The gains' one block is the whole row vector. -/
theorem blk3_3_apply (t : Fin cfg3.N) (q : Fin 64) :
    (iblk3 V c 3 t : Vec Ideal S1x64 .f32) (ix2 0 q) = r3g V c q := by
  obtain ⟨-, -, -, -, -, -, e0, e1, -⟩ := idx_facts3 t
  show (V c (Pipeline.arrRef spec3 3) : S1x64.Idx → EReal) (((cfg3.win 3).blk t).view.emb (ix2 0 q))
    = (V c (Pipeline.arrRef spec3 3) : S1x64.Idx → EReal) (ix2 0 q)
  refine congrArg _ (funext fun a => Fin.ext ?_)
  match a with
  | ⟨0, _⟩ => show win3_3.index t (0 : Fin 2) * 1 + 1 * 0 = 0; omega
  | ⟨1, _⟩ => show win3_3.index t (1 : Fin 2) * 64 + 1 * q.val = q.val; omega

/-- The offsets' one block is the whole row vector. -/
theorem blk3_4_apply (t : Fin cfg3.N) (q : Fin 64) :
    (iblk3 V c 4 t : Vec Ideal S1x64 .f32) (ix2 0 q) = r3be V c q := by
  obtain ⟨-, -, -, -, -, -, -, -, e0, e1, -⟩ := idx_facts3 t
  show (V c (Pipeline.arrRef spec3 4) : S1x64.Idx → EReal) (((cfg3.win 4).blk t).view.emb (ix2 0 q))
    = (V c (Pipeline.arrRef spec3 4) : S1x64.Idx → EReal) (ix2 0 q)
  refine congrArg _ (funext fun a => Fin.ext ?_)
  match a with
  | ⟨0, _⟩ => show win3_4.index t (0 : Fin 2) * 1 + 1 * 0 = 0; omega
  | ⟨1, _⟩ => show win3_4.index t (1 : Fin 2) * 64 + 1 * q.val = q.val; omega

/-- The weight's one block is the whole weight. -/
theorem blk3_5_apply (t : Fin cfg3.N) (k : Fin 64) (q : Fin 32) :
    (iblk3 V c 5 t : Vec Ideal S64x32 .f32) (ix2 k q) = r3Wn V c k q := by
  obtain ⟨-, -, -, -, -, -, -, -, -, -, e0, e1, -⟩ := idx_facts3 t
  show (V c (Pipeline.arrRef spec3 5) : S64x32.Idx → EReal) (((cfg3.win 5).blk t).view.emb (ix2 k q))
    = (V c (Pipeline.arrRef spec3 5) : S64x32.Idx → EReal) (ix2 k q)
  refine congrArg _ (funext fun a => Fin.ext ?_)
  match a with
  | ⟨0, _⟩ => show win3_5.index t (0 : Fin 2) * 64 + 1 * k.val = k.val; omega
  | ⟨1, _⟩ => show win3_5.index t (1 : Fin 2) * 32 + 1 * q.val = q.val; omega

/-! ## The output blocks in their arrays -/

/-- Row `p` of the first output's block at point `t` is row `5000 t + p` of its array. -/
theorem emb3_6 (t : Fin cfg3.N) (p : Fin 5000) (q : Fin 64) (n : Fin 50000) (hn : n.val = t.val * 5000 + p.val) :
    (((cfg3.win 6).blk t).view.emb (ix2 p q) : S50000x64.Idx) = ix2 n q := by
  obtain ⟨-, -, -, -, -, -, -, -, -, -, -, -, e0, e1, -⟩ := idx_facts3 t
  refine funext fun a => Fin.ext ?_
  match a with
  | ⟨0, _⟩ => show win3_6.index t (0 : Fin 2) * 5000 + 1 * p.val = n.val; omega
  | ⟨1, _⟩ => show win3_6.index t (1 : Fin 2) * 64 + 1 * q.val = q.val; omega

/-- Row `p` of the second output's block at point `t` is row `5000 t + p` of its array. -/
theorem emb3_7 (t : Fin cfg3.N) (p : Fin 5000) (q : Fin 32) (n : Fin 50000) (hn : n.val = t.val * 5000 + p.val) :
    (((cfg3.win 7).blk t).view.emb (ix2 p q) : S50000x32.Idx) = ix2 n q := by
  obtain ⟨-, -, -, -, -, -, -, -, -, -, -, -, -, -, e0, e1⟩ := idx_facts3 t
  refine funext fun a => Fin.ext ?_
  match a with
  | ⟨0, _⟩ => show win3_7.index t (0 : Fin 2) * 5000 + 1 * p.val = n.val; omega
  | ⟨1, _⟩ => show win3_7.index t (1 : Fin 2) * 32 + 1 * q.val = q.val; omega

/-! ## The two output arrays as whole-array functions -/

/-- The normalised features. -/
def H3 : S50000x64.Idx → EReal := fun i =>
  affine (r3P V c) (r3mu V c) (r3inv V c) (r3g V c) (r3be V c) (i 0) (i 1)
/-- The normalised features times the next layer's left weight. -/
def Y3 : S50000x32.Idx → EReal := fun i =>
  mm (affine (r3P V c) (r3mu V c) (r3inv V c) (r3g V c) (r3be V c)) (r3Wn V c) (i 0) (i 1)

/-- What point `t` writes back to the first output is block `t` of `H3`. -/
theorem flushed3_6_eq (t : Fin cfg3.N) :
    (dat3 V c).flushed 6 t = ((cfg3.win 6).blk t).view.read (Elt Ideal) (H3 V c) := by
  show (cfg3.win 6).cut (grid3.coords t) ((dat3 V c).after 6 t) = _
  rw [after3_6]
  unfold out3_6
  rw [View.canon_unit_zero hz3]
  simp only [View.ld_unit_zero (S := S5000x64) hz3, View.ld_unit_zero (S := S1x64) hz3]
  funext y
  obtain ⟨p, q, rfl⟩ : ∃ (p : Fin 5000) (q : Fin 64), y = ix2 p q := ⟨y 0, y 1, eq_ix2 y⟩
  have ht := lt_N3 t
  have hn : (⟨t.val * 5000 + p.val, by omega⟩ : Fin 50000).val = t.val * 5000 + p.val := rfl
  show k3_pay1 (iblk3 V c 0 t) (iblk3 V c 1 t) (iblk3 V c 2 t) (iblk3 V c 3 t) (iblk3 V c 4 t) (ix2 p q)
    = H3 V c (((cfg3.win 6).blk t).view.emb (ix2 p q))
  rw [emb3_6 t p q _ hn]
  refine (k3_pay1_apply (iblk3 V c 0 t) (iblk3 V c 1 t) (iblk3 V c 2 t) (iblk3 V c 3 t) (iblk3 V c 4 t) p q).trans ?_
  rw [blk3_0_apply V c t p q _ hn, blk3_1_apply V c t q, blk3_2_apply V c t q, blk3_3_apply V c t q, blk3_4_apply V c t q]
  rfl

/-- An index of the first output's array is in point `t`'s block iff each coordinate is in the block's range. -/
theorem mem_blk3_6 (t : Fin cfg3.N) (i : S50000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v66_0).slice (win3_6.rect t)).set ↔ _
  rw [View.set_slice_whole, Rect.mem_set_unit]
  exact Iff.rfl

/-- Row `n` of the first output is in the block of point `n / 5000`, which writes back. -/
theorem covered3_6 (i : S50000x64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, lt_of_lt_of_eq (show (i 0).val / 5000 < 10 by omega) N_3.symm⟩, rfl⟩
  obtain ⟨-, -, -, -, -, -, -, -, -, -, -, -, e0, e1, -⟩ := idx_facts3 t
  refine ⟨t, flush3_6 t, ?_⟩
  rw [mem_blk3_6]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- The first output array after the region. -/
theorem final3_H : (dat3 V c).arrAt 6 cfg3.N = H3 V c :=
  (dat3 V c).arrAt_eq_of_cover 6 (H3 V c) (fun t _ => flushed3_6_eq V c t) covered3_6

/-- THE FIRST OUTPUT, entry by entry: the affine normalisation of the features the kernel finds. -/
theorem region3_H (n : Fin 50000) (j : Fin 64) :
    (dat3 V c).arrAt 6 cfg3.N (ix2 n j) = affine (r3P V c) (r3mu V c) (r3inv V c) (r3g V c) (r3be V c) n j :=
  congrFun (final3_H V c) (ix2 n j)

end Cert.KernelIdeal.KV

end
-- ==== Proof.KApply3Y.lean ====
/-
  The second layer's normalisation kernel, its second output: the normalised features times the next layer's left
  weight.  Point `t` writes rows `5000 t … 5000 t + 4999`; row `n`, lane `j` holds the sum over the 64 lanes `k` of
  the normalised entry `(n, k)` times the weight's entry `(k, j)`.
-/
import proofs.«151943_j8564164788539_2_alg».proof.Proof.KApply3

noncomputable section

namespace Cert.KernelIdeal.KV

open Cert.KernelIdeal Cert.KernelIdeal.Gen Cert.SageSpec Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b)) (c : Dev nD)

/-- What point `t` writes back to the second output is block `t` of `Y3`. -/
theorem flushed3_7_eq (t : Fin cfg3.N) :
    (dat3 V c).flushed 7 t = ((cfg3.win 7).blk t).view.read (Elt Ideal) (Y3 V c) := by
  show (cfg3.win 7).cut (grid3.coords t) ((dat3 V c).after 7 t) = _
  rw [after3_7]
  unfold out3_7
  rw [View.canon_unit_zero hz3]
  simp only [View.ld_unit_zero (S := S5000x64) hz3, View.ld_unit_zero (S := S1x64) hz3, View.ld_unit_zero (S := S64x32) hz3]
  funext y
  obtain ⟨p, q, rfl⟩ : ∃ (p : Fin 5000) (q : Fin 32), y = ix2 p q := ⟨y 0, y 1, eq_ix2 y⟩
  have ht := lt_N3 t
  have hn : (⟨t.val * 5000 + p.val, by omega⟩ : Fin 50000).val = t.val * 5000 + p.val := rfl
  show k3_pay2 (iblk3 V c 0 t) (iblk3 V c 1 t) (iblk3 V c 2 t) (iblk3 V c 3 t) (iblk3 V c 4 t) (iblk3 V c 5 t) (ix2 p q)
    = Y3 V c (((cfg3.win 7).blk t).view.emb (ix2 p q))
  rw [emb3_7 t p q _ hn]
  refine (k3_pay2_apply (iblk3 V c 0 t) (iblk3 V c 1 t) (iblk3 V c 2 t) (iblk3 V c 3 t) (iblk3 V c 4 t) (iblk3 V c 5 t) p q).trans ?_
  show _ = ∑ k : Fin 64, affine (r3P V c) (r3mu V c) (r3inv V c) (r3g V c) (r3be V c) ⟨t.val * 5000 + p.val, by omega⟩ k * r3Wn V c k q
  refine Finset.sum_congr rfl fun k _ => ?_
  refine congrArg₂ (· * ·) ((k3_pay1_apply (iblk3 V c 0 t) (iblk3 V c 1 t) (iblk3 V c 2 t) (iblk3 V c 3 t) (iblk3 V c 4 t) p k).trans ?_) (blk3_5_apply V c t k q)
  rw [blk3_0_apply V c t p k _ hn, blk3_1_apply V c t k, blk3_2_apply V c t k, blk3_3_apply V c t k, blk3_4_apply V c t k]
  rfl

/-- An index of the second output's array is in point `t`'s block iff each coordinate is in the block's range. -/
theorem mem_blk3_7 (t : Fin cfg3.N) (i : S50000x32.Idx) :
    i ∈ ((cfg3.win 7).blk t).view.set ↔ ∀ a : Fin 2, win3_7.index t a * S5000x32.size a ≤ (i a).val ∧ (i a).val < win3_7.index t a * S5000x32.size a + S5000x32.size a := by
  show i ∈ ((View.whole main_v66_1).slice (win3_7.rect t)).set ↔ _
  rw [View.set_slice_whole, Rect.mem_set_unit]
  exact Iff.rfl

/-- Row `n` of the second output is in the block of point `n / 5000`, which writes back. -/
theorem covered3_7 (i : S50000x32.Idx) :
    ∃ t : Fin cfg3.N, (cfg3.win 7).flush t = true ∧ i ∈ ((cfg3.win 7).blk t).view.set := by
  have hi0 : (i 0).val < 50000 := (i 0).isLt
  have hi1 : (i 1).val < 32 := (i 1).isLt
  obtain ⟨t, ht⟩ : ∃ t : Fin cfg3.N, t.val = (i 0).val / 5000 :=
    ⟨⟨(i 0).val / 5000, lt_of_lt_of_eq (show (i 0).val / 5000 < 10 by omega) N_3.symm⟩, rfl⟩
  obtain ⟨-, -, -, -, -, -, -, -, -, -, -, -, -, -, e0, e1⟩ := idx_facts3 t
  refine ⟨t, flush3_7 t, ?_⟩
  rw [mem_blk3_7]
  intro a
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 32 ≤ (i 1).val ∧ (i 1).val < win3_7.index t (1 : Fin 2) * 32 + 32; omega

/-- The second output array after the region. -/
theorem final3_Y : (dat3 V c).arrAt 7 cfg3.N = Y3 V c :=
  (dat3 V c).arrAt_eq_of_cover 7 (Y3 V c) (fun t _ => flushed3_7_eq V c t) covered3_7

/-- THE SECOND OUTPUT, entry by entry: the normalised features times the weight the kernel finds. -/
theorem region3_Y (n : Fin 50000) (j : Fin 32) :
    (dat3 V c).arrAt 7 cfg3.N (ix2 n j)
      = mm (affine (r3P V c) (r3mu V c) (r3inv V c) (r3g V c) (r3be V c)) (r3Wn V c) n j :=
  congrFun (final3_Y V c) (ix2 n j)

end Cert.KernelIdeal.KV

end
-- ==== Proof.KWalk2.lean ====
/-
  The second aggregation stage: what the third kernel region's input arrays hold when it is entered.  The host
  stretch before it lays the two rows of the edge list out as columns again (they are the first stretch's
  columns), gathers and adds up the rows of the second region's second output along the edges, and divides by
  the node counts of the first stretch; it lays the bias out as a one-row matrix.
-/
import proofs.«151943_j8564164788539_2_alg».proof.Proof.Gen.KernelIdeal.Frame
import Idealize.ShloMosaic.Lib.StableHlo.Run
import Idealize.ShloMosaic.Lib.Pipeline.Value
import Idealize.ShloMosaic.Lib.ValueIdx
import proofs.«151943_j8564164788539_2_alg».proof.Proof.SageSpec
import proofs.«151943_j8564164788539_2_alg».proof.Proof.SageIdx
import proofs.«151943_j8564164788539_2_alg».proof.Proof.KWalk0

noncomputable section

namespace Cert.KernelIdeal.KW

open Cert.KernelIdeal Cert.KernelIdeal.Gen Cert.SageSpec Cert.SageIdx Idealize.ShloMosaic Idealize.ShloMosaic.StableHlo
open Idealize.ShloMosaic.ValueIdx Idealize.ShloMosaic.TcCoe Idealize.SL.Sem

variable (m : (ℓ : Loc nD τ sig) → Buf (Elt Ideal) ℓ) (ρ : Dev nD → PrngReg) (c : Dev nD)

/-! ## Buffers of the first stretch, unchanged up to the third region's entry -/

theorem W4_v1 : W4 m ρ c (Proc.devRef .tc main_v1) = W1 m ρ c (Proc.devRef .tc main_v1) := by
  refine (W4_of_ne m ρ c main_v1 (by decide)).trans ?_
  refine Eq.trans ?_ (W2_of_ne m ρ c main_v1 (by decide))
  dsimp only [W3]
  after_results_simp
  all_goals rfl

theorem W4_v3 : W4 m ρ c (Proc.devRef .tc main_v3) = W1 m ρ c (Proc.devRef .tc main_v3) := by
  refine (W4_of_ne m ρ c main_v3 (by decide)).trans ?_
  refine Eq.trans ?_ (W2_of_ne m ρ c main_v3 (by decide))
  dsimp only [W3]
  after_results_simp
  all_goals rfl

theorem W4_v10 : W4 m ρ c (Proc.devRef .tc main_v10) = W1 m ρ c (Proc.devRef .tc main_v10) := by
  refine (W4_of_ne m ρ c main_v10 (by decide)).trans ?_
  refine Eq.trans ?_ (W2_of_ne m ρ c main_v10 (by decide))
  dsimp only [W3]
  after_results_simp
  all_goals rfl

/-! ## Arguments, as launched -/

theorem W4_arg9 : W4 m ρ c (Proc.devRef .tc main_arg9) = m ((c : Thread nD τ).loc main_arg9) := by
  refine (W4_of_ne m ρ c main_arg9 (by decide)).trans ?_
  have h1 : W3 m ρ c (Proc.devRef .tc main_arg9) = W2 m ρ c (Proc.devRef .tc main_arg9) := by
    dsimp only [W3]
    after_results_simp
    all_goals rfl
  refine h1.trans ((W2_of_ne m ρ c main_arg9 (by decide)).trans ?_)
  dsimp only [W1]
  after_results_simp
  all_goals rfl

theorem W4_arg10 : W4 m ρ c (Proc.devRef .tc main_arg10) = m ((c : Thread nD τ).loc main_arg10) := by
  refine (W4_of_ne m ρ c main_arg10 (by decide)).trans ?_
  have h1 : W3 m ρ c (Proc.devRef .tc main_arg10) = W2 m ρ c (Proc.devRef .tc main_arg10) := by
    dsimp only [W3]
    after_results_simp
    all_goals rfl
  refine h1.trans ((W2_of_ne m ρ c main_arg10 (by decide)).trans ?_)
  dsimp only [W1]
  after_results_simp
  all_goals rfl

/-! ## The region's inputs the stretch does not compute -/

theorem V5_h1 : V5 m ρ c main_v38_0 = W4 m ρ c (Proc.devRef .tc main_v38_0) := by
  dsimp only [V5, W5]
  after_results_simp
  all_goals rfl

theorem V5_Wr : V5 m ρ c main_arg10 = m ((c : Thread nD τ).loc main_arg10) := by
  refine Eq.trans ?_ (W4_arg10 m ρ c)
  dsimp only [V5, W5]
  after_results_simp
  all_goals rfl

/-! ## The bias as a one-row matrix -/

theorem V5_v51_eq : (V5 m ρ c main_v51 : (⟨S1x64, .f32⟩ : BufTy).Contents (Elt Ideal)) =
    shapeCast S1x64 (W4 m ρ c (Proc.devRef .tc main_arg9) : (⟨S64, .f32⟩ : BufTy).Contents (Elt Ideal)) shapeCasts_S64_S1x64 := by
  dsimp only [V5, W5]
  after_results_simp
  all_goals rfl

theorem V5_b (j : Fin 64) :
    V5 m ρ c main_v51 (ix2 (0 : Fin 1) j) = m ((c : Thread nD τ).loc main_arg9) (ix1 j) := by
  refine (congrFun (V5_v51_eq m ρ c) (ix2 (0 : Fin 1) j)).trans ?_
  rw [W4_arg9]
  exact shapeCast_apply _ shapeCasts_S64_S1x64 (ix2 (0 : Fin 1) j) (ix1 j)
    (by rewrite [Shape.rowMajor_val_two, Shape.rowMajor_val_one]; show j.val = 0 * 64 + j.val; omega)

/-! ## The aggregate of the second region's second output -/

theorem V5_v50_eq : (V5 m ρ c main_v50 : (⟨S50000x64, .f32⟩ : BufTy).Contents (Elt Ideal)) =
    Host.divf (F := Ideal)
      (Host.scatterAdd (F := Ideal) scatter_S50000x64_S800000x1_S800000x64_1_0_0_1
        (broadcastInDim S50000x64 ![] bcast_S_S50000x64 (constant (F := Ideal) S_ .f32 0x00000000#32))
        (asCol (W4 m ρ c (Proc.devRef .tc main_v3)))
        (Host.gather gather_S50000x64_S800000x1_S800000x64_1_0_n_n_0_1_164 (W4 m ρ c (Proc.devRef .tc main_v38_1))
          (wrapCol (W4 m ρ c (Proc.devRef .tc main_v1)))))
      (broadcastInDim S50000x64 ![0, 1] bcast_S50000x1_S50000x64_0_1 (W4 m ρ c (Proc.devRef .tc main_v10))) := by
  unfold wrapCol asCol
  dsimp only [V5, W5]
  after_results_simp
  all_goals rfl

theorem V5_agg (n : Fin 50000) (j : Fin 64) :
    V5 m ρ c main_v50 (ix2 n j)
      = agg (landOf 50000 (dstCol m ρ c)) (srcOf 50000 (by norm_num) (srcCol m ρ c)) (cnt (landOf 50000 (dstCol m ρ c)))
          (fun n k => W4 m ρ c (Proc.devRef .tc main_v38_1) (ix2 n k)) n j := by
  refine (congrFun (V5_v50_eq m ρ c) (ix2 n j)).trans ?_
  rw [W4_v1, W4_v3, W4_v10, ← srcCol_eq, ← dstCol_eq]
  exact aggRead64 _ _ _ _ _ _ zero64 (fun n j => (spread64 _ n j).trans (V1_cnt m ρ c n)) n j

end Cert.KernelIdeal.KW

end
-- ==== Proof.KWalk3.lean ====
/-
  What region 3 finds in its input arrays when it is entered, in terms of what region 2 left.

  Between the two regions the host turns region 2's column sums `S` and column sums of squares `SS`
  (both `[1,64]`) into the normalisation parameters: the mean `S / n`, the reciprocal deviation
  `rsqrt (max (SS / n − (S / n)²) 0 + eps)`, and lays the scale and shift vectors out as `[1,64]` rows.
  Region 2's pre-activation array and the right weight pass through untouched.
-/
import proofs.«151943_j8564164788539_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«151943_j8564164788539_2_alg».proof.Proof.SageSpec
import proofs.«151943_j8564164788539_2_alg».proof.Proof.SageIdx

noncomputable section

namespace Cert.KernelIdeal.KW

open Cert.KernelIdeal Cert.KernelIdeal.Gen Cert.SageSpec Cert.SageIdx Idealize.ShloMosaic Idealize.ShloMosaic.StableHlo
  Idealize.ShloMosaic.ValueIdx Idealize.SL.Sem Idealize.ShloMosaic.TcCoe

variable (m : (ℓ : Loc nD τ sig) → Buf (Elt Ideal) ℓ) (ρ : Dev nD → PrngReg) (c : Dev nD)

/-! ## Arguments that no host stretch and no region has written so far hold their launch contents -/

theorem W6_arg11 : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W6_arg12 : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W6_arg13 : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

/-! ## Region 3's input arrays -/

/-- The pre-activation array: the stretch does not write it. -/
theorem V7_P : V7 m ρ c main_v52_0 = W6 m ρ c (Proc.devRef .tc main_v52_0) := by
  show StableHlo.after hostOps3 _ (Proc.devRef .tc main_v52_0) = _
  after_results

/-- The column mean: the column sum over the row count. -/
theorem V7_mu (j : Fin 64) : V7 m ρ c main_v54 (ix2 0 j)
    = Ideal.div (W6 m ρ c (Proc.devRef .tc main_v52_1) (ix2 0 j)) (Ideal.ofBits .f32 0x47435000#32) := by
  show StableHlo.after hostOps3 _ (Proc.devRef .tc main_v54) (ix2 0 j) = _
  after_results
  rfl

/-- The reciprocal deviation: mean of squares minus squared mean, clipped at zero, plus `eps`, under the root. -/
theorem V7_inv (j : Fin 64) : V7 m ρ c main_v63 (ix2 0 j)
    = Ideal.rsqrt (max (Ideal.div (W6 m ρ c (Proc.devRef .tc main_v52_2) (ix2 0 j)) (Ideal.ofBits .f32 0x47435000#32)
        - Ideal.div (W6 m ρ c (Proc.devRef .tc main_v52_1) (ix2 0 j)) (Ideal.ofBits .f32 0x47435000#32)
          * Ideal.div (W6 m ρ c (Proc.devRef .tc main_v52_1) (ix2 0 j)) (Ideal.ofBits .f32 0x47435000#32)) 0
        + (Ideal.ofBits .f32 0x3727C5AC#32)) := by
  show StableHlo.after hostOps3 _ (Proc.devRef .tc main_v63) (ix2 0 j) = _
  after_results
  show Ideal.rsqrt (max (Ideal.div (W6 m ρ c (Proc.devRef .tc main_v52_2) (ix2 0 j)) (Ideal.ofBits .f32 0x47435000#32)
        - Ideal.div (W6 m ρ c (Proc.devRef .tc main_v52_1) (ix2 0 j)) (Ideal.ofBits .f32 0x47435000#32)
          * Ideal.div (W6 m ρ c (Proc.devRef .tc main_v52_1) (ix2 0 j)) (Ideal.ofBits .f32 0x47435000#32)) (Ideal.ofBits .f32 0x00000000#32)
        + (Ideal.ofBits .f32 0x3727C5AC#32)) = _
  rw [Ideal.ofBits_zero_f32]

/-- The scale vector laid out as a row. -/
theorem V7_g (j : Fin 64) : V7 m ρ c main_v64 (ix2 0 j) = m ((c : Thread nD τ).loc main_arg11) (ix1 j) := by
  show StableHlo.after hostOps3 _ (Proc.devRef .tc main_v64) (ix2 0 j) = _
  after_results
  rw [W6_arg11]
  exact shapeCast_a_1a_apply _ shapeCasts_S64_S1x64 0 j

/-- The shift vector laid out as a row. -/
theorem V7_be (j : Fin 64) : V7 m ρ c main_v65 (ix2 0 j) = m ((c : Thread nD τ).loc main_arg12) (ix1 j) := by
  show StableHlo.after hostOps3 _ (Proc.devRef .tc main_v65) (ix2 0 j) = _
  after_results
  rw [W6_arg12]
  exact shapeCast_a_1a_apply _ shapeCasts_S64_S1x64 0 j

/-- The right weight: as launched. -/
theorem V7_Wn : V7 m ρ c main_arg13 = m ((c : Thread nD τ).loc main_arg13) := by
  show StableHlo.after hostOps3 _ (Proc.devRef .tc main_arg13) = _
  after_results
  exact W6_arg13 m ρ c

end Cert.KernelIdeal.KW
end
-- ==== Proof.KChain2.lean ====
/-
  The kernel program's second layer, entry by entry.  The host aggregates the product of the first hidden
  array with the second left weight; region 2 adds the bias and the product with the right weight, clips, and
  accumulates the column sums; the host forms the mean and reciprocal deviation; region 3 normalises and
  multiplies by the third left weight.
-/
import proofs.«151943_j8564164788539_2_alg».proof.Proof.KChain1
import proofs.«151943_j8564164788539_2_alg».proof.Proof.KStats2
import proofs.«151943_j8564164788539_2_alg».proof.Proof.KApply3Y
import proofs.«151943_j8564164788539_2_alg».proof.Proof.KWalk2
import proofs.«151943_j8564164788539_2_alg».proof.Proof.KWalk3

noncomputable section

namespace Cert.KernelIdeal.KC

open Cert.KernelIdeal Cert.KernelIdeal.Gen Cert.SageSpec Cert.SageIdx Idealize.ShloMosaic Idealize.ShloMosaic.ValueIdx
open Idealize.ShloMosaic.TcCoe Idealize.SL.Sem
open Cert.KernelIdeal.KV Cert.KernelIdeal.KW

variable (m : (ℓ : Loc nD τ sig) → Buf (Elt Ideal) ℓ) (ρ : Dev nD → PrngReg) (c : Dev nD)

noncomputable def ab2 : Fin 64 → EReal := fun j => (m ((c : Thread nD τ).loc main_arg9) : S64.Idx → EReal) (ix1 j)
noncomputable def aW2r : Fin 128 → Fin 64 → EReal := fun k j => (m ((c : Thread nD τ).loc main_arg10) : S128x64.Idx → EReal) (ix2 k j)
noncomputable def ag2 : Fin 64 → EReal := fun j => (m ((c : Thread nD τ).loc main_arg11) : S64.Idx → EReal) (ix1 j)
noncomputable def abe2 : Fin 64 → EReal := fun j => (m ((c : Thread nD τ).loc main_arg12) : S64.Idx → EReal) (ix1 j)
noncomputable def aW3l : Fin 64 → Fin 32 → EReal := fun k j => (m ((c : Thread nD τ).loc main_arg13) : S64x32.Idx → EReal) (ix2 k j)

/-- The second layer's clipped pre-activation: the aggregate of the product with the left weight. -/
noncomputable def P2 : Fin 50000 → Fin 64 → EReal :=
  preB (agg (L m ρ c) (Sr m ρ c) (cnt (L m ρ c)) (mm (K1 m ρ c) (aW2l m c))) (K1 m ρ c) (aW2r m c) (ab2 m c)

/-- The second hidden array. -/
noncomputable def K2 : Fin 50000 → Fin 64 → EReal := bnK cN eps (P2 m ρ c) (ag2 m c) (abe2 m c)

theorem in2_MY : r2MY (V5 m ρ) c = agg (L m ρ c) (Sr m ρ c) (cnt (L m ρ c)) (mm (K1 m ρ c) (aW2l m c)) :=
  funext fun n => funext fun j => (V5_agg m ρ c n j).trans (by
    rw [show (fun n k => (W4 m ρ c (Proc.devRef .tc main_v38_1) : S50000x64.Idx → EReal) (ix2 n k)) = mm (K1 m ρ c) (aW2l m c) from
      funext fun n => funext fun k => out1_Y m ρ c n k])
theorem in2_X : r2X (V5 m ρ) c = K1 m ρ c :=
  funext fun n => funext fun k => (congrFun (V5_h1 m ρ c) (ix2 n k)).trans (out1_H m ρ c n k)
theorem in2_b : r2b (V5 m ρ) c = ab2 m c := funext fun j => V5_b m ρ c j
theorem in2_Wr : r2Wr (V5 m ρ) c = aW2r m c :=
  funext fun k => funext fun j => congrFun (V5_Wr m ρ c) (ix2 k j)

theorem out2_P (n : Fin 50000) (j : Fin 64) :
    (W6 m ρ c (Proc.devRef .tc main_v52_0) : S50000x64.Idx → EReal) (ix2 n j) = P2 m ρ c n j := by
  have h : (W6 m ρ c (Proc.devRef .tc main_v52_0) : S50000x64.Idx → EReal) = (dat2 (V5 m ρ) c).arrAt 4 cfg2.N :=
    W6_arr m ρ c 4
  rw [h, region2_P, in2_MY, in2_X, in2_b, in2_Wr]; rfl

theorem out2_S (j : Fin 64) :
    (W6 m ρ c (Proc.devRef .tc main_v52_1) : S1x64.Idx → EReal) (ix2 0 j) = colsum (P2 m ρ c) j := by
  have h : (W6 m ρ c (Proc.devRef .tc main_v52_1) : S1x64.Idx → EReal) = (dat2 (V5 m ρ) c).arrAt 5 cfg2.N :=
    W6_arr m ρ c 5
  rw [h, region2_S, in2_MY, in2_X, in2_b, in2_Wr]; rfl

theorem out2_SS (j : Fin 64) :
    (W6 m ρ c (Proc.devRef .tc main_v52_2) : S1x64.Idx → EReal) (ix2 0 j)
      = colsum (fun n j => P2 m ρ c n j * P2 m ρ c n j) j := by
  have h : (W6 m ρ c (Proc.devRef .tc main_v52_2) : S1x64.Idx → EReal) = (dat2 (V5 m ρ) c).arrAt 6 cfg2.N :=
    W6_arr m ρ c 6
  rw [h, region2_SS, in2_MY, in2_X, in2_b, in2_Wr]; rfl

theorem in3_P : r3P (V7 m ρ) c = P2 m ρ c :=
  funext fun n => funext fun j => (congrFun (V7_P m ρ c) (ix2 n j)).trans (out2_P m ρ c n j)
theorem in3_mu : r3mu (V7 m ρ) c = mean cN (P2 m ρ c) :=
  funext fun j => (V7_mu m ρ c j).trans (by rw [out2_S]; rfl)
theorem in3_inv : r3inv (V7 m ρ) c = invK cN eps (P2 m ρ c) :=
  funext fun j => (V7_inv m ρ c j).trans (by rw [out2_SS, out2_S]; rfl)
theorem in3_g : r3g (V7 m ρ) c = ag2 m c := funext fun j => V7_g m ρ c j
theorem in3_be : r3be (V7 m ρ) c = abe2 m c := funext fun j => V7_be m ρ c j
theorem in3_Wn : r3Wn (V7 m ρ) c = aW3l m c :=
  funext fun k => funext fun j => congrFun (V7_Wn m ρ c) (ix2 k j)

theorem out3_H (n : Fin 50000) (j : Fin 64) :
    (W8 m ρ c (Proc.devRef .tc main_v66_0) : S50000x64.Idx → EReal) (ix2 n j) = K2 m ρ c n j := by
  have h : (W8 m ρ c (Proc.devRef .tc main_v66_0) : S50000x64.Idx → EReal) = (dat3 (V7 m ρ) c).arrAt 6 cfg3.N :=
    W8_arr m ρ c 6
  rw [h, region3_H, in3_P, in3_mu, in3_inv, in3_g, in3_be]; rfl

theorem out3_Y (n : Fin 50000) (j : Fin 32) :
    (W8 m ρ c (Proc.devRef .tc main_v66_1) : S50000x32.Idx → EReal) (ix2 n j) = mm (K2 m ρ c) (aW3l m c) n j := by
  have h : (W8 m ρ c (Proc.devRef .tc main_v66_1) : S50000x32.Idx → EReal) = (dat3 (V7 m ρ) c).arrAt 7 cfg3.N :=
    W8_arr m ρ c 7
  rw [h, region3_Y, in3_P, in3_mu, in3_inv, in3_g, in3_be, in3_Wn]; rfl

end Cert.KernelIdeal.KC

end
-- ==== Proof.KStats4PiecesA.lean ====
/-
  Region 4, the first grid point (the accumulators are reset there): what the body leaves in each output's
  buffer, as the body's pure terms of the input blocks.  The row block of pre-activations is one store of
  `k4_pay3`; each accumulator is first stored with the zero row `k4_pay1` / `k4_pay2`, read back, and stored again
  with the zero row plus the block's column sums (`k4_pay4`) or plus the column sums of squares (`k4_pay5`).
-/
import proofs.«151943_j8564164788539_2_alg».proof.Proof.Gen.KernelIdeal.Frame
import Idealize.ShloMosaic.Lib.Pipeline.Value
import Idealize.ShloMosaic.Lib.Tactic

noncomputable section

namespace Cert.KernelIdeal.KV

open Cert.KernelIdeal Cert.KernelIdeal.Gen Idealize.ShloMosaic
open Idealize.ShloMosaic.TcCoe Idealize.SL.Sem
open Idealize.ShloMosaic.Pipeline (Dat)

variable {F : FTy → Type} [FloatOps F]

theorem hz4a : (![0, 0] : Fin 2 → Nat) = fun _ => 0 := funext fun a => by fin_cases a <;> rfl

/-- First point, the row block of pre-activations. -/
theorem out4_A_4_eq (c : Dev nD) (i : grid4.Coords) (a1 : Memref sig .tc .vmem S5000x32 .f32) (h1 : a1.IsWhole) (a2 : Memref sig .tc .vmem S5000x64 .f32) (h2 : a2.IsWhole) (a3 : Memref sig .tc .vmem S1x32 .f32) (h3 : a3.IsWhole) (a4 : Memref sig .tc .vmem S64x32 .f32) (h4 : a4.IsWhole) (a5 : Memref sig .tc .vmem S5000x32 .f32) (h5 : a5.IsWhole) (a6 : Memref sig .tc .vmem S1x32 .f32) (h6 : a6.IsWhole) (a7 : Memref sig .tc .vmem S1x32 .f32) (h7 : a7.IsWhole) (hc : cond4_0 i)
    (x0 : Vec F S5000x32 .f32) (x1 : Vec F S5000x64 .f32) (x2 : Vec F S1x32 .f32) (x3 : Vec F S64x32 .f32) :
    out4_A_4 c i a1 h1 a2 h2 a3 h3 a4 h4 a5 h5 a6 h6 a7 h7 hc x0 x1 x2 x3 = k4_pay3 x0 x2 x1 x3 := by
  unfold out4_A_4
  rw [View.read_writes_eq_canon _ _ _ (cover4_A_4 c i a1 h1 a2 h2 a3 h3 a4 h4 a5 h5 a6 h6 a7 h7 hc x0 x1 x2 x3)]
  unfold kernelRun4_A
  dsimp only
  try sl_unfold_words
  rw [View.canon_unit_zero hz4a]
  simp only [View.readAt_eq_ld, h1.read_unread, h2.read_unread, h3.read_unread, h4.read_unread, h6.read_unread, h7.read_unread, View.ld_unit_zero (S := S5000x32) hz4a, View.ld_unit_zero (S := S5000x64) hz4a, View.ld_unit_zero (S := S1x32) hz4a, View.ld_unit_zero (S := S64x32) hz4a]

/-- First point, the column sums: the zero row plus the block's column sums. -/
theorem out4_A_5_eq (c : Dev nD) (i : grid4.Coords) (a1 : Memref sig .tc .vmem S5000x32 .f32) (h1 : a1.IsWhole) (a2 : Memref sig .tc .vmem S5000x64 .f32) (h2 : a2.IsWhole) (a3 : Memref sig .tc .vmem S1x32 .f32) (h3 : a3.IsWhole) (a4 : Memref sig .tc .vmem S64x32 .f32) (h4 : a4.IsWhole) (a5 : Memref sig .tc .vmem S5000x32 .f32) (h5 : a5.IsWhole) (a6 : Memref sig .tc .vmem S1x32 .f32) (h6 : a6.IsWhole) (a7 : Memref sig .tc .vmem S1x32 .f32) (h7 : a7.IsWhole) (hc : cond4_0 i)
    (x0 : Vec F S5000x32 .f32) (x1 : Vec F S5000x64 .f32) (x2 : Vec F S1x32 .f32) (x3 : Vec F S64x32 .f32) :
    out4_A_5 c i a1 h1 a2 h2 a3 h3 a4 h4 a5 h5 a6 h6 a7 h7 hc x0 x1 x2 x3 = k4_pay4 x0 x2 x1 x3 k4_pay1 := by
  unfold out4_A_5
  rw [View.read_writes_eq_canon _ _ _ (cover4_A_5 c i a1 h1 a2 h2 a3 h3 a4 h4 a5 h5 a6 h6 a7 h7 hc x0 x1 x2 x3)]
  unfold kernelRun4_A
  dsimp only
  try sl_unfold_words
  rw [View.canon_cons_unit_zero (S := S1x32) hz4a, View.readCov_unit_zero (S := S1x32) _ hz4a]
  simp only [View.readAt_eq_ld, h1.read_unread, h2.read_unread, h3.read_unread, h4.read_unread, h6.read_unread, h7.read_unread, View.ld_unit_zero (S := S5000x32) hz4a, View.ld_unit_zero (S := S5000x64) hz4a, View.ld_unit_zero (S := S1x32) hz4a, View.ld_unit_zero (S := S64x32) hz4a]

/-- First point, the column sums of squares: the zero row plus the block's column sums of squares. -/
theorem out4_A_6_eq (c : Dev nD) (i : grid4.Coords) (a1 : Memref sig .tc .vmem S5000x32 .f32) (h1 : a1.IsWhole) (a2 : Memref sig .tc .vmem S5000x64 .f32) (h2 : a2.IsWhole) (a3 : Memref sig .tc .vmem S1x32 .f32) (h3 : a3.IsWhole) (a4 : Memref sig .tc .vmem S64x32 .f32) (h4 : a4.IsWhole) (a5 : Memref sig .tc .vmem S5000x32 .f32) (h5 : a5.IsWhole) (a6 : Memref sig .tc .vmem S1x32 .f32) (h6 : a6.IsWhole) (a7 : Memref sig .tc .vmem S1x32 .f32) (h7 : a7.IsWhole) (hc : cond4_0 i)
    (x0 : Vec F S5000x32 .f32) (x1 : Vec F S5000x64 .f32) (x2 : Vec F S1x32 .f32) (x3 : Vec F S64x32 .f32) :
    out4_A_6 c i a1 h1 a2 h2 a3 h3 a4 h4 a5 h5 a6 h6 a7 h7 hc x0 x1 x2 x3 = k4_pay5 x0 x2 x1 x3 k4_pay2 := by
  unfold out4_A_6
  rw [View.read_writes_eq_canon _ _ _ (cover4_A_6 c i a1 h1 a2 h2 a3 h3 a4 h4 a5 h5 a6 h6 a7 h7 hc x0 x1 x2 x3)]
  unfold kernelRun4_A
  dsimp only
  try sl_unfold_words
  rw [View.canon_cons_unit_zero (S := S1x32) hz4a, View.readCov_unit_zero (S := S1x32) _ hz4a]
  simp only [View.readAt_eq_ld, h1.read_unread, h2.read_unread, h3.read_unread, h4.read_unread, h6.read_unread, h7.read_unread, View.ld_unit_zero (S := S5000x32) hz4a, View.ld_unit_zero (S := S5000x64) hz4a, View.ld_unit_zero (S := S1x32) hz4a, View.ld_unit_zero (S := S64x32) hz4a]

end Cert.KernelIdeal.KV

end
-- ==== Proof.KStats4PiecesB.lean ====
/-
  Region 4, a later grid point (the accumulators carry over): what the body leaves in each output's buffer, as
  the body's pure terms of the input blocks and of the accumulators' contents `xo5`, `xo6` left by the point before.
-/
import proofs.«151943_j8564164788539_2_alg».proof.Proof.Gen.KernelIdeal.Frame
import Idealize.ShloMosaic.Lib.Pipeline.Value
import Idealize.ShloMosaic.Lib.Tactic

noncomputable section

namespace Cert.KernelIdeal.KV

open Cert.KernelIdeal Cert.KernelIdeal.Gen Idealize.ShloMosaic
open Idealize.ShloMosaic.TcCoe Idealize.SL.Sem
open Idealize.ShloMosaic.Pipeline (Dat)

variable {F : FTy → Type} [FloatOps F]

theorem hz4b : (![0, 0] : Fin 2 → Nat) = fun _ => 0 := funext fun a => by fin_cases a <;> rfl

/-- Later point, the row block of pre-activations. -/
theorem out4_B_4_eq (c : Dev nD) (i : grid4.Coords) (a1 : Memref sig .tc .vmem S5000x32 .f32) (h1 : a1.IsWhole) (a2 : Memref sig .tc .vmem S5000x64 .f32) (h2 : a2.IsWhole) (a3 : Memref sig .tc .vmem S1x32 .f32) (h3 : a3.IsWhole) (a4 : Memref sig .tc .vmem S64x32 .f32) (h4 : a4.IsWhole) (a5 : Memref sig .tc .vmem S5000x32 .f32) (h5 : a5.IsWhole) (a6 : Memref sig .tc .vmem S1x32 .f32) (h6 : a6.IsWhole) (a7 : Memref sig .tc .vmem S1x32 .f32) (h7 : a7.IsWhole) (hc : ¬cond4_0 i)
    (x0 : Vec F S5000x32 .f32) (x1 : Vec F S5000x64 .f32) (x2 : Vec F S1x32 .f32) (x3 : Vec F S64x32 .f32) (xo5 xo6 : Vec F S1x32 .f32) :
    out4_B_4 c i a1 h1 a2 h2 a3 h3 a4 h4 a5 h5 a6 h6 a7 h7 hc x0 x1 x2 x3 xo5 xo6 = k4_pay3 x0 x2 x1 x3 := by
  unfold out4_B_4
  rw [View.read_writes_eq_canon _ _ _ (cover4_B_4 c i a1 h1 a2 h2 a3 h3 a4 h4 a5 h5 a6 h6 a7 h7 hc x0 x1 x2 x3 xo5 xo6)]
  unfold kernelRun4_B
  dsimp only
  try sl_unfold_words
  rw [View.canon_unit_zero hz4b]
  simp only [View.readAt_eq_ld, h1.read_unread, h2.read_unread, h3.read_unread, h4.read_unread, h6.read_unread, h7.read_unread, View.ld_unit_zero (S := S5000x32) hz4b, View.ld_unit_zero (S := S5000x64) hz4b, View.ld_unit_zero (S := S1x32) hz4b, View.ld_unit_zero (S := S64x32) hz4b]

/-- Later point, the column sums: the carried row plus the block's column sums. -/
theorem out4_B_5_eq (c : Dev nD) (i : grid4.Coords) (a1 : Memref sig .tc .vmem S5000x32 .f32) (h1 : a1.IsWhole) (a2 : Memref sig .tc .vmem S5000x64 .f32) (h2 : a2.IsWhole) (a3 : Memref sig .tc .vmem S1x32 .f32) (h3 : a3.IsWhole) (a4 : Memref sig .tc .vmem S64x32 .f32) (h4 : a4.IsWhole) (a5 : Memref sig .tc .vmem S5000x32 .f32) (h5 : a5.IsWhole) (a6 : Memref sig .tc .vmem S1x32 .f32) (h6 : a6.IsWhole) (a7 : Memref sig .tc .vmem S1x32 .f32) (h7 : a7.IsWhole) (hc : ¬cond4_0 i)
    (x0 : Vec F S5000x32 .f32) (x1 : Vec F S5000x64 .f32) (x2 : Vec F S1x32 .f32) (x3 : Vec F S64x32 .f32) (xo5 xo6 : Vec F S1x32 .f32) :
    out4_B_5 c i a1 h1 a2 h2 a3 h3 a4 h4 a5 h5 a6 h6 a7 h7 hc x0 x1 x2 x3 xo5 xo6 = k4_pay4 x0 x2 x1 x3 xo5 := by
  unfold out4_B_5
  rw [View.read_writes_eq_canon _ _ _ (cover4_B_5 c i a1 h1 a2 h2 a3 h3 a4 h4 a5 h5 a6 h6 a7 h7 hc x0 x1 x2 x3 xo5 xo6)]
  unfold kernelRun4_B
  dsimp only
  try sl_unfold_words
  rw [View.canon_unit_zero hz4b]
  simp only [View.readAt_eq_ld, h1.read_unread, h2.read_unread, h3.read_unread, h4.read_unread, h6.read_unread, h7.read_unread, View.ld_unit_zero (S := S5000x32) hz4b, View.ld_unit_zero (S := S5000x64) hz4b, View.ld_unit_zero (S := S1x32) hz4b, View.ld_unit_zero (S := S64x32) hz4b]

/-- Later point, the column sums of squares: the carried row plus the block's column sums of squares. -/
theorem out4_B_6_eq (c : Dev nD) (i : grid4.Coords) (a1 : Memref sig .tc .vmem S5000x32 .f32) (h1 : a1.IsWhole) (a2 : Memref sig .tc .vmem S5000x64 .f32) (h2 : a2.IsWhole) (a3 : Memref sig .tc .vmem S1x32 .f32) (h3 : a3.IsWhole) (a4 : Memref sig .tc .vmem S64x32 .f32) (h4 : a4.IsWhole) (a5 : Memref sig .tc .vmem S5000x32 .f32) (h5 : a5.IsWhole) (a6 : Memref sig .tc .vmem S1x32 .f32) (h6 : a6.IsWhole) (a7 : Memref sig .tc .vmem S1x32 .f32) (h7 : a7.IsWhole) (hc : ¬cond4_0 i)
    (x0 : Vec F S5000x32 .f32) (x1 : Vec F S5000x64 .f32) (x2 : Vec F S1x32 .f32) (x3 : Vec F S64x32 .f32) (xo5 xo6 : Vec F S1x32 .f32) :
    out4_B_6 c i a1 h1 a2 h2 a3 h3 a4 h4 a5 h5 a6 h6 a7 h7 hc x0 x1 x2 x3 xo5 xo6 = k4_pay5 x0 x2 x1 x3 xo6 := by
  unfold out4_B_6
  rw [View.read_writes_eq_canon _ _ _ (cover4_B_6 c i a1 h1 a2 h2 a3 h3 a4 h4 a5 h5 a6 h6 a7 h7 hc x0 x1 x2 x3 xo5 xo6)]
  unfold kernelRun4_B
  dsimp only
  try sl_unfold_words
  rw [View.canon_unit_zero hz4b]
  simp only [View.readAt_eq_ld, h1.read_unread, h2.read_unread, h3.read_unread, h4.read_unread, h6.read_unread, h7.read_unread, View.ld_unit_zero (S := S5000x32) hz4b, View.ld_unit_zero (S := S5000x64) hz4b, View.ld_unit_zero (S := S1x32) hz4b, View.ld_unit_zero (S := S64x32) hz4b]

end Cert.KernelIdeal.KV

end
-- ==== Proof.KStats4Outs.lean ====
/-
  Region 4: what the three outputs' buffers hold after the body at a grid point, as the body's pure terms of the
  point's input blocks — at the first point over the zero rows, at a later point over what the point before left
  in the two accumulators.
-/
import proofs.«151943_j8564164788539_2_alg».proof.Proof.KStats4PiecesA
import proofs.«151943_j8564164788539_2_alg».proof.Proof.KStats4PiecesB

noncomputable section

namespace Cert.KernelIdeal.KV

open Cert.KernelIdeal Cert.KernelIdeal.Gen Idealize.ShloMosaic
open Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b)) (c : Dev nD)

/-- After the first point. -/
theorem outs4_first (t : Fin cfg4.N) (h0 : t.val % 10 = 0) :
    outsAt4 V c t.val t.isLt
      = (k4_pay3 (iblk4 V c 0 t) (iblk4 V c 2 t) (iblk4 V c 1 t) (iblk4 V c 3 t),
         k4_pay4 (iblk4 V c 0 t) (iblk4 V c 2 t) (iblk4 V c 1 t) (iblk4 V c 3 t) k4_pay1,
         k4_pay5 (iblk4 V c 0 t) (iblk4 V c 2 t) (iblk4 V c 1 t) (iblk4 V c 3 t) k4_pay2) :=
  (outsAt4_A V c t h0).trans (congrArg₂ Prod.mk
    (out4_A_4_eq (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t))
    (congrArg₂ Prod.mk
      (out4_A_5_eq (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t))
      (out4_A_6_eq (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t))))

/-- After a later point. -/
theorem outs4_later (t : Fin cfg4.N) (h0 : ¬t.val % 10 = 0) :
    outsAt4 V c t.val t.isLt
      = (k4_pay3 (iblk4 V c 0 t) (iblk4 V c 2 t) (iblk4 V c 1 t) (iblk4 V c 3 t),
         k4_pay4 (iblk4 V c 0 t) (iblk4 V c 2 t) (iblk4 V c 1 t) (iblk4 V c 3 t) (outsAt4 V c (t.val - 1) (Nat.lt_of_le_of_lt (Nat.sub_le _ _) t.isLt)).2.1,
         k4_pay5 (iblk4 V c 0 t) (iblk4 V c 2 t) (iblk4 V c 1 t) (iblk4 V c 3 t) (outsAt4 V c (t.val - 1) (Nat.lt_of_le_of_lt (Nat.sub_le _ _) t.isLt)).2.2) :=
  (outsAt4_B V c t h0).trans (congrArg₂ Prod.mk
    (out4_B_4_eq (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2)
    (congrArg₂ Prod.mk
      (out4_B_5_eq (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2)
      (out4_B_6_eq (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (outsAt4 V c (t.val - 1) (Nat.lt_of_le_of_lt (Nat.sub_le _ _) t.isLt)).2.1 (outsAt4 V c (t.val - 1) (Nat.lt_of_le_of_lt (Nat.sub_le _ _) t.isLt)).2.2)))

/-- The row block of pre-activations after any point. -/
theorem outs4_blk (t : Fin cfg4.N) :
    (outsAt4 V c t.val t.isLt).1 = k4_pay3 (iblk4 V c 0 t) (iblk4 V c 2 t) (iblk4 V c 1 t) (iblk4 V c 3 t) := by
  by_cases h0 : t.val % 10 = 0
  · rw [outs4_first V c t h0]
  · rw [outs4_later V c t h0]

end Cert.KernelIdeal.KV

end
-- ==== Proof.KStats4Pay.lean ====
/-
  Region 4, the body's arithmetic over the extended reals, entry by entry.

  The row block of pre-activations `k4_pay3` at row `p`, column `q` is
  `max ((MY p q + b q) + Σ_k X p k · Wr k q) 0`; the accumulator updates add to the carried row the block's column
  sums (`k4_pay4`) and the column sums of the squared entries (`k4_pay5`).  The narrowing of the matrix operands is
  the identity on the extended reals, a product into the zero accumulator is the sum of products over the contracted
  axis, and a reduction over the rows is the finite sum over the row coordinate.
-/
import proofs.«151943_j8564164788539_2_alg».proof.Proof.Gen.KernelIdeal.Skeleton
import proofs.«151943_j8564164788539_2_alg».proof.Proof.SageSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KV

open Cert.KernelIdeal Cert.KernelIdeal.Gen Cert.SageSpec Idealize.ShloMosaic Idealize.ShloMosaic.ValueIdx
open Idealize.ShloMosaic.TcCoe Idealize.SL.Sem
open Idealize.ShloMosaic.Pipeline (Dat)

/-! ## The matrix product of a row block with the weight -/

theorem lhs4_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs4_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhs4_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhs4_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- Entry `(p, q)` of a row block times the weight, accumulated into zero: `Σ_k A p k · W k q`. -/
theorem mm4_apply (A : Vec Ideal S5000x64 .f32) (W : Vec Ideal S64x32 .f32) (p : Fin 5000) (q : Fin 32) :
    matmul dot_S5000x64_S64x32_S5000x32_1_0_0_1_n_n none (truncf .bf16 A bitsLt_bf16_f32) (truncf .bf16 W bitsLt_bf16_f32)
        (constant (F := Ideal) S5000x32 .f32 0x00000000#32) (ix2 p q)
      = ∑ k : Fin 64, A (ix2 p k) * W (ix2 k q) := by
  refine (Ideal.matmul_constant_zero_apply dot_S5000x64_S64x32_S5000x32_1_0_0_1_n_n none _ _ (ix2 p q)).trans ?_
  rw [← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k := funext fun a => Fin.ext (by
    match a with
    | ⟨0, _⟩ => exact lhs4_0 _ _
    | ⟨1, _⟩ => exact (lhs4_1 _ _).trans hk)
  have er : dot_S5000x64_S64x32_S5000x32_1_0_0_1_n_n.rhsIdx (ix2 p q) ((contrEquiv1 dot_S5000x64_S64x32_S5000x32_1_0_0_1_n_n 64 rfl rfl).symm k) = ix2 k q := funext fun a => Fin.ext (by
    match a with
    | ⟨0, _⟩ => exact (rhs4_0 _ _).trans hk
    | ⟨1, _⟩ => exact rhs4_1 _ _)
  rw [el, er]
  rfl

/-! ## The bias row spread over the block's rows -/

/-- The bias row broadcast over the rows, at `(p, q)`: entry `q` of the row. -/
theorem bias4_apply (b : Vec Ideal S1x32 .f32) (p : Fin 5000) (q : Fin 32) :
    broadcastTo S5000x32 (shapeCast S1x32 b shapeCasts_S1x32_S1x32) broadcasts_S1x32_S5000x32 (ix2 p q) = b (ix2 0 q) := by
  rw [shapeCast_self]
  exact broadcastTo_apply b broadcasts_S1x32_S5000x32 (ix2 p q) (ix2 0 q) (fun a => by
    match a with
    | ⟨0, _⟩ => rfl
    | ⟨1, _⟩ => rfl)

/-! ## The pre-activations of a row block -/

/-- The block's pre-activation at `(p, q)`. -/
def pre4 (MY : Vec Ideal S5000x32 .f32) (X : Vec Ideal S5000x64 .f32) (Wr : Vec Ideal S64x32 .f32) (b : Vec Ideal S1x32 .f32) (p : Fin 5000) (q : Fin 32) : EReal :=
  max ((MY (ix2 p q) + b (ix2 0 q)) + ∑ k : Fin 64, X (ix2 p k) * Wr (ix2 k q)) 0

theorem pay4_3_apply (MY : Vec Ideal S5000x32 .f32) (b : Vec Ideal S1x32 .f32) (X : Vec Ideal S5000x64 .f32) (Wr : Vec Ideal S64x32 .f32)
    (p : Fin 5000) (q : Fin 32) :
    k4_pay3 (F := Ideal) MY b X Wr (ix2 p q) = pre4 MY X Wr b p q := by
  unfold k4_pay3 pre4
  show max ((_ + _) + _) (Ideal.ofBits .f32 0x00000000#32) = _
  rw [Ideal.ofBits_zero_f32]
  refine congrArg (fun z => max z (0 : EReal)) ?_
  refine congrArg₂ (· + ·) (congrArg₂ (· + ·) ?_ ?_) ?_
  · rw [shapeCast_self]
  · exact bias4_apply b p q
  · rw [shapeCast_self]; exact mm4_apply X Wr p q

/-! ## The accumulator updates -/

/-- A row vector over one row, re-read as a `1 × 32` block, at `(0, q)`. -/
theorem row4_apply (v : FVec Ideal S32 .f32) (q : Fin 32) :
    shapeCast S1x32 v shapeCasts_S32_S1x32 (ix2 0 q) = v (ix1 q) := by
  refine (shapeCast_addUnit_apply ![32] v shapeCasts_S32_S1x32 (ix2 0 q)).trans ?_
  exact congrArg v (funext fun a => by match a with | ⟨0, _⟩ => rfl)

/-- The column sums of a `5000 × 32` block, at column `q`. -/
theorem colsum4_apply (src : FVec Ideal S5000x32 .f32) (hacc : (0x00000000#32 : BitVec 32) = 0x00000000#32) (q : Fin 32) :
    multiReduction (F := Ideal) .add [0] S32 src 0x00000000#32 reduces_S5000x32_S32 (.inl rfl) hacc (ix1 q)
      = ∑ r : Fin 5000, src (ix2 r q) := by
  refine (Ideal.multiReduction_add_single src 0x00000000#32 reduces_S5000x32_S32 (.inl rfl) hacc (ix1 q)).trans ?_
  refine Finset.sum_congr rfl fun r _ => ?_
  exact congrArg src (funext fun a => Fin.ext (by match a with | ⟨0, _⟩ => rfl | ⟨1, _⟩ => rfl))

/-- The column-sum accumulator after a point: the carried row plus the block's column sums. -/
theorem pay4_4_apply (MY : Vec Ideal S5000x32 .f32) (b : Vec Ideal S1x32 .f32) (X : Vec Ideal S5000x64 .f32) (Wr : Vec Ideal S64x32 .f32)
    (acc : Vec Ideal S1x32 .f32) (q : Fin 32) :
    k4_pay4 (F := Ideal) MY b X Wr acc (ix2 0 q) = acc (ix2 0 q) + ∑ r : Fin 5000, pre4 MY X Wr b r q := by
  unfold k4_pay4
  show _ + _ = _
  refine congrArg₂ (· + ·) ?_ ?_
  · rw [shapeCast_self]
  · refine (row4_apply _ q).trans ?_
    refine (colsum4_apply _ rfl q).trans ?_
    exact Finset.sum_congr rfl fun r _ => pay4_3_apply MY b X Wr r q

/-- The sum-of-squares accumulator after a point: the carried row plus the block's column sums of squares. -/
theorem pay4_5_apply (MY : Vec Ideal S5000x32 .f32) (b : Vec Ideal S1x32 .f32) (X : Vec Ideal S5000x64 .f32) (Wr : Vec Ideal S64x32 .f32)
    (acc : Vec Ideal S1x32 .f32) (q : Fin 32) :
    k4_pay5 (F := Ideal) MY b X Wr acc (ix2 0 q)
      = acc (ix2 0 q) + ∑ r : Fin 5000, pre4 MY X Wr b r q * pre4 MY X Wr b r q := by
  unfold k4_pay5
  show _ + _ = _
  refine congrArg₂ (· + ·) ?_ ?_
  · rw [shapeCast_self]
  · refine (row4_apply _ q).trans ?_
    refine (colsum4_apply _ rfl q).trans ?_
    refine Finset.sum_congr rfl fun r _ => ?_
    show _ * _ = _
    rw [pay4_3_apply MY b X Wr r q]

/-- The zero rows the first point stores. -/
theorem pay4_1_apply (q : Fin 32) : k4_pay1 (F := Ideal) (ix2 0 q) = 0 := Ideal.ofBits_zero_f32
theorem pay4_2_apply (q : Fin 32) : k4_pay2 (F := Ideal) (ix2 0 q) = 0 := Ideal.ofBits_zero_f32

end Cert.KernelIdeal.KV

end
-- ==== Proof.KStats4Arr.lean ====
/-
  Region 4: the four operand arrays as the region finds them, curried over literal coordinates, and each window's
  block at a grid point read out of its array.  Point `t` sees rows `5000 t … 5000 t + 4999` of the two row operands;
  the weight and the bias row are the same whole arrays at every point.  Hence the block's pre-activation at local
  row `r` is the layer's pre-activation `preB` at row `5000 t + r`.
-/
import proofs.«151943_j8564164788539_2_alg».proof.Proof.Gen.KernelIdeal.Frame
import proofs.«151943_j8564164788539_2_alg».proof.Proof.KStats4Pay
import Idealize.ShloMosaic.Lib.ValueIdx
import Idealize.ShloMosaic.Lib.Pipeline.Value

noncomputable section

namespace Cert.KernelIdeal.KV

open Cert.KernelIdeal Cert.KernelIdeal.Gen Cert.SageSpec Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The aggregated product `MY`. -/
def r4MY (n : Fin 50000) (j : Fin 32) : EReal := (V c (Pipeline.arrRef spec4 0) : S50000x32.Idx → EReal) (ix2 n j)
/-- The layer's input features `X`. -/
def r4X (n : Fin 50000) (k : Fin 64) : EReal := (V c (Pipeline.arrRef spec4 1) : S50000x64.Idx → EReal) (ix2 n k)
/-- The bias row. -/
def r4b (j : Fin 32) : EReal := (V c (Pipeline.arrRef spec4 2) : S1x32.Idx → EReal) (ix2 0 j)
/-- The right weight. -/
def r4Wr (k : Fin 64) (j : Fin 32) : EReal := (V c (Pipeline.arrRef spec4 3) : S64x32.Idx → EReal) (ix2 k j)

/-- The block indices of the seven windows at a grid point: the row operands and the row output move with the
    point, everything else stays at block `(0, 0)`. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

theorem iblk4_0_apply (t : Fin cfg4.N) (r : Fin 5000) (k : Fin 32) (n : Fin 50000) (hn : n.val = t.val * 5000 + r.val) :
    (iblk4 V c 0 t : Vec Ideal S5000x32 .f32) (ix2 r k) = r4MY V c n k := by
  obtain ⟨e0, e1, -, -, -, -, -, -, -, -, -, -, -, -⟩ := idx4 t
  unfold iblk4 r4MY
  rw [View.read_apply]
  refine congrArg (V c (Pipeline.arrRef spec4 0) : S50000x32.Idx → EReal) (funext fun a => Fin.ext ?_)
  match a with
  | ⟨0, _⟩ => show win4_0.index t (0 : Fin 2) * 5000 + 1 * r.val = n.val; omega
  | ⟨1, _⟩ => show win4_0.index t (1 : Fin 2) * 32 + 1 * k.val = k.val; omega

theorem iblk4_1_apply (t : Fin cfg4.N) (r : Fin 5000) (k : Fin 64) (n : Fin 50000) (hn : n.val = t.val * 5000 + r.val) :
    (iblk4 V c 1 t : Vec Ideal S5000x64 .f32) (ix2 r k) = r4X V c n k := by
  obtain ⟨-, -, e0, e1, -, -, -, -, -, -, -, -, -, -⟩ := idx4 t
  unfold iblk4 r4X
  rw [View.read_apply]
  refine congrArg (V c (Pipeline.arrRef spec4 1) : S50000x64.Idx → EReal) (funext fun a => Fin.ext ?_)
  match a with
  | ⟨0, _⟩ => show win4_1.index t (0 : Fin 2) * 5000 + 1 * r.val = n.val; omega
  | ⟨1, _⟩ => show win4_1.index t (1 : Fin 2) * 64 + 1 * k.val = k.val; omega

theorem iblk4_2_apply (t : Fin cfg4.N) (j : Fin 32) :
    (iblk4 V c 2 t : Vec Ideal S1x32 .f32) (ix2 0 j) = r4b V c j := by
  obtain ⟨-, -, -, -, e0, e1, -, -, -, -, -, -, -, -⟩ := idx4 t
  unfold iblk4 r4b
  rw [View.read_apply]
  refine congrArg (V c (Pipeline.arrRef spec4 2) : S1x32.Idx → EReal) (funext fun a => Fin.ext ?_)
  match a with
  | ⟨0, _⟩ => show win4_2.index t (0 : Fin 2) * 1 + 1 * 0 = 0; omega
  | ⟨1, _⟩ => show win4_2.index t (1 : Fin 2) * 32 + 1 * j.val = j.val; omega

theorem iblk4_3_apply (t : Fin cfg4.N) (k : Fin 64) (j : Fin 32) :
    (iblk4 V c 3 t : Vec Ideal S64x32 .f32) (ix2 k j) = r4Wr V c k j := by
  obtain ⟨-, -, -, -, -, -, e0, e1, -, -, -, -, -, -⟩ := idx4 t
  unfold iblk4 r4Wr
  rw [View.read_apply]
  refine congrArg (V c (Pipeline.arrRef spec4 3) : S64x32.Idx → EReal) (funext fun a => Fin.ext ?_)
  match a with
  | ⟨0, _⟩ => show win4_3.index t (0 : Fin 2) * 64 + 1 * k.val = k.val; omega
  | ⟨1, _⟩ => show win4_3.index t (1 : Fin 2) * 32 + 1 * j.val = j.val; omega

/-- The block's pre-activation at local row `r` is the layer's at row `n = 5000 t + r`. -/
theorem pre4_blk (t : Fin cfg4.N) (r : Fin 5000) (q : Fin 32) (n : Fin 50000) (hn : n.val = t.val * 5000 + r.val) :
    pre4 (iblk4 V c 0 t) (iblk4 V c 1 t) (iblk4 V c 3 t) (iblk4 V c 2 t) r q
      = preB (r4MY V c) (r4X V c) (r4Wr V c) (r4b V c) n q := by
  unfold pre4 preB mm
  refine congrArg (fun z => max z (0 : EReal)) ?_
  refine congrArg₂ (· + ·) (congrArg₂ (· + ·) ?_ ?_) ?_
  · exact iblk4_0_apply V c t r q n hn
  · exact iblk4_2_apply V c t q
  · exact Finset.sum_congr rfl fun k _ => congrArg₂ (· * ·) (iblk4_1_apply V c t r k n hn) (iblk4_3_apply V c t k q)

end Cert.KernelIdeal.KV

end
-- ==== Proof.KStats4Acc.lean ====
/-
  Region 4: the two accumulators across the grid.  After point `n` the column-sum accumulator holds the sum, over
  the points `0 … n`, of the column sums of each point's 5000 rows of pre-activations, and the sum-of-squares
  accumulator the same of the squared pre-activations: the first point starts from the zero row, every later point
  adds its block's sums to what the point before left.  After the last of the ten points that is the sum over all
  50000 rows.
-/
import proofs.«151943_j8564164788539_2_alg».proof.Proof.KStats4Outs
import proofs.«151943_j8564164788539_2_alg».proof.Proof.KStats4Arr
import proofs.«151943_j8564164788539_2_alg».proof.Proof.KStatsSum

noncomputable section

namespace Cert.KernelIdeal.KV

open Cert.KernelIdeal Cert.KernelIdeal.Gen Cert.SageSpec Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The column-sum accumulator after point `n`. -/
theorem acc4_5_eq (q : Fin 32) : ∀ (n : ℕ) (h : n < cfg4.N),
    (outsAt4 V c n h).2.1 (ix2 0 q) = ∑ t ∈ Finset.range (n + 1), blkSum (fun m => (preB (r4MY V c) (r4X V c) (r4Wr V c) (r4b V c)) m q) t
  | 0, h => by
    have e : (outsAt4 V c 0 h).2.1 = k4_pay4 (iblk4 V c 0 ⟨0, h⟩) (iblk4 V c 2 ⟨0, h⟩) (iblk4 V c 1 ⟨0, h⟩) (iblk4 V c 3 ⟨0, h⟩) (k4_pay1 (F := Ideal)) :=
      congrArg (fun p => p.2.1) (outs4_first V c ⟨0, h⟩ rfl)
    refine (congrFun e (ix2 0 q)).trans ?_
    refine (pay4_4_apply (iblk4 V c 0 ⟨0, h⟩) (iblk4 V c 2 ⟨0, h⟩) (iblk4 V c 1 ⟨0, h⟩) (iblk4 V c 3 ⟨0, h⟩) (k4_pay1 (F := Ideal)) q).trans ?_
    rw [pay4_1_apply, zero_add, Finset.sum_range_one]
    unfold blkSum
    refine Finset.sum_congr rfl fun r _ => ?_
    rw [dif_pos (by omega)]
    exact pre4_blk V c ⟨0, h⟩ r q ⟨0 * 5000 + r.val, by omega⟩ rfl
  | n + 1, h => by
    have hN : cfg4.N = 10 := N_4
    have hB : ¬(⟨n + 1, h⟩ : Fin cfg4.N).val % 10 = 0 := by dsimp only; omega
    have e : (outsAt4 V c (n + 1) h).2.1
        = k4_pay4 (iblk4 V c 0 ⟨n + 1, h⟩) (iblk4 V c 2 ⟨n + 1, h⟩) (iblk4 V c 1 ⟨n + 1, h⟩) (iblk4 V c 3 ⟨n + 1, h⟩) (outsAt4 V c n (Nat.lt_of_succ_lt h)).2.1 :=
      congrArg (fun p => p.2.1) (outs4_later V c ⟨n + 1, h⟩ hB)
    refine (congrFun e (ix2 0 q)).trans ?_
    refine (pay4_4_apply (iblk4 V c 0 ⟨n + 1, h⟩) (iblk4 V c 2 ⟨n + 1, h⟩) (iblk4 V c 1 ⟨n + 1, h⟩) (iblk4 V c 3 ⟨n + 1, h⟩) (outsAt4 V c n (Nat.lt_of_succ_lt h)).2.1 q).trans ?_
    rw [acc4_5_eq q n (Nat.lt_of_succ_lt h), Finset.sum_range_succ _ (n + 1)]
    refine congrArg (_ + ·) ?_
    unfold blkSum
    refine Finset.sum_congr rfl fun r _ => ?_
    rw [dif_pos (by omega)]
    exact pre4_blk V c ⟨n + 1, h⟩ r q ⟨(n + 1) * 5000 + r.val, by omega⟩ rfl

/-- The sum-of-squares accumulator after point `n`. -/
theorem acc4_6_eq (q : Fin 32) : ∀ (n : ℕ) (h : n < cfg4.N),
    (outsAt4 V c n h).2.2 (ix2 0 q) = ∑ t ∈ Finset.range (n + 1), blkSum (fun m => (preB (r4MY V c) (r4X V c) (r4Wr V c) (r4b V c)) m q * (preB (r4MY V c) (r4X V c) (r4Wr V c) (r4b V c)) m q) t
  | 0, h => by
    have e : (outsAt4 V c 0 h).2.2 = k4_pay5 (iblk4 V c 0 ⟨0, h⟩) (iblk4 V c 2 ⟨0, h⟩) (iblk4 V c 1 ⟨0, h⟩) (iblk4 V c 3 ⟨0, h⟩) (k4_pay2 (F := Ideal)) :=
      congrArg (fun p => p.2.2) (outs4_first V c ⟨0, h⟩ rfl)
    refine (congrFun e (ix2 0 q)).trans ?_
    refine (pay4_5_apply (iblk4 V c 0 ⟨0, h⟩) (iblk4 V c 2 ⟨0, h⟩) (iblk4 V c 1 ⟨0, h⟩) (iblk4 V c 3 ⟨0, h⟩) (k4_pay2 (F := Ideal)) q).trans ?_
    rw [pay4_2_apply, zero_add, Finset.sum_range_one]
    unfold blkSum
    refine Finset.sum_congr rfl fun r _ => ?_
    rw [dif_pos (by omega)]
    exact congrArg₂ (· * ·) (pre4_blk V c ⟨0, h⟩ r q ⟨0 * 5000 + r.val, by omega⟩ rfl)
      (pre4_blk V c ⟨0, h⟩ r q ⟨0 * 5000 + r.val, by omega⟩ rfl)
  | n + 1, h => by
    have hN : cfg4.N = 10 := N_4
    have hB : ¬(⟨n + 1, h⟩ : Fin cfg4.N).val % 10 = 0 := by dsimp only; omega
    have e : (outsAt4 V c (n + 1) h).2.2
        = k4_pay5 (iblk4 V c 0 ⟨n + 1, h⟩) (iblk4 V c 2 ⟨n + 1, h⟩) (iblk4 V c 1 ⟨n + 1, h⟩) (iblk4 V c 3 ⟨n + 1, h⟩) (outsAt4 V c n (Nat.lt_of_succ_lt h)).2.2 :=
      congrArg (fun p => p.2.2) (outs4_later V c ⟨n + 1, h⟩ hB)
    refine (congrFun e (ix2 0 q)).trans ?_
    refine (pay4_5_apply (iblk4 V c 0 ⟨n + 1, h⟩) (iblk4 V c 2 ⟨n + 1, h⟩) (iblk4 V c 1 ⟨n + 1, h⟩) (iblk4 V c 3 ⟨n + 1, h⟩) (outsAt4 V c n (Nat.lt_of_succ_lt h)).2.2 q).trans ?_
    rw [acc4_6_eq q n (Nat.lt_of_succ_lt h), Finset.sum_range_succ _ (n + 1)]
    refine congrArg (_ + ·) ?_
    unfold blkSum
    refine Finset.sum_congr rfl fun r _ => ?_
    rw [dif_pos (by omega)]
    exact congrArg₂ (· * ·) (pre4_blk V c ⟨n + 1, h⟩ r q ⟨(n + 1) * 5000 + r.val, by omega⟩ rfl)
      (pre4_blk V c ⟨n + 1, h⟩ r q ⟨(n + 1) * 5000 + r.val, by omega⟩ rfl)

/-- After the last point: the column sums over all 50000 rows. -/
theorem acc4_5_last (q : Fin 32) (h : 9 < cfg4.N) :
    (outsAt4 V c 9 h).2.1 (ix2 0 q) = colsum (preB (r4MY V c) (r4X V c) (r4Wr V c) (r4b V c)) q :=
  (acc4_5_eq V c q 9 h).trans (sum_blocks (fun m => (preB (r4MY V c) (r4X V c) (r4Wr V c) (r4b V c)) m q))

/-- After the last point: the column sums of squares over all 50000 rows. -/
theorem acc4_6_last (q : Fin 32) (h : 9 < cfg4.N) :
    (outsAt4 V c 9 h).2.2 (ix2 0 q)
      = colsum (fun n j => (preB (r4MY V c) (r4X V c) (r4Wr V c) (r4b V c)) n j * (preB (r4MY V c) (r4X V c) (r4Wr V c) (r4b V c)) n j) q :=
  (acc4_6_eq V c q 9 h).trans (sum_blocks (fun m => (preB (r4MY V c) (r4X V c) (r4Wr V c) (r4b V c)) m q * (preB (r4MY V c) (r4X V c) (r4Wr V c) (r4b V c)) m q))

end Cert.KernelIdeal.KV

end
-- ==== Proof.KStats4.lean ====
/-
  Region 4: the three output arrays after the region.

  The row output is written back block by block, point `t` writing rows `5000 t … 5000 t + 4999`: every row is in
  the block of the point `row / 5000`, and each block holds the layer's pre-activations `preB` of its rows.  The two
  accumulators are written back once, after the last point, when they hold the column sums of the pre-activations
  and of their squares over all 50000 rows.
-/
import proofs.«151943_j8564164788539_2_alg».proof.Proof.KStats4Acc

noncomputable section

namespace Cert.KernelIdeal.KV

open Cert.KernelIdeal Cert.KernelIdeal.Gen Cert.SageSpec Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b)) (c : Dev nD)

/-! ## The row output -/

/-- What the row output ends holding, index by index. -/
def G4_4 : S50000x32.Idx → EReal := fun i =>
  (preB (r4MY V c) (r4X V c) (r4Wr V c) (r4b V c)) ⟨(i 0).val, (i 0).isLt⟩ ⟨(i 1).val, (i 1).isLt⟩

/-- What point `t` writes back is block `t` of `G4_4`. -/
theorem flushed4_4_eq (t : Fin cfg4.N) :
    (dat4 V c).flushed 4 t = ((cfg4.win 4).blk t).view.read (Elt Ideal) (G4_4 V c) := by
  show (cfg4.win 4).cut (grid4.coords t) ((dat4 V c).after 4 t) = _
  rw [after4_4, outs4_blk V c t]
  have hN : cfg4.N = 10 := N_4
  have ht : t.val < 10 := lt_of_lt_of_eq t.isLt hN
  obtain ⟨-, -, -, -, -, -, -, -, e0, e1, -, -, -, -⟩ := idx4 t
  funext y
  obtain ⟨r, q, rfl⟩ : ∃ (r : Fin 5000) (q : Fin 32), y = ix2 r q := ⟨y 0, y 1, eq_ix2 y⟩
  show k4_pay3 (F := Ideal) (iblk4 V c 0 t) (iblk4 V c 2 t) (iblk4 V c 1 t) (iblk4 V c 3 t) (ix2 r q) = G4_4 V c (((cfg4.win 4).blk t).view.emb (ix2 r q))
  refine (pay4_3_apply (iblk4 V c 0 t) (iblk4 V c 2 t) (iblk4 V c 1 t) (iblk4 V c 3 t) r q).trans ?_
  refine (pre4_blk V c t r q ⟨t.val * 5000 + r.val, by omega⟩ rfl).trans ?_
  unfold G4_4
  refine congrArg₂ (preB (r4MY V c) (r4X V c) (r4Wr V c) (r4b V c)) (Fin.ext ?_) (Fin.ext ?_)
  · show t.val * 5000 + r.val = win4_4.index t (0 : Fin 2) * 5000 + 1 * r.val; omega
  · show q.val = win4_4.index t (1 : Fin 2) * 32 + 1 * q.val; omega

/-- An index of the row output is in point `t`'s block iff each coordinate is in the block's range on its axis. -/
theorem mem_blk4_4 (t : Fin cfg4.N) (i : S50000x32.Idx) :
    i ∈ ((cfg4.win 4).blk t).view.set ↔ ∀ a : Fin 2, win4_4.index t a * S5000x32.size a ≤ (i a).val ∧ (i a).val < win4_4.index t a * S5000x32.size a + S5000x32.size a := by
  show i ∈ ((View.whole main_v80_0).slice (win4_4.rect t)).set ↔ _
  rw [View.set_slice_whole, Rect.mem_set_unit]
  exact Iff.rfl

/-- Every row is in the block of the point `row / 5000`. -/
theorem cover4_4 (i : S50000x32.Idx) : ∃ t : Fin cfg4.N, (cfg4.win 4).flush t = true ∧ i ∈ ((cfg4.win 4).blk t).view.set := by
  have hi0 : (i 0).val < 50000 := (i 0).isLt
  have hi1 : (i 1).val < 32 := (i 1).isLt
  have hN : cfg4.N = 10 := N_4
  have hlt : (i 0).val / 5000 < cfg4.N := by rw [hN]; omega
  obtain ⟨-, -, -, -, -, -, -, -, e0, e1, -, -, -, -⟩ := idx4 ⟨(i 0).val / 5000, hlt⟩
  refine ⟨⟨(i 0).val / 5000, hlt⟩, flush4_4 _, ?_⟩
  rw [mem_blk4_4]
  intro a
  match a with
  | ⟨0, _⟩ =>
    show win4_4.index ⟨(i 0).val / 5000, hlt⟩ (0 : Fin 2) * 5000 ≤ (i 0).val ∧ (i 0).val < win4_4.index ⟨(i 0).val / 5000, hlt⟩ (0 : Fin 2) * 5000 + 5000
    rw [e0]; dsimp only; omega
  | ⟨1, _⟩ =>
    show win4_4.index ⟨(i 0).val / 5000, hlt⟩ (1 : Fin 2) * 32 ≤ (i 1).val ∧ (i 1).val < win4_4.index ⟨(i 0).val / 5000, hlt⟩ (1 : Fin 2) * 32 + 32
    rw [e1]; omega

theorem region4_P (n : Fin 50000) (j : Fin 32) :
    (dat4 V c).arrAt 4 cfg4.N (ix2 n j) = preB (r4MY V c) (r4X V c) (r4Wr V c) (r4b V c) n j :=
  congrFun ((dat4 V c).arrAt_eq_of_cover 4 (G4_4 V c) (fun t _ => flushed4_4_eq V c t) (cover4_4)) (ix2 n j)

/-! ## The two accumulators -/

/-- What the column-sum output ends holding. -/
def G4_5 : S1x32.Idx → EReal := fun i => colsum (preB (r4MY V c) (r4X V c) (r4Wr V c) (r4b V c)) ⟨(i 1).val, (i 1).isLt⟩
/-- What the sum-of-squares output ends holding. -/
def G4_6 : S1x32.Idx → EReal := fun i =>
  colsum (fun n j => (preB (r4MY V c) (r4X V c) (r4Wr V c) (r4b V c)) n j * (preB (r4MY V c) (r4X V c) (r4Wr V c) (r4b V c)) n j) ⟨(i 1).val, (i 1).isLt⟩

/-- The one write-back of output 5, after the last point. -/
theorem flushed4_5_eq (t : Fin cfg4.N) (hf : (cfg4.win 5).flush t = true) :
    (dat4 V c).flushed 5 t = ((cfg4.win 5).blk t).view.read (Elt Ideal) (G4_5 V c) := by
  have hN : cfg4.N = 10 := N_4
  have h9 : t.val = 9 := by have := (flush4_5 t).mp hf; have := t.isLt; omega
  show (cfg4.win 5).cut (grid4.coords t) ((dat4 V c).after 5 t) = _
  rw [after4_5]
  obtain ⟨-, -, -, -, -, -, -, -, -, -, e0, e1, -, -⟩ := idx4 t
  have hz' : (fun a => win4_5.index t a * main_v80_1.ty.shape.size a) = fun _ => 0 := funext fun a => by
    match a with
    | ⟨0, _⟩ => show win4_5.index t (0 : Fin 2) * 1 = 0; omega
    | ⟨1, _⟩ => show win4_5.index t (1 : Fin 2) * 32 = 0; omega
  refine Eq.trans ?_ (Memref.read_access_unit_zero (Elt Ideal) main_v80_1 hz' (fun a => by rw [congrFun hz' a]; simp) (G4_5 V c)).symm
  funext y
  obtain ⟨z, q, rfl⟩ : ∃ (z : Fin 1) (q : Fin 32), y = ix2 z q := ⟨y 0, y 1, eq_ix2 y⟩
  obtain rfl : z = 0 := Subsingleton.elim _ _
  show (outsAt4 V c t.val t.isLt).2.1 (ix2 0 q) = colsum ((preB (r4MY V c) (r4X V c) (r4Wr V c) (r4b V c))) q
  refine (acc4_5_eq V c q t.val t.isLt).trans ?_
  rw [h9]
  exact sum_blocks (fun m => (preB (r4MY V c) (r4X V c) (r4Wr V c) (r4b V c)) m q)

theorem mem_blk4_5 (t : Fin cfg4.N) (i : S1x32.Idx) :
    i ∈ ((cfg4.win 5).blk t).view.set ↔ ∀ a : Fin 2, win4_5.index t a * S1x32.size a ≤ (i a).val ∧ (i a).val < win4_5.index t a * S1x32.size a + S1x32.size a := by
  show i ∈ ((View.whole main_v80_1).slice (win4_5.rect t)).set ↔ _
  rw [View.set_slice_whole, Rect.mem_set_unit]
  exact Iff.rfl

/-- The last point's block is the whole `1 × 32` array. -/
theorem cover4_5 (i : S1x32.Idx) : ∃ t : Fin cfg4.N, (cfg4.win 5).flush t = true ∧ i ∈ ((cfg4.win 5).blk t).view.set := by
  have hi0 : (i 0).val < 1 := (i 0).isLt
  have hi1 : (i 1).val < 32 := (i 1).isLt
  have hN : cfg4.N = 10 := N_4
  have hlt : 9 < cfg4.N := by rw [hN]; omega
  obtain ⟨-, -, -, -, -, -, -, -, -, -, e0, e1, -, -⟩ := idx4 ⟨9, hlt⟩
  refine ⟨⟨9, hlt⟩, (flush4_5 _).mpr rfl, ?_⟩
  rw [mem_blk4_5]
  intro a
  match a with
  | ⟨0, _⟩ =>
    show win4_5.index ⟨9, hlt⟩ (0 : Fin 2) * 1 ≤ (i 0).val ∧ (i 0).val < win4_5.index ⟨9, hlt⟩ (0 : Fin 2) * 1 + 1
    rw [e0]; omega
  | ⟨1, _⟩ =>
    show win4_5.index ⟨9, hlt⟩ (1 : Fin 2) * 32 ≤ (i 1).val ∧ (i 1).val < win4_5.index ⟨9, hlt⟩ (1 : Fin 2) * 32 + 32
    rw [e1]; omega

/-- The one write-back of output 6, after the last point. -/
theorem flushed4_6_eq (t : Fin cfg4.N) (hf : (cfg4.win 6).flush t = true) :
    (dat4 V c).flushed 6 t = ((cfg4.win 6).blk t).view.read (Elt Ideal) (G4_6 V c) := by
  have hN : cfg4.N = 10 := N_4
  have h9 : t.val = 9 := by have := (flush4_6 t).mp hf; have := t.isLt; omega
  show (cfg4.win 6).cut (grid4.coords t) ((dat4 V c).after 6 t) = _
  rw [after4_6]
  obtain ⟨-, -, -, -, -, -, -, -, -, -, -, -, e0, e1⟩ := idx4 t
  have hz' : (fun a => win4_6.index t a * main_v80_2.ty.shape.size a) = fun _ => 0 := funext fun a => by
    match a with
    | ⟨0, _⟩ => show win4_6.index t (0 : Fin 2) * 1 = 0; omega
    | ⟨1, _⟩ => show win4_6.index t (1 : Fin 2) * 32 = 0; omega
  refine Eq.trans ?_ (Memref.read_access_unit_zero (Elt Ideal) main_v80_2 hz' (fun a => by rw [congrFun hz' a]; simp) (G4_6 V c)).symm
  funext y
  obtain ⟨z, q, rfl⟩ : ∃ (z : Fin 1) (q : Fin 32), y = ix2 z q := ⟨y 0, y 1, eq_ix2 y⟩
  obtain rfl : z = 0 := Subsingleton.elim _ _
  show (outsAt4 V c t.val t.isLt).2.2 (ix2 0 q) = colsum (fun n j => (preB (r4MY V c) (r4X V c) (r4Wr V c) (r4b V c)) n j * (preB (r4MY V c) (r4X V c) (r4Wr V c) (r4b V c)) n j) q
  refine (acc4_6_eq V c q t.val t.isLt).trans ?_
  rw [h9]
  exact sum_blocks (fun m => (preB (r4MY V c) (r4X V c) (r4Wr V c) (r4b V c)) m q * (preB (r4MY V c) (r4X V c) (r4Wr V c) (r4b V c)) m q)

theorem mem_blk4_6 (t : Fin cfg4.N) (i : S1x32.Idx) :
    i ∈ ((cfg4.win 6).blk t).view.set ↔ ∀ a : Fin 2, win4_6.index t a * S1x32.size a ≤ (i a).val ∧ (i a).val < win4_6.index t a * S1x32.size a + S1x32.size a := by
  show i ∈ ((View.whole main_v80_2).slice (win4_6.rect t)).set ↔ _
  rw [View.set_slice_whole, Rect.mem_set_unit]
  exact Iff.rfl

/-- The last point's block is the whole `1 × 32` array. -/
theorem cover4_6 (i : S1x32.Idx) : ∃ t : Fin cfg4.N, (cfg4.win 6).flush t = true ∧ i ∈ ((cfg4.win 6).blk t).view.set := by
  have hi0 : (i 0).val < 1 := (i 0).isLt
  have hi1 : (i 1).val < 32 := (i 1).isLt
  have hN : cfg4.N = 10 := N_4
  have hlt : 9 < cfg4.N := by rw [hN]; omega
  obtain ⟨-, -, -, -, -, -, -, -, -, -, -, -, e0, e1⟩ := idx4 ⟨9, hlt⟩
  refine ⟨⟨9, hlt⟩, (flush4_6 _).mpr rfl, ?_⟩
  rw [mem_blk4_6]
  intro a
  match a with
  | ⟨0, _⟩ =>
    show win4_6.index ⟨9, hlt⟩ (0 : Fin 2) * 1 ≤ (i 0).val ∧ (i 0).val < win4_6.index ⟨9, hlt⟩ (0 : Fin 2) * 1 + 1
    rw [e0]; omega
  | ⟨1, _⟩ =>
    show win4_6.index ⟨9, hlt⟩ (1 : Fin 2) * 32 ≤ (i 1).val ∧ (i 1).val < win4_6.index ⟨9, hlt⟩ (1 : Fin 2) * 32 + 32
    rw [e1]; omega

theorem region4_S (j : Fin 32) :
    (dat4 V c).arrAt 5 cfg4.N (ix2 0 j) = colsum (preB (r4MY V c) (r4X V c) (r4Wr V c) (r4b V c)) j :=
  congrFun ((dat4 V c).arrAt_eq_of_cover 5 (G4_5 V c) (flushed4_5_eq V c) (cover4_5)) (ix2 0 j)

theorem region4_SS (j : Fin 32) :
    (dat4 V c).arrAt 6 cfg4.N (ix2 0 j)
      = colsum (fun n j => preB (r4MY V c) (r4X V c) (r4Wr V c) (r4b V c) n j * preB (r4MY V c) (r4X V c) (r4Wr V c) (r4b V c) n j) j :=
  congrFun ((dat4 V c).arrAt_eq_of_cover 6 (G4_6 V c) (flushed4_6_eq V c) (cover4_6)) (ix2 0 j)

end Cert.KernelIdeal.KV

end
-- ==== Proof.KApply5Pay.lean ====
/-
  The normalisation kernel of the third layer, one block at a time: what its one store holds at an entry, as a
  function of the five blocks it loads: at row `p`, lane `q`, `((x0 p q − mu q) · inv q) · g q + be q`, the four
  row vectors broadcast down the rows.
-/
import proofs.«151943_j8564164788539_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.KV

open Cert.KernelIdeal Cert.KernelIdeal.Gen Idealize.ShloMosaic Idealize.ShloMosaic.ValueIdx

/-- A row vector broadcast down 5000 rows reads, at row `p` and lane `q`, its lane `q`. -/
theorem bcast_row32 (x : FVec Ideal S1x32 .f32) (h : S1x32.Broadcasts S5000x32) (p : Fin 5000) (q : Fin 32) :
    broadcastTo S5000x32 x h (ix2 p q) = x (ix2 0 q) :=
  broadcastTo_apply x h (ix2 p q) (ix2 0 q) (fun a => match a with | ⟨0, _⟩ => rfl | ⟨1, _⟩ => rfl)

/-- The store at an entry: the affine normalisation of the feature block. -/
theorem k5_pay1_apply (x0 : Vec Ideal S5000x32 .f32) (x1 x2 x3 x4 : Vec Ideal S1x32 .f32) (p : Fin 5000) (q : Fin 32) :
    k5_pay1 x0 x1 x2 x3 x4 (ix2 p q)
      = ((x0 (ix2 p q) - x1 (ix2 0 q)) * x2 (ix2 0 q)) * x3 (ix2 0 q) + x4 (ix2 0 q) := by
  unfold k5_pay1
  simp only [shapeCast_self, addf_apply, mulf_apply, subf_apply, bcast_row32]

end Cert.KernelIdeal.KV

end
-- ==== Proof.KApply5.lean ====
/-
  The third layer's normalisation kernel over its whole grid: what its output array holds once every point has
  written its block back, entry by entry, as a function of the five arrays the kernel finds.

  The grid has 10 points; point `t` reads rows `5000 t … 5000 t + 4999` of the feature array and the whole of the
  four row vectors, and writes the same rows of the output.  So row `n` of the output is written by point
  `n / 5000` alone, and holds the affine normalisation `((P n j − mu j) · inv j) · g j + be j`.
-/
import proofs.«151943_j8564164788539_2_alg».proof.Proof.Gen.KernelIdeal.Frame
import proofs.«151943_j8564164788539_2_alg».proof.Proof.SageSpec
import proofs.«151943_j8564164788539_2_alg».proof.Proof.KApply5Pay
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KV

open Cert.KernelIdeal Cert.KernelIdeal.Gen Cert.SageSpec Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b)) (c : Dev nD)

/-! ## The arrays the kernel finds, curried -/

/-- The feature array. -/
def r5P (n : Fin 50000) (j : Fin 32) : EReal := (V c (Pipeline.arrRef spec5 0) : S50000x32.Idx → EReal) (ix2 n j)
/-- The column means. -/
def r5mu (j : Fin 32) : EReal := (V c (Pipeline.arrRef spec5 1) : S1x32.Idx → EReal) (ix2 0 j)
/-- The column scales. -/
def r5inv (j : Fin 32) : EReal := (V c (Pipeline.arrRef spec5 2) : S1x32.Idx → EReal) (ix2 0 j)
/-- The gains. -/
def r5g (j : Fin 32) : EReal := (V c (Pipeline.arrRef spec5 3) : S1x32.Idx → EReal) (ix2 0 j)
/-- The offsets. -/
def r5be (j : Fin 32) : EReal := (V c (Pipeline.arrRef spec5 4) : S1x32.Idx → EReal) (ix2 0 j)

/-! ## The windows' index maps over the grid -/

theorem hz5 : (![0, 0] : Fin 2 → Nat) = fun _ => 0 := funext fun a => by fin_cases a <;> rfl

/-- The row-block windows (the features and the output) sit at block `t` of the rows at point `t`; the
    row vectors at their one block. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem lt_N5 (t : Fin cfg5.N) : t.val < 10 := lt_of_lt_of_eq t.isLt N_5

/-! ## The input blocks, entry by entry -/

/-- Row `p` of the feature block at point `t` is row `5000 t + p` of the array. -/
theorem blk5_0_apply (t : Fin cfg5.N) (p : Fin 5000) (q : Fin 32) (n : Fin 50000) (hn : n.val = t.val * 5000 + p.val) :
    (iblk5 V c 0 t : Vec Ideal S5000x32 .f32) (ix2 p q) = r5P V c n q := by
  obtain ⟨e0, e1, -⟩ := idx_facts5 t
  show (V c (Pipeline.arrRef spec5 0) : S50000x32.Idx → EReal) (((cfg5.win 0).blk t).view.emb (ix2 p q))
    = (V c (Pipeline.arrRef spec5 0) : S50000x32.Idx → EReal) (ix2 n q)
  refine congrArg _ (funext fun a => Fin.ext ?_)
  match a with
  | ⟨0, _⟩ => show win5_0.index t (0 : Fin 2) * 5000 + 1 * p.val = n.val; omega
  | ⟨1, _⟩ => show win5_0.index t (1 : Fin 2) * 32 + 1 * q.val = q.val; omega

/-- The means' one block is the whole row vector. -/
theorem blk5_1_apply (t : Fin cfg5.N) (q : Fin 32) :
    (iblk5 V c 1 t : Vec Ideal S1x32 .f32) (ix2 0 q) = r5mu V c q := by
  obtain ⟨-, -, e0, e1, -⟩ := idx_facts5 t
  show (V c (Pipeline.arrRef spec5 1) : S1x32.Idx → EReal) (((cfg5.win 1).blk t).view.emb (ix2 0 q))
    = (V c (Pipeline.arrRef spec5 1) : S1x32.Idx → EReal) (ix2 0 q)
  refine congrArg _ (funext fun a => Fin.ext ?_)
  match a with
  | ⟨0, _⟩ => show win5_1.index t (0 : Fin 2) * 1 + 1 * 0 = 0; omega
  | ⟨1, _⟩ => show win5_1.index t (1 : Fin 2) * 32 + 1 * q.val = q.val; omega

/-- The scales' one block is the whole row vector. -/
theorem blk5_2_apply (t : Fin cfg5.N) (q : Fin 32) :
    (iblk5 V c 2 t : Vec Ideal S1x32 .f32) (ix2 0 q) = r5inv V c q := by
  obtain ⟨-, -, -, -, e0, e1, -⟩ := idx_facts5 t
  show (V c (Pipeline.arrRef spec5 2) : S1x32.Idx → EReal) (((cfg5.win 2).blk t).view.emb (ix2 0 q))
    = (V c (Pipeline.arrRef spec5 2) : S1x32.Idx → EReal) (ix2 0 q)
  refine congrArg _ (funext fun a => Fin.ext ?_)
  match a with
  | ⟨0, _⟩ => show win5_2.index t (0 : Fin 2) * 1 + 1 * 0 = 0; omega
  | ⟨1, _⟩ => show win5_2.index t (1 : Fin 2) * 32 + 1 * q.val = q.val; omega

/-- The gains' one block is the whole row vector. -/
theorem blk5_3_apply (t : Fin cfg5.N) (q : Fin 32) :
    (iblk5 V c 3 t : Vec Ideal S1x32 .f32) (ix2 0 q) = r5g V c q := by
  obtain ⟨-, -, -, -, -, -, e0, e1, -⟩ := idx_facts5 t
  show (V c (Pipeline.arrRef spec5 3) : S1x32.Idx → EReal) (((cfg5.win 3).blk t).view.emb (ix2 0 q))
    = (V c (Pipeline.arrRef spec5 3) : S1x32.Idx → EReal) (ix2 0 q)
  refine congrArg _ (funext fun a => Fin.ext ?_)
  match a with
  | ⟨0, _⟩ => show win5_3.index t (0 : Fin 2) * 1 + 1 * 0 = 0; omega
  | ⟨1, _⟩ => show win5_3.index t (1 : Fin 2) * 32 + 1 * q.val = q.val; omega

/-- The offsets' one block is the whole row vector. -/
theorem blk5_4_apply (t : Fin cfg5.N) (q : Fin 32) :
    (iblk5 V c 4 t : Vec Ideal S1x32 .f32) (ix2 0 q) = r5be V c q := by
  obtain ⟨-, -, -, -, -, -, -, -, e0, e1, -⟩ := idx_facts5 t
  show (V c (Pipeline.arrRef spec5 4) : S1x32.Idx → EReal) (((cfg5.win 4).blk t).view.emb (ix2 0 q))
    = (V c (Pipeline.arrRef spec5 4) : S1x32.Idx → EReal) (ix2 0 q)
  refine congrArg _ (funext fun a => Fin.ext ?_)
  match a with
  | ⟨0, _⟩ => show win5_4.index t (0 : Fin 2) * 1 + 1 * 0 = 0; omega
  | ⟨1, _⟩ => show win5_4.index t (1 : Fin 2) * 32 + 1 * q.val = q.val; omega

/-! ## The output block in its array -/

/-- Row `p` of the output's block at point `t` is row `5000 t + p` of its array. -/
theorem emb5_5 (t : Fin cfg5.N) (p : Fin 5000) (q : Fin 32) (n : Fin 50000) (hn : n.val = t.val * 5000 + p.val) :
    (((cfg5.win 5).blk t).view.emb (ix2 p q) : S50000x32.Idx) = ix2 n q := by
  obtain ⟨-, -, -, -, -, -, -, -, -, -, e0, e1⟩ := idx_facts5 t
  refine funext fun a => Fin.ext ?_
  match a with
  | ⟨0, _⟩ => show win5_5.index t (0 : Fin 2) * 5000 + 1 * p.val = n.val; omega
  | ⟨1, _⟩ => show win5_5.index t (1 : Fin 2) * 32 + 1 * q.val = q.val; omega

/-! ## The output array as a whole-array function -/

/-- The normalised features. -/
def H5 : S50000x32.Idx → EReal := fun i =>
  affine (r5P V c) (r5mu V c) (r5inv V c) (r5g V c) (r5be V c) (i 0) (i 1)

/-- What point `t` writes back to the output is block `t` of `H5`. -/
theorem flushed5_5_eq (t : Fin cfg5.N) :
    (dat5 V c).flushed 5 t = ((cfg5.win 5).blk t).view.read (Elt Ideal) (H5 V c) := by
  show (cfg5.win 5).cut (grid5.coords t) ((dat5 V c).after 5 t) = _
  rw [after5_5]
  unfold out5_5
  rw [View.canon_unit_zero hz5]
  simp only [View.ld_unit_zero (S := S5000x32) hz5, View.ld_unit_zero (S := S1x32) hz5]
  funext y
  obtain ⟨p, q, rfl⟩ : ∃ (p : Fin 5000) (q : Fin 32), y = ix2 p q := ⟨y 0, y 1, eq_ix2 y⟩
  have ht := lt_N5 t
  have hn : (⟨t.val * 5000 + p.val, by omega⟩ : Fin 50000).val = t.val * 5000 + p.val := rfl
  show k5_pay1 (iblk5 V c 0 t) (iblk5 V c 1 t) (iblk5 V c 2 t) (iblk5 V c 3 t) (iblk5 V c 4 t) (ix2 p q)
    = H5 V c (((cfg5.win 5).blk t).view.emb (ix2 p q))
  rw [emb5_5 t p q _ hn]
  refine (k5_pay1_apply (iblk5 V c 0 t) (iblk5 V c 1 t) (iblk5 V c 2 t) (iblk5 V c 3 t) (iblk5 V c 4 t) p q).trans ?_
  rw [blk5_0_apply V c t p q _ hn, blk5_1_apply V c t q, blk5_2_apply V c t q, blk5_3_apply V c t q, blk5_4_apply V c t q]
  rfl

/-- An index of the output's array is in point `t`'s block iff each coordinate is in the block's range. -/
theorem mem_blk5_5 (t : Fin cfg5.N) (i : S50000x32.Idx) :
    i ∈ ((cfg5.win 5).blk t).view.set ↔ ∀ a : Fin 2, win5_5.index t a * S5000x32.size a ≤ (i a).val ∧ (i a).val < win5_5.index t a * S5000x32.size a + S5000x32.size a := by
  show i ∈ ((View.whole main_v94).slice (win5_5.rect t)).set ↔ _
  rw [View.set_slice_whole, Rect.mem_set_unit]
  exact Iff.rfl

/-- Row `n` of the output is in the block of point `n / 5000`, which writes back. -/
theorem covered5_5 (i : S50000x32.Idx) :
    ∃ t : Fin cfg5.N, (cfg5.win 5).flush t = true ∧ i ∈ ((cfg5.win 5).blk t).view.set := by
  have hi0 : (i 0).val < 50000 := (i 0).isLt
  have hi1 : (i 1).val < 32 := (i 1).isLt
  obtain ⟨t, ht⟩ : ∃ t : Fin cfg5.N, t.val = (i 0).val / 5000 :=
    ⟨⟨(i 0).val / 5000, lt_of_lt_of_eq (show (i 0).val / 5000 < 10 by omega) N_5.symm⟩, rfl⟩
  obtain ⟨-, -, -, -, -, -, -, -, -, -, e0, e1⟩ := idx_facts5 t
  refine ⟨t, flush5_5 t, ?_⟩
  rw [mem_blk5_5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 32 ≤ (i 1).val ∧ (i 1).val < win5_5.index t (1 : Fin 2) * 32 + 32; omega

/-- The output array after the region. -/
theorem final5_H : (dat5 V c).arrAt 5 cfg5.N = H5 V c :=
  (dat5 V c).arrAt_eq_of_cover 5 (H5 V c) (fun t _ => flushed5_5_eq V c t) covered5_5

/-- THE OUTPUT, entry by entry: the affine normalisation of the features the kernel finds. -/
theorem region5_H (n : Fin 50000) (j : Fin 32) :
    (dat5 V c).arrAt 5 cfg5.N (ix2 n j) = affine (r5P V c) (r5mu V c) (r5inv V c) (r5g V c) (r5be V c) n j :=
  congrFun (final5_H V c) (ix2 n j)

end Cert.KernelIdeal.KV

end
-- ==== Proof.KWalk4.lean ====
/-
  The third aggregation stage: what the fifth kernel region's input arrays hold when it is entered.  The host
  stretch before it lays the two rows of the edge list out as columns once more (the first stretch's columns),
  gathers and adds up the rows of the fourth region's second output along the edges, and divides by the node
  counts of the first stretch; it lays the bias out as a one-row matrix.
-/
import proofs.«151943_j8564164788539_2_alg».proof.Proof.Gen.KernelIdeal.Frame
import Idealize.ShloMosaic.Lib.StableHlo.Run
import Idealize.ShloMosaic.Lib.Pipeline.Value
import Idealize.ShloMosaic.Lib.ValueIdx
import proofs.«151943_j8564164788539_2_alg».proof.Proof.SageSpec
import proofs.«151943_j8564164788539_2_alg».proof.Proof.SageIdx
import proofs.«151943_j8564164788539_2_alg».proof.Proof.KWalk2

noncomputable section

namespace Cert.KernelIdeal.KW

open Cert.KernelIdeal Cert.KernelIdeal.Gen Cert.SageSpec Cert.SageIdx Idealize.ShloMosaic Idealize.ShloMosaic.StableHlo
open Idealize.ShloMosaic.ValueIdx Idealize.ShloMosaic.TcCoe Idealize.SL.Sem

variable (m : (ℓ : Loc nD τ sig) → Buf (Elt Ideal) ℓ) (ρ : Dev nD → PrngReg) (c : Dev nD)

/-! ## Buffers of the first stretch, unchanged up to the fifth region's entry -/

theorem W8_v1 : W8 m ρ c (Proc.devRef .tc main_v1) = W1 m ρ c (Proc.devRef .tc main_v1) := by
  refine (W8_of_ne m ρ c main_v1 (by decide)).trans ?_
  have h7 : W7 m ρ c (Proc.devRef .tc main_v1) = W6 m ρ c (Proc.devRef .tc main_v1) := by
    dsimp only [W7]
    after_results_simp
    all_goals rfl
  refine h7.trans ((W6_of_ne m ρ c main_v1 (by decide)).trans ?_)
  have h5 : W5 m ρ c (Proc.devRef .tc main_v1) = W4 m ρ c (Proc.devRef .tc main_v1) := by
    dsimp only [W5]
    after_results_simp
    all_goals rfl
  exact h5.trans (W4_v1 m ρ c)

theorem W8_v3 : W8 m ρ c (Proc.devRef .tc main_v3) = W1 m ρ c (Proc.devRef .tc main_v3) := by
  refine (W8_of_ne m ρ c main_v3 (by decide)).trans ?_
  have h7 : W7 m ρ c (Proc.devRef .tc main_v3) = W6 m ρ c (Proc.devRef .tc main_v3) := by
    dsimp only [W7]
    after_results_simp
    all_goals rfl
  refine h7.trans ((W6_of_ne m ρ c main_v3 (by decide)).trans ?_)
  have h5 : W5 m ρ c (Proc.devRef .tc main_v3) = W4 m ρ c (Proc.devRef .tc main_v3) := by
    dsimp only [W5]
    after_results_simp
    all_goals rfl
  exact h5.trans (W4_v3 m ρ c)

theorem W8_v10 : W8 m ρ c (Proc.devRef .tc main_v10) = W1 m ρ c (Proc.devRef .tc main_v10) := by
  refine (W8_of_ne m ρ c main_v10 (by decide)).trans ?_
  have h7 : W7 m ρ c (Proc.devRef .tc main_v10) = W6 m ρ c (Proc.devRef .tc main_v10) := by
    dsimp only [W7]
    after_results_simp
    all_goals rfl
  refine h7.trans ((W6_of_ne m ρ c main_v10 (by decide)).trans ?_)
  have h5 : W5 m ρ c (Proc.devRef .tc main_v10) = W4 m ρ c (Proc.devRef .tc main_v10) := by
    dsimp only [W5]
    after_results_simp
    all_goals rfl
  exact h5.trans (W4_v10 m ρ c)

/-! ## Arguments, as launched -/

theorem W8_arg14 : W8 m ρ c (Proc.devRef .tc main_arg14) = m ((c : Thread nD τ).loc main_arg14) := by
  refine (W8_of_ne m ρ c main_arg14 (by decide)).trans ?_
  have h7 : W7 m ρ c (Proc.devRef .tc main_arg14) = W6 m ρ c (Proc.devRef .tc main_arg14) := by
    dsimp only [W7]
    after_results_simp
    all_goals rfl
  refine h7.trans ((W6_of_ne m ρ c main_arg14 (by decide)).trans ?_)
  have h5 : W5 m ρ c (Proc.devRef .tc main_arg14) = W4 m ρ c (Proc.devRef .tc main_arg14) := by
    dsimp only [W5]
    after_results_simp
    all_goals rfl
  refine h5.trans ((W4_of_ne m ρ c main_arg14 (by decide)).trans ?_)
  have h3 : W3 m ρ c (Proc.devRef .tc main_arg14) = W2 m ρ c (Proc.devRef .tc main_arg14) := by
    dsimp only [W3]
    after_results_simp
    all_goals rfl
  refine h3.trans ((W2_of_ne m ρ c main_arg14 (by decide)).trans ?_)
  dsimp only [W1]
  after_results_simp
  all_goals rfl

theorem W8_arg15 : W8 m ρ c (Proc.devRef .tc main_arg15) = m ((c : Thread nD τ).loc main_arg15) := by
  refine (W8_of_ne m ρ c main_arg15 (by decide)).trans ?_
  have h7 : W7 m ρ c (Proc.devRef .tc main_arg15) = W6 m ρ c (Proc.devRef .tc main_arg15) := by
    dsimp only [W7]
    after_results_simp
    all_goals rfl
  refine h7.trans ((W6_of_ne m ρ c main_arg15 (by decide)).trans ?_)
  have h5 : W5 m ρ c (Proc.devRef .tc main_arg15) = W4 m ρ c (Proc.devRef .tc main_arg15) := by
    dsimp only [W5]
    after_results_simp
    all_goals rfl
  refine h5.trans ((W4_of_ne m ρ c main_arg15 (by decide)).trans ?_)
  have h3 : W3 m ρ c (Proc.devRef .tc main_arg15) = W2 m ρ c (Proc.devRef .tc main_arg15) := by
    dsimp only [W3]
    after_results_simp
    all_goals rfl
  refine h3.trans ((W2_of_ne m ρ c main_arg15 (by decide)).trans ?_)
  dsimp only [W1]
  after_results_simp
  all_goals rfl

/-! ## The region's inputs the stretch does not compute -/

theorem V9_h2 : V9 m ρ c main_v66_0 = W8 m ρ c (Proc.devRef .tc main_v66_0) := by
  dsimp only [V9, W9]
  after_results_simp
  all_goals rfl

theorem V9_Wr : V9 m ρ c main_arg15 = m ((c : Thread nD τ).loc main_arg15) := by
  refine Eq.trans ?_ (W8_arg15 m ρ c)
  dsimp only [V9, W9]
  after_results_simp
  all_goals rfl

/-! ## The bias as a one-row matrix -/

theorem V9_v79_eq : (V9 m ρ c main_v79 : (⟨S1x32, .f32⟩ : BufTy).Contents (Elt Ideal)) =
    shapeCast S1x32 (W8 m ρ c (Proc.devRef .tc main_arg14) : (⟨S32, .f32⟩ : BufTy).Contents (Elt Ideal)) shapeCasts_S32_S1x32 := by
  dsimp only [V9, W9]
  after_results_simp
  all_goals rfl

theorem V9_b (j : Fin 32) :
    V9 m ρ c main_v79 (ix2 (0 : Fin 1) j) = m ((c : Thread nD τ).loc main_arg14) (ix1 j) := by
  refine (congrFun (V9_v79_eq m ρ c) (ix2 (0 : Fin 1) j)).trans ?_
  rw [W8_arg14]
  exact shapeCast_apply _ shapeCasts_S32_S1x32 (ix2 (0 : Fin 1) j) (ix1 j)
    (by rewrite [Shape.rowMajor_val_two, Shape.rowMajor_val_one]; show j.val = 0 * 32 + j.val; omega)

/-! ## The aggregate of the fourth region's second output -/

theorem V9_v78_eq : (V9 m ρ c main_v78 : (⟨S50000x32, .f32⟩ : BufTy).Contents (Elt Ideal)) =
    Host.divf (F := Ideal)
      (Host.scatterAdd (F := Ideal) scatter_S50000x32_S800000x1_S800000x32_1_0_0_1
        (broadcastInDim S50000x32 ![] bcast_S_S50000x32 (constant (F := Ideal) S_ .f32 0x00000000#32))
        (asCol (W8 m ρ c (Proc.devRef .tc main_v3)))
        (Host.gather gather_S50000x32_S800000x1_S800000x32_1_0_n_n_0_1_132 (W8 m ρ c (Proc.devRef .tc main_v66_1))
          (wrapCol (W8 m ρ c (Proc.devRef .tc main_v1)))))
      (broadcastInDim S50000x32 ![0, 1] bcast_S50000x1_S50000x32_0_1 (W8 m ρ c (Proc.devRef .tc main_v10))) := by
  unfold wrapCol asCol
  dsimp only [V9, W9]
  after_results_simp
  all_goals rfl

theorem V9_agg (n : Fin 50000) (j : Fin 32) :
    V9 m ρ c main_v78 (ix2 n j)
      = agg (landOf 50000 (dstCol m ρ c)) (srcOf 50000 (by norm_num) (srcCol m ρ c)) (cnt (landOf 50000 (dstCol m ρ c)))
          (fun n k => W8 m ρ c (Proc.devRef .tc main_v66_1) (ix2 n k)) n j := by
  refine (congrFun (V9_v78_eq m ρ c) (ix2 n j)).trans ?_
  rw [W8_v1, W8_v3, W8_v10, ← srcCol_eq, ← dstCol_eq]
  exact aggRead32 _ _ _ _ _ _ zero32 (fun n j => (spread32 _ n j).trans (V1_cnt m ρ c n)) n j

end Cert.KernelIdeal.KW

end
-- ==== Proof.KWalk5.lean ====
/-
  What region 5 finds in its input arrays when it is entered, in terms of what region 4 left.

  Between the two regions the host turns region 4's column sums `S` and column sums of squares `SS`
  (both `[1,32]`) into the normalisation parameters: the mean `S / n`, the reciprocal deviation
  `rsqrt (max (SS / n − (S / n)²) 0 + eps)`, and lays the scale and shift vectors out as `[1,32]` rows.
  Region 4's pre-activation array passes through untouched.
-/
import proofs.«151943_j8564164788539_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«151943_j8564164788539_2_alg».proof.Proof.SageSpec
import proofs.«151943_j8564164788539_2_alg».proof.Proof.SageIdx

noncomputable section

namespace Cert.KernelIdeal.KW

open Cert.KernelIdeal Cert.KernelIdeal.Gen Cert.SageSpec Cert.SageIdx Idealize.ShloMosaic Idealize.ShloMosaic.StableHlo
  Idealize.ShloMosaic.ValueIdx Idealize.SL.Sem Idealize.ShloMosaic.TcCoe

variable (m : (ℓ : Loc nD τ sig) → Buf (Elt Ideal) ℓ) (ρ : Dev nD → PrngReg) (c : Dev nD)

/-! ## Arguments that no host stretch and no region has written so far hold their launch contents -/

theorem W10_arg16 : W10 m ρ c (Proc.devRef .tc main_arg16) = m ((c : Thread nD τ).loc main_arg16) :=
  calc W10 m ρ c (Proc.devRef .tc main_arg16)
    _ = W9 m ρ c (Proc.devRef .tc main_arg16) := W10_of_ne m ρ c main_arg16 (by decide)
    _ = W8 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem W10_arg17 : W10 m ρ c (Proc.devRef .tc main_arg17) = m ((c : Thread nD τ).loc main_arg17) :=
  calc W10 m ρ c (Proc.devRef .tc main_arg17)
    _ = W9 m ρ c (Proc.devRef .tc main_arg17) := W10_of_ne m ρ c main_arg17 (by decide)
    _ = W8 m ρ c (Proc.devRef .tc main_arg17) := StableHlo.after_of_forall_not_mem (b := Proc.devRef .tc main_arg17) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

/-! ## Region 5's input arrays -/

/-- The pre-activation array: the stretch does not write it. -/
theorem V11_P : V11 m ρ c main_v80_0 = W10 m ρ c (Proc.devRef .tc main_v80_0) := by
  show StableHlo.after hostOps5 _ (Proc.devRef .tc main_v80_0) = _
  after_results

/-- The column mean: the column sum over the row count. -/
theorem V11_mu (j : Fin 32) : V11 m ρ c main_v82 (ix2 0 j)
    = Ideal.div (W10 m ρ c (Proc.devRef .tc main_v80_1) (ix2 0 j)) (Ideal.ofBits .f32 0x47435000#32) := by
  show StableHlo.after hostOps5 _ (Proc.devRef .tc main_v82) (ix2 0 j) = _
  after_results
  rfl

/-- The reciprocal deviation: mean of squares minus squared mean, clipped at zero, plus `eps`, under the root. -/
theorem V11_inv (j : Fin 32) : V11 m ρ c main_v91 (ix2 0 j)
    = Ideal.rsqrt (max (Ideal.div (W10 m ρ c (Proc.devRef .tc main_v80_2) (ix2 0 j)) (Ideal.ofBits .f32 0x47435000#32)
        - Ideal.div (W10 m ρ c (Proc.devRef .tc main_v80_1) (ix2 0 j)) (Ideal.ofBits .f32 0x47435000#32)
          * Ideal.div (W10 m ρ c (Proc.devRef .tc main_v80_1) (ix2 0 j)) (Ideal.ofBits .f32 0x47435000#32)) 0
        + (Ideal.ofBits .f32 0x3727C5AC#32)) := by
  show StableHlo.after hostOps5 _ (Proc.devRef .tc main_v91) (ix2 0 j) = _
  after_results
  show Ideal.rsqrt (max (Ideal.div (W10 m ρ c (Proc.devRef .tc main_v80_2) (ix2 0 j)) (Ideal.ofBits .f32 0x47435000#32)
        - Ideal.div (W10 m ρ c (Proc.devRef .tc main_v80_1) (ix2 0 j)) (Ideal.ofBits .f32 0x47435000#32)
          * Ideal.div (W10 m ρ c (Proc.devRef .tc main_v80_1) (ix2 0 j)) (Ideal.ofBits .f32 0x47435000#32)) (Ideal.ofBits .f32 0x00000000#32)
        + (Ideal.ofBits .f32 0x3727C5AC#32)) = _
  rw [Ideal.ofBits_zero_f32]

/-- The scale vector laid out as a row. -/
theorem V11_g (j : Fin 32) : V11 m ρ c main_v92 (ix2 0 j) = m ((c : Thread nD τ).loc main_arg16) (ix1 j) := by
  show StableHlo.after hostOps5 _ (Proc.devRef .tc main_v92) (ix2 0 j) = _
  after_results
  rw [W10_arg16]
  exact shapeCast_a_1a_apply _ shapeCasts_S32_S1x32 0 j

/-- The shift vector laid out as a row. -/
theorem V11_be (j : Fin 32) : V11 m ρ c main_v93 (ix2 0 j) = m ((c : Thread nD τ).loc main_arg17) (ix1 j) := by
  show StableHlo.after hostOps5 _ (Proc.devRef .tc main_v93) (ix2 0 j) = _
  after_results
  rw [W10_arg17]
  exact shapeCast_a_1a_apply _ shapeCasts_S32_S1x32 0 j

end Cert.KernelIdeal.KW
end
-- ==== Proof.KChain3.lean ====
/-
  The kernel program's third layer, entry by entry, and the whole chain: the third hidden array is the first
  spelling of the network (SageSpec.k3) of the launch arguments.
-/
import proofs.«151943_j8564164788539_2_alg».proof.Proof.KChain2
import proofs.«151943_j8564164788539_2_alg».proof.Proof.KStats4
import proofs.«151943_j8564164788539_2_alg».proof.Proof.KApply5
import proofs.«151943_j8564164788539_2_alg».proof.Proof.KWalk4
import proofs.«151943_j8564164788539_2_alg».proof.Proof.KWalk5

noncomputable section

namespace Cert.KernelIdeal.KC

open Cert.KernelIdeal Cert.KernelIdeal.Gen Cert.SageSpec Cert.SageIdx Idealize.ShloMosaic Idealize.ShloMosaic.ValueIdx
open Idealize.ShloMosaic.TcCoe Idealize.SL.Sem
open Cert.KernelIdeal.KV Cert.KernelIdeal.KW

variable (m : (ℓ : Loc nD τ sig) → Buf (Elt Ideal) ℓ) (ρ : Dev nD → PrngReg) (c : Dev nD)

noncomputable def ab3 : Fin 32 → EReal := fun j => (m ((c : Thread nD τ).loc main_arg14) : S32.Idx → EReal) (ix1 j)
noncomputable def aW3r : Fin 64 → Fin 32 → EReal := fun k j => (m ((c : Thread nD τ).loc main_arg15) : S64x32.Idx → EReal) (ix2 k j)
noncomputable def ag3 : Fin 32 → EReal := fun j => (m ((c : Thread nD τ).loc main_arg16) : S32.Idx → EReal) (ix1 j)
noncomputable def abe3 : Fin 32 → EReal := fun j => (m ((c : Thread nD τ).loc main_arg17) : S32.Idx → EReal) (ix1 j)

/-- The third layer's clipped pre-activation. -/
noncomputable def P3 : Fin 50000 → Fin 32 → EReal :=
  preB (agg (L m ρ c) (Sr m ρ c) (cnt (L m ρ c)) (mm (K2 m ρ c) (aW3l m c))) (K2 m ρ c) (aW3r m c) (ab3 m c)

/-- The third hidden array. -/
noncomputable def K3 : Fin 50000 → Fin 32 → EReal := bnK cN eps (P3 m ρ c) (ag3 m c) (abe3 m c)

theorem in4_MY : r4MY (V9 m ρ) c = agg (L m ρ c) (Sr m ρ c) (cnt (L m ρ c)) (mm (K2 m ρ c) (aW3l m c)) :=
  funext fun n => funext fun j => (V9_agg m ρ c n j).trans (by
    rw [show (fun n k => (W8 m ρ c (Proc.devRef .tc main_v66_1) : S50000x32.Idx → EReal) (ix2 n k)) = mm (K2 m ρ c) (aW3l m c) from
      funext fun n => funext fun k => out3_Y m ρ c n k])
theorem in4_X : r4X (V9 m ρ) c = K2 m ρ c :=
  funext fun n => funext fun k => (congrFun (V9_h2 m ρ c) (ix2 n k)).trans (out3_H m ρ c n k)
theorem in4_b : r4b (V9 m ρ) c = ab3 m c := funext fun j => V9_b m ρ c j
theorem in4_Wr : r4Wr (V9 m ρ) c = aW3r m c :=
  funext fun k => funext fun j => congrFun (V9_Wr m ρ c) (ix2 k j)

theorem out4_P (n : Fin 50000) (j : Fin 32) :
    (W10 m ρ c (Proc.devRef .tc main_v80_0) : S50000x32.Idx → EReal) (ix2 n j) = P3 m ρ c n j := by
  have h : (W10 m ρ c (Proc.devRef .tc main_v80_0) : S50000x32.Idx → EReal) = (dat4 (V9 m ρ) c).arrAt 4 cfg4.N :=
    W10_arr m ρ c 4
  rw [h, region4_P, in4_MY, in4_X, in4_b, in4_Wr]; rfl

theorem out4_S (j : Fin 32) :
    (W10 m ρ c (Proc.devRef .tc main_v80_1) : S1x32.Idx → EReal) (ix2 0 j) = colsum (P3 m ρ c) j := by
  have h : (W10 m ρ c (Proc.devRef .tc main_v80_1) : S1x32.Idx → EReal) = (dat4 (V9 m ρ) c).arrAt 5 cfg4.N :=
    W10_arr m ρ c 5
  rw [h, region4_S, in4_MY, in4_X, in4_b, in4_Wr]; rfl

theorem out4_SS (j : Fin 32) :
    (W10 m ρ c (Proc.devRef .tc main_v80_2) : S1x32.Idx → EReal) (ix2 0 j)
      = colsum (fun n j => P3 m ρ c n j * P3 m ρ c n j) j := by
  have h : (W10 m ρ c (Proc.devRef .tc main_v80_2) : S1x32.Idx → EReal) = (dat4 (V9 m ρ) c).arrAt 6 cfg4.N :=
    W10_arr m ρ c 6
  rw [h, region4_SS, in4_MY, in4_X, in4_b, in4_Wr]; rfl

theorem in5_P : r5P (V11 m ρ) c = P3 m ρ c :=
  funext fun n => funext fun j => (congrFun (V11_P m ρ c) (ix2 n j)).trans (out4_P m ρ c n j)
theorem in5_mu : r5mu (V11 m ρ) c = mean cN (P3 m ρ c) :=
  funext fun j => (V11_mu m ρ c j).trans (by rw [out4_S]; rfl)
theorem in5_inv : r5inv (V11 m ρ) c = invK cN eps (P3 m ρ c) :=
  funext fun j => (V11_inv m ρ c j).trans (by rw [out4_SS, out4_S]; rfl)
theorem in5_g : r5g (V11 m ρ) c = ag3 m c := funext fun j => V11_g m ρ c j
theorem in5_be : r5be (V11 m ρ) c = abe3 m c := funext fun j => V11_be m ρ c j

theorem out5_H (n : Fin 50000) (j : Fin 32) :
    (W12 m ρ c (Proc.devRef .tc main_v94) : S50000x32.Idx → EReal) (ix2 n j) = K3 m ρ c n j := by
  have h : (W12 m ρ c (Proc.devRef .tc main_v94) : S50000x32.Idx → EReal) = (dat5 (V11 m ρ) c).arrAt 5 cfg5.N :=
    W12_arr m ρ c 5
  rw [h, region5_H, in5_P, in5_mu, in5_inv, in5_g, in5_be]; rfl

/-- The chain is the first spelling of the network. -/
theorem K3_eq : K3 m ρ c = k3 (L m ρ c) (Sr m ρ c) cN eps (aX m c) (aW1l m c) (aW1r m c) (ab1 m c) (ag1 m c) (abe1 m c)
    (aW2l m c) (aW2r m c) (ab2 m c) (ag2 m c) (abe2 m c) (aW3l m c) (aW3r m c) (ab3 m c) (ag3 m c) (abe3 m c) := rfl

end Cert.KernelIdeal.KC

end
-- ==== Proof.KWalkTail.lean ====
/-
  The last stretches of the program: from the last region's output array to the result.

  The rows of the normalised feature array `h` (`[50000,32]`) are added into a `[512,32]` array of zeros, row
  `n` into the row the word `a2 n` names; three dense layers follow, `x ↦ x · W + b` with the bias a vector
  broadcast over the rows, the first two clipped at zero.  `tailK` is that composition, every operation
  written as the program writes it; `tail_eq` says the result array holds it.
-/
import proofs.«151943_j8564164788539_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«151943_j8564164788539_2_alg».proof.Proof.SageSpec
import proofs.«151943_j8564164788539_2_alg».proof.Proof.SageIdx

noncomputable section

namespace Cert.KernelIdeal.KW

open Cert.KernelIdeal Cert.KernelIdeal.Gen Cert.SageSpec Cert.SageIdx Idealize.ShloMosaic Idealize.ShloMosaic.StableHlo
  Idealize.ShloMosaic.ValueIdx Idealize.SL.Sem Idealize.ShloMosaic.TcCoe

variable (m : (ℓ : Loc nD τ sig) → Buf (Elt Ideal) ℓ) (ρ : Dev nD → PrngReg) (c : Dev nD)

/-- The result as a function of the last region's output array and the seven arguments the last stretches read. -/
def tailK (h : (⟨S50000x32, .f32⟩ : BufTy).Contents (Elt Ideal)) (a2 : (⟨S50000, .i32⟩ : BufTy).Contents (Elt Ideal))
    (a18 : (⟨S32x128, .f32⟩ : BufTy).Contents (Elt Ideal)) (a19 : (⟨S128, .f32⟩ : BufTy).Contents (Elt Ideal))
    (a20 : (⟨S128x64, .f32⟩ : BufTy).Contents (Elt Ideal)) (a21 : (⟨S64, .f32⟩ : BufTy).Contents (Elt Ideal))
    (a22 : (⟨S64x2, .f32⟩ : BufTy).Contents (Elt Ideal)) (a23 : (⟨S2, .f32⟩ : BufTy).Contents (Elt Ideal)) :
    (⟨S512x2, .f32⟩ : BufTy).Contents (Elt Ideal) :=
  addf (F := Ideal) (s := S512x2) (φ := .f32)
    (Host.dotGeneral (F := Ideal) (φ₁ := .f32) (φ₂ := .f32) dot_S512x64_S64x2_S512x2_1_0_0_1_n_n none
      (maximumf (F := Ideal) (s := S512x64) (φ := .f32)
        (addf (F := Ideal) (s := S512x64) (φ := .f32)
          (Host.dotGeneral (F := Ideal) (φ₁ := .f32) (φ₂ := .f32) dot_S512x128_S128x64_S512x64_1_0_0_1_n_n none
            (maximumf (F := Ideal) (s := S512x128) (φ := .f32)
              (addf (F := Ideal) (s := S512x128) (φ := .f32)
                (Host.dotGeneral (F := Ideal) (φ₁ := .f32) (φ₂ := .f32) dot_S512x32_S32x128_S512x128_1_0_0_1_n_n none
                  (Host.scatterAdd (F := Ideal) scatter_S512x32_S50000x1_S50000x32_1_0_0_1
                    (broadcastInDim S512x32 ![] bcast_S_S512x32 (constant (F := Ideal) S_ .f32 0x00000000#32))
                    (broadcastInDim S50000x1 ![0] bcast_S50000_S50000x1_0 a2)
                    h)
                  a18)
                (broadcastInDim S512x128 ![0, 1] bcast_S1x128_S512x128_0_1 (broadcastInDim S1x128 ![1] bcast_S128_S1x128_1 a19)))
              (broadcastInDim S512x128 ![] bcast_S_S512x128 (constant (F := Ideal) S_ .f32 0x00000000#32)))
            a20)
          (broadcastInDim S512x64 ![0, 1] bcast_S1x64_S512x64_0_1 (broadcastInDim S1x64 ![1] bcast_S64_S1x64_1 a21)))
        (broadcastInDim S512x64 ![] bcast_S_S512x64 (constant (F := Ideal) S_ .f32 0x00000000#32)))
      a22)
    (broadcastInDim S512x2 ![0, 1] bcast_S1x2_S512x2_0_1 (broadcastInDim S1x2 ![1] bcast_S2_S1x2_1 a23))

/-- The result array after the last stretch. -/
theorem tail_eq : W17 m ρ c (Proc.devRef .tc main_v111)
    = tailK (W12 m ρ c (Proc.devRef .tc main_v94)) (m ((c : Thread nD τ).loc main_arg2))
        (m ((c : Thread nD τ).loc main_arg18)) (m ((c : Thread nD τ).loc main_arg19))
        (m ((c : Thread nD τ).loc main_arg20)) (m ((c : Thread nD τ).loc main_arg21))
        (m ((c : Thread nD τ).loc main_arg22)) (m ((c : Thread nD τ).loc main_arg23)) := by
  rw [← W17_main_arg2 m ρ c, ← W17_main_arg18 m ρ c, ← W17_main_arg19 m ρ c, ← W17_main_arg20 m ρ c,
    ← W17_main_arg21 m ρ c, ← W17_main_arg22 m ρ c, ← W17_main_arg23 m ρ c]
  show StableHlo.after hostOps6_4 _ (Proc.devRef .tc main_v111) = _
  after_results_simp
  rfl

end Cert.KernelIdeal.KW
end
-- ==== Proof.RefFoldBase.lean ====
import proofs.«151943_j8564164788539_2_alg».proof.Proof.RefRun
import proofs.«151943_j8564164788539_2_alg».proof.Proof.RefRead

noncomputable section

namespace Cert.ReferenceIdeal.RefFold

open Cert.ReferenceIdeal Cert.ReferenceIdeal.Gen Idealize.ShloMosaic Idealize.ShloMosaic.TcCoe Idealize.SL.Sem Idealize.ShloMosaic.StableHlo

/-- The fold of a concatenation is the fold of the second list over the fold of the first. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

/-- The fold of a list is the fold of its tail from `n` over the fold of its first `n` operations. -/
theorem after_split (n : ℕ) (l : List (HloOp τ sig (Elt Ideal))) (V : Valuation τ sig (Elt Ideal)) :
    after l V = after (l.drop n) (after (l.take n) V) := by
  rw [← after_append, List.take_append_drop]

/-! The 218 operations cut into consecutive segments: each graph layer is its part up to the
pre-activation, the three operations of its clip at zero, and its normalisation; the tail is the pooling
with the three dense layers, cut at its two clips. `Dk` is what remains after the first `k` segments. -/

/-- The reference's operations at the ideal instance. -/
abbrev opsI : List (HloOp τ sig (Elt Ideal)) := ValueP.ops (F := Ideal)
abbrev D0 : List (HloOp τ sig (Elt Ideal)) := opsI
/-- Layer 1 up to its pre-activation. -/
abbrev A1 : List (HloOp τ sig (Elt Ideal)) := D0.take 35
abbrev D1 : List (HloOp τ sig (Elt Ideal)) := D0.drop 35
/-- Layer 1's clip at zero (a called function: constant, splat, maximum). -/
def B0 : List (HloOp τ sig (Elt Ideal)) := D1.take 3
abbrev D2 : List (HloOp τ sig (Elt Ideal)) := D1.drop 3
/-- Layer 1's normalisation, up to the first hidden array. -/
abbrev C1 : List (HloOp τ sig (Elt Ideal)) := D2.take 30
abbrev D3 : List (HloOp τ sig (Elt Ideal)) := D2.drop 30
/-- Layer 2 up to its pre-activation. -/
abbrev A2 : List (HloOp τ sig (Elt Ideal)) := D3.take 31
abbrev D4 : List (HloOp τ sig (Elt Ideal)) := D3.drop 31
/-- Layer 2's clip at zero. -/
def B1 : List (HloOp τ sig (Elt Ideal)) := D4.take 3
abbrev D5 : List (HloOp τ sig (Elt Ideal)) := D4.drop 3
/-- Layer 2's normalisation, up to the second hidden array. -/
abbrev C2 : List (HloOp τ sig (Elt Ideal)) := D5.take 30
abbrev D6 : List (HloOp τ sig (Elt Ideal)) := D5.drop 30
/-- Layer 3 up to its pre-activation. -/
abbrev A3 : List (HloOp τ sig (Elt Ideal)) := D6.take 31
abbrev D7 : List (HloOp τ sig (Elt Ideal)) := D6.drop 31
/-- Layer 3's clip at zero. -/
def B2 : List (HloOp τ sig (Elt Ideal)) := D7.take 3
abbrev D8 : List (HloOp τ sig (Elt Ideal)) := D7.drop 3
/-- Layer 3's normalisation, up to the third hidden array. -/
abbrev C3 : List (HloOp τ sig (Elt Ideal)) := D8.take 30
abbrev D9 : List (HloOp τ sig (Elt Ideal)) := D8.drop 30
/-- The tail: pooling and the first dense layer's affine part. -/
abbrev TA : List (HloOp τ sig (Elt Ideal)) := D9.take 8
abbrev D10 : List (HloOp τ sig (Elt Ideal)) := D9.drop 8
/-- The first dense layer's clip at zero. -/
def B3 : List (HloOp τ sig (Elt Ideal)) := D10.take 3
abbrev D11 : List (HloOp τ sig (Elt Ideal)) := D10.drop 3
/-- The second dense layer's affine part. -/
abbrev TC : List (HloOp τ sig (Elt Ideal)) := D11.take 4
abbrev D12 : List (HloOp τ sig (Elt Ideal)) := D11.drop 4
/-- The second dense layer's clip at zero. -/
def B4 : List (HloOp τ sig (Elt Ideal)) := D12.take 3
abbrev D13 : List (HloOp τ sig (Elt Ideal)) := D12.drop 3
/-- The third dense layer. -/
abbrev TE : List (HloOp τ sig (Elt Ideal)) := D13

/-- A graph layer, run from contents `V`. -/
abbrev lay1 (V : Valuation τ sig (Elt Ideal)) : Valuation τ sig (Elt Ideal) := after C1 (after B0 (after A1 V))
@[inherit_doc lay1]
abbrev lay2 (V : Valuation τ sig (Elt Ideal)) : Valuation τ sig (Elt Ideal) := after C2 (after B1 (after A2 V))
@[inherit_doc lay1]
abbrev lay3 (V : Valuation τ sig (Elt Ideal)) : Valuation τ sig (Elt Ideal) := after C3 (after B2 (after A3 V))
/-- The tail, run from contents `V`. -/
abbrev tailV (V : Valuation τ sig (Elt Ideal)) : Valuation τ sig (Elt Ideal) :=
  after TE (after B4 (after TC (after B3 (after TA V))))

/-- The run of the whole list is the run of the tail over the three layers in turn. -/
theorem after_ops (V : Valuation τ sig (Elt Ideal)) :
    after opsI V = tailV (lay3 (lay2 (lay1 V))) :=
  (after_split 35 D0 V).trans ((after_split 3 D1 _).trans ((after_split 30 D2 _).trans ((after_split 31 D3 _).trans ((after_split 3 D4 _).trans ((after_split 30 D5 _).trans ((after_split 31 D6 _).trans ((after_split 3 D7 _).trans ((after_split 30 D8 _).trans ((after_split 8 D9 _).trans ((after_split 3 D10 _).trans ((after_split 4 D11 _).trans ((after_split 3 D12 _)))))))))))))

end Cert.ReferenceIdeal.RefFold

end
-- ==== Proof.RefFoldRelu.lean ====
import proofs.«151943_j8564164788539_2_alg».proof.Proof.RefFoldBase

noncomputable section

namespace Cert.ReferenceIdeal.RefFold

open Cert.ReferenceIdeal Cert.ReferenceIdeal.Gen Idealize.ShloMosaic Idealize.ShloMosaic.TcCoe Idealize.SL.Sem Idealize.ShloMosaic.StableHlo

/-! ## The clips at zero

Each clip is three operations of a called function: a zero constant, its splat, and the maximum of the
pre-activation with it. Run from any contents, its result is that maximum, and every other buffer is left
as it was. -/

set_option maxRecDepth 16384 in
/-- The clip's result: the maximum of the pre-activation with the zero splat. -/
theorem relu0 (V : Valuation τ sig (Elt Ideal)) :
    after B0 V (no_index (Proc.devRef .tc main_v29))
      = maximumf (V (Proc.devRef .tc main_v28) : (⟨S50000x128, .f32⟩ : BufTy).Contents (Elt Ideal))
          (broadcastInDim S50000x128 ![] bcast_S_S50000x128 (constant (F := Ideal) S_ .f32 0x00000000#32)) := by
  unfold B0
  simp only [D0, D1, D2, D3, D4, D5, D6, D7, D8, D9, D10, D11, D12, D13, opsI, ValueP.ops, List.take_succ_cons, List.take_zero, List.drop_succ_cons, List.drop_zero]
  after_results_simp
  rfl

set_option maxRecDepth 16384 in
/-- The clip writes its three buffers only. -/
theorem keepB0 (V : Valuation τ sig (Elt Ideal)) {r : Ref sig .tc}
    (h1 : r ≠ main_call0_cst) (h2 : r ≠ main_call0_v0) (h3 : r ≠ main_v29) :
    after B0 V (no_index (Proc.devRef .tc r)) = V (Proc.devRef .tc r) := by
  unfold B0
  simp only [D0, D1, D2, D3, D4, D5, D6, D7, D8, D9, D10, D11, D12, D13, opsI, ValueP.ops, List.take_succ_cons, List.take_zero, List.drop_succ_cons, List.drop_zero]
  simp only [after_cons, after_nil]
  rw [binary_result_ne _ _ _ _ _ _ _ _ h3, unary_result_ne _ _ _ _ _ _ h2, nullary_result_ne _ _ _ _ h1]

set_option maxRecDepth 16384 in
/-- The clip's result: the maximum of the pre-activation with the zero splat. -/
theorem relu1 (V : Valuation τ sig (Elt Ideal)) :
    after B1 V (no_index (Proc.devRef .tc main_v80))
      = maximumf (V (Proc.devRef .tc main_v79) : (⟨S50000x64, .f32⟩ : BufTy).Contents (Elt Ideal))
          (broadcastInDim S50000x64 ![] bcast_S_S50000x64 (constant (F := Ideal) S_ .f32 0x00000000#32)) := by
  unfold B1
  simp only [D0, D1, D2, D3, D4, D5, D6, D7, D8, D9, D10, D11, D12, D13, opsI, ValueP.ops, List.take_succ_cons, List.take_zero, List.drop_succ_cons, List.drop_zero]
  after_results_simp
  rfl

set_option maxRecDepth 16384 in
/-- The clip writes its three buffers only. -/
theorem keepB1 (V : Valuation τ sig (Elt Ideal)) {r : Ref sig .tc}
    (h1 : r ≠ main_call1_cst) (h2 : r ≠ main_call1_v0) (h3 : r ≠ main_v80) :
    after B1 V (no_index (Proc.devRef .tc r)) = V (Proc.devRef .tc r) := by
  unfold B1
  simp only [D0, D1, D2, D3, D4, D5, D6, D7, D8, D9, D10, D11, D12, D13, opsI, ValueP.ops, List.take_succ_cons, List.take_zero, List.drop_succ_cons, List.drop_zero]
  simp only [after_cons, after_nil]
  rw [binary_result_ne _ _ _ _ _ _ _ _ h3, unary_result_ne _ _ _ _ _ _ h2, nullary_result_ne _ _ _ _ h1]

set_option maxRecDepth 16384 in
/-- The clip's result: the maximum of the pre-activation with the zero splat. -/
theorem relu2 (V : Valuation τ sig (Elt Ideal)) :
    after B2 V (no_index (Proc.devRef .tc main_v131))
      = maximumf (V (Proc.devRef .tc main_v130) : (⟨S50000x32, .f32⟩ : BufTy).Contents (Elt Ideal))
          (broadcastInDim S50000x32 ![] bcast_S_S50000x32 (constant (F := Ideal) S_ .f32 0x00000000#32)) := by
  unfold B2
  simp only [D0, D1, D2, D3, D4, D5, D6, D7, D8, D9, D10, D11, D12, D13, opsI, ValueP.ops, List.take_succ_cons, List.take_zero, List.drop_succ_cons, List.drop_zero]
  after_results_simp
  rfl

set_option maxRecDepth 16384 in
/-- The clip writes its three buffers only. -/
theorem keepB2 (V : Valuation τ sig (Elt Ideal)) {r : Ref sig .tc}
    (h1 : r ≠ main_call2_cst) (h2 : r ≠ main_call2_v0) (h3 : r ≠ main_v131) :
    after B2 V (no_index (Proc.devRef .tc r)) = V (Proc.devRef .tc r) := by
  unfold B2
  simp only [D0, D1, D2, D3, D4, D5, D6, D7, D8, D9, D10, D11, D12, D13, opsI, ValueP.ops, List.take_succ_cons, List.take_zero, List.drop_succ_cons, List.drop_zero]
  simp only [after_cons, after_nil]
  rw [binary_result_ne _ _ _ _ _ _ _ _ h3, unary_result_ne _ _ _ _ _ _ h2, nullary_result_ne _ _ _ _ h1]

set_option maxRecDepth 16384 in
/-- The clip's result: the maximum of the pre-activation with the zero splat. -/
theorem relu3 (V : Valuation τ sig (Elt Ideal)) :
    after B3 V (no_index (Proc.devRef .tc main_v164))
      = maximumf (V (Proc.devRef .tc main_v163) : (⟨S512x128, .f32⟩ : BufTy).Contents (Elt Ideal))
          (broadcastInDim S512x128 ![] bcast_S_S512x128 (constant (F := Ideal) S_ .f32 0x00000000#32)) := by
  unfold B3
  simp only [D0, D1, D2, D3, D4, D5, D6, D7, D8, D9, D10, D11, D12, D13, opsI, ValueP.ops, List.take_succ_cons, List.take_zero, List.drop_succ_cons, List.drop_zero]
  after_results_simp
  rfl

set_option maxRecDepth 16384 in
/-- The clip writes its three buffers only. -/
theorem keepB3 (V : Valuation τ sig (Elt Ideal)) {r : Ref sig .tc}
    (h1 : r ≠ main_call3_cst) (h2 : r ≠ main_call3_v0) (h3 : r ≠ main_v164) :
    after B3 V (no_index (Proc.devRef .tc r)) = V (Proc.devRef .tc r) := by
  unfold B3
  simp only [D0, D1, D2, D3, D4, D5, D6, D7, D8, D9, D10, D11, D12, D13, opsI, ValueP.ops, List.take_succ_cons, List.take_zero, List.drop_succ_cons, List.drop_zero]
  simp only [after_cons, after_nil]
  rw [binary_result_ne _ _ _ _ _ _ _ _ h3, unary_result_ne _ _ _ _ _ _ h2, nullary_result_ne _ _ _ _ h1]

set_option maxRecDepth 16384 in
/-- The clip's result: the maximum of the pre-activation with the zero splat. -/
theorem relu4 (V : Valuation τ sig (Elt Ideal)) :
    after B4 V (no_index (Proc.devRef .tc main_v169))
      = maximumf (V (Proc.devRef .tc main_v168) : (⟨S512x64, .f32⟩ : BufTy).Contents (Elt Ideal))
          (broadcastInDim S512x64 ![] bcast_S_S512x64 (constant (F := Ideal) S_ .f32 0x00000000#32)) := by
  unfold B4
  simp only [D0, D1, D2, D3, D4, D5, D6, D7, D8, D9, D10, D11, D12, D13, opsI, ValueP.ops, List.take_succ_cons, List.take_zero, List.drop_succ_cons, List.drop_zero]
  after_results_simp
  rfl

set_option maxRecDepth 16384 in
/-- The clip writes its three buffers only. -/
theorem keepB4 (V : Valuation τ sig (Elt Ideal)) {r : Ref sig .tc}
    (h1 : r ≠ main_call4_cst) (h2 : r ≠ main_call4_v0) (h3 : r ≠ main_v169) :
    after B4 V (no_index (Proc.devRef .tc r)) = V (Proc.devRef .tc r) := by
  unfold B4
  simp only [D0, D1, D2, D3, D4, D5, D6, D7, D8, D9, D10, D11, D12, D13, opsI, ValueP.ops, List.take_succ_cons, List.take_zero, List.drop_succ_cons, List.drop_zero]
  simp only [after_cons, after_nil]
  rw [binary_result_ne _ _ _ _ _ _ _ _ h3, unary_result_ne _ _ _ _ _ _ h2, nullary_result_ne _ _ _ _ h1]

/-- The fold at a buffer, computed in one pass: every operation's result at its own buffer is its function's
    value, at another buffer what was there; a clip's result is its maximum and it leaves the other buffers. -/
macro "fold_simp" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      relu0, relu1, relu2, relu3, relu4, keepB0, keepB1, keepB2, keepB3, keepB4]))

end Cert.ReferenceIdeal.RefFold

end
-- ==== Proof.RefFold1.lean ====
import proofs.«151943_j8564164788539_2_alg».proof.Proof.RefFoldRelu

noncomputable section

namespace Cert.ReferenceIdeal.RefFold

open Cert.ReferenceIdeal Cert.ReferenceIdeal.Gen Idealize.ShloMosaic Idealize.ShloMosaic.TcCoe Idealize.SL.Sem Idealize.ShloMosaic.StableHlo

/-! ## The first layer -/

set_option maxRecDepth 16384 in
set_option maxHeartbeats 40000000 in
/-- The first hidden array and the two index rows after the first layer, as the stage values of the arguments. -/
theorem stage1 (V0 : Valuation τ sig (Elt Ideal)) :
    lay1 V0 (Proc.devRef .tc main_v54) = ReadP.val_main_v54 (F := Ideal) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7))
    ∧ lay1 V0 (Proc.devRef .tc main_v1) = ReadP.val_main_v1 (F := Ideal) (V0 (Proc.devRef .tc main_arg1))
    ∧ lay1 V0 (Proc.devRef .tc main_v3) = ReadP.val_main_v3 (F := Ideal) (V0 (Proc.devRef .tc main_arg1)) := by
  simp only [lay1, A1, C1, A2, C2, A3, C3, TA, TC, TE, D0, D1, D2, D3, D4, D5, D6, D7, D8, D9, D10, D11, D12, D13, opsI, ValueP.ops, List.take_succ_cons, List.take_zero, List.drop_succ_cons, List.drop_zero]
  refine ⟨?_, ?_, ?_⟩
  · fold_simp
    rfl
  · fold_simp
    rfl
  · fold_simp
    rfl

set_option maxRecDepth 16384 in
set_option maxHeartbeats 40000000 in
/-- The first layer writes none of the arguments the later layers read. -/
theorem keep1 (V0 : Valuation τ sig (Elt Ideal)) :
    lay1 V0 (Proc.devRef .tc main_arg2) = V0 (Proc.devRef .tc main_arg2)
    ∧ lay1 V0 (Proc.devRef .tc main_arg8) = V0 (Proc.devRef .tc main_arg8)
    ∧ lay1 V0 (Proc.devRef .tc main_arg9) = V0 (Proc.devRef .tc main_arg9)
    ∧ lay1 V0 (Proc.devRef .tc main_arg10) = V0 (Proc.devRef .tc main_arg10)
    ∧ lay1 V0 (Proc.devRef .tc main_arg11) = V0 (Proc.devRef .tc main_arg11)
    ∧ lay1 V0 (Proc.devRef .tc main_arg12) = V0 (Proc.devRef .tc main_arg12)
    ∧ lay1 V0 (Proc.devRef .tc main_arg13) = V0 (Proc.devRef .tc main_arg13)
    ∧ lay1 V0 (Proc.devRef .tc main_arg14) = V0 (Proc.devRef .tc main_arg14)
    ∧ lay1 V0 (Proc.devRef .tc main_arg15) = V0 (Proc.devRef .tc main_arg15)
    ∧ lay1 V0 (Proc.devRef .tc main_arg16) = V0 (Proc.devRef .tc main_arg16)
    ∧ lay1 V0 (Proc.devRef .tc main_arg17) = V0 (Proc.devRef .tc main_arg17)
    ∧ lay1 V0 (Proc.devRef .tc main_arg18) = V0 (Proc.devRef .tc main_arg18)
    ∧ lay1 V0 (Proc.devRef .tc main_arg19) = V0 (Proc.devRef .tc main_arg19)
    ∧ lay1 V0 (Proc.devRef .tc main_arg20) = V0 (Proc.devRef .tc main_arg20)
    ∧ lay1 V0 (Proc.devRef .tc main_arg21) = V0 (Proc.devRef .tc main_arg21)
    ∧ lay1 V0 (Proc.devRef .tc main_arg22) = V0 (Proc.devRef .tc main_arg22)
    ∧ lay1 V0 (Proc.devRef .tc main_arg23) = V0 (Proc.devRef .tc main_arg23) := by
  simp only [lay1, A1, C1, A2, C2, A3, C3, TA, TC, TE, D0, D1, D2, D3, D4, D5, D6, D7, D8, D9, D10, D11, D12, D13, opsI, ValueP.ops, List.take_succ_cons, List.take_zero, List.drop_succ_cons, List.drop_zero]
  refine ⟨?_, ?_, ?_, ?_, ?_, ?_, ?_, ?_, ?_, ?_, ?_, ?_, ?_, ?_, ?_, ?_, ?_⟩ <;> fold_simp

end Cert.ReferenceIdeal.RefFold

end
-- ==== Proof.RefFold2.lean ====
import proofs.«151943_j8564164788539_2_alg».proof.Proof.RefFold1

noncomputable section

namespace Cert.ReferenceIdeal.RefFold

open Cert.ReferenceIdeal Cert.ReferenceIdeal.Gen Idealize.ShloMosaic Idealize.ShloMosaic.TcCoe Idealize.SL.Sem Idealize.ShloMosaic.StableHlo

/-! ## The second layer -/

set_option maxRecDepth 16384 in
set_option maxHeartbeats 40000000 in
/-- The second layer writes neither the index rows nor the arguments read after it. -/
theorem keep2 (V : Valuation τ sig (Elt Ideal)) :
    lay2 V (Proc.devRef .tc main_v1) = V (Proc.devRef .tc main_v1)
    ∧ lay2 V (Proc.devRef .tc main_v3) = V (Proc.devRef .tc main_v3)
    ∧ lay2 V (Proc.devRef .tc main_arg2) = V (Proc.devRef .tc main_arg2)
    ∧ lay2 V (Proc.devRef .tc main_arg13) = V (Proc.devRef .tc main_arg13)
    ∧ lay2 V (Proc.devRef .tc main_arg14) = V (Proc.devRef .tc main_arg14)
    ∧ lay2 V (Proc.devRef .tc main_arg15) = V (Proc.devRef .tc main_arg15)
    ∧ lay2 V (Proc.devRef .tc main_arg16) = V (Proc.devRef .tc main_arg16)
    ∧ lay2 V (Proc.devRef .tc main_arg17) = V (Proc.devRef .tc main_arg17)
    ∧ lay2 V (Proc.devRef .tc main_arg18) = V (Proc.devRef .tc main_arg18)
    ∧ lay2 V (Proc.devRef .tc main_arg19) = V (Proc.devRef .tc main_arg19)
    ∧ lay2 V (Proc.devRef .tc main_arg20) = V (Proc.devRef .tc main_arg20)
    ∧ lay2 V (Proc.devRef .tc main_arg21) = V (Proc.devRef .tc main_arg21)
    ∧ lay2 V (Proc.devRef .tc main_arg22) = V (Proc.devRef .tc main_arg22)
    ∧ lay2 V (Proc.devRef .tc main_arg23) = V (Proc.devRef .tc main_arg23) := by
  simp only [lay2, A1, C1, A2, C2, A3, C3, TA, TC, TE, D0, D1, D2, D3, D4, D5, D6, D7, D8, D9, D10, D11, D12, D13, opsI, ValueP.ops, List.take_succ_cons, List.take_zero, List.drop_succ_cons, List.drop_zero]
  refine ⟨?_, ?_, ?_, ?_, ?_, ?_, ?_, ?_, ?_, ?_, ?_, ?_, ?_, ?_⟩ <;> fold_simp

set_option maxRecDepth 16384 in
set_option maxHeartbeats 40000000 in
/-- The second hidden array after the first two layers, as the stage value of the arguments. -/
theorem stage2 (V0 : Valuation τ sig (Elt Ideal)) :
    lay2 (lay1 V0) (Proc.devRef .tc main_v105) = ReadP.val_main_v105 (F := Ideal) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  obtain ⟨h54, h1, h3⟩ := stage1 V0
  obtain ⟨_, k8, k9, k10, k11, k12, _⟩ := keep1 V0
  generalize lay1 V0 = V1 at h54 h1 h3 k8 k9 k10 k11 k12 ⊢
  simp only [lay2, A1, C1, A2, C2, A3, C3, TA, TC, TE, D0, D1, D2, D3, D4, D5, D6, D7, D8, D9, D10, D11, D12, D13, opsI, ValueP.ops, List.take_succ_cons, List.take_zero, List.drop_succ_cons, List.drop_zero]
  fold_simp
  rw [h54, h1, h3, k8, k9, k10, k11, k12]
  rfl

end Cert.ReferenceIdeal.RefFold

end
-- ==== Proof.RefFold3.lean ====
import proofs.«151943_j8564164788539_2_alg».proof.Proof.RefFold2

noncomputable section

namespace Cert.ReferenceIdeal.RefFold

open Cert.ReferenceIdeal Cert.ReferenceIdeal.Gen Idealize.ShloMosaic Idealize.ShloMosaic.TcCoe Idealize.SL.Sem Idealize.ShloMosaic.StableHlo

/-! ## The third layer -/

set_option maxRecDepth 16384 in
set_option maxHeartbeats 40000000 in
/-- The third layer writes none of the arguments the tail reads. -/
theorem keep3 (V : Valuation τ sig (Elt Ideal)) :
    lay3 V (Proc.devRef .tc main_arg2) = V (Proc.devRef .tc main_arg2)
    ∧ lay3 V (Proc.devRef .tc main_arg18) = V (Proc.devRef .tc main_arg18)
    ∧ lay3 V (Proc.devRef .tc main_arg19) = V (Proc.devRef .tc main_arg19)
    ∧ lay3 V (Proc.devRef .tc main_arg20) = V (Proc.devRef .tc main_arg20)
    ∧ lay3 V (Proc.devRef .tc main_arg21) = V (Proc.devRef .tc main_arg21)
    ∧ lay3 V (Proc.devRef .tc main_arg22) = V (Proc.devRef .tc main_arg22)
    ∧ lay3 V (Proc.devRef .tc main_arg23) = V (Proc.devRef .tc main_arg23) := by
  simp only [lay3, A1, C1, A2, C2, A3, C3, TA, TC, TE, D0, D1, D2, D3, D4, D5, D6, D7, D8, D9, D10, D11, D12, D13, opsI, ValueP.ops, List.take_succ_cons, List.take_zero, List.drop_succ_cons, List.drop_zero]
  refine ⟨?_, ?_, ?_, ?_, ?_, ?_, ?_⟩ <;> fold_simp

set_option maxRecDepth 16384 in
set_option maxHeartbeats 40000000 in
/-- The third hidden array after the three layers, as the stage value of the arguments. -/
theorem stage3 (V0 : Valuation τ sig (Elt Ideal)) :
    lay3 (lay2 (lay1 V0)) (Proc.devRef .tc main_v156) = ReadP.val_main_v156 (F := Ideal) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  have h105 := stage2 V0
  obtain ⟨_, h1, h3⟩ := stage1 V0
  obtain ⟨_, _, _, _, _, _, k13, k14, k15, k16, k17, _⟩ := keep1 V0
  obtain ⟨j1, j3, _, j13, j14, j15, j16, j17, _⟩ := keep2 (lay1 V0)
  rw [h1] at j1
  rw [h3] at j3
  rw [k13] at j13
  rw [k14] at j14
  rw [k15] at j15
  rw [k16] at j16
  rw [k17] at j17
  generalize lay2 (lay1 V0) = V2 at h105 j1 j3 j13 j14 j15 j16 j17 ⊢
  simp only [lay3, A1, C1, A2, C2, A3, C3, TA, TC, TE, D0, D1, D2, D3, D4, D5, D6, D7, D8, D9, D10, D11, D12, D13, opsI, ValueP.ops, List.take_succ_cons, List.take_zero, List.drop_succ_cons, List.drop_zero]
  fold_simp
  rw [h105, j1, j3, j13, j14, j15, j16, j17]
  rfl

end Cert.ReferenceIdeal.RefFold

end
-- ==== Proof.RefFoldT.lean ====
import proofs.«151943_j8564164788539_2_alg».proof.Proof.RefFoldRelu

noncomputable section

namespace Cert.ReferenceIdeal.RefFold

open Cert.ReferenceIdeal Cert.ReferenceIdeal.Gen Idealize.ShloMosaic Idealize.ShloMosaic.TcCoe Idealize.SL.Sem Idealize.ShloMosaic.StableHlo

/-! ## The tail

The last 22 operations: the rows of the third hidden array are summed into 512 pooled rows by the
segment index, and three dense layers follow (product, bias broadcast along the rows, and a maximum
with zero after the first two). `tailR` is that composition of the operations, as the list writes
them, over the hidden array and the seven arguments it reads. -/

/-- The tail of the reference as a function of the third hidden array `h`, the segment index `a2`
    and the dense layers' weights and biases. -/
def tailR (h : (⟨S50000x32, .f32⟩ : BufTy).Contents (Elt Ideal)) (a2 : (⟨S50000, .i32⟩ : BufTy).Contents (Elt Ideal))
    (a18 : (⟨S32x128, .f32⟩ : BufTy).Contents (Elt Ideal)) (a19 : (⟨S128, .f32⟩ : BufTy).Contents (Elt Ideal))
    (a20 : (⟨S128x64, .f32⟩ : BufTy).Contents (Elt Ideal)) (a21 : (⟨S64, .f32⟩ : BufTy).Contents (Elt Ideal))
    (a22 : (⟨S64x2, .f32⟩ : BufTy).Contents (Elt Ideal)) (a23 : (⟨S2, .f32⟩ : BufTy).Contents (Elt Ideal)) :
    (⟨S512x2, .f32⟩ : BufTy).Contents (Elt Ideal) :=
  addf
    (Host.dotGeneral (F := Ideal) (φ₁ := .f32) (φ₂ := .f32) dot_S512x64_S64x2_S512x2_1_0_0_1_n_n none
      (maximumf
        (addf
          (Host.dotGeneral (F := Ideal) (φ₁ := .f32) (φ₂ := .f32) dot_S512x128_S128x64_S512x64_1_0_0_1_n_n none
            (maximumf
              (addf
                (Host.dotGeneral (F := Ideal) (φ₁ := .f32) (φ₂ := .f32) dot_S512x32_S32x128_S512x128_1_0_0_1_n_n none
                  (Host.scatterAdd (F := Ideal) scatter_S512x32_S50000x1_S50000x32_1_0_0_1
                    (broadcastInDim S512x32 ![] bcast_S_S512x32 (constant (F := Ideal) S_ .f32 0x00000000#32))
                    (broadcastInDim S50000x1 ![0] bcast_S50000_S50000x1_0 a2)
                    h)
                  a18)
                (broadcastInDim S512x128 ![0, 1] bcast_S1x128_S512x128_0_1 (broadcastInDim S1x128 ![1] bcast_S128_S1x128_1 a19)))
              (broadcastInDim S512x128 ![] bcast_S_S512x128 (constant (F := Ideal) S_ .f32 0x00000000#32)))
            a20)
          (broadcastInDim S512x64 ![0, 1] bcast_S1x64_S512x64_0_1 (broadcastInDim S1x64 ![1] bcast_S64_S1x64_1 a21)))
        (broadcastInDim S512x64 ![] bcast_S_S512x64 (constant (F := Ideal) S_ .f32 0x00000000#32)))
      a22)
    (broadcastInDim S512x2 ![0, 1] bcast_S1x2_S512x2_0_1 (broadcastInDim S1x2 ![1] bcast_S2_S1x2_1 a23))

set_option maxRecDepth 16384 in
set_option maxHeartbeats 40000000 in
/-- The result after the tail, from any contents, and the third hidden array, which the tail does not write. -/
theorem stageT (V : Valuation τ sig (Elt Ideal)) :
    tailV V (Proc.devRef .tc main_v173) = tailR (V (Proc.devRef .tc main_v156)) (V (Proc.devRef .tc main_arg2))
        (V (Proc.devRef .tc main_arg18)) (V (Proc.devRef .tc main_arg19)) (V (Proc.devRef .tc main_arg20))
        (V (Proc.devRef .tc main_arg21)) (V (Proc.devRef .tc main_arg22)) (V (Proc.devRef .tc main_arg23))
    ∧ tailV V (Proc.devRef .tc main_v156) = V (Proc.devRef .tc main_v156) := by
  simp only [tailV, A1, C1, A2, C2, A3, C3, TA, TC, TE, D0, D1, D2, D3, D4, D5, D6, D7, D8, D9, D10, D11, D12, D13, opsI, ValueP.ops, List.take_succ_cons, List.take_zero, List.drop_succ_cons, List.drop_zero]
  refine ⟨?_, ?_⟩
  · fold_simp
    rfl
  · fold_simp

end Cert.ReferenceIdeal.RefFold

end
-- ==== Proof.RefFold.lean ====
import proofs.«151943_j8564164788539_2_alg».proof.Proof.RefFold3
import proofs.«151943_j8564164788539_2_alg».proof.Proof.RefFoldT

noncomputable section

namespace Cert.ReferenceIdeal.RefFold

open Cert.ReferenceIdeal Cert.ReferenceIdeal.Gen Idealize.ShloMosaic Idealize.ShloMosaic.TcCoe Idealize.SL.Sem Idealize.ShloMosaic.StableHlo

/-! ## The bridge between the fold and the stage values

`A = after ops (launchContents m c)` is what the reference's buffers hold after its 218 operations.
At the third hidden array it is the stage value `val_main_v156` of the arguments; at the result it is
the tail applied to the third hidden array and the arguments the tail reads. -/

/-- The third hidden array after the run is its stage value at the launch arguments. -/
theorem fold_h3 (m : (ℓ : Loc nD τ sig) → Buf (Elt Ideal) ℓ) (c : Dev nD) :
    after (ValueP.ops (F := Ideal)) (launchContents m c) (Proc.devRef .tc main_v156)
      = ReadP.val_main_v156 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  show after opsI (launchContents m c) _ = _
  rw [after_ops, (stageT _).2]
  exact stage3 (launchContents m c)

/-- The result after the run is the tail of the third hidden array and the launch arguments. -/
theorem fold_tail (m : (ℓ : Loc nD τ sig) → Buf (Elt Ideal) ℓ) (c : Dev nD) :
    after (ValueP.ops (F := Ideal)) (launchContents m c) (Proc.devRef .tc main_v173)
      = tailR (after (ValueP.ops (F := Ideal)) (launchContents m c) (Proc.devRef .tc main_v156))
          (m ((c.tc : Thread nD τ).loc main_arg2)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := by
  show after opsI (launchContents m c) (Proc.devRef .tc main_v173) = tailR (after opsI (launchContents m c) (Proc.devRef .tc main_v156)) _ _ _ _ _ _ _
  rw [after_ops]
  obtain ⟨hT, hK⟩ := stageT (lay3 (lay2 (lay1 (launchContents m c))))
  rw [hT, hK]
  obtain ⟨p2, p18, p19, p20, p21, p22, p23⟩ := keep3 (lay2 (lay1 (launchContents m c)))
  obtain ⟨_, _, q2, _, _, _, _, _, q18, q19, q20, q21, q22, q23⟩ := keep2 (lay1 (launchContents m c))
  obtain ⟨r2, _, _, _, _, _, _, _, _, _, _, r18, r19, r20, r21, r22, r23⟩ := keep1 (launchContents m c)
  rw [p2, q2, r2, p18, q18, r18, p19, q19, r19, p20, q20, r20, p21, q21, r21, p22, q22, r22, p23, q23, r23]

end Cert.ReferenceIdeal.RefFold

end
-- ==== Proof.RefBase.lean ====
/-
  The edge list as the reference program reads it.  The program receives the edges as a 2 × E array of
  32-bit words: row 0 names the row each edge reads, row 1 the row its contribution is added to.  Every
  layer rebuilds the two columns from that array by the same operations, so the three source columns are
  one array and the six destination columns are one array; `src` and `land` are what the gather and the
  accumulating scatters make of them.
-/
import proofs.«151943_j8564164788539_2_alg».proof.Proof.RefRead
import proofs.«151943_j8564164788539_2_alg».proof.Proof.SageSpec
import proofs.«151943_j8564164788539_2_alg».proof.Proof.SageIdx

noncomputable section

namespace Cert.ReferenceIdeal.RefValue

open Cert.ReferenceIdeal Cert.ReferenceIdeal.ReadP Cert.SageSpec Idealize.ShloMosaic Idealize.ShloMosaic.ValueIdx

/-- The row on which an edge's contribution lands: the second row of the edge list, as the scatter reads it. -/
abbrev land (x1 : (⟨S2x800000, .i32⟩ : BufTy).Contents (Elt Ideal)) : Fin 800000 → Option (Fin 50000) :=
  Cert.SageIdx.landOf 50000 (val_main_v12 (F := Ideal) x1)

/-- The row an edge reads: the first row of the edge list, negative words wrapped, as the gather reads it. -/
abbrev src (x1 : (⟨S2x800000, .i32⟩ : BufTy).Contents (Elt Ideal)) : Fin 800000 → Fin 50000 :=
  Cert.SageIdx.srcOf 50000 (by norm_num) (val_main_v9 (F := Ideal) x1)

/-- The three layers build the source column by the same operations. -/
theorem v60_eq (x1 : (⟨S2x800000, .i32⟩ : BufTy).Contents (Elt Ideal)) : val_main_v60 (F := Ideal) x1 = val_main_v9 (F := Ideal) x1 := rfl
theorem v111_eq (x1 : (⟨S2x800000, .i32⟩ : BufTy).Contents (Elt Ideal)) : val_main_v111 (F := Ideal) x1 = val_main_v9 (F := Ideal) x1 := rfl
/-- Every scatter of the three layers reads the same destination column. -/
theorem v16_eq (x1 : (⟨S2x800000, .i32⟩ : BufTy).Contents (Elt Ideal)) : val_main_v16 (F := Ideal) x1 = val_main_v12 (F := Ideal) x1 := rfl
theorem v63_eq (x1 : (⟨S2x800000, .i32⟩ : BufTy).Contents (Elt Ideal)) : val_main_v63 (F := Ideal) x1 = val_main_v12 (F := Ideal) x1 := rfl
theorem v67_eq (x1 : (⟨S2x800000, .i32⟩ : BufTy).Contents (Elt Ideal)) : val_main_v67 (F := Ideal) x1 = val_main_v12 (F := Ideal) x1 := rfl
theorem v114_eq (x1 : (⟨S2x800000, .i32⟩ : BufTy).Contents (Elt Ideal)) : val_main_v114 (F := Ideal) x1 = val_main_v12 (F := Ideal) x1 := rfl
theorem v118_eq (x1 : (⟨S2x800000, .i32⟩ : BufTy).Contents (Elt Ideal)) : val_main_v118 (F := Ideal) x1 = val_main_v12 (F := Ideal) x1 := rfl

end Cert.ReferenceIdeal.RefValue

end
-- ==== Proof.RefLayer1a.lean ====
/-
  Layer 1 of the reference program after its aggregation stage, read entry by entry: the two dense maps
  (64 → 128) with the bias and the clip at zero, then the column statistics over the 50000 rows — the mean,
  the mean of the squared deviations — and the normalisation `((p − mean) · rsqrt(var + eps)) · g + be`.
  The aggregated array enters as a hypothesis here; the module that imports this one supplies it.
-/
import proofs.«151943_j8564164788539_2_alg».proof.Proof.RefRead
import proofs.«151943_j8564164788539_2_alg».proof.Proof.SageSpec

noncomputable section

namespace Cert.ReferenceIdeal.RefValue

open Cert.ReferenceIdeal Cert.ReferenceIdeal.ReadP Cert.SageSpec Idealize.ShloMosaic Idealize.ShloMosaic.ValueIdx

/-- Layer 1 before the normalisation: the two dense maps, the bias, and the clip at zero, entry by entry. -/
theorem pre1 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal))
    (M H : Fin 50000 → Fin 64 → EReal)
    (hM : ∀ n k, val_main_v22 (F := Ideal) x0 x1 (ix2 n k) = M n k)
    (hH : ∀ n k, (x0) (ix2 n k) = H n k)
    (n : Fin 50000) (j : Fin 128) :
    val_main_v29 (F := Ideal) x0 x1 x3 x4 x5 (ix2 n j) = preA M H (fun k j => x3 (ix2 k j)) (fun k j => x5 (ix2 k j)) (fun j => x4 (ix1 j)) n j := by
  have el : ∀ k, lidx_main_v23 (ix2 n j) k = ix2 n k := fun k => funext fun a => Fin.ext (by match a with | ⟨0, _⟩ => rfl | ⟨1, _⟩ => rfl)
  have er : ∀ k, ridx_main_v23 (ix2 n j) k = ix2 k j := fun k => funext fun a => Fin.ext (by match a with | ⟨0, _⟩ => rfl | ⟨1, _⟩ => rfl)
  have el' : ∀ k, lidx_main_v27 (ix2 n j) k = ix2 n k := fun k => funext fun a => Fin.ext (by match a with | ⟨0, _⟩ => rfl | ⟨1, _⟩ => rfl)
  have er' : ∀ k, ridx_main_v27 (ix2 n j) k = ix2 k j := fun k => funext fun a => Fin.ext (by match a with | ⟨0, _⟩ => rfl | ⟨1, _⟩ => rfl)
  have eb : idx_main_v24 (idx_main_v25 (ix2 n j)) = ix1 j := funext fun a => Fin.ext (by match a with | ⟨0, _⟩ => rfl)
  rw [val_main_v29_apply, val_main_v28_apply, val_main_v26_apply, val_main_v23_apply, val_main_v27_apply, val_main_v25_apply,
    val_main_v24_apply, val_main_call0_v0_apply, val_main_call0_cst_apply]
  simp only [el, er, el', er', eb, hM, hH, Ideal.addf_def, Ideal.maximumf_def, Ideal.ofBits_def,
    Ideal.ofBits_zero_f32]
  unfold preA mm
  rfl

/-- Layer 1: the column mean of the clipped array. -/
theorem mean1 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal))
    (P : Fin 50000 → Fin 128 → EReal)
    (hP : ∀ n j, val_main_v29 (F := Ideal) x0 x1 x3 x4 x5 (ix2 n j) = P n j) (j : Fin 128) :
    val_main_v32 (F := Ideal) x0 x1 x3 x4 x5 (ix1 j) = mean (Ideal.ofBits .f32 0x47435000#32) P j := by
  have e : ∀ k, idx_main_v30 (ix1 j) k = ix2 k j := fun k => funext fun a => Fin.ext (by match a with | ⟨0, _⟩ => rfl | ⟨1, _⟩ => rfl)
  rw [val_main_v32_apply, val_main_v30_apply, val_main_v31_apply, val_main_cst_5_apply, val_main_cst_4_apply]
  simp only [e, hP, Ideal.hostDivf_def, Ideal.ofBits_def, Ideal.ofBits_zero_f32, zero_add]
  unfold mean colsum
  rfl

/-- Layer 1: the squared deviation of an entry from its column mean. -/
theorem dev1 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal))
    (P : Fin 50000 → Fin 128 → EReal)
    (hP : ∀ n j, val_main_v29 (F := Ideal) x0 x1 x3 x4 x5 (ix2 n j) = P n j) (n : Fin 50000) (j : Fin 128) :
    val_main_v36 (F := Ideal) x0 x1 x3 x4 x5 (ix2 n j) =
      (P n j - mean (Ideal.ofBits .f32 0x47435000#32) P j) * (P n j - mean (Ideal.ofBits .f32 0x47435000#32) P j) := by
  have em : idx_main_v33 (idx_main_v34 (ix2 n j)) = ix1 j := funext fun a => Fin.ext (by match a with | ⟨0, _⟩ => rfl)
  rw [val_main_v36_apply, val_main_v35_apply, val_main_v34_apply, val_main_v33_apply, em, hP, mean1 x0 x1 x3 x4 x5 P hP j]
  rfl

/-- Layer 1: the column mean of the squared deviations from the column mean. -/
theorem var1 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal))
    (P : Fin 50000 → Fin 128 → EReal)
    (hP : ∀ n j, val_main_v29 (F := Ideal) x0 x1 x3 x4 x5 (ix2 n j) = P n j) (j : Fin 128) :
    val_main_v39 (F := Ideal) x0 x1 x3 x4 x5 (ix1 j) = varR (Ideal.ofBits .f32 0x47435000#32) P j := by
  have e : ∀ k, idx_main_v37 (ix1 j) k = ix2 k j := fun k => funext fun a => Fin.ext (by match a with | ⟨0, _⟩ => rfl | ⟨1, _⟩ => rfl)
  have hs : ∑ k : Fin 50000, val_main_v36 (F := Ideal) x0 x1 x3 x4 x5 (idx_main_v37 (ix1 j) k) =
      ∑ k : Fin 50000, (P k j - mean (Ideal.ofBits .f32 0x47435000#32) P j) * (P k j - mean (Ideal.ofBits .f32 0x47435000#32) P j) :=
    Finset.sum_congr rfl fun k _ => by rw [e k]; exact dev1 x0 x1 x3 x4 x5 P hP k j
  rw [val_main_v39_apply, val_main_v37_apply, val_main_v38_apply, val_main_cst_7_apply, val_main_cst_6_apply, hs]
  simp only [Ideal.hostDivf_def, Ideal.ofBits_def, Ideal.ofBits_zero_f32, zero_add]
  unfold varR colsum
  rfl

/-- Layer 1: the normalised, rescaled and shifted array, entry by entry. -/
theorem norm1 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal)) (x6 x7 : (⟨S128, .f32⟩ : BufTy).Contents (Elt Ideal))
    (P : Fin 50000 → Fin 128 → EReal)
    (hP : ∀ n j, val_main_v29 (F := Ideal) x0 x1 x3 x4 x5 (ix2 n j) = P n j) (n : Fin 50000) (j : Fin 128) :
    val_main_v54 (F := Ideal) x0 x1 x3 x4 x5 x6 x7 (ix2 n j) = bnR (Ideal.ofBits .f32 0x47435000#32) (Ideal.ofBits .f32 0x3727C5AC#32) P (fun j => x6 (ix1 j)) (fun j => x7 (ix1 j)) n j := by
  have em : idx_main_v40 (idx_main_v41 (ix2 n j)) = ix1 j := funext fun a => Fin.ext (by match a with | ⟨0, _⟩ => rfl)
  have ei : idx_main_v46 (idx_main_v47 (ix2 n j)) = ix1 j := funext fun a => Fin.ext (by match a with | ⟨0, _⟩ => rfl)
  have eg : idx_main_v49 (idx_main_v50 (ix2 n j)) = ix1 j := funext fun a => Fin.ext (by match a with | ⟨0, _⟩ => rfl)
  have eb : idx_main_v52 (idx_main_v53 (ix2 n j)) = ix1 j := funext fun a => Fin.ext (by match a with | ⟨0, _⟩ => rfl)
  rw [val_main_v54_apply, val_main_v51_apply, val_main_v53_apply, val_main_v52_apply, val_main_v48_apply, val_main_v50_apply,
    val_main_v49_apply, val_main_v42_apply, val_main_v47_apply, val_main_v46_apply, val_main_v45_apply, val_main_v44_apply,
    val_main_v41_apply, val_main_v40_apply, val_main_v43_apply, val_main_cst_8_apply, em, ei, eg, eb, hP,
    mean1 x0 x1 x3 x4 x5 P hP j, var1 x0 x1 x3 x4 x5 P hP j]
  unfold bnR affine
  rfl

end Cert.ReferenceIdeal.RefValue

end
-- ==== Proof.SageConsts.lean ====
/-
  The float literals of the program, as real numbers: the word of 5.0e4 is the real 50000 (the number of
  rows), the word of the variance offset is a positive real, the word of 1.0 is 1.
-/
import Idealize.ShloMosaic.PureOps.Ideal

noncomputable section

namespace Cert.SageConsts

open Idealize.ShloMosaic

/-- The f32 word `0x47435000` denotes 50000. -/
theorem cN_eq : Ideal.ofBits .f32 0x47435000#32 = (((50000 : ℕ) : ℝ) : EReal) := by
  simp [Ideal.ofBits, Ideal.ieee, -EReal.coe_mul]; norm_num

/-- The f32 word `0x3F800000` denotes 1. -/
theorem one_eq : Ideal.ofBits .f32 0x3F800000#32 = 1 := by
  simp [Ideal.ofBits, Ideal.ieee, -EReal.coe_mul]; norm_num

/-- The f32 word `0x3727C5AC` (the variance offset) denotes a positive real. -/
theorem eps_pos : ∃ e : ℝ, 0 < e ∧ Ideal.ofBits .f32 0x3727C5AC#32 = (e : EReal) :=
  ⟨10995116 / 2 ^ 40, by norm_num, by simp [Ideal.ofBits, Ideal.ieee, -EReal.coe_mul]; norm_num⟩

end Cert.SageConsts

end
-- ==== Proof.RefLayer1.lean ====
/-
  Layer 1 of the reference program, whole: the divisor is the number of edges landing on a row (at least
  one), the aggregated array is the sum over the edges landing on a row of the rows they read, over that
  divisor, and with the dense maps and the normalisation of the module this one imports the layer's output
  is `bnR cN eps (preA (agg land src (cnt land) H) H Wl Wr b) g be` of its input `H`.
-/
import proofs.«151943_j8564164788539_2_alg».proof.Proof.RefBase
import proofs.«151943_j8564164788539_2_alg».proof.Proof.RefLayer1a
import proofs.«151943_j8564164788539_2_alg».proof.Proof.SageIdxRead
import proofs.«151943_j8564164788539_2_alg».proof.Proof.SageConsts

noncomputable section

namespace Cert.ReferenceIdeal.RefValue

open Cert.ReferenceIdeal Cert.ReferenceIdeal.ReadP Cert.SageSpec Idealize.ShloMosaic Idealize.ShloMosaic.ValueIdx

/-- Layer 1: the number of edges landing on a row, at least one. -/
theorem cnt1 (x1 : (⟨S2x800000, .i32⟩ : BufTy).Contents (Elt Ideal)) (n : Fin 50000) :
    val_main_v19 (F := Ideal) x1 (ix1 n) = cnt (land x1) n := by
  have hZ : ∀ i, val_main_v15 (F := Ideal) i = 0 := fun i => by
    rw [val_main_v15_apply, val_main_cst_2_apply]; exact Ideal.ofBits_zero_f32
  have hO : ∀ i, val_main_v14 (F := Ideal) i = 1 := fun i => by
    rw [val_main_v14_apply, val_main_cst_1_apply]; exact Cert.SageConsts.one_eq
  have hO' : ∀ i, val_main_v18 (F := Ideal) i = 1 := fun i => by
    rw [val_main_v18_apply, val_main_cst_3_apply]; exact Cert.SageConsts.one_eq
  have h := Cert.SageIdx.cnt_read scatter_S50000_S800000x1_S800000_n_0_0_1 rfl rfl rfl rfl
    (val_main_v15 (F := Ideal)) (val_main_v18 (F := Ideal)) (val_main_v14 (F := Ideal)) (val_main_v16 (F := Ideal) x1) hZ hO hO' n
  rw [v16_eq] at h
  exact h

/-- Layer 1: the mean of the in-neighbours' rows. -/
theorem agg1 (x0 : (⟨S50000x64, .f32⟩ : BufTy).Contents (Elt Ideal)) (x1 : (⟨S2x800000, .i32⟩ : BufTy).Contents (Elt Ideal))
    (H : Fin 50000 → Fin 64 → EReal)
    (hH : ∀ n k, (x0) (ix2 n k) = H n k) (n : Fin 50000) (k : Fin 64) :
    val_main_v22 (F := Ideal) x0 x1 (ix2 n k) = agg (land x1) (src x1) (cnt (land x1)) H n k := by
  have hZ : ∀ i, val_main_v11 (F := Ideal) i = 0 := fun i => by
    rw [val_main_v11_apply, val_main_cst_apply]; exact Ideal.ofBits_zero_f32
  have hD : ∀ n j, val_main_v21 (F := Ideal) x1 (ix2 n j) = cnt (land x1) n := fun n j => by
    have e : idx_main_v20 (idx_main_v21 (ix2 n j)) = ix1 n := funext fun a => Fin.ext (by match a with | ⟨0, _⟩ => rfl)
    rw [val_main_v21_apply, val_main_v20_apply, e]; exact cnt1 x1 n
  have hX : (fun n k => (x0) (ix2 n k)) = H := funext fun n => funext fun k => hH n k
  have h := Cert.SageIdx.agg_read (N := 50000) (by norm_num) scatter_S50000x64_S800000x1_S800000x64_1_0_0_1 rfl rfl rfl rfl
    gather_S50000x64_S800000x1_S800000x64_1_0_n_n_0_1_164 rfl rfl rfl rfl rfl rfl rfl
    (val_main_v11 (F := Ideal)) (val_main_v21 (F := Ideal) x1) (x0) (val_main_v12 (F := Ideal) x1)
    (val_main_v9 (F := Ideal) x1) (cnt (land x1)) hZ hD n k
  rw [hX] at h
  exact h

/-- Layer 1 of the reference, entry by entry: when the layer's input array is `H`, its output is the
    normalisation of the clipped sum of the aggregated and the direct dense maps. -/
theorem layer1 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal)) (x6 x7 : (⟨S128, .f32⟩ : BufTy).Contents (Elt Ideal))
    (H : Fin 50000 → Fin 64 → EReal)
    (hH : ∀ n k, (x0) (ix2 n k) = H n k) (n : Fin 50000) (j : Fin 128) :
    val_main_v54 (F := Ideal) x0 x1 x3 x4 x5 x6 x7 (ix2 n j) =
      bnR (Ideal.ofBits .f32 0x47435000#32) (Ideal.ofBits .f32 0x3727C5AC#32)
        (preA (agg (land x1) (src x1) (cnt (land x1)) H) H (fun k j => x3 (ix2 k j)) (fun k j => x5 (ix2 k j)) (fun j => x4 (ix1 j))) (fun j => x6 (ix1 j)) (fun j => x7 (ix1 j)) n j :=
  norm1 x0 x1 x3 x4 x5 x6 x7 _
    (fun n j => pre1 x0 x1 x3 x4 x5 _ H (fun n k => agg1 x0 x1 H hH n k) hH n j) n j

end Cert.ReferenceIdeal.RefValue

end
-- ==== Proof.RefLayer2a.lean ====
/-
  Layer 2 of the reference program after its aggregation stage, read entry by entry: the two dense maps
  (128 → 64) with the bias and the clip at zero, then the column statistics over the 50000 rows — the mean,
  the mean of the squared deviations — and the normalisation `((p − mean) · rsqrt(var + eps)) · g + be`.
  The aggregated array enters as a hypothesis here; the module that imports this one supplies it.
-/
import proofs.«151943_j8564164788539_2_alg».proof.Proof.RefRead
import proofs.«151943_j8564164788539_2_alg».proof.Proof.SageSpec

noncomputable section

namespace Cert.ReferenceIdeal.RefValue

open Cert.ReferenceIdeal Cert.ReferenceIdeal.ReadP Cert.SageSpec Idealize.ShloMosaic Idealize.ShloMosaic.ValueIdx

/-- Layer 2 before the normalisation: the two dense maps, the bias, and the clip at zero, entry by entry. -/
theorem pre2 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal)) (x6 x7 : (⟨S128, .f32⟩ : BufTy).Contents (Elt Ideal))
    (x8 : (⟨S128x64, .f32⟩ : BufTy).Contents (Elt Ideal)) (x9 : (⟨S64, .f32⟩ : BufTy).Contents (Elt Ideal)) (x10 : (⟨S128x64, .f32⟩ : BufTy).Contents (Elt Ideal))
    (M H : Fin 50000 → Fin 128 → EReal)
    (hM : ∀ n k, val_main_v73 (F := Ideal) x0 x1 x3 x4 x5 x6 x7 (ix2 n k) = M n k)
    (hH : ∀ n k, (val_main_v54 (F := Ideal) x0 x1 x3 x4 x5 x6 x7) (ix2 n k) = H n k)
    (n : Fin 50000) (j : Fin 64) :
    val_main_v80 (F := Ideal) x0 x1 x3 x4 x5 x6 x7 x8 x9 x10 (ix2 n j) = preA M H (fun k j => x8 (ix2 k j)) (fun k j => x10 (ix2 k j)) (fun j => x9 (ix1 j)) n j := by
  have el : ∀ k, lidx_main_v74 (ix2 n j) k = ix2 n k := fun k => funext fun a => Fin.ext (by match a with | ⟨0, _⟩ => rfl | ⟨1, _⟩ => rfl)
  have er : ∀ k, ridx_main_v74 (ix2 n j) k = ix2 k j := fun k => funext fun a => Fin.ext (by match a with | ⟨0, _⟩ => rfl | ⟨1, _⟩ => rfl)
  have el' : ∀ k, lidx_main_v78 (ix2 n j) k = ix2 n k := fun k => funext fun a => Fin.ext (by match a with | ⟨0, _⟩ => rfl | ⟨1, _⟩ => rfl)
  have er' : ∀ k, ridx_main_v78 (ix2 n j) k = ix2 k j := fun k => funext fun a => Fin.ext (by match a with | ⟨0, _⟩ => rfl | ⟨1, _⟩ => rfl)
  have eb : idx_main_v75 (idx_main_v76 (ix2 n j)) = ix1 j := funext fun a => Fin.ext (by match a with | ⟨0, _⟩ => rfl)
  rw [val_main_v80_apply, val_main_v79_apply, val_main_v77_apply, val_main_v74_apply, val_main_v78_apply, val_main_v76_apply,
    val_main_v75_apply, val_main_call1_v0_apply, val_main_call1_cst_apply]
  simp only [el, er, el', er', eb, hM, hH, Ideal.addf_def, Ideal.maximumf_def, Ideal.ofBits_def,
    Ideal.ofBits_zero_f32]
  unfold preA mm
  rfl

/-- Layer 2: the column mean of the clipped array. -/
theorem mean2 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal)) (x6 x7 : (⟨S128, .f32⟩ : BufTy).Contents (Elt Ideal))
    (x8 : (⟨S128x64, .f32⟩ : BufTy).Contents (Elt Ideal)) (x9 : (⟨S64, .f32⟩ : BufTy).Contents (Elt Ideal)) (x10 : (⟨S128x64, .f32⟩ : BufTy).Contents (Elt Ideal))
    (P : Fin 50000 → Fin 64 → EReal)
    (hP : ∀ n j, val_main_v80 (F := Ideal) x0 x1 x3 x4 x5 x6 x7 x8 x9 x10 (ix2 n j) = P n j) (j : Fin 64) :
    val_main_v83 (F := Ideal) x0 x1 x3 x4 x5 x6 x7 x8 x9 x10 (ix1 j) = mean (Ideal.ofBits .f32 0x47435000#32) P j := by
  have e : ∀ k, idx_main_v81 (ix1 j) k = ix2 k j := fun k => funext fun a => Fin.ext (by match a with | ⟨0, _⟩ => rfl | ⟨1, _⟩ => rfl)
  rw [val_main_v83_apply, val_main_v81_apply, val_main_v82_apply, val_main_cst_16_apply, val_main_cst_15_apply]
  simp only [e, hP, Ideal.hostDivf_def, Ideal.ofBits_def, Ideal.ofBits_zero_f32, zero_add]
  unfold mean colsum
  rfl

/-- Layer 2: the squared deviation of an entry from its column mean. -/
theorem dev2 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal)) (x6 x7 : (⟨S128, .f32⟩ : BufTy).Contents (Elt Ideal))
    (x8 : (⟨S128x64, .f32⟩ : BufTy).Contents (Elt Ideal)) (x9 : (⟨S64, .f32⟩ : BufTy).Contents (Elt Ideal)) (x10 : (⟨S128x64, .f32⟩ : BufTy).Contents (Elt Ideal))
    (P : Fin 50000 → Fin 64 → EReal)
    (hP : ∀ n j, val_main_v80 (F := Ideal) x0 x1 x3 x4 x5 x6 x7 x8 x9 x10 (ix2 n j) = P n j) (n : Fin 50000) (j : Fin 64) :
    val_main_v87 (F := Ideal) x0 x1 x3 x4 x5 x6 x7 x8 x9 x10 (ix2 n j) =
      (P n j - mean (Ideal.ofBits .f32 0x47435000#32) P j) * (P n j - mean (Ideal.ofBits .f32 0x47435000#32) P j) := by
  have em : idx_main_v84 (idx_main_v85 (ix2 n j)) = ix1 j := funext fun a => Fin.ext (by match a with | ⟨0, _⟩ => rfl)
  rw [val_main_v87_apply, val_main_v86_apply, val_main_v85_apply, val_main_v84_apply, em, hP, mean2 x0 x1 x3 x4 x5 x6 x7 x8 x9 x10 P hP j]
  rfl

/-- Layer 2: the column mean of the squared deviations from the column mean. -/
theorem var2 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal)) (x6 x7 : (⟨S128, .f32⟩ : BufTy).Contents (Elt Ideal))
    (x8 : (⟨S128x64, .f32⟩ : BufTy).Contents (Elt Ideal)) (x9 : (⟨S64, .f32⟩ : BufTy).Contents (Elt Ideal)) (x10 : (⟨S128x64, .f32⟩ : BufTy).Contents (Elt Ideal))
    (P : Fin 50000 → Fin 64 → EReal)
    (hP : ∀ n j, val_main_v80 (F := Ideal) x0 x1 x3 x4 x5 x6 x7 x8 x9 x10 (ix2 n j) = P n j) (j : Fin 64) :
    val_main_v90 (F := Ideal) x0 x1 x3 x4 x5 x6 x7 x8 x9 x10 (ix1 j) = varR (Ideal.ofBits .f32 0x47435000#32) P j := by
  have e : ∀ k, idx_main_v88 (ix1 j) k = ix2 k j := fun k => funext fun a => Fin.ext (by match a with | ⟨0, _⟩ => rfl | ⟨1, _⟩ => rfl)
  have hs : ∑ k : Fin 50000, val_main_v87 (F := Ideal) x0 x1 x3 x4 x5 x6 x7 x8 x9 x10 (idx_main_v88 (ix1 j) k) =
      ∑ k : Fin 50000, (P k j - mean (Ideal.ofBits .f32 0x47435000#32) P j) * (P k j - mean (Ideal.ofBits .f32 0x47435000#32) P j) :=
    Finset.sum_congr rfl fun k _ => by rw [e k]; exact dev2 x0 x1 x3 x4 x5 x6 x7 x8 x9 x10 P hP k j
  rw [val_main_v90_apply, val_main_v88_apply, val_main_v89_apply, val_main_cst_18_apply, val_main_cst_17_apply, hs]
  simp only [Ideal.hostDivf_def, Ideal.ofBits_def, Ideal.ofBits_zero_f32, zero_add]
  unfold varR colsum
  rfl

/-- Layer 2: the normalised, rescaled and shifted array, entry by entry. -/
theorem norm2 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal)) (x6 x7 : (⟨S128, .f32⟩ : BufTy).Contents (Elt Ideal))
    (x8 : (⟨S128x64, .f32⟩ : BufTy).Contents (Elt Ideal)) (x9 : (⟨S64, .f32⟩ : BufTy).Contents (Elt Ideal)) (x10 : (⟨S128x64, .f32⟩ : BufTy).Contents (Elt Ideal)) (x11 x12 : (⟨S64, .f32⟩ : BufTy).Contents (Elt Ideal))
    (P : Fin 50000 → Fin 64 → EReal)
    (hP : ∀ n j, val_main_v80 (F := Ideal) x0 x1 x3 x4 x5 x6 x7 x8 x9 x10 (ix2 n j) = P n j) (n : Fin 50000) (j : Fin 64) :
    val_main_v105 (F := Ideal) x0 x1 x3 x4 x5 x6 x7 x8 x9 x10 x11 x12 (ix2 n j) = bnR (Ideal.ofBits .f32 0x47435000#32) (Ideal.ofBits .f32 0x3727C5AC#32) P (fun j => x11 (ix1 j)) (fun j => x12 (ix1 j)) n j := by
  have em : idx_main_v91 (idx_main_v92 (ix2 n j)) = ix1 j := funext fun a => Fin.ext (by match a with | ⟨0, _⟩ => rfl)
  have ei : idx_main_v97 (idx_main_v98 (ix2 n j)) = ix1 j := funext fun a => Fin.ext (by match a with | ⟨0, _⟩ => rfl)
  have eg : idx_main_v100 (idx_main_v101 (ix2 n j)) = ix1 j := funext fun a => Fin.ext (by match a with | ⟨0, _⟩ => rfl)
  have eb : idx_main_v103 (idx_main_v104 (ix2 n j)) = ix1 j := funext fun a => Fin.ext (by match a with | ⟨0, _⟩ => rfl)
  rw [val_main_v105_apply, val_main_v102_apply, val_main_v104_apply, val_main_v103_apply, val_main_v99_apply, val_main_v101_apply,
    val_main_v100_apply, val_main_v93_apply, val_main_v98_apply, val_main_v97_apply, val_main_v96_apply, val_main_v95_apply,
    val_main_v92_apply, val_main_v91_apply, val_main_v94_apply, val_main_cst_19_apply, em, ei, eg, eb, hP,
    mean2 x0 x1 x3 x4 x5 x6 x7 x8 x9 x10 P hP j, var2 x0 x1 x3 x4 x5 x6 x7 x8 x9 x10 P hP j]
  unfold bnR affine
  rfl

end Cert.ReferenceIdeal.RefValue

end
-- ==== Proof.RefLayer2.lean ====
/-
  Layer 2 of the reference program, whole: the divisor is the number of edges landing on a row (at least
  one), the aggregated array is the sum over the edges landing on a row of the rows they read, over that
  divisor, and with the dense maps and the normalisation of the module this one imports the layer's output
  is `bnR cN eps (preA (agg land src (cnt land) H) H Wl Wr b) g be` of its input `H`.
-/
import proofs.«151943_j8564164788539_2_alg».proof.Proof.RefBase
import proofs.«151943_j8564164788539_2_alg».proof.Proof.RefLayer2a
import proofs.«151943_j8564164788539_2_alg».proof.Proof.SageIdxRead
import proofs.«151943_j8564164788539_2_alg».proof.Proof.SageConsts

noncomputable section

namespace Cert.ReferenceIdeal.RefValue

open Cert.ReferenceIdeal Cert.ReferenceIdeal.ReadP Cert.SageSpec Idealize.ShloMosaic Idealize.ShloMosaic.ValueIdx

/-- Layer 2: the number of edges landing on a row, at least one. -/
theorem cnt2 (x1 : (⟨S2x800000, .i32⟩ : BufTy).Contents (Elt Ideal)) (n : Fin 50000) :
    val_main_v70 (F := Ideal) x1 (ix1 n) = cnt (land x1) n := by
  have hZ : ∀ i, val_main_v66 (F := Ideal) i = 0 := fun i => by
    rw [val_main_v66_apply, val_main_cst_13_apply]; exact Ideal.ofBits_zero_f32
  have hO : ∀ i, val_main_v65 (F := Ideal) i = 1 := fun i => by
    rw [val_main_v65_apply, val_main_cst_12_apply]; exact Cert.SageConsts.one_eq
  have hO' : ∀ i, val_main_v69 (F := Ideal) i = 1 := fun i => by
    rw [val_main_v69_apply, val_main_cst_14_apply]; exact Cert.SageConsts.one_eq
  have h := Cert.SageIdx.cnt_read scatter_S50000_S800000x1_S800000_n_0_0_1 rfl rfl rfl rfl
    (val_main_v66 (F := Ideal)) (val_main_v69 (F := Ideal)) (val_main_v65 (F := Ideal)) (val_main_v67 (F := Ideal) x1) hZ hO hO' n
  rw [v67_eq] at h
  exact h

/-- Layer 2: the mean of the in-neighbours' rows. -/
theorem agg2 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal)) (x6 x7 : (⟨S128, .f32⟩ : BufTy).Contents (Elt Ideal))
    (H : Fin 50000 → Fin 128 → EReal)
    (hH : ∀ n k, (val_main_v54 (F := Ideal) x0 x1 x3 x4 x5 x6 x7) (ix2 n k) = H n k) (n : Fin 50000) (k : Fin 128) :
    val_main_v73 (F := Ideal) x0 x1 x3 x4 x5 x6 x7 (ix2 n k) = agg (land x1) (src x1) (cnt (land x1)) H n k := by
  have hZ : ∀ i, val_main_v62 (F := Ideal) i = 0 := fun i => by
    rw [val_main_v62_apply, val_main_cst_11_apply]; exact Ideal.ofBits_zero_f32
  have hD : ∀ n j, val_main_v72 (F := Ideal) x1 (ix2 n j) = cnt (land x1) n := fun n j => by
    have e : idx_main_v71 (idx_main_v72 (ix2 n j)) = ix1 n := funext fun a => Fin.ext (by match a with | ⟨0, _⟩ => rfl)
    rw [val_main_v72_apply, val_main_v71_apply, e]; exact cnt2 x1 n
  have hX : (fun n k => (val_main_v54 (F := Ideal) x0 x1 x3 x4 x5 x6 x7) (ix2 n k)) = H := funext fun n => funext fun k => hH n k
  have h := Cert.SageIdx.agg_read (N := 50000) (by norm_num) scatter_S50000x128_S800000x1_S800000x128_1_0_0_1 rfl rfl rfl rfl
    gather_S50000x128_S800000x1_S800000x128_1_0_n_n_0_1_1128 rfl rfl rfl rfl rfl rfl rfl
    (val_main_v62 (F := Ideal)) (val_main_v72 (F := Ideal) x1) (val_main_v54 (F := Ideal) x0 x1 x3 x4 x5 x6 x7) (val_main_v63 (F := Ideal) x1)
    (val_main_v60 (F := Ideal) x1) (cnt (land x1)) hZ hD n k
  rw [hX, v63_eq] at h
  rw [v60_eq] at h
  exact h

/-- Layer 2 of the reference, entry by entry: when the layer's input array is `H`, its output is the
    normalisation of the clipped sum of the aggregated and the direct dense maps. -/
theorem layer2 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal)) (x6 x7 : (⟨S128, .f32⟩ : BufTy).Contents (Elt Ideal))
    (x8 : (⟨S128x64, .f32⟩ : BufTy).Contents (Elt Ideal)) (x9 : (⟨S64, .f32⟩ : BufTy).Contents (Elt Ideal)) (x10 : (⟨S128x64, .f32⟩ : BufTy).Contents (Elt Ideal)) (x11 x12 : (⟨S64, .f32⟩ : BufTy).Contents (Elt Ideal))
    (H : Fin 50000 → Fin 128 → EReal)
    (hH : ∀ n k, (val_main_v54 (F := Ideal) x0 x1 x3 x4 x5 x6 x7) (ix2 n k) = H n k) (n : Fin 50000) (j : Fin 64) :
    val_main_v105 (F := Ideal) x0 x1 x3 x4 x5 x6 x7 x8 x9 x10 x11 x12 (ix2 n j) =
      bnR (Ideal.ofBits .f32 0x47435000#32) (Ideal.ofBits .f32 0x3727C5AC#32)
        (preA (agg (land x1) (src x1) (cnt (land x1)) H) H (fun k j => x8 (ix2 k j)) (fun k j => x10 (ix2 k j)) (fun j => x9 (ix1 j))) (fun j => x11 (ix1 j)) (fun j => x12 (ix1 j)) n j :=
  norm2 x0 x1 x3 x4 x5 x6 x7 x8 x9 x10 x11 x12 _
    (fun n j => pre2 x0 x1 x3 x4 x5 x6 x7 x8 x9 x10 _ H (fun n k => agg2 x0 x1 x3 x4 x5 x6 x7 H hH n k) hH n j) n j

end Cert.ReferenceIdeal.RefValue

end
-- ==== Proof.RefLayer3a.lean ====
/-
  Layer 3 of the reference program after its aggregation stage, read entry by entry: the two dense maps
  (64 → 32) with the bias and the clip at zero, then the column statistics over the 50000 rows — the mean,
  the mean of the squared deviations — and the normalisation `((p − mean) · rsqrt(var + eps)) · g + be`.
  The aggregated array enters as a hypothesis here; the module that imports this one supplies it.
-/
import proofs.«151943_j8564164788539_2_alg».proof.Proof.RefRead
import proofs.«151943_j8564164788539_2_alg».proof.Proof.SageSpec

noncomputable section

namespace Cert.ReferenceIdeal.RefValue

open Cert.ReferenceIdeal Cert.ReferenceIdeal.ReadP Cert.SageSpec Idealize.ShloMosaic Idealize.ShloMosaic.ValueIdx

/-- Layer 3 before the normalisation: the two dense maps, the bias, and the clip at zero, entry by entry. -/
theorem pre3 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal)) (x6 x7 : (⟨S128, .f32⟩ : BufTy).Contents (Elt Ideal))
    (x8 : (⟨S128x64, .f32⟩ : BufTy).Contents (Elt Ideal)) (x9 : (⟨S64, .f32⟩ : BufTy).Contents (Elt Ideal)) (x10 : (⟨S128x64, .f32⟩ : BufTy).Contents (Elt Ideal)) (x11 x12 : (⟨S64, .f32⟩ : BufTy).Contents (Elt Ideal))
    (x13 : (⟨S64x32, .f32⟩ : BufTy).Contents (Elt Ideal)) (x14 : (⟨S32, .f32⟩ : BufTy).Contents (Elt Ideal)) (x15 : (⟨S64x32, .f32⟩ : BufTy).Contents (Elt Ideal))
    (M H : Fin 50000 → Fin 64 → EReal)
    (hM : ∀ n k, val_main_v124 (F := Ideal) x0 x1 x3 x4 x5 x6 x7 x8 x9 x10 x11 x12 (ix2 n k) = M n k)
    (hH : ∀ n k, (val_main_v105 (F := Ideal) x0 x1 x3 x4 x5 x6 x7 x8 x9 x10 x11 x12) (ix2 n k) = H n k)
    (n : Fin 50000) (j : Fin 32) :
    val_main_v131 (F := Ideal) x0 x1 x3 x4 x5 x6 x7 x8 x9 x10 x11 x12 x13 x14 x15 (ix2 n j) = preA M H (fun k j => x13 (ix2 k j)) (fun k j => x15 (ix2 k j)) (fun j => x14 (ix1 j)) n j := by
  have el : ∀ k, lidx_main_v125 (ix2 n j) k = ix2 n k := fun k => funext fun a => Fin.ext (by match a with | ⟨0, _⟩ => rfl | ⟨1, _⟩ => rfl)
  have er : ∀ k, ridx_main_v125 (ix2 n j) k = ix2 k j := fun k => funext fun a => Fin.ext (by match a with | ⟨0, _⟩ => rfl | ⟨1, _⟩ => rfl)
  have el' : ∀ k, lidx_main_v129 (ix2 n j) k = ix2 n k := fun k => funext fun a => Fin.ext (by match a with | ⟨0, _⟩ => rfl | ⟨1, _⟩ => rfl)
  have er' : ∀ k, ridx_main_v129 (ix2 n j) k = ix2 k j := fun k => funext fun a => Fin.ext (by match a with | ⟨0, _⟩ => rfl | ⟨1, _⟩ => rfl)
  have eb : idx_main_v126 (idx_main_v127 (ix2 n j)) = ix1 j := funext fun a => Fin.ext (by match a with | ⟨0, _⟩ => rfl)
  rw [val_main_v131_apply, val_main_v130_apply, val_main_v128_apply, val_main_v125_apply, val_main_v129_apply, val_main_v127_apply,
    val_main_v126_apply, val_main_call2_v0_apply, val_main_call2_cst_apply]
  simp only [el, er, el', er', eb, hM, hH, Ideal.addf_def, Ideal.maximumf_def, Ideal.ofBits_def,
    Ideal.ofBits_zero_f32]
  unfold preA mm
  rfl

/-- Layer 3: the column mean of the clipped array. -/
theorem mean3 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal)) (x6 x7 : (⟨S128, .f32⟩ : BufTy).Contents (Elt Ideal))
    (x8 : (⟨S128x64, .f32⟩ : BufTy).Contents (Elt Ideal)) (x9 : (⟨S64, .f32⟩ : BufTy).Contents (Elt Ideal)) (x10 : (⟨S128x64, .f32⟩ : BufTy).Contents (Elt Ideal)) (x11 x12 : (⟨S64, .f32⟩ : BufTy).Contents (Elt Ideal))
    (x13 : (⟨S64x32, .f32⟩ : BufTy).Contents (Elt Ideal)) (x14 : (⟨S32, .f32⟩ : BufTy).Contents (Elt Ideal)) (x15 : (⟨S64x32, .f32⟩ : BufTy).Contents (Elt Ideal))
    (P : Fin 50000 → Fin 32 → EReal)
    (hP : ∀ n j, val_main_v131 (F := Ideal) x0 x1 x3 x4 x5 x6 x7 x8 x9 x10 x11 x12 x13 x14 x15 (ix2 n j) = P n j) (j : Fin 32) :
    val_main_v134 (F := Ideal) x0 x1 x3 x4 x5 x6 x7 x8 x9 x10 x11 x12 x13 x14 x15 (ix1 j) = mean (Ideal.ofBits .f32 0x47435000#32) P j := by
  have e : ∀ k, idx_main_v132 (ix1 j) k = ix2 k j := fun k => funext fun a => Fin.ext (by match a with | ⟨0, _⟩ => rfl | ⟨1, _⟩ => rfl)
  rw [val_main_v134_apply, val_main_v132_apply, val_main_v133_apply, val_main_cst_27_apply, val_main_cst_26_apply]
  simp only [e, hP, Ideal.hostDivf_def, Ideal.ofBits_def, Ideal.ofBits_zero_f32, zero_add]
  unfold mean colsum
  rfl

/-- Layer 3: the squared deviation of an entry from its column mean. -/
theorem dev3 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal)) (x6 x7 : (⟨S128, .f32⟩ : BufTy).Contents (Elt Ideal))
    (x8 : (⟨S128x64, .f32⟩ : BufTy).Contents (Elt Ideal)) (x9 : (⟨S64, .f32⟩ : BufTy).Contents (Elt Ideal)) (x10 : (⟨S128x64, .f32⟩ : BufTy).Contents (Elt Ideal)) (x11 x12 : (⟨S64, .f32⟩ : BufTy).Contents (Elt Ideal))
    (x13 : (⟨S64x32, .f32⟩ : BufTy).Contents (Elt Ideal)) (x14 : (⟨S32, .f32⟩ : BufTy).Contents (Elt Ideal)) (x15 : (⟨S64x32, .f32⟩ : BufTy).Contents (Elt Ideal))
    (P : Fin 50000 → Fin 32 → EReal)
    (hP : ∀ n j, val_main_v131 (F := Ideal) x0 x1 x3 x4 x5 x6 x7 x8 x9 x10 x11 x12 x13 x14 x15 (ix2 n j) = P n j) (n : Fin 50000) (j : Fin 32) :
    val_main_v138 (F := Ideal) x0 x1 x3 x4 x5 x6 x7 x8 x9 x10 x11 x12 x13 x14 x15 (ix2 n j) =
      (P n j - mean (Ideal.ofBits .f32 0x47435000#32) P j) * (P n j - mean (Ideal.ofBits .f32 0x47435000#32) P j) := by
  have em : idx_main_v135 (idx_main_v136 (ix2 n j)) = ix1 j := funext fun a => Fin.ext (by match a with | ⟨0, _⟩ => rfl)
  rw [val_main_v138_apply, val_main_v137_apply, val_main_v136_apply, val_main_v135_apply, em, hP, mean3 x0 x1 x3 x4 x5 x6 x7 x8 x9 x10 x11 x12 x13 x14 x15 P hP j]
  rfl

/-- Layer 3: the column mean of the squared deviations from the column mean. -/
theorem var3 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal)) (x6 x7 : (⟨S128, .f32⟩ : BufTy).Contents (Elt Ideal))
    (x8 : (⟨S128x64, .f32⟩ : BufTy).Contents (Elt Ideal)) (x9 : (⟨S64, .f32⟩ : BufTy).Contents (Elt Ideal)) (x10 : (⟨S128x64, .f32⟩ : BufTy).Contents (Elt Ideal)) (x11 x12 : (⟨S64, .f32⟩ : BufTy).Contents (Elt Ideal))
    (x13 : (⟨S64x32, .f32⟩ : BufTy).Contents (Elt Ideal)) (x14 : (⟨S32, .f32⟩ : BufTy).Contents (Elt Ideal)) (x15 : (⟨S64x32, .f32⟩ : BufTy).Contents (Elt Ideal))
    (P : Fin 50000 → Fin 32 → EReal)
    (hP : ∀ n j, val_main_v131 (F := Ideal) x0 x1 x3 x4 x5 x6 x7 x8 x9 x10 x11 x12 x13 x14 x15 (ix2 n j) = P n j) (j : Fin 32) :
    val_main_v141 (F := Ideal) x0 x1 x3 x4 x5 x6 x7 x8 x9 x10 x11 x12 x13 x14 x15 (ix1 j) = varR (Ideal.ofBits .f32 0x47435000#32) P j := by
  have e : ∀ k, idx_main_v139 (ix1 j) k = ix2 k j := fun k => funext fun a => Fin.ext (by match a with | ⟨0, _⟩ => rfl | ⟨1, _⟩ => rfl)
  have hs : ∑ k : Fin 50000, val_main_v138 (F := Ideal) x0 x1 x3 x4 x5 x6 x7 x8 x9 x10 x11 x12 x13 x14 x15 (idx_main_v139 (ix1 j) k) =
      ∑ k : Fin 50000, (P k j - mean (Ideal.ofBits .f32 0x47435000#32) P j) * (P k j - mean (Ideal.ofBits .f32 0x47435000#32) P j) :=
    Finset.sum_congr rfl fun k _ => by rw [e k]; exact dev3 x0 x1 x3 x4 x5 x6 x7 x8 x9 x10 x11 x12 x13 x14 x15 P hP k j
  rw [val_main_v141_apply, val_main_v139_apply, val_main_v140_apply, val_main_cst_29_apply, val_main_cst_28_apply, hs]
  simp only [Ideal.hostDivf_def, Ideal.ofBits_def, Ideal.ofBits_zero_f32, zero_add]
  unfold varR colsum
  rfl

/-- Layer 3: the normalised, rescaled and shifted array, entry by entry. -/
theorem norm3 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal)) (x6 x7 : (⟨S128, .f32⟩ : BufTy).Contents (Elt Ideal))
    (x8 : (⟨S128x64, .f32⟩ : BufTy).Contents (Elt Ideal)) (x9 : (⟨S64, .f32⟩ : BufTy).Contents (Elt Ideal)) (x10 : (⟨S128x64, .f32⟩ : BufTy).Contents (Elt Ideal)) (x11 x12 : (⟨S64, .f32⟩ : BufTy).Contents (Elt Ideal))
    (x13 : (⟨S64x32, .f32⟩ : BufTy).Contents (Elt Ideal)) (x14 : (⟨S32, .f32⟩ : BufTy).Contents (Elt Ideal)) (x15 : (⟨S64x32, .f32⟩ : BufTy).Contents (Elt Ideal)) (x16 x17 : (⟨S32, .f32⟩ : BufTy).Contents (Elt Ideal))
    (P : Fin 50000 → Fin 32 → EReal)
    (hP : ∀ n j, val_main_v131 (F := Ideal) x0 x1 x3 x4 x5 x6 x7 x8 x9 x10 x11 x12 x13 x14 x15 (ix2 n j) = P n j) (n : Fin 50000) (j : Fin 32) :
    val_main_v156 (F := Ideal) x0 x1 x3 x4 x5 x6 x7 x8 x9 x10 x11 x12 x13 x14 x15 x16 x17 (ix2 n j) = bnR (Ideal.ofBits .f32 0x47435000#32) (Ideal.ofBits .f32 0x3727C5AC#32) P (fun j => x16 (ix1 j)) (fun j => x17 (ix1 j)) n j := by
  have em : idx_main_v142 (idx_main_v143 (ix2 n j)) = ix1 j := funext fun a => Fin.ext (by match a with | ⟨0, _⟩ => rfl)
  have ei : idx_main_v148 (idx_main_v149 (ix2 n j)) = ix1 j := funext fun a => Fin.ext (by match a with | ⟨0, _⟩ => rfl)
  have eg : idx_main_v151 (idx_main_v152 (ix2 n j)) = ix1 j := funext fun a => Fin.ext (by match a with | ⟨0, _⟩ => rfl)
  have eb : idx_main_v154 (idx_main_v155 (ix2 n j)) = ix1 j := funext fun a => Fin.ext (by match a with | ⟨0, _⟩ => rfl)
  rw [val_main_v156_apply, val_main_v153_apply, val_main_v155_apply, val_main_v154_apply, val_main_v150_apply, val_main_v152_apply,
    val_main_v151_apply, val_main_v144_apply, val_main_v149_apply, val_main_v148_apply, val_main_v147_apply, val_main_v146_apply,
    val_main_v143_apply, val_main_v142_apply, val_main_v145_apply, val_main_cst_30_apply, em, ei, eg, eb, hP,
    mean3 x0 x1 x3 x4 x5 x6 x7 x8 x9 x10 x11 x12 x13 x14 x15 P hP j, var3 x0 x1 x3 x4 x5 x6 x7 x8 x9 x10 x11 x12 x13 x14 x15 P hP j]
  unfold bnR affine
  rfl

end Cert.ReferenceIdeal.RefValue

end
-- ==== Proof.RefLayer3.lean ====
/-
  Layer 3 of the reference program, whole: the divisor is the number of edges landing on a row (at least
  one), the aggregated array is the sum over the edges landing on a row of the rows they read, over that
  divisor, and with the dense maps and the normalisation of the module this one imports the layer's output
  is `bnR cN eps (preA (agg land src (cnt land) H) H Wl Wr b) g be` of its input `H`.
-/
import proofs.«151943_j8564164788539_2_alg».proof.Proof.RefBase
import proofs.«151943_j8564164788539_2_alg».proof.Proof.RefLayer3a
import proofs.«151943_j8564164788539_2_alg».proof.Proof.SageIdxRead
import proofs.«151943_j8564164788539_2_alg».proof.Proof.SageConsts

noncomputable section

namespace Cert.ReferenceIdeal.RefValue

open Cert.ReferenceIdeal Cert.ReferenceIdeal.ReadP Cert.SageSpec Idealize.ShloMosaic Idealize.ShloMosaic.ValueIdx

/-- Layer 3: the number of edges landing on a row, at least one. -/
theorem cnt3 (x1 : (⟨S2x800000, .i32⟩ : BufTy).Contents (Elt Ideal)) (n : Fin 50000) :
    val_main_v121 (F := Ideal) x1 (ix1 n) = cnt (land x1) n := by
  have hZ : ∀ i, val_main_v117 (F := Ideal) i = 0 := fun i => by
    rw [val_main_v117_apply, val_main_cst_24_apply]; exact Ideal.ofBits_zero_f32
  have hO : ∀ i, val_main_v116 (F := Ideal) i = 1 := fun i => by
    rw [val_main_v116_apply, val_main_cst_23_apply]; exact Cert.SageConsts.one_eq
  have hO' : ∀ i, val_main_v120 (F := Ideal) i = 1 := fun i => by
    rw [val_main_v120_apply, val_main_cst_25_apply]; exact Cert.SageConsts.one_eq
  have h := Cert.SageIdx.cnt_read scatter_S50000_S800000x1_S800000_n_0_0_1 rfl rfl rfl rfl
    (val_main_v117 (F := Ideal)) (val_main_v120 (F := Ideal)) (val_main_v116 (F := Ideal)) (val_main_v118 (F := Ideal) x1) hZ hO hO' n
  rw [v118_eq] at h
  exact h

/-- Layer 3: the mean of the in-neighbours' rows. -/
theorem agg3 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal)) (x6 x7 : (⟨S128, .f32⟩ : BufTy).Contents (Elt Ideal))
    (x8 : (⟨S128x64, .f32⟩ : BufTy).Contents (Elt Ideal)) (x9 : (⟨S64, .f32⟩ : BufTy).Contents (Elt Ideal)) (x10 : (⟨S128x64, .f32⟩ : BufTy).Contents (Elt Ideal)) (x11 x12 : (⟨S64, .f32⟩ : BufTy).Contents (Elt Ideal))
    (H : Fin 50000 → Fin 64 → EReal)
    (hH : ∀ n k, (val_main_v105 (F := Ideal) x0 x1 x3 x4 x5 x6 x7 x8 x9 x10 x11 x12) (ix2 n k) = H n k) (n : Fin 50000) (k : Fin 64) :
    val_main_v124 (F := Ideal) x0 x1 x3 x4 x5 x6 x7 x8 x9 x10 x11 x12 (ix2 n k) = agg (land x1) (src x1) (cnt (land x1)) H n k := by
  have hZ : ∀ i, val_main_v113 (F := Ideal) i = 0 := fun i => by
    rw [val_main_v113_apply, val_main_cst_22_apply]; exact Ideal.ofBits_zero_f32
  have hD : ∀ n j, val_main_v123 (F := Ideal) x1 (ix2 n j) = cnt (land x1) n := fun n j => by
    have e : idx_main_v122 (idx_main_v123 (ix2 n j)) = ix1 n := funext fun a => Fin.ext (by match a with | ⟨0, _⟩ => rfl)
    rw [val_main_v123_apply, val_main_v122_apply, e]; exact cnt3 x1 n
  have hX : (fun n k => (val_main_v105 (F := Ideal) x0 x1 x3 x4 x5 x6 x7 x8 x9 x10 x11 x12) (ix2 n k)) = H := funext fun n => funext fun k => hH n k
  have h := Cert.SageIdx.agg_read (N := 50000) (by norm_num) scatter_S50000x64_S800000x1_S800000x64_1_0_0_1 rfl rfl rfl rfl
    gather_S50000x64_S800000x1_S800000x64_1_0_n_n_0_1_164 rfl rfl rfl rfl rfl rfl rfl
    (val_main_v113 (F := Ideal)) (val_main_v123 (F := Ideal) x1) (val_main_v105 (F := Ideal) x0 x1 x3 x4 x5 x6 x7 x8 x9 x10 x11 x12) (val_main_v114 (F := Ideal) x1)
    (val_main_v111 (F := Ideal) x1) (cnt (land x1)) hZ hD n k
  rw [hX, v114_eq] at h
  rw [v111_eq] at h
  exact h

/-- Layer 3 of the reference, entry by entry: when the layer's input array is `H`, its output is the
    normalisation of the clipped sum of the aggregated and the direct dense maps. -/
theorem layer3 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal)) (x6 x7 : (⟨S128, .f32⟩ : BufTy).Contents (Elt Ideal))
    (x8 : (⟨S128x64, .f32⟩ : BufTy).Contents (Elt Ideal)) (x9 : (⟨S64, .f32⟩ : BufTy).Contents (Elt Ideal)) (x10 : (⟨S128x64, .f32⟩ : BufTy).Contents (Elt Ideal)) (x11 x12 : (⟨S64, .f32⟩ : BufTy).Contents (Elt Ideal))
    (x13 : (⟨S64x32, .f32⟩ : BufTy).Contents (Elt Ideal)) (x14 : (⟨S32, .f32⟩ : BufTy).Contents (Elt Ideal)) (x15 : (⟨S64x32, .f32⟩ : BufTy).Contents (Elt Ideal)) (x16 x17 : (⟨S32, .f32⟩ : BufTy).Contents (Elt Ideal))
    (H : Fin 50000 → Fin 64 → EReal)
    (hH : ∀ n k, (val_main_v105 (F := Ideal) x0 x1 x3 x4 x5 x6 x7 x8 x9 x10 x11 x12) (ix2 n k) = H n k) (n : Fin 50000) (j : Fin 32) :
    val_main_v156 (F := Ideal) x0 x1 x3 x4 x5 x6 x7 x8 x9 x10 x11 x12 x13 x14 x15 x16 x17 (ix2 n j) =
      bnR (Ideal.ofBits .f32 0x47435000#32) (Ideal.ofBits .f32 0x3727C5AC#32)
        (preA (agg (land x1) (src x1) (cnt (land x1)) H) H (fun k j => x13 (ix2 k j)) (fun k j => x15 (ix2 k j)) (fun j => x14 (ix1 j))) (fun j => x16 (ix1 j)) (fun j => x17 (ix1 j)) n j :=
  norm3 x0 x1 x3 x4 x5 x6 x7 x8 x9 x10 x11 x12 x13 x14 x15 x16 x17 _
    (fun n j => pre3 x0 x1 x3 x4 x5 x6 x7 x8 x9 x10 x11 x12 x13 x14 x15 _ H (fun n k => agg3 x0 x1 x3 x4 x5 x6 x7 x8 x9 x10 x11 x12 H hH n k) hH n j) n j

end Cert.ReferenceIdeal.RefValue

end
-- ==== Proof.RefNet.lean ====
/-
  The reference program's three hidden arrays are the three layers of the specification's second spelling
  (the left weight applied after the aggregation, the variance as the mean of squared deviations): each
  layer's output is the layer function of its input, and the first layer's input is the feature array.
-/
import proofs.«151943_j8564164788539_2_alg».proof.Proof.RefLayer1
import proofs.«151943_j8564164788539_2_alg».proof.Proof.RefLayer2
import proofs.«151943_j8564164788539_2_alg».proof.Proof.RefLayer3

noncomputable section

namespace Cert.ReferenceIdeal.RefValue

open Cert.ReferenceIdeal Cert.ReferenceIdeal.ReadP Cert.SageSpec Idealize.ShloMosaic Idealize.ShloMosaic.ValueIdx

/-- The reference's first hidden array is the first layer of the second spelling. -/
theorem ref_h1 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal)) (x6 x7 : (⟨S128, .f32⟩ : BufTy).Contents (Elt Ideal))
    (n : Fin 50000) (j : Fin 128) :
    val_main_v54 (F := Ideal) x0 x1 x3 x4 x5 x6 x7 (ix2 n j) =
      r1 (land x1) (src x1) (Ideal.ofBits .f32 0x47435000#32) (Ideal.ofBits .f32 0x3727C5AC#32) (fun n k => x0 (ix2 n k))
        (fun k j => x3 (ix2 k j)) (fun k j => x5 (ix2 k j)) (fun j => x4 (ix1 j)) (fun j => x6 (ix1 j)) (fun j => x7 (ix1 j)) n j :=
  layer1 x0 x1 x3 x4 x5 x6 x7 (fun n k => x0 (ix2 n k)) (fun _ _ => rfl) n j

/-- The reference's second hidden array is the second layer of the second spelling. -/
theorem ref_h2 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal)) (x6 x7 : (⟨S128, .f32⟩ : BufTy).Contents (Elt Ideal))
    (x8 : (⟨S128x64, .f32⟩ : BufTy).Contents (Elt Ideal)) (x9 : (⟨S64, .f32⟩ : BufTy).Contents (Elt Ideal)) (x10 : (⟨S128x64, .f32⟩ : BufTy).Contents (Elt Ideal)) (x11 x12 : (⟨S64, .f32⟩ : BufTy).Contents (Elt Ideal))
    (n : Fin 50000) (j : Fin 64) :
    val_main_v105 (F := Ideal) x0 x1 x3 x4 x5 x6 x7 x8 x9 x10 x11 x12 (ix2 n j) =
      r2 (land x1) (src x1) (Ideal.ofBits .f32 0x47435000#32) (Ideal.ofBits .f32 0x3727C5AC#32) (fun n k => x0 (ix2 n k))
        (fun k j => x3 (ix2 k j)) (fun k j => x5 (ix2 k j)) (fun j => x4 (ix1 j)) (fun j => x6 (ix1 j)) (fun j => x7 (ix1 j))
        (fun k j => x8 (ix2 k j)) (fun k j => x10 (ix2 k j)) (fun j => x9 (ix1 j)) (fun j => x11 (ix1 j)) (fun j => x12 (ix1 j)) n j :=
  layer2 x0 x1 x3 x4 x5 x6 x7 x8 x9 x10 x11 x12 _ (fun n k => ref_h1 x0 x1 x3 x4 x5 x6 x7 n k) n j

/-- The reference's third hidden array is the third layer of the second spelling. -/
theorem ref_h3 (x0 : (⟨S50000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S64x128, .f32⟩ : BufTy).Contents (Elt Ideal)) (x6 x7 : (⟨S128, .f32⟩ : BufTy).Contents (Elt Ideal))
    (x8 : (⟨S128x64, .f32⟩ : BufTy).Contents (Elt Ideal)) (x9 : (⟨S64, .f32⟩ : BufTy).Contents (Elt Ideal)) (x10 : (⟨S128x64, .f32⟩ : BufTy).Contents (Elt Ideal)) (x11 x12 : (⟨S64, .f32⟩ : BufTy).Contents (Elt Ideal))
    (x13 : (⟨S64x32, .f32⟩ : BufTy).Contents (Elt Ideal)) (x14 : (⟨S32, .f32⟩ : BufTy).Contents (Elt Ideal)) (x15 : (⟨S64x32, .f32⟩ : BufTy).Contents (Elt Ideal)) (x16 x17 : (⟨S32, .f32⟩ : BufTy).Contents (Elt Ideal))
    (n : Fin 50000) (j : Fin 32) :
    val_main_v156 (F := Ideal) x0 x1 x3 x4 x5 x6 x7 x8 x9 x10 x11 x12 x13 x14 x15 x16 x17 (ix2 n j) =
      r3 (land x1) (src x1) (Ideal.ofBits .f32 0x47435000#32) (Ideal.ofBits .f32 0x3727C5AC#32) (fun n k => x0 (ix2 n k))
        (fun k j => x3 (ix2 k j)) (fun k j => x5 (ix2 k j)) (fun j => x4 (ix1 j)) (fun j => x6 (ix1 j)) (fun j => x7 (ix1 j))
        (fun k j => x8 (ix2 k j)) (fun k j => x10 (ix2 k j)) (fun j => x9 (ix1 j)) (fun j => x11 (ix1 j)) (fun j => x12 (ix1 j))
        (fun k j => x13 (ix2 k j)) (fun k j => x15 (ix2 k j)) (fun j => x14 (ix1 j)) (fun j => x16 (ix1 j)) (fun j => x17 (ix1 j)) n j :=
  layer3 x0 x1 x3 x4 x5 x6 x7 x8 x9 x10 x11 x12 x13 x14 x15 x16 x17 _
    (fun n k => ref_h2 x0 x1 x3 x4 x5 x6 x7 x8 x9 x10 x11 x12 n k) n j

end Cert.ReferenceIdeal.RefValue

end
-- ==== Proof.PreFinCore.lean ====
/-
  Reading a finiteness predicate back, independently of any particular program.

  A predicate of the form "all entries of |x| are below +inf" is printed as: take absolute values entry by entry,
  compare each with the splat of the bit pattern 0x7F800000 (the single-precision +inf), and reduce the resulting
  array of one-bit words by "and", starting from 1.  Over the extended reals the absolute value is max x (-x), the
  pattern denotes the top element, and the comparison is the strict order.  So the reduction being 1 says that
  max (x i) (-(x i)) < top at every index i, which excludes both infinities: every entry is a real number.
-/
import Idealize.ShloMosaic.Lib.ReduceAll
import Idealize.ShloMosaic.Lib.ValueIdx
import Idealize.ShloMosaic.Lib.StableHlo
import Idealize.ShloMosaic.PureOps
import Idealize.ShloMosaic.PureOps.Ideal

noncomputable section

namespace Cert.PreFin

open Idealize.ShloMosaic

/-- The shape of rank zero has exactly one index. -/
instance subsingleton_idx0 : Subsingleton (⟨0, ![]⟩ : Shape).Idx := ⟨fun a b => funext fun d => d.elim0⟩

/-- The single-precision pattern 0x7F800000 denotes the top element of the extended reals. -/
theorem ofBits_inf : Ideal.ofBits .f32 0x7F800000#32 = (⊤ : EReal) := by
  simp [Ideal.ofBits, Ideal.ieee]

/-- An extended real whose absolute value max x (-x) is strictly below the top element is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The printed comparison |x| < +inf, read at the extended reals, says that x is a real number. -/
theorem real_of_cmp (x : EReal)
    (h : Ideal.cmp CmpFPredicate.olt (max x (-x)) (Ideal.ofBits .f32 0x7F800000#32) = 1#1) :
    ∃ r : ℝ, x = (r : EReal) := by
  rw [ofBits_inf] at h
  refine real_of_abs_lt_top x ?_
  by_contra hn
  simp [Ideal.cmp, hn] at h

/-- One printed "all entries finite" test: if the reduction by "and" of the entrywise comparisons |x i| < +inf
    is 1, then every entry of x is a real number. -/
theorem all_real {s : Shape} {axes : List (Fin s.rank)} (x : FVec Ideal s .f32)
    (bc : (⟨0, ![]⟩ : Shape).BroadcastsInDim s (![] : Fin 0 → Fin s.rank))
    (red : s.ReducesTo axes (⟨0, ![]⟩ : Shape)) (hu : 0 < (⟨0, ![]⟩ : Shape).numel)
    (init : IVec (⟨0, ![]⟩ : Shape) 1)
    (e : Host.reduce IntOp.andi
          (cmpf .olt (Host.absf x) (broadcastInDim s ![] bc (constant (F := Ideal) (⟨0, ![]⟩ : Shape) .f32 0x7F800000#32)))
          init red hu ValueIdx.ix0 = 1#1)
    (i : s.Idx) : ∃ r : ℝ, x i = (r : EReal) :=
  real_of_cmp (x i) (Host.reduce_andi_all _ init red hu ValueIdx.ix0 e i)

end Cert.PreFin

end
-- ==== Proof.PreFin.lean ====
/-
  The launch precondition, read back.

  The precondition of the program says that a printed predicate, evaluated on the program's argument arrays, is
  the one-bit word 1.  That predicate tests each of the 22 floating-point arguments for "all entries have absolute
  value below +inf" and takes the conjunction of the 22 tests (the two integer arguments are not tested).  Read at
  the extended reals, each test says that every entry of its array is a real number.  This module splits the
  conjunction once, for arbitrary arrays of the right shapes, and then states the consequence for each argument
  of the program, at every device and every index.
-/
import proofs.«151943_j8564164788539_2_alg».proof.Defs
import proofs.«151943_j8564164788539_2_alg».proof.Proof.PreFinCore

noncomputable section

namespace Cert.PreFin

open Idealize.ShloMosaic Idealize.SL.Sem

/-- If the printed predicate is 1 on 24 arrays, every entry of each of the 22 floating-point arrays is a real
    number: the conjunction of the 22 "all finite" tests is split, and each test is read back entry by entry. -/
theorem split [hP : Cert.Pre_finite_inputs.Facts]
    {a0 : FVec Ideal Cert.Pre_finite_inputs.S50000x64 .f32}
    {a1 : IVec Cert.Pre_finite_inputs.S2x800000 32}
    {a2 : IVec Cert.Pre_finite_inputs.S50000 32}
    {a3 : FVec Ideal Cert.Pre_finite_inputs.S64x128 .f32}
    {a4 : FVec Ideal Cert.Pre_finite_inputs.S128 .f32}
    {a5 : FVec Ideal Cert.Pre_finite_inputs.S64x128 .f32}
    {a6 : FVec Ideal Cert.Pre_finite_inputs.S128 .f32}
    {a7 : FVec Ideal Cert.Pre_finite_inputs.S128 .f32}
    {a8 : FVec Ideal Cert.Pre_finite_inputs.S128x64 .f32}
    {a9 : FVec Ideal Cert.Pre_finite_inputs.S64 .f32}
    {a10 : FVec Ideal Cert.Pre_finite_inputs.S128x64 .f32}
    {a11 : FVec Ideal Cert.Pre_finite_inputs.S64 .f32}
    {a12 : FVec Ideal Cert.Pre_finite_inputs.S64 .f32}
    {a13 : FVec Ideal Cert.Pre_finite_inputs.S64x32 .f32}
    {a14 : FVec Ideal Cert.Pre_finite_inputs.S32 .f32}
    {a15 : FVec Ideal Cert.Pre_finite_inputs.S64x32 .f32}
    {a16 : FVec Ideal Cert.Pre_finite_inputs.S32 .f32}
    {a17 : FVec Ideal Cert.Pre_finite_inputs.S32 .f32}
    {a18 : FVec Ideal Cert.Pre_finite_inputs.S32x128 .f32}
    {a19 : FVec Ideal Cert.Pre_finite_inputs.S128 .f32}
    {a20 : FVec Ideal Cert.Pre_finite_inputs.S128x64 .f32}
    {a21 : FVec Ideal Cert.Pre_finite_inputs.S64 .f32}
    {a22 : FVec Ideal Cert.Pre_finite_inputs.S64x2 .f32}
    {a23 : FVec Ideal Cert.Pre_finite_inputs.S2 .f32}
    (h : Cert.Pre_finite_inputs.fn (F := Ideal) a0 a1 a2 a3 a4 a5 a6 a7 a8 a9 a10 a11 a12 a13 a14 a15 a16 a17 a18 a19 a20 a21 a22 a23 = (fun _ => 1#1)) :
    (∀ i, ∃ r : ℝ, a0 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal))
      ∧ (∀ i, ∃ r : ℝ, a14 i = (r : EReal))
      ∧ (∀ i, ∃ r : ℝ, a15 i = (r : EReal))
      ∧ (∀ i, ∃ r : ℝ, a16 i = (r : EReal))
      ∧ (∀ i, ∃ r : ℝ, a17 i = (r : EReal))
      ∧ (∀ i, ∃ r : ℝ, a18 i = (r : EReal))
      ∧ (∀ i, ∃ r : ℝ, a19 i = (r : EReal))
      ∧ (∀ i, ∃ r : ℝ, a20 i = (r : EReal))
      ∧ (∀ i, ∃ r : ℝ, a21 i = (r : EReal))
      ∧ (∀ i, ∃ r : ℝ, a22 i = (r : EReal))
      ∧ (∀ i, ∃ r : ℝ, a23 i = (r : EReal)) := by
  have e := congrFun h ValueIdx.ix0
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5, Cert.Pre_finite_inputs.fn_part6] at e
  simp only [andi, IntOp.andi_eq_one] at e
  obtain ⟨⟨⟨⟨⟨⟨⟨⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩ := e
  exact ⟨all_real a0 _ _ _ _ h0,
    all_real a3 _ _ _ _ h3,
    all_real a4 _ _ _ _ h4,
    all_real a5 _ _ _ _ h5,
    all_real a6 _ _ _ _ h6,
    all_real a7 _ _ _ _ h7,
    all_real a8 _ _ _ _ h8,
    all_real a9 _ _ _ _ h9,
    all_real a10 _ _ _ _ h10,
    all_real a11 _ _ _ _ h11,
    all_real a12 _ _ _ _ h12,
    all_real a13 _ _ _ _ h13,
    all_real a14 _ _ _ _ h14,
    all_real a15 _ _ _ _ h15,
    all_real a16 _ _ _ _ h16,
    all_real a17 _ _ _ _ h17,
    all_real a18 _ _ _ _ h18,
    all_real a19 _ _ _ _ h19,
    all_real a20 _ _ _ _ h20,
    all_real a21 _ _ _ _ h21,
    all_real a22 _ _ _ _ h22,
    all_real a23 _ _ _ _ h23⟩

/-- Every entry of argument 0 is a real number. -/
theorem arg0 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S50000x64.Idx) :
    ∃ r : ℝ, (m ((c.tc : Thread Cert.KernelIdeal.nD Cert.KernelIdeal.τ).loc Cert.KernelIdeal.main_arg0) : Cert.KernelIdeal.S50000x64.Idx → EReal) i = (r : EReal) :=
  (split (h c)).1 i

/-- Every entry of argument 3 is a real number. -/
theorem arg3 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64x128.Idx) :
    ∃ r : ℝ, (m ((c.tc : Thread Cert.KernelIdeal.nD Cert.KernelIdeal.τ).loc Cert.KernelIdeal.main_arg3) : Cert.KernelIdeal.S64x128.Idx → EReal) i = (r : EReal) :=
  (split (h c)).2.1 i

/-- Every entry of argument 4 is a real number. -/
theorem arg4 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    ∃ r : ℝ, (m ((c.tc : Thread Cert.KernelIdeal.nD Cert.KernelIdeal.τ).loc Cert.KernelIdeal.main_arg4) : Cert.KernelIdeal.S128.Idx → EReal) i = (r : EReal) :=
  (split (h c)).2.2.1 i

/-- Every entry of argument 5 is a real number. -/
theorem arg5 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64x128.Idx) :
    ∃ r : ℝ, (m ((c.tc : Thread Cert.KernelIdeal.nD Cert.KernelIdeal.τ).loc Cert.KernelIdeal.main_arg5) : Cert.KernelIdeal.S64x128.Idx → EReal) i = (r : EReal) :=
  (split (h c)).2.2.2.1 i

/-- Every entry of argument 6 is a real number. -/
theorem arg6 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    ∃ r : ℝ, (m ((c.tc : Thread Cert.KernelIdeal.nD Cert.KernelIdeal.τ).loc Cert.KernelIdeal.main_arg6) : Cert.KernelIdeal.S128.Idx → EReal) i = (r : EReal) :=
  (split (h c)).2.2.2.2.1 i

/-- Every entry of argument 7 is a real number. -/
theorem arg7 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    ∃ r : ℝ, (m ((c.tc : Thread Cert.KernelIdeal.nD Cert.KernelIdeal.τ).loc Cert.KernelIdeal.main_arg7) : Cert.KernelIdeal.S128.Idx → EReal) i = (r : EReal) :=
  (split (h c)).2.2.2.2.2.1 i

/-- Every entry of argument 8 is a real number. -/
theorem arg8 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128x64.Idx) :
    ∃ r : ℝ, (m ((c.tc : Thread Cert.KernelIdeal.nD Cert.KernelIdeal.τ).loc Cert.KernelIdeal.main_arg8) : Cert.KernelIdeal.S128x64.Idx → EReal) i = (r : EReal) :=
  (split (h c)).2.2.2.2.2.2.1 i

/-- Every entry of argument 9 is a real number. -/
theorem arg9 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64.Idx) :
    ∃ r : ℝ, (m ((c.tc : Thread Cert.KernelIdeal.nD Cert.KernelIdeal.τ).loc Cert.KernelIdeal.main_arg9) : Cert.KernelIdeal.S64.Idx → EReal) i = (r : EReal) :=
  (split (h c)).2.2.2.2.2.2.2.1 i

/-- Every entry of argument 10 is a real number. -/
theorem arg10 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128x64.Idx) :
    ∃ r : ℝ, (m ((c.tc : Thread Cert.KernelIdeal.nD Cert.KernelIdeal.τ).loc Cert.KernelIdeal.main_arg10) : Cert.KernelIdeal.S128x64.Idx → EReal) i = (r : EReal) :=
  (split (h c)).2.2.2.2.2.2.2.2.1 i

/-- Every entry of argument 11 is a real number. -/
theorem arg11 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64.Idx) :
    ∃ r : ℝ, (m ((c.tc : Thread Cert.KernelIdeal.nD Cert.KernelIdeal.τ).loc Cert.KernelIdeal.main_arg11) : Cert.KernelIdeal.S64.Idx → EReal) i = (r : EReal) :=
  (split (h c)).2.2.2.2.2.2.2.2.2.1 i

/-- Every entry of argument 12 is a real number. -/
theorem arg12 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64.Idx) :
    ∃ r : ℝ, (m ((c.tc : Thread Cert.KernelIdeal.nD Cert.KernelIdeal.τ).loc Cert.KernelIdeal.main_arg12) : Cert.KernelIdeal.S64.Idx → EReal) i = (r : EReal) :=
  (split (h c)).2.2.2.2.2.2.2.2.2.2.1 i

/-- Every entry of argument 13 is a real number. -/
theorem arg13 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64x32.Idx) :
    ∃ r : ℝ, (m ((c.tc : Thread Cert.KernelIdeal.nD Cert.KernelIdeal.τ).loc Cert.KernelIdeal.main_arg13) : Cert.KernelIdeal.S64x32.Idx → EReal) i = (r : EReal) :=
  (split (h c)).2.2.2.2.2.2.2.2.2.2.2.1 i

/-- Every entry of argument 14 is a real number. -/
theorem arg14 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S32.Idx) :
    ∃ r : ℝ, (m ((c.tc : Thread Cert.KernelIdeal.nD Cert.KernelIdeal.τ).loc Cert.KernelIdeal.main_arg14) : Cert.KernelIdeal.S32.Idx → EReal) i = (r : EReal) :=
  (split (h c)).2.2.2.2.2.2.2.2.2.2.2.2.1 i

/-- Every entry of argument 15 is a real number. -/
theorem arg15 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64x32.Idx) :
    ∃ r : ℝ, (m ((c.tc : Thread Cert.KernelIdeal.nD Cert.KernelIdeal.τ).loc Cert.KernelIdeal.main_arg15) : Cert.KernelIdeal.S64x32.Idx → EReal) i = (r : EReal) :=
  (split (h c)).2.2.2.2.2.2.2.2.2.2.2.2.2.1 i

/-- Every entry of argument 16 is a real number. -/
theorem arg16 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S32.Idx) :
    ∃ r : ℝ, (m ((c.tc : Thread Cert.KernelIdeal.nD Cert.KernelIdeal.τ).loc Cert.KernelIdeal.main_arg16) : Cert.KernelIdeal.S32.Idx → EReal) i = (r : EReal) :=
  (split (h c)).2.2.2.2.2.2.2.2.2.2.2.2.2.2.1 i

/-- Every entry of argument 17 is a real number. -/
theorem arg17 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S32.Idx) :
    ∃ r : ℝ, (m ((c.tc : Thread Cert.KernelIdeal.nD Cert.KernelIdeal.τ).loc Cert.KernelIdeal.main_arg17) : Cert.KernelIdeal.S32.Idx → EReal) i = (r : EReal) :=
  (split (h c)).2.2.2.2.2.2.2.2.2.2.2.2.2.2.2.1 i

/-- Every entry of argument 18 is a real number. -/
theorem arg18 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S32x128.Idx) :
    ∃ r : ℝ, (m ((c.tc : Thread Cert.KernelIdeal.nD Cert.KernelIdeal.τ).loc Cert.KernelIdeal.main_arg18) : Cert.KernelIdeal.S32x128.Idx → EReal) i = (r : EReal) :=
  (split (h c)).2.2.2.2.2.2.2.2.2.2.2.2.2.2.2.2.1 i

/-- Every entry of argument 19 is a real number. -/
theorem arg19 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128.Idx) :
    ∃ r : ℝ, (m ((c.tc : Thread Cert.KernelIdeal.nD Cert.KernelIdeal.τ).loc Cert.KernelIdeal.main_arg19) : Cert.KernelIdeal.S128.Idx → EReal) i = (r : EReal) :=
  (split (h c)).2.2.2.2.2.2.2.2.2.2.2.2.2.2.2.2.2.1 i

/-- Every entry of argument 20 is a real number. -/
theorem arg20 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S128x64.Idx) :
    ∃ r : ℝ, (m ((c.tc : Thread Cert.KernelIdeal.nD Cert.KernelIdeal.τ).loc Cert.KernelIdeal.main_arg20) : Cert.KernelIdeal.S128x64.Idx → EReal) i = (r : EReal) :=
  (split (h c)).2.2.2.2.2.2.2.2.2.2.2.2.2.2.2.2.2.2.1 i

/-- Every entry of argument 21 is a real number. -/
theorem arg21 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64.Idx) :
    ∃ r : ℝ, (m ((c.tc : Thread Cert.KernelIdeal.nD Cert.KernelIdeal.τ).loc Cert.KernelIdeal.main_arg21) : Cert.KernelIdeal.S64.Idx → EReal) i = (r : EReal) :=
  (split (h c)).2.2.2.2.2.2.2.2.2.2.2.2.2.2.2.2.2.2.2.1 i

/-- Every entry of argument 22 is a real number. -/
theorem arg22 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S64x2.Idx) :
    ∃ r : ℝ, (m ((c.tc : Thread Cert.KernelIdeal.nD Cert.KernelIdeal.τ).loc Cert.KernelIdeal.main_arg22) : Cert.KernelIdeal.S64x2.Idx → EReal) i = (r : EReal) :=
  (split (h c)).2.2.2.2.2.2.2.2.2.2.2.2.2.2.2.2.2.2.2.2.1 i

/-- Every entry of argument 23 is a real number. -/
theorem arg23 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S2.Idx) :
    ∃ r : ℝ, (m ((c.tc : Thread Cert.KernelIdeal.nD Cert.KernelIdeal.τ).loc Cert.KernelIdeal.main_arg23) : Cert.KernelIdeal.S2.Idx → EReal) i = (r : EReal) :=
  (split (h c)).2.2.2.2.2.2.2.2.2.2.2.2.2.2.2.2.2.2.2.2.2 i

end Cert.PreFin

end
-- ==== Proof.BridgesFin.lean ====
/-
  The finiteness of the argument arrays, in the curried form of the specification.

  Under the launch precondition every entry of every floating-point argument is a real number.  Here the same
  fact is stated for each argument read as a matrix (a function of a row and a column) or as a vector (a function
  of one coordinate): there is a real-valued matrix, or vector, whose embedding into the extended reals is the
  argument.  The real values are chosen entry by entry.
-/
import proofs.«151943_j8564164788539_2_alg».proof.Proof.PreFin
import proofs.«151943_j8564164788539_2_alg».proof.Proof.SageSpec

noncomputable section

namespace Cert.Bridges

open Idealize.ShloMosaic Idealize.SL.Sem
open Cert.SageSpec Idealize.ShloMosaic.ValueIdx

/-- Argument 0, read as a 50000 × 64 matrix, has only real entries. -/
theorem fin_arg0 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin2 (fun (a : Fin 50000) (b : Fin 64) => (m ((c.tc : Thread Cert.KernelIdeal.nD Cert.KernelIdeal.τ).loc Cert.KernelIdeal.main_arg0) : Cert.KernelIdeal.S50000x64.Idx → EReal) (ix2 a b)) :=
  ⟨fun a b => (Cert.PreFin.arg0 m h c (ix2 a b)).choose, fun a b => (Cert.PreFin.arg0 m h c (ix2 a b)).choose_spec⟩

/-- Argument 3, read as a 64 × 128 matrix, has only real entries. -/
theorem fin_arg3 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin2 (fun (a : Fin 64) (b : Fin 128) => (m ((c.tc : Thread Cert.KernelIdeal.nD Cert.KernelIdeal.τ).loc Cert.KernelIdeal.main_arg3) : Cert.KernelIdeal.S64x128.Idx → EReal) (ix2 a b)) :=
  ⟨fun a b => (Cert.PreFin.arg3 m h c (ix2 a b)).choose, fun a b => (Cert.PreFin.arg3 m h c (ix2 a b)).choose_spec⟩

/-- Argument 5, read as a 64 × 128 matrix, has only real entries. -/
theorem fin_arg5 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin2 (fun (a : Fin 64) (b : Fin 128) => (m ((c.tc : Thread Cert.KernelIdeal.nD Cert.KernelIdeal.τ).loc Cert.KernelIdeal.main_arg5) : Cert.KernelIdeal.S64x128.Idx → EReal) (ix2 a b)) :=
  ⟨fun a b => (Cert.PreFin.arg5 m h c (ix2 a b)).choose, fun a b => (Cert.PreFin.arg5 m h c (ix2 a b)).choose_spec⟩

/-- Argument 8, read as a 128 × 64 matrix, has only real entries. -/
theorem fin_arg8 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin2 (fun (a : Fin 128) (b : Fin 64) => (m ((c.tc : Thread Cert.KernelIdeal.nD Cert.KernelIdeal.τ).loc Cert.KernelIdeal.main_arg8) : Cert.KernelIdeal.S128x64.Idx → EReal) (ix2 a b)) :=
  ⟨fun a b => (Cert.PreFin.arg8 m h c (ix2 a b)).choose, fun a b => (Cert.PreFin.arg8 m h c (ix2 a b)).choose_spec⟩

/-- Argument 10, read as a 128 × 64 matrix, has only real entries. -/
theorem fin_arg10 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin2 (fun (a : Fin 128) (b : Fin 64) => (m ((c.tc : Thread Cert.KernelIdeal.nD Cert.KernelIdeal.τ).loc Cert.KernelIdeal.main_arg10) : Cert.KernelIdeal.S128x64.Idx → EReal) (ix2 a b)) :=
  ⟨fun a b => (Cert.PreFin.arg10 m h c (ix2 a b)).choose, fun a b => (Cert.PreFin.arg10 m h c (ix2 a b)).choose_spec⟩

/-- Argument 13, read as a 64 × 32 matrix, has only real entries. -/
theorem fin_arg13 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin2 (fun (a : Fin 64) (b : Fin 32) => (m ((c.tc : Thread Cert.KernelIdeal.nD Cert.KernelIdeal.τ).loc Cert.KernelIdeal.main_arg13) : Cert.KernelIdeal.S64x32.Idx → EReal) (ix2 a b)) :=
  ⟨fun a b => (Cert.PreFin.arg13 m h c (ix2 a b)).choose, fun a b => (Cert.PreFin.arg13 m h c (ix2 a b)).choose_spec⟩

/-- Argument 15, read as a 64 × 32 matrix, has only real entries. -/
theorem fin_arg15 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin2 (fun (a : Fin 64) (b : Fin 32) => (m ((c.tc : Thread Cert.KernelIdeal.nD Cert.KernelIdeal.τ).loc Cert.KernelIdeal.main_arg15) : Cert.KernelIdeal.S64x32.Idx → EReal) (ix2 a b)) :=
  ⟨fun a b => (Cert.PreFin.arg15 m h c (ix2 a b)).choose, fun a b => (Cert.PreFin.arg15 m h c (ix2 a b)).choose_spec⟩

/-- Argument 18, read as a 32 × 128 matrix, has only real entries. -/
theorem fin_arg18 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin2 (fun (a : Fin 32) (b : Fin 128) => (m ((c.tc : Thread Cert.KernelIdeal.nD Cert.KernelIdeal.τ).loc Cert.KernelIdeal.main_arg18) : Cert.KernelIdeal.S32x128.Idx → EReal) (ix2 a b)) :=
  ⟨fun a b => (Cert.PreFin.arg18 m h c (ix2 a b)).choose, fun a b => (Cert.PreFin.arg18 m h c (ix2 a b)).choose_spec⟩

/-- Argument 20, read as a 128 × 64 matrix, has only real entries. -/
theorem fin_arg20 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin2 (fun (a : Fin 128) (b : Fin 64) => (m ((c.tc : Thread Cert.KernelIdeal.nD Cert.KernelIdeal.τ).loc Cert.KernelIdeal.main_arg20) : Cert.KernelIdeal.S128x64.Idx → EReal) (ix2 a b)) :=
  ⟨fun a b => (Cert.PreFin.arg20 m h c (ix2 a b)).choose, fun a b => (Cert.PreFin.arg20 m h c (ix2 a b)).choose_spec⟩

/-- Argument 22, read as a 64 × 2 matrix, has only real entries. -/
theorem fin_arg22 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin2 (fun (a : Fin 64) (b : Fin 2) => (m ((c.tc : Thread Cert.KernelIdeal.nD Cert.KernelIdeal.τ).loc Cert.KernelIdeal.main_arg22) : Cert.KernelIdeal.S64x2.Idx → EReal) (ix2 a b)) :=
  ⟨fun a b => (Cert.PreFin.arg22 m h c (ix2 a b)).choose, fun a b => (Cert.PreFin.arg22 m h c (ix2 a b)).choose_spec⟩

/-- Argument 4, read as a vector of length 128, has only real entries. -/
theorem fin_arg4 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin1 (fun (a : Fin 128) => (m ((c.tc : Thread Cert.KernelIdeal.nD Cert.KernelIdeal.τ).loc Cert.KernelIdeal.main_arg4) : Cert.KernelIdeal.S128.Idx → EReal) (ix1 a)) :=
  ⟨fun a => (Cert.PreFin.arg4 m h c (ix1 a)).choose, fun a => (Cert.PreFin.arg4 m h c (ix1 a)).choose_spec⟩

/-- Argument 6, read as a vector of length 128, has only real entries. -/
theorem fin_arg6 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin1 (fun (a : Fin 128) => (m ((c.tc : Thread Cert.KernelIdeal.nD Cert.KernelIdeal.τ).loc Cert.KernelIdeal.main_arg6) : Cert.KernelIdeal.S128.Idx → EReal) (ix1 a)) :=
  ⟨fun a => (Cert.PreFin.arg6 m h c (ix1 a)).choose, fun a => (Cert.PreFin.arg6 m h c (ix1 a)).choose_spec⟩

/-- Argument 7, read as a vector of length 128, has only real entries. -/
theorem fin_arg7 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin1 (fun (a : Fin 128) => (m ((c.tc : Thread Cert.KernelIdeal.nD Cert.KernelIdeal.τ).loc Cert.KernelIdeal.main_arg7) : Cert.KernelIdeal.S128.Idx → EReal) (ix1 a)) :=
  ⟨fun a => (Cert.PreFin.arg7 m h c (ix1 a)).choose, fun a => (Cert.PreFin.arg7 m h c (ix1 a)).choose_spec⟩

/-- Argument 9, read as a vector of length 64, has only real entries. -/
theorem fin_arg9 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin1 (fun (a : Fin 64) => (m ((c.tc : Thread Cert.KernelIdeal.nD Cert.KernelIdeal.τ).loc Cert.KernelIdeal.main_arg9) : Cert.KernelIdeal.S64.Idx → EReal) (ix1 a)) :=
  ⟨fun a => (Cert.PreFin.arg9 m h c (ix1 a)).choose, fun a => (Cert.PreFin.arg9 m h c (ix1 a)).choose_spec⟩

/-- Argument 11, read as a vector of length 64, has only real entries. -/
theorem fin_arg11 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin1 (fun (a : Fin 64) => (m ((c.tc : Thread Cert.KernelIdeal.nD Cert.KernelIdeal.τ).loc Cert.KernelIdeal.main_arg11) : Cert.KernelIdeal.S64.Idx → EReal) (ix1 a)) :=
  ⟨fun a => (Cert.PreFin.arg11 m h c (ix1 a)).choose, fun a => (Cert.PreFin.arg11 m h c (ix1 a)).choose_spec⟩

/-- Argument 12, read as a vector of length 64, has only real entries. -/
theorem fin_arg12 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin1 (fun (a : Fin 64) => (m ((c.tc : Thread Cert.KernelIdeal.nD Cert.KernelIdeal.τ).loc Cert.KernelIdeal.main_arg12) : Cert.KernelIdeal.S64.Idx → EReal) (ix1 a)) :=
  ⟨fun a => (Cert.PreFin.arg12 m h c (ix1 a)).choose, fun a => (Cert.PreFin.arg12 m h c (ix1 a)).choose_spec⟩

/-- Argument 14, read as a vector of length 32, has only real entries. -/
theorem fin_arg14 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin1 (fun (a : Fin 32) => (m ((c.tc : Thread Cert.KernelIdeal.nD Cert.KernelIdeal.τ).loc Cert.KernelIdeal.main_arg14) : Cert.KernelIdeal.S32.Idx → EReal) (ix1 a)) :=
  ⟨fun a => (Cert.PreFin.arg14 m h c (ix1 a)).choose, fun a => (Cert.PreFin.arg14 m h c (ix1 a)).choose_spec⟩

/-- Argument 16, read as a vector of length 32, has only real entries. -/
theorem fin_arg16 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin1 (fun (a : Fin 32) => (m ((c.tc : Thread Cert.KernelIdeal.nD Cert.KernelIdeal.τ).loc Cert.KernelIdeal.main_arg16) : Cert.KernelIdeal.S32.Idx → EReal) (ix1 a)) :=
  ⟨fun a => (Cert.PreFin.arg16 m h c (ix1 a)).choose, fun a => (Cert.PreFin.arg16 m h c (ix1 a)).choose_spec⟩

/-- Argument 17, read as a vector of length 32, has only real entries. -/
theorem fin_arg17 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin1 (fun (a : Fin 32) => (m ((c.tc : Thread Cert.KernelIdeal.nD Cert.KernelIdeal.τ).loc Cert.KernelIdeal.main_arg17) : Cert.KernelIdeal.S32.Idx → EReal) (ix1 a)) :=
  ⟨fun a => (Cert.PreFin.arg17 m h c (ix1 a)).choose, fun a => (Cert.PreFin.arg17 m h c (ix1 a)).choose_spec⟩

/-- Argument 19, read as a vector of length 128, has only real entries. -/
theorem fin_arg19 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin1 (fun (a : Fin 128) => (m ((c.tc : Thread Cert.KernelIdeal.nD Cert.KernelIdeal.τ).loc Cert.KernelIdeal.main_arg19) : Cert.KernelIdeal.S128.Idx → EReal) (ix1 a)) :=
  ⟨fun a => (Cert.PreFin.arg19 m h c (ix1 a)).choose, fun a => (Cert.PreFin.arg19 m h c (ix1 a)).choose_spec⟩

/-- Argument 21, read as a vector of length 64, has only real entries. -/
theorem fin_arg21 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin1 (fun (a : Fin 64) => (m ((c.tc : Thread Cert.KernelIdeal.nD Cert.KernelIdeal.τ).loc Cert.KernelIdeal.main_arg21) : Cert.KernelIdeal.S64.Idx → EReal) (ix1 a)) :=
  ⟨fun a => (Cert.PreFin.arg21 m h c (ix1 a)).choose, fun a => (Cert.PreFin.arg21 m h c (ix1 a)).choose_spec⟩

/-- Argument 23, read as a vector of length 2, has only real entries. -/
theorem fin_arg23 [hP : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    Fin1 (fun (a : Fin 2) => (m ((c.tc : Thread Cert.KernelIdeal.nD Cert.KernelIdeal.τ).loc Cert.KernelIdeal.main_arg23) : Cert.KernelIdeal.S2.Idx → EReal) (ix1 a)) :=
  ⟨fun a => (Cert.PreFin.arg23 m h c (ix1 a)).choose, fun a => (Cert.PreFin.arg23 m h c (ix1 a)).choose_spec⟩

end Cert.Bridges

end
-- ==== Proof.BridgesCols.lean ====
/-
  The two edge columns are the same on both sides.

  Each program begins by slicing the 2 × E edge list into its source row and its destination row, replacing a
  negative source word w by w + N (N the number of nodes), and laying each row out as an E × 1 column.  The first
  program does this in the host stretch before its first region; the second does it in its first operations.  The
  operations are the same, over each program's own copies of the shape constants, so the columns are equal as
  functions of the edge list.
-/
import proofs.«151943_j8564164788539_2_alg».proof.Proof.KWalkCols
import proofs.«151943_j8564164788539_2_alg».proof.Proof.RefRead

noncomputable section

namespace Cert.Bridges

open Idealize.ShloMosaic Idealize.ShloMosaic.StableHlo Idealize.ShloMosaic.TcCoe Idealize.SL.Sem

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The source column of the first program is the second program's source column of the same edge list. -/
theorem srcCol_ref :
    Cert.KernelIdeal.KW.srcCol m ρ c
      = Cert.ReferenceIdeal.ReadP.val_main_v9 (F := Ideal)
          (m ((c : Thread Cert.KernelIdeal.nD Cert.KernelIdeal.τ).loc Cert.KernelIdeal.main_arg1)) := by
  unfold Cert.KernelIdeal.KW.srcCol
  dsimp only [Cert.KernelIdeal.Gen.W1]
  after_results_simp
  unfold Cert.ReferenceIdeal.ReadP.val_main_v9 Cert.ReferenceIdeal.ReadP.val_main_v8 Cert.ReferenceIdeal.ReadP.val_main_v7
    Cert.ReferenceIdeal.ReadP.val_main_v6 Cert.ReferenceIdeal.ReadP.val_main_c_0 Cert.ReferenceIdeal.ReadP.val_main_v5
    Cert.ReferenceIdeal.ReadP.val_main_v4 Cert.ReferenceIdeal.ReadP.val_main_c Cert.ReferenceIdeal.ReadP.val_main_v1
    Cert.ReferenceIdeal.ReadP.val_main_v0
  rfl

/-- The destination column of the first program is the second program's destination column of the same edge list. -/
theorem dstCol_ref :
    Cert.KernelIdeal.KW.dstCol m ρ c
      = Cert.ReferenceIdeal.ReadP.val_main_v12 (F := Ideal)
          (m ((c : Thread Cert.KernelIdeal.nD Cert.KernelIdeal.τ).loc Cert.KernelIdeal.main_arg1)) := by
  unfold Cert.KernelIdeal.KW.dstCol
  dsimp only [Cert.KernelIdeal.Gen.W1]
  after_results_simp
  unfold Cert.ReferenceIdeal.ReadP.val_main_v12 Cert.ReferenceIdeal.ReadP.val_main_v3 Cert.ReferenceIdeal.ReadP.val_main_v2
  rfl

end Cert.Bridges

end
-- ==== Proof.BridgesTail.lean ====
/-
  The tails are one function.

  Each program ends by adding the rows of its last normalised feature array into 512 pooled rows, by the
  segment index, and applying three dense layers (product, bias spread along the rows, and a maximum with
  zero after the first two).  The two compositions are written over each program's own copies of the shape
  constants and dimension records, which are equal; so they are the same function of the feature array, the
  segment index and the dense layers' weights and biases.
-/
import proofs.«151943_j8564164788539_2_alg».proof.Proof.KWalkTail
import proofs.«151943_j8564164788539_2_alg».proof.Proof.RefFoldT

noncomputable section

namespace Cert.Bridges

open Idealize.ShloMosaic

/-- The second program's tail is the first program's. -/
theorem tailR_eq_tailK : Cert.ReferenceIdeal.RefFold.tailR = Cert.KernelIdeal.KW.tailK := by
  funext h a2 a18 a19 a20 a21 a22 a23
  unfold Cert.ReferenceIdeal.RefFold.tailR Cert.KernelIdeal.KW.tailK
  rfl

end Cert.Bridges

end
-- ==== Proof.SageMathCoe.lean ====
/-
  Coercion lemmas from the reals into the extended reals: a finite sum, a maximum, a quotient by a
  nonzero real and a reciprocal square root of a positive real, of coercions, are coercions.  Together
  with Mathlib's `EReal.coe_add`, `EReal.coe_sub`, `EReal.coe_mul` these let every stage of the network
  be computed in the reals when its inputs are real arrays.
-/
import proofs.«151943_j8564164788539_2_alg».proof.Proof.SageSpec

noncomputable section

namespace Cert.SageMath

open Cert.SageSpec Idealize.ShloMosaic

/-- The coercion of a real matrix. -/
def up2 {A B : ℕ} (r : Fin A → Fin B → ℝ) : Fin A → Fin B → EReal := fun a b => (r a b : EReal)
/-- The coercion of a real vector. -/
def up1 {A : ℕ} (r : Fin A → ℝ) : Fin A → EReal := fun a => (r a : EReal)

@[simp] theorem up2_apply {A B : ℕ} (r : Fin A → Fin B → ℝ) (a : Fin A) (b : Fin B) :
    up2 r a b = (r a b : EReal) := rfl
@[simp] theorem up1_apply {A : ℕ} (r : Fin A → ℝ) (a : Fin A) : up1 r a = (r a : EReal) := rfl

theorem fin2_iff {A B : ℕ} (f : Fin A → Fin B → EReal) : Fin2 f ↔ ∃ r, f = up2 r :=
  ⟨fun ⟨r, h⟩ => ⟨r, funext fun a => funext fun b => h a b⟩, fun ⟨r, h⟩ => ⟨r, fun a b => by rw [h]; rfl⟩⟩

theorem fin1_iff {A : ℕ} (f : Fin A → EReal) : Fin1 f ↔ ∃ r, f = up1 r :=
  ⟨fun ⟨r, h⟩ => ⟨r, funext fun a => h a⟩, fun ⟨r, h⟩ => ⟨r, fun a => by rw [h]; rfl⟩⟩

theorem fin2_up2 {A B : ℕ} (r : Fin A → Fin B → ℝ) : Fin2 (up2 r) := ⟨r, fun _ _ => rfl⟩
theorem fin1_up1 {A : ℕ} (r : Fin A → ℝ) : Fin1 (up1 r) := ⟨r, fun _ => rfl⟩

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of reals is the maximum of the coercions. -/
theorem coe_max (x y : ℝ) : ((max x y : ℝ) : EReal) = max (x : EReal) (y : EReal) :=
  EReal.coe_strictMono.monotone.map_max

/-- A quotient of reals by a nonzero real. -/
theorem div_real (x : ℝ) {y : ℝ} (hy : y ≠ 0) :
    Ideal.div (x : EReal) (y : EReal) = ((x * (1 / y) : ℝ) : EReal) := by
  rw [Ideal.div_coe hy, EReal.coe_mul]

/-- The reciprocal square root of a positive real. -/
theorem rsqrt_real {x : ℝ} (hx : 0 < x) :
    Ideal.rsqrt (x : EReal) = (((Real.sqrt x)⁻¹ : ℝ) : EReal) := by
  rw [Ideal.rsqrt_coe, if_neg (not_lt.mpr hx.le), if_neg hx.ne']

end Cert.SageMath

end
-- ==== Proof.SageMathBN.lean ====
/-
  Column normalisation on real arrays.  For a real column `p` of length `N > 0` with mean
  `μ = (Σ p) / N`, the mean of squares minus the squared mean equals the mean of squared deviations,
  `(Σ p²) / N − μ² = (Σ (p − μ)²) / N ≥ 0`; so clipping it at zero changes nothing and the two
  spellings of the variance, hence of the normalisation, agree.  The normalised array is again real.
-/
import proofs.«151943_j8564164788539_2_alg».proof.Proof.SageMathCoe

noncomputable section

namespace Cert.SageMath

open Cert.SageSpec Idealize.ShloMosaic

variable {N D : ℕ}

/-- Real column mean. -/
def meanR (c : ℝ) (p : Fin N → Fin D → ℝ) (j : Fin D) : ℝ := (∑ n, p n j) * (1 / c)

/-- Real variance, mean of squares minus squared mean, clipped at zero. -/
def varKR (c : ℝ) (p : Fin N → Fin D → ℝ) (j : Fin D) : ℝ :=
  max ((∑ n, p n j * p n j) * (1 / c) - meanR c p j * meanR c p j) 0

/-- Real variance, mean of squared deviations. -/
def varRR (c : ℝ) (p : Fin N → Fin D → ℝ) (j : Fin D) : ℝ :=
  (∑ n, (p n j - meanR c p j) * (p n j - meanR c p j)) * (1 / c)

/-- Real normalisation with the mean-of-squared-deviations variance. -/
def bnRR (c e : ℝ) (p : Fin N → Fin D → ℝ) (g be : Fin D → ℝ) (n : Fin N) (j : Fin D) : ℝ :=
  ((p n j - meanR c p j) * (Real.sqrt (varRR c p j + e))⁻¹) * g j + be j

theorem colsum_up (p : Fin N → Fin D → ℝ) (j : Fin D) :
    colsum (up2 p) j = ((∑ n, p n j : ℝ) : EReal) := by
  rw [coe_sum]; rfl

theorem mean_up {c : ℝ} (hc : c ≠ 0) (p : Fin N → Fin D → ℝ) (j : Fin D) :
    mean (c : EReal) (up2 p) j = (meanR c p j : EReal) := by
  rw [mean, colsum_up, div_real _ hc]; rfl

theorem varK_up {c : ℝ} (hc : c ≠ 0) (p : Fin N → Fin D → ℝ) (j : Fin D) :
    varK (c : EReal) (up2 p) j = (varKR c p j : EReal) := by
  have h : (fun n j => up2 p n j * up2 p n j) = up2 (fun n j => p n j * p n j) := by
    funext n j; simp only [up2_apply, EReal.coe_mul]
  unfold varK
  rw [h, colsum_up, div_real _ hc, mean_up hc, ← EReal.coe_mul, ← EReal.coe_sub]
  exact (coe_max _ 0).symm

theorem varR_up {c : ℝ} (hc : c ≠ 0) (p : Fin N → Fin D → ℝ) (j : Fin D) :
    varR (c : EReal) (up2 p) j = (varRR c p j : EReal) := by
  have h : (fun n j => (up2 p n j - mean (c : EReal) (up2 p) j) * (up2 p n j - mean (c : EReal) (up2 p) j))
      = up2 (fun n j => (p n j - meanR c p j) * (p n j - meanR c p j)) := by
    funext n j; simp only [up2_apply, mean_up hc, EReal.coe_mul, EReal.coe_sub]
  unfold varR
  rw [h, colsum_up, div_real _ hc]; rfl

theorem varRR_nonneg {c : ℝ} (hc : 0 ≤ c) (p : Fin N → Fin D → ℝ) (j : Fin D) : 0 ≤ varRR c p j :=
  mul_nonneg (Finset.sum_nonneg fun n _ => mul_self_nonneg _) (by positivity)

/-- Mean of squares minus squared mean is the mean of squared deviations, when the divisor is the
    number of rows. -/
theorem varKR_eq_varRR (hN : 0 < N) (p : Fin N → Fin D → ℝ) (j : Fin D) :
    varKR ((N : ℕ) : ℝ) p j = varRR ((N : ℕ) : ℝ) p j := by
  have hN' : ((N : ℕ) : ℝ) ≠ 0 := Nat.cast_ne_zero.mpr hN.ne'
  have key : (∑ n, p n j * p n j) * (1 / ((N : ℕ) : ℝ)) - meanR ((N : ℕ) : ℝ) p j * meanR ((N : ℕ) : ℝ) p j
      = varRR ((N : ℕ) : ℝ) p j := by
    unfold varRR
    have hS : ∑ n, p n j = meanR ((N : ℕ) : ℝ) p j * ((N : ℕ) : ℝ) := by
      rw [meanR]; field_simp
    generalize meanR ((N : ℕ) : ℝ) p j = μ at hS ⊢
    have h : ∀ n, (p n j - μ) * (p n j - μ) = p n j * p n j - 2 * μ * p n j + μ * μ := by
      intro n; ring
    simp only [h]
    rw [Finset.sum_add_distrib, Finset.sum_sub_distrib, ← Finset.mul_sum, Finset.sum_const,
      Finset.card_univ, Fintype.card_fin, nsmul_eq_mul, hS]
    field_simp
    ring
  unfold varKR
  rw [key]
  exact max_eq_left (varRR_nonneg (Nat.cast_nonneg N) p j)

/-- The two spellings of the column variance agree on a real array. -/
theorem varK_eq_varR (hN : 0 < N) (cN : EReal) (hcN : cN = (((N : ℕ) : ℝ) : EReal))
    (P : Fin N → Fin D → EReal) (hP : Fin2 P) (j : Fin D) : varK cN P j = varR cN P j := by
  have hN' : ((N : ℕ) : ℝ) ≠ 0 := Nat.cast_ne_zero.mpr hN.ne'
  obtain ⟨p, rfl⟩ := (fin2_iff P).mp hP
  subst hcN
  rw [varK_up hN', varR_up hN', varKR_eq_varRR hN]

/-- The two spellings of the normalisation agree on a real array. -/
theorem bnK_eq_bnR (hN : 0 < N) (cN eps : EReal) (hcN : cN = (((N : ℕ) : ℝ) : EReal))
    (P : Fin N → Fin D → EReal) (hP : Fin2 P) (g be : Fin D → EReal) :
    bnK cN eps P g be = bnR cN eps P g be := by
  have h : invK cN eps P = fun j => Ideal.rsqrt (varR cN P j + eps) :=
    funext fun j => by rw [invK, varK_eq_varR hN cN hcN P hP j]
  rw [bnK, bnR, h]

/-- The normalisation of a real array by real scale and shift, with a positive `eps`, is the coercion
    of the real formula. -/
theorem bnR_up {c e : ℝ} (hc : 0 < c) (he : 0 < e) (p : Fin N → Fin D → ℝ) (g be : Fin D → ℝ) :
    bnR (c : EReal) (e : EReal) (up2 p) (up1 g) (up1 be) = up2 (bnRR c e p g be) := by
  have hpos : ∀ j, 0 < varRR c p j + e := fun j => add_pos_of_nonneg_of_pos (varRR_nonneg hc.le p j) he
  funext n j
  simp only [bnR, affine, mean_up hc.ne', varR_up hc.ne', ← EReal.coe_add, rsqrt_real (hpos j),
    up2_apply, up1_apply, ← EReal.coe_sub, ← EReal.coe_mul, bnRR]

theorem bnR_fin2 (hN : 0 < N) (cN eps : EReal) (hcN : cN = (((N : ℕ) : ℝ) : EReal))
    (e : ℝ) (he : 0 < e) (heps : eps = (e : EReal))
    (P : Fin N → Fin D → EReal) (hP : Fin2 P) (g be : Fin D → EReal) (hg : Fin1 g) (hbe : Fin1 be) :
    Fin2 (bnR cN eps P g be) := by
  obtain ⟨p, rfl⟩ := (fin2_iff P).mp hP
  obtain ⟨g', rfl⟩ := (fin1_iff g).mp hg
  obtain ⟨be', rfl⟩ := (fin1_iff be).mp hbe
  subst hcN heps
  rw [bnR_up (Nat.cast_pos.mpr hN) he]
  exact fin2_up2 _

end Cert.SageMath

end
-- ==== Proof.SageMathAgg.lean ====
/-
  Matrix product, neighbour count and mean aggregation on real arrays.  The neighbour count is a real
  number at least one, so the quotient by it is the product with its real reciprocal; and aggregation,
  being a finite sum of rows scaled by a row-wise constant, commutes with a matrix product on the right:
  `agg (H · W) = (agg H) · W`.
-/
import proofs.«151943_j8564164788539_2_alg».proof.Proof.SageMathCoe

noncomputable section

namespace Cert.SageMath

open Cert.SageSpec Idealize.ShloMosaic

variable {N E K D : ℕ}

/-- Real matrix product. -/
def mmR (A : Fin N → Fin K → ℝ) (W : Fin K → Fin D → ℝ) (n : Fin N) (j : Fin D) : ℝ :=
  ∑ k, A n k * W k j

/-- Real neighbour count, at least one. -/
def cntR (land : Fin E → Option (Fin N)) (n : Fin N) : ℝ :=
  max (∑ _e ∈ Finset.univ.filter (fun e => land e = some n), (1 : ℝ)) 1

/-- Real aggregation with real divisors. -/
def aggR (land : Fin E → Option (Fin N)) (src : Fin E → Fin N) (d : Fin N → ℝ)
    (x : Fin N → Fin D → ℝ) (n : Fin N) (j : Fin D) : ℝ :=
  (∑ e ∈ Finset.univ.filter (fun e => land e = some n), x (src e) j) * (1 / d n)

/-- Real pre-activation. -/
def preAR (M X : Fin N → Fin K → ℝ) (Wl Wr : Fin K → Fin D → ℝ) (b : Fin D → ℝ)
    (n : Fin N) (j : Fin D) : ℝ :=
  max ((mmR M Wl n j + b j) + mmR X Wr n j) 0

theorem mm_up (A : Fin N → Fin K → ℝ) (W : Fin K → Fin D → ℝ) : mm (up2 A) (up2 W) = up2 (mmR A W) := by
  funext n j
  simp only [mm, up2_apply, mmR, coe_sum, EReal.coe_mul]

theorem cnt_up (land : Fin E → Option (Fin N)) : cnt land = up1 (cntR land) := by
  funext n
  simp only [cnt, up1_apply, cntR, coe_max, coe_sum, EReal.coe_one]

theorem cntR_pos (land : Fin E → Option (Fin N)) (n : Fin N) : 0 < cntR land n :=
  lt_of_lt_of_le one_pos (le_max_right _ _)

theorem agg_up (land : Fin E → Option (Fin N)) (src : Fin E → Fin N) (d : Fin N → ℝ)
    (hd : ∀ n, d n ≠ 0) (x : Fin N → Fin D → ℝ) :
    agg land src (up1 d) (up2 x) = up2 (aggR land src d x) := by
  funext n j
  simp only [agg, up1_apply, up2_apply]
  rw [← coe_sum, div_real _ (hd n)]
  rfl

theorem preA_up (M X : Fin N → Fin K → ℝ) (Wl Wr : Fin K → Fin D → ℝ) (b : Fin D → ℝ) :
    preA (up2 M) (up2 X) (up2 Wl) (up2 Wr) (up1 b) = up2 (preAR M X Wl Wr b) := by
  funext n j
  simp only [preA, mm_up, up2_apply, up1_apply, ← EReal.coe_add, preAR]
  exact (coe_max _ 0).symm

/-- In the reals, aggregation commutes with a matrix product on the right. -/
theorem aggR_mmR (land : Fin E → Option (Fin N)) (src : Fin E → Fin N) (d : Fin N → ℝ)
    (H : Fin N → Fin K → ℝ) (W : Fin K → Fin D → ℝ) :
    aggR land src d (mmR H W) = mmR (aggR land src d H) W := by
  funext n j
  simp only [aggR, mmR]
  rw [Finset.sum_comm, Finset.sum_mul]
  refine Finset.sum_congr rfl fun k _ => ?_
  rw [← Finset.sum_mul]
  ring

/-- Aggregation by the neighbour count commutes with a matrix product on the right, on real arrays. -/
theorem agg_mm (land : Fin E → Option (Fin N)) (src : Fin E → Fin N)
    (H : Fin N → Fin K → EReal) (hH : Fin2 H) (W : Fin K → Fin D → EReal) (hW : Fin2 W) :
    agg land src (cnt land) (mm H W) = mm (agg land src (cnt land) H) W := by
  have hd : ∀ n, cntR land n ≠ 0 := fun n => (cntR_pos land n).ne'
  obtain ⟨h, rfl⟩ := (fin2_iff H).mp hH
  obtain ⟨w, rfl⟩ := (fin2_iff W).mp hW
  rw [cnt_up, mm_up, agg_up _ _ _ hd, agg_up _ _ _ hd, mm_up, aggR_mmR]

/-- The pre-activation fed with the aggregated product is the pre-activation that multiplies the
    aggregate, on real arrays. -/
theorem preB_agg_mm (land : Fin E → Option (Fin N)) (src : Fin E → Fin N)
    (H : Fin N → Fin K → EReal) (hH : Fin2 H) (Wl : Fin K → Fin D → EReal) (hWl : Fin2 Wl)
    (Wr : Fin K → Fin D → EReal) (b : Fin D → EReal) :
    preB (agg land src (cnt land) (mm H Wl)) H Wr b = preA (agg land src (cnt land) H) H Wl Wr b := by
  funext n j
  rw [preB, preA, agg_mm land src H hH Wl hWl]

/-- The pre-activation of a layer on real arrays is a real array. -/
theorem preA_agg_fin2 (land : Fin E → Option (Fin N)) (src : Fin E → Fin N)
    (H : Fin N → Fin K → EReal) (hH : Fin2 H) (Wl Wr : Fin K → Fin D → EReal) (hWl : Fin2 Wl)
    (hWr : Fin2 Wr) (b : Fin D → EReal) (hb : Fin1 b) :
    Fin2 (preA (agg land src (cnt land) H) H Wl Wr b) := by
  have hd : ∀ n, cntR land n ≠ 0 := fun n => (cntR_pos land n).ne'
  obtain ⟨h, rfl⟩ := (fin2_iff H).mp hH
  obtain ⟨wl, rfl⟩ := (fin2_iff Wl).mp hWl
  obtain ⟨wr, rfl⟩ := (fin2_iff Wr).mp hWr
  obtain ⟨b', rfl⟩ := (fin1_iff b).mp hb
  rw [cnt_up, agg_up _ _ _ hd, preA_up]
  exact fin2_up2 _

end Cert.SageMath

end
-- ==== Proof.SageMathNet.lean ====
/-
  The three layers.  Each layer of the first spelling equals the same layer of the second: the
  aggregated product is the product of the aggregate, and on the real pre-activation the two column
  normalisations agree.  Every layer's output is a real array, which feeds the next layer.
-/
import proofs.«151943_j8564164788539_2_alg».proof.Proof.SageMathBN
import proofs.«151943_j8564164788539_2_alg».proof.Proof.SageMathAgg

noncomputable section

namespace Cert.SageMath

open Cert.SageSpec Idealize.ShloMosaic

section Layer

variable {N E K D : ℕ}

/-- The output of one layer (second spelling) on real arrays is a real array. -/
theorem layer_fin2 (hN : 0 < N) (land : Fin E → Option (Fin N)) (src : Fin E → Fin N) (cN eps : EReal)
    (hcN : cN = (((N : ℕ) : ℝ) : EReal)) (e : ℝ) (he : 0 < e) (heps : eps = (e : EReal))
    (H : Fin N → Fin K → EReal) (hH : Fin2 H) (Wl Wr : Fin K → Fin D → EReal) (hWl : Fin2 Wl)
    (hWr : Fin2 Wr) (b g be : Fin D → EReal) (hb : Fin1 b) (hg : Fin1 g) (hbe : Fin1 be) :
    Fin2 (bnR cN eps (preA (agg land src (cnt land) H) H Wl Wr b) g be) :=
  bnR_fin2 hN cN eps hcN e he heps _ (preA_agg_fin2 land src H hH Wl Wr hWl hWr b hb) g be hg hbe

/-- One layer with the left weight after the aggregation: the two normalisations agree. -/
theorem layerA_eq (hN : 0 < N) (land : Fin E → Option (Fin N)) (src : Fin E → Fin N) (cN eps : EReal)
    (hcN : cN = (((N : ℕ) : ℝ) : EReal))
    (H : Fin N → Fin K → EReal) (hH : Fin2 H) (Wl Wr : Fin K → Fin D → EReal) (hWl : Fin2 Wl)
    (hWr : Fin2 Wr) (b g be : Fin D → EReal) (hb : Fin1 b) :
    bnK cN eps (preA (agg land src (cnt land) H) H Wl Wr b) g be
      = bnR cN eps (preA (agg land src (cnt land) H) H Wl Wr b) g be :=
  bnK_eq_bnR hN cN eps hcN _ (preA_agg_fin2 land src H hH Wl Wr hWl hWr b hb) g be

/-- One layer with the product taken before the aggregation equals the layer of the second spelling. -/
theorem layerB_eq (hN : 0 < N) (land : Fin E → Option (Fin N)) (src : Fin E → Fin N) (cN eps : EReal)
    (hcN : cN = (((N : ℕ) : ℝ) : EReal))
    (H : Fin N → Fin K → EReal) (hH : Fin2 H) (Wl Wr : Fin K → Fin D → EReal) (hWl : Fin2 Wl)
    (hWr : Fin2 Wr) (b g be : Fin D → EReal) (hb : Fin1 b) :
    bnK cN eps (preB (agg land src (cnt land) (mm H Wl)) H Wr b) g be
      = bnR cN eps (preA (agg land src (cnt land) H) H Wl Wr b) g be := by
  rw [preB_agg_mm land src H hH Wl hWl Wr b]
  exact layerA_eq hN land src cN eps hcN H hH Wl Wr hWl hWr b g be hb

end Layer

section Network

variable {N E D0 D1 D2 D3 : ℕ}

theorem k1_eq_r1 (hN : 0 < N)
    (land : Fin E → Option (Fin N)) (src : Fin E → Fin N) (cN eps : EReal)
    (hcN : cN = (((N : ℕ) : ℝ) : EReal))
    (X : Fin N → Fin D0 → EReal)
    (W1l W1r : Fin D0 → Fin D1 → EReal) (b1 g1 be1 : Fin D1 → EReal)
    (hX : Fin2 X) (hW1l : Fin2 W1l) (hW1r : Fin2 W1r) (hb1 : Fin1 b1) :
    k1 land src cN eps X W1l W1r b1 g1 be1 = r1 land src cN eps X W1l W1r b1 g1 be1 := by
  unfold k1 r1
  exact layerA_eq hN land src cN eps hcN X hX W1l W1r hW1l hW1r b1 g1 be1 hb1

theorem r1_fin2 (hN : 0 < N)
    (land : Fin E → Option (Fin N)) (src : Fin E → Fin N) (cN eps : EReal)
    (hcN : cN = (((N : ℕ) : ℝ) : EReal)) (e : ℝ) (he : 0 < e) (heps : eps = (e : EReal))
    (X : Fin N → Fin D0 → EReal)
    (W1l W1r : Fin D0 → Fin D1 → EReal) (b1 g1 be1 : Fin D1 → EReal)
    (hX : Fin2 X) (hW1l : Fin2 W1l) (hW1r : Fin2 W1r) (hb1 : Fin1 b1) (hg1 : Fin1 g1) (hbe1 : Fin1 be1) :
    Fin2 (r1 land src cN eps X W1l W1r b1 g1 be1) := by
  unfold r1
  exact layer_fin2 hN land src cN eps hcN e he heps X hX W1l W1r hW1l hW1r b1 g1 be1 hb1 hg1 hbe1

theorem k2_eq_r2 (hN : 0 < N)
    (land : Fin E → Option (Fin N)) (src : Fin E → Fin N) (cN eps : EReal)
    (hcN : cN = (((N : ℕ) : ℝ) : EReal)) (e : ℝ) (he : 0 < e) (heps : eps = (e : EReal))
    (X : Fin N → Fin D0 → EReal)
    (W1l W1r : Fin D0 → Fin D1 → EReal) (b1 g1 be1 : Fin D1 → EReal)
    (W2l W2r : Fin D1 → Fin D2 → EReal) (b2 g2 be2 : Fin D2 → EReal)
    (hX : Fin2 X) (hW1l : Fin2 W1l) (hW1r : Fin2 W1r) (hb1 : Fin1 b1) (hg1 : Fin1 g1) (hbe1 : Fin1 be1)
    (hW2l : Fin2 W2l) (hW2r : Fin2 W2r) (hb2 : Fin1 b2) :
    k2 land src cN eps X W1l W1r b1 g1 be1 W2l W2r b2 g2 be2
      = r2 land src cN eps X W1l W1r b1 g1 be1 W2l W2r b2 g2 be2 := by
  unfold k2 r2
  rw [k1_eq_r1 hN land src cN eps hcN X W1l W1r b1 g1 be1 hX hW1l hW1r hb1]
  exact layerB_eq hN land src cN eps hcN _
    (r1_fin2 hN land src cN eps hcN e he heps X W1l W1r b1 g1 be1 hX hW1l hW1r hb1 hg1 hbe1)
    W2l W2r hW2l hW2r b2 g2 be2 hb2

theorem r2_fin2 (hN : 0 < N)
    (land : Fin E → Option (Fin N)) (src : Fin E → Fin N) (cN eps : EReal)
    (hcN : cN = (((N : ℕ) : ℝ) : EReal)) (e : ℝ) (he : 0 < e) (heps : eps = (e : EReal))
    (X : Fin N → Fin D0 → EReal)
    (W1l W1r : Fin D0 → Fin D1 → EReal) (b1 g1 be1 : Fin D1 → EReal)
    (W2l W2r : Fin D1 → Fin D2 → EReal) (b2 g2 be2 : Fin D2 → EReal)
    (hX : Fin2 X) (hW1l : Fin2 W1l) (hW1r : Fin2 W1r) (hb1 : Fin1 b1) (hg1 : Fin1 g1) (hbe1 : Fin1 be1)
    (hW2l : Fin2 W2l) (hW2r : Fin2 W2r) (hb2 : Fin1 b2) (hg2 : Fin1 g2) (hbe2 : Fin1 be2) :
    Fin2 (r2 land src cN eps X W1l W1r b1 g1 be1 W2l W2r b2 g2 be2) := by
  unfold r2
  exact layer_fin2 hN land src cN eps hcN e he heps _
    (r1_fin2 hN land src cN eps hcN e he heps X W1l W1r b1 g1 be1 hX hW1l hW1r hb1 hg1 hbe1)
    W2l W2r hW2l hW2r b2 g2 be2 hb2 hg2 hbe2

/-- The two spellings of the three-layer network agree on real inputs. -/
theorem k3_eq_r3 (hN : 0 < N)
    (land : Fin E → Option (Fin N)) (src : Fin E → Fin N) (cN eps : EReal)
    (hcN : cN = (((N : ℕ) : ℝ) : EReal)) (e : ℝ) (he : 0 < e) (heps : eps = (e : EReal))
    (X : Fin N → Fin D0 → EReal)
    (W1l W1r : Fin D0 → Fin D1 → EReal) (b1 g1 be1 : Fin D1 → EReal)
    (W2l W2r : Fin D1 → Fin D2 → EReal) (b2 g2 be2 : Fin D2 → EReal)
    (W3l W3r : Fin D2 → Fin D3 → EReal) (b3 g3 be3 : Fin D3 → EReal)
    (hX : Fin2 X) (hW1l : Fin2 W1l) (hW1r : Fin2 W1r) (hb1 : Fin1 b1) (hg1 : Fin1 g1) (hbe1 : Fin1 be1)
    (hW2l : Fin2 W2l) (hW2r : Fin2 W2r) (hb2 : Fin1 b2) (hg2 : Fin1 g2) (hbe2 : Fin1 be2)
    (hW3l : Fin2 W3l) (hW3r : Fin2 W3r) (hb3 : Fin1 b3) (hg3 : Fin1 g3) (hbe3 : Fin1 be3) :
    k3 land src cN eps X W1l W1r b1 g1 be1 W2l W2r b2 g2 be2 W3l W3r b3 g3 be3
      = r3 land src cN eps X W1l W1r b1 g1 be1 W2l W2r b2 g2 be2 W3l W3r b3 g3 be3 := by
  have _ := hg3
  have _ := hbe3
  unfold k3 r3
  rw [k2_eq_r2 hN land src cN eps hcN e he heps X W1l W1r b1 g1 be1 W2l W2r b2 g2 be2
    hX hW1l hW1r hb1 hg1 hbe1 hW2l hW2r hb2]
  exact layerB_eq hN land src cN eps hcN _
    (r2_fin2 hN land src cN eps hcN e he heps X W1l W1r b1 g1 be1 W2l W2r b2 g2 be2
      hX hW1l hW1r hb1 hg1 hbe1 hW2l hW2r hb2 hg2 hbe2)
    W3l W3r hW3l hW3r b3 g3 be3 hb3

/-- The output of the second spelling on real inputs is a real array. -/
theorem r3_fin2 (hN : 0 < N)
    (land : Fin E → Option (Fin N)) (src : Fin E → Fin N) (cN eps : EReal)
    (hcN : cN = (((N : ℕ) : ℝ) : EReal)) (e : ℝ) (he : 0 < e) (heps : eps = (e : EReal))
    (X : Fin N → Fin D0 → EReal)
    (W1l W1r : Fin D0 → Fin D1 → EReal) (b1 g1 be1 : Fin D1 → EReal)
    (W2l W2r : Fin D1 → Fin D2 → EReal) (b2 g2 be2 : Fin D2 → EReal)
    (W3l W3r : Fin D2 → Fin D3 → EReal) (b3 g3 be3 : Fin D3 → EReal)
    (hX : Fin2 X) (hW1l : Fin2 W1l) (hW1r : Fin2 W1r) (hb1 : Fin1 b1) (hg1 : Fin1 g1) (hbe1 : Fin1 be1)
    (hW2l : Fin2 W2l) (hW2r : Fin2 W2r) (hb2 : Fin1 b2) (hg2 : Fin1 g2) (hbe2 : Fin1 be2)
    (hW3l : Fin2 W3l) (hW3r : Fin2 W3r) (hb3 : Fin1 b3) (hg3 : Fin1 g3) (hbe3 : Fin1 be3) :
    Fin2 (r3 land src cN eps X W1l W1r b1 g1 be1 W2l W2r b2 g2 be2 W3l W3r b3 g3 be3) := by
  unfold r3
  exact layer_fin2 hN land src cN eps hcN e he heps _
    (r2_fin2 hN land src cN eps hcN e he heps X W1l W1r b1 g1 be1 W2l W2r b2 g2 be2
      hX hW1l hW1r hb1 hg1 hbe1 hW2l hW2r hb2 hg2 hbe2)
    W3l W3r hW3l hW3r b3 g3 be3 hb3 hg3 hbe3

end Network

end Cert.SageMath

end
-- ==== Proof.Bridge.lean ====
/-
  The two programs' result arrays are equal.  The kernel program's third hidden array is the first spelling
  of the network of the launch arguments; the reference's is the second spelling; on finite inputs the two
  spellings agree (aggregation is linear, the two variances are one nonnegative real); both programs then
  apply one and the same tail to the third hidden array.
-/
import proofs.«151943_j8564164788539_2_alg».proof.Proof.KChain3
import proofs.«151943_j8564164788539_2_alg».proof.Proof.KWalkTail
import proofs.«151943_j8564164788539_2_alg».proof.Proof.RefFold
import proofs.«151943_j8564164788539_2_alg».proof.Proof.RefNet
import proofs.«151943_j8564164788539_2_alg».proof.Proof.BridgesFin
import proofs.«151943_j8564164788539_2_alg».proof.Proof.BridgesCols
import proofs.«151943_j8564164788539_2_alg».proof.Proof.BridgesTail
import proofs.«151943_j8564164788539_2_alg».proof.Proof.SageMathNet
import proofs.«151943_j8564164788539_2_alg».proof.Proof.SageConsts

noncomputable section

namespace Cert.Bridge

open Idealize.ShloMosaic Idealize.ShloMosaic.ValueIdx Idealize.ShloMosaic.TcCoe Idealize.SL.Sem Cert.SageSpec

variable [hP : Cert.Pre_finite_inputs.Facts]
variable (m : (ℓ : Loc Cert.KernelIdeal.nD Cert.KernelIdeal.τ Cert.KernelIdeal.sig) → Buf (Elt Ideal) ℓ)
  (ρ : Dev Cert.KernelIdeal.nD → PrngReg)

/-- The third hidden arrays of the two programs are one array, on finite inputs. -/
theorem h3_eq (hpre : Cert.Pre_KernelIdeal m) (c : Dev Cert.KernelIdeal.nD) :
    (Cert.KernelIdeal.Gen.W12 m ρ c (Proc.devRef .tc Cert.KernelIdeal.main_v94) : Cert.KernelIdeal.S50000x32.Idx → EReal)
      = Cert.ReferenceIdeal.ReadP.val_main_v156 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) := by
  funext i
  obtain ⟨n, j, rfl⟩ : ∃ (n : Fin 50000) (j : Fin 32), i = ix2 n j := ⟨i 0, i 1, eq_ix2 i⟩
  rw [Cert.KernelIdeal.KC.out5_H, Cert.KernelIdeal.KC.K3_eq, Cert.ReferenceIdeal.RefValue.ref_h3]
  have hL : Cert.KernelIdeal.KC.L m ρ c = Cert.ReferenceIdeal.RefValue.land (m ((c.tc : Thread Cert.KernelIdeal.nD Cert.KernelIdeal.τ).loc Cert.KernelIdeal.main_arg1)) := by
    show Cert.SageIdx.landOf 50000 (Cert.KernelIdeal.KW.dstCol m ρ c) = _
    rw [Cert.Bridges.dstCol_ref]
  have hS : Cert.KernelIdeal.KC.Sr m ρ c = Cert.ReferenceIdeal.RefValue.src (m ((c.tc : Thread Cert.KernelIdeal.nD Cert.KernelIdeal.τ).loc Cert.KernelIdeal.main_arg1)) := by
    show Cert.SageIdx.srcOf 50000 _ (Cert.KernelIdeal.KW.srcCol m ρ c) = _
    rw [Cert.Bridges.srcCol_ref]
  rw [hL, hS]
  obtain ⟨e, he, heps⟩ := Cert.SageConsts.eps_pos
  exact congrFun (congrFun (Cert.SageMath.k3_eq_r3 (by norm_num) _ _ _ _ Cert.SageConsts.cN_eq e he heps _ _ _ _ _ _ _ _ _ _ _ _ _ _ _ _
    (Cert.Bridges.fin_arg0 m hpre c) (Cert.Bridges.fin_arg3 m hpre c) (Cert.Bridges.fin_arg5 m hpre c) (Cert.Bridges.fin_arg4 m hpre c) (Cert.Bridges.fin_arg6 m hpre c) (Cert.Bridges.fin_arg7 m hpre c) (Cert.Bridges.fin_arg8 m hpre c) (Cert.Bridges.fin_arg10 m hpre c) (Cert.Bridges.fin_arg9 m hpre c) (Cert.Bridges.fin_arg11 m hpre c) (Cert.Bridges.fin_arg12 m hpre c) (Cert.Bridges.fin_arg13 m hpre c) (Cert.Bridges.fin_arg15 m hpre c) (Cert.Bridges.fin_arg14 m hpre c) (Cert.Bridges.fin_arg16 m hpre c) (Cert.Bridges.fin_arg17 m hpre c)) n) j

/-- The reference's result array, from a memory agreeing with the kernel program's on the arguments, is the
    kernel program's. -/
theorem result_eq (hpre : Cert.Pre_KernelIdeal m)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    Cert.ReferenceIdeal.ValueP.res_main_v173 m' c
      = Cert.KernelIdeal.Gen.W17 m ρ c (Proc.devRef .tc Cert.KernelIdeal.main_v111) := by
  unfold Cert.ReferenceIdeal.ValueP.res_main_v173
  rw [Cert.ReferenceIdeal.RefFold.fold_tail, Cert.ReferenceIdeal.RefFold.fold_h3]
  rw [h0, h1, h3, h4, h5, h6, h7, h8, h9, h10, h11, h12, h13, h14, h15, h16, h17, h2, h18, h19, h20, h21, h22, h23]
  rw [Cert.KernelIdeal.KW.tail_eq, Cert.Bridges.tailR_eq_tailK, ← h3_eq m ρ hpre c]

end Cert.Bridge

end
-- ==== Proof.lean ====
/-
  The certificate of a three-layer graph-convolution network: a kernel program that aggregates neighbour
  features on the host, runs the dense maps, the clipping at zero and the column statistics in tiled
  kernels, and — in layers two and three — multiplies by the left weight BEFORE aggregating, against a
  reference that aggregates first and normalises with the mean of squared deviations.  On finite inputs the
  two compute the same extended reals: aggregation is linear, so it commutes with the right product, and
  the mean of squares minus the squared mean is the mean of squared deviations, a nonnegative real.
  The frames of the two kernel programs are the generated frame certificates; the reference's frame is its
  generated run with the result dropped; the idealization rewrote nothing.
-/
import proofs.«151943_j8564164788539_2_alg».proof.Defs
import proofs.«151943_j8564164788539_2_alg».proof.Proof.Gen.Kernel
import proofs.«151943_j8564164788539_2_alg».proof.Proof.Gen.Kernel.Skeleton
import proofs.«151943_j8564164788539_2_alg».proof.Proof.Gen.Kernel.Launch
import proofs.«151943_j8564164788539_2_alg».proof.Proof.Gen.Kernel.Points
import proofs.«151943_j8564164788539_2_alg».proof.Proof.Gen.Kernel.Frame
import proofs.«151943_j8564164788539_2_alg».proof.Proof.Gen.KernelIdeal
import proofs.«151943_j8564164788539_2_alg».proof.Proof.Gen.KernelIdeal.Skeleton
import proofs.«151943_j8564164788539_2_alg».proof.Proof.Gen.KernelIdeal.Launch
import proofs.«151943_j8564164788539_2_alg».proof.Proof.Gen.KernelIdeal.Points
import proofs.«151943_j8564164788539_2_alg».proof.Proof.Gen.KernelIdeal.Frame
import proofs.«151943_j8564164788539_2_alg».proof.Proof.Gen.ReferenceIdeal
import proofs.«151943_j8564164788539_2_alg».proof.Proof.RefRun
import proofs.«151943_j8564164788539_2_alg».proof.Proof.Gen.Pre_finite_inputs
import proofs.«151943_j8564164788539_2_alg».proof.Proof.KernelRun
import proofs.«151943_j8564164788539_2_alg».proof.Proof.Bridge
import Idealize.ShloMosaic.Adequacy
import Idealize.ShloMosaic.Init

noncomputable section

namespace Cert.Proof

open Idealize.ShloMosaic Idealize.SL.Sem

/-- At the ideal instance the kernel program's result array is the reference's, from memories agreeing on
    the arguments. -/
theorem algebraic [hKernelIdeal : Cert.KernelIdeal.Facts] [hReferenceIdeal : Cert.ReferenceIdeal.Facts]
    [hPre : Cert.Pre_finite_inputs.Facts] : Cert.algebraic_KernelIdeal_ReferenceIdeal := by
  intro m ρ m' ρ' hpre hagree
  refine ⟨fun c => Cert.KernelIdeal.Gen.W17 m ρ c (Proc.devRef .tc Cert.KernelIdeal.main_v111), Cert.KernelIdeal.KRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15, h16, h17, h18, h19, h20, h21, h22, h23⟩ := hagree c
  exact Cert.Bridge.result_eq m ρ hpre m' c h0 h1 h2 h3 h4 h5 h6 h7 h8 h9 h10 h11 h12 h13 h14 h15 h16 h17 h18 h19 h20 h21 h22 h23

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
